-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x49152x64 : Shape := ⟨4, ![1, 8, 49152, 64]⟩
abbrev S_ : Shape := ⟨0, ![]⟩

class Facts : Prop where
  bcast_S_S1x8x49152x64 : S_.BroadcastsInDim S1x8x49152x64 (![] : Fin 0 → Fin S1x8x49152x64.rank)
  reducesTo_S1x8x49152x64_S_d0_1_2_3 : S1x8x49152x64.ReducesTo [0, 1, 2, 3] S_
  h_S_ : 0 < S_.numel

variable [Facts]

def fn {F : FTy → Type} [FloatOps F] (main_arg0 : FVec F S1x8x49152x64 .f32) (main_arg1 : FVec F S1x8x49152x64 .f32) (main_arg2 : FVec F S1x8x49152x64 .f32) : IVec S_ 1 :=
  let main_v0 : FVec F S1x8x49152x64 .f32 := Host.absf main_arg0
  let main_cst : FVec F S_ .f32 := constant S_ .f32 0x7F800000#32
  let main_v1 : FVec F S1x8x49152x64 .f32 := broadcastInDim S1x8x49152x64 ![] bcast_S_S1x8x49152x64 main_cst
  let main_v2 : IVec S1x8x49152x64 1 := cmpf .olt main_v0 main_v1
  let main_c : IVec S_ 1 := constantI S_ 1 1#1
  let main_v3 : IVec S_ 1 := (fun x v => Host.reduce IntOp.andi x v reducesTo_S1x8x49152x64_S_d0_1_2_3 h_S_) main_v2 main_c
  let main_v4 : FVec F S1x8x49152x64 .f32 := Host.absf main_arg1
  let main_cst_0 : FVec F S_ .f32 := constant S_ .f32 0x7F800000#32
  let main_v5 : FVec F S1x8x49152x64 .f32 := broadcastInDim S1x8x49152x64 ![] bcast_S_S1x8x49152x64 main_cst_0
  let main_v6 : IVec S1x8x49152x64 1 := cmpf .olt main_v4 main_v5
  let main_c_1 : IVec S_ 1 := constantI S_ 1 1#1
  let main_v7 : IVec S_ 1 := (fun x v => Host.reduce IntOp.andi x v reducesTo_S1x8x49152x64_S_d0_1_2_3 h_S_) main_v6 main_c_1
  let main_v8 : IVec S_ 1 := andi main_v3 main_v7
  let main_v9 : FVec F S1x8x49152x64 .f32 := Host.absf main_arg2
  let main_cst_2 : FVec F S_ .f32 := constant S_ .f32 0x7F800000#32
  let main_v10 : FVec F S1x8x49152x64 .f32 := broadcastInDim S1x8x49152x64 ![] bcast_S_S1x8x49152x64 main_cst_2
  let main_v11 : IVec S1x8x49152x64 1 := cmpf .olt main_v9 main_v10
  let main_c_3 : IVec S_ 1 := constantI S_ 1 1#1
  let main_v12 : IVec S_ 1 := (fun x v => Host.reduce IntOp.andi x v reducesTo_S1x8x49152x64_S_d0_1_2_3 h_S_) main_v11 main_c_3
  let main_v13 : IVec S_ 1 := andi main_v8 main_v12
  main_v13
-- ==== Kernel.lean ====
abbrev S1x8x49152x64 : Shape := ⟨4, ![1, 8, 49152, 64]⟩
abbrev S256x512x64 : Shape := ⟨3, ![256, 512, 64]⟩
abbrev S1x1x512x64 : Shape := ⟨4, ![1, 1, 512, 64]⟩
abbrev S1x512x64 : Shape := ⟨3, ![1, 512, 64]⟩
abbrev S512x64 : Shape := ⟨2, ![512, 64]⟩
abbrev S512x1 : Shape := ⟨2, ![512, 1]⟩
abbrev S64x512 : Shape := ⟨2, ![64, 512]⟩
abbrev S512x512 : Shape := ⟨2, ![512, 512]⟩
abbrev S512 : Shape := ⟨1, ![512]⟩
abbrev S8x16384x64 : Shape := ⟨3, ![8, 16384, 64]⟩
abbrev S1x8x16384x64 : Shape := ⟨4, ![1, 8, 16384, 64]⟩
abbrev S128x1024x64 : Shape := ⟨3, ![128, 1024, 64]⟩
abbrev S1x1x1024x64 : Shape := ⟨4, ![1, 1, 1024, 64]⟩
abbrev S1x1024x64 : Shape := ⟨3, ![1, 1024, 64]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩
abbrev S64x2048x64 : Shape := ⟨3, ![64, 2048, 64]⟩
abbrev S1x1x2048x64 : Shape := ⟨4, ![1, 1, 2048, 64]⟩
abbrev S1x2048x64 : Shape := ⟨3, ![1, 2048, 64]⟩
abbrev S2048x64 : Shape := ⟨2, ![2048, 64]⟩
abbrev S2048x1 : Shape := ⟨2, ![2048, 1]⟩
abbrev S2048x1024 : Shape := ⟨2, ![2048, 1024]⟩
abbrev S2048 : Shape := ⟨1, ![2048]⟩

abbrev nBuf : Space → Nat
  | .hbm => 13
  | .vmem => 36
  | .smem => 0
  | _ => 0

abbrev bufTy : (tb : Table) → Fin (tcTables nBuf tb) → BufTy
  | .hbm, ⟨0, _⟩ => ⟨S1x8x49152x64, .f32⟩
  | .hbm, ⟨1, _⟩ => ⟨S1x8x49152x64, .f32⟩
  | .hbm, ⟨2, _⟩ => ⟨S1x8x49152x64, .f32⟩
  | .hbm, ⟨3, _⟩ => ⟨S256x512x64, .f32⟩
  | .hbm, ⟨4, _⟩ => ⟨S8x16384x64, .f32⟩
  | .hbm, ⟨5, _⟩ => ⟨S1x8x16384x64, .f32⟩
  | .hbm, ⟨6, _⟩ => ⟨S128x1024x64, .f32⟩
  | .hbm, ⟨7, _⟩ => ⟨S8x16384x64, .f32⟩
  | .hbm, ⟨8, _⟩ => ⟨S1x8x16384x64, .f32⟩
  | .hbm, ⟨9, _⟩ => ⟨S64x2048x64, .f32⟩
  | .hbm, ⟨10, _⟩ => ⟨S8x16384x64, .f32⟩
  | .hbm, ⟨11, _⟩ => ⟨S1x8x16384x64, .f32⟩
  | .hbm, ⟨12, _⟩ => ⟨S1x8x49152x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x512x64, .f32⟩
  | .local _ .vmem, ⟨3, _⟩ => ⟨S1x1x512x64, .f32⟩
  | .local _ .vmem, ⟨4, _⟩ => ⟨S1x1x512x64, .f32⟩
  | .local _ .vmem, ⟨5, _⟩ => ⟨S1x1x512x64, .f32⟩
  | .local _ .vmem, ⟨6, _⟩ => ⟨S1x512x64, .f32⟩
  | .local _ .vmem, ⟨7, _⟩ => ⟨S1x512x64, .f32⟩
  | .local _ .vmem, ⟨8, _⟩ => ⟨S512x64, .bf16⟩
  | .local _ .vmem, ⟨9, _⟩ => ⟨S512x1, .f32⟩
  | .local _ .vmem, ⟨10, _⟩ => ⟨S512x1, .f32⟩
  | .local _ .vmem, ⟨11, _⟩ => ⟨S512x64, .f32⟩
  | .local _ .vmem, ⟨12, _⟩ => ⟨S1x1x1024x64, .f32⟩
  | .local _ .vmem, ⟨13, _⟩ => ⟨S1x1x1024x64, .f32⟩
  | .local _ .vmem, ⟨14, _⟩ => ⟨S1x1x1024x64, .f32⟩
  | .local _ .vmem, ⟨15, _⟩ => ⟨S1x1x1024x64, .f32⟩
  | .local _ .vmem, ⟨16, _⟩ => ⟨S1x1x1024x64, .f32⟩
  | .local _ .vmem, ⟨17, _⟩ => ⟨S1x1x1024x64, .f32⟩
  | .local _ .vmem, ⟨18, _⟩ => ⟨S1x1024x64, .f32⟩
  | .local _ .vmem, ⟨19, _⟩ => ⟨S1x1024x64, .f32⟩
  | .local _ .vmem, ⟨20, _⟩ => ⟨S1024x64, .bf16⟩
  | .local _ .vmem, ⟨21, _⟩ => ⟨S1024x1, .f32⟩
  | .local _ .vmem, ⟨22, _⟩ => ⟨S1024x1, .f32⟩
  | .local _ .vmem, ⟨23, _⟩ => ⟨S1024x64, .f32⟩
  | .local _ .vmem, ⟨24, _⟩ => ⟨S1x1x2048x64, .f32⟩
  | .local _ .vmem, ⟨25, _⟩ => ⟨S1x1x2048x64, .f32⟩
  | .local _ .vmem, ⟨26, _⟩ => ⟨S1x1x1024x64, .f32⟩
  | .local _ .vmem, ⟨27, _⟩ => ⟨S1x1x1024x64, .f32⟩
  | .local _ .vmem, ⟨28, _⟩ => ⟨S1x1x1024x64, .f32⟩
  | .local _ .vmem, ⟨29, _⟩ => ⟨S1x1x1024x64, .f32⟩
  | .local _ .vmem, ⟨30, _⟩ => ⟨S1x2048x64, .f32⟩
  | .local _ .vmem, ⟨31, _⟩ => ⟨S1x2048x64, .f32⟩
  | .local _ .vmem, ⟨32, _⟩ => ⟨S2048x64, .bf16⟩
  | .local _ .vmem, ⟨33, _⟩ => ⟨S2048x1, .f32⟩
  | .local _ .vmem, ⟨34, _⟩ => ⟨S2048x1, .f32⟩
  | .local _ .vmem, ⟨35, _⟩ => ⟨S2048x64, .f32⟩
  | _, _ => ⟨S1x8x49152x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_scratch0 : Ref sig .tc := ⟨.vmem, 32, rfl⟩
abbrev cc2_scratch1 : Ref sig .tc := ⟨.vmem, 33, rfl⟩
abbrev cc2_scratch2 : Ref sig .tc := ⟨.vmem, 34, rfl⟩
abbrev cc2_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![256, 1], ![false, false]⟩

def k0_cond2 (i : grid0.Coords) : BitVec 1 :=
  let arg1 : BitVec 32 := BitVec.ofNat 32 (i 1).val
  let c0_i32_25 : BitVec 32 := 0#32
  let v41 : BitVec 1 := Scalar.cmpi .eq arg1 c0_i32_25
  let v42 : BitVec 32 := Scalar.extui v41
  let c0_i32_26 : BitVec 32 := 0#32
  let v43 : BitVec 1 := Scalar.cmpi .ne v42 c0_i32_26
  v43

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  let c0_i32_12 : BitVec 32 := 0#32
  let c0_i32_13 : BitVec 32 := 0#32
  ![c0_i32_11.toNat, v16.toNat, v27.toNat, c0_i32_12.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.muli v26 c1_i32_10
  let c0_i32_11 : BitVec 32 := 0#32
  let v28 : BitVec 32 := Scalar.addi c0_i32_11 v27
  let v29 : BitVec 32 := Scalar.addi v28 arg1
  let c0_i32_12 : BitVec 32 := 0#32
  let c0_i32_13 : BitVec 32 := 0#32
  let c0_i32_14 : BitVec 32 := 0#32
  ![c0_i32_12.toNat, v16.toNat, v29.toNat, c0_i32_13.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.muli v26 c1_i32_10
  let c0_i32_11 : BitVec 32 := 0#32
  let v28 : BitVec 32 := Scalar.addi c0_i32_11 v27
  let v29 : BitVec 32 := Scalar.addi v28 arg1
  let c0_i32_12 : BitVec 32 := 0#32
  let c0_i32_13 : BitVec 32 := 0#32
  let c0_i32_14 : BitVec 32 := 0#32
  ![c0_i32_12.toNat, v16.toNat, v29.toNat, c0_i32_13.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![128, 1], ![false, false]⟩

def k1_cond2 (i : grid1.Coords) : BitVec 1 :=
  let arg1 : BitVec 32 := BitVec.ofNat 32 (i 1).val
  let c0_i32_25 : BitVec 32 := 0#32
  let v41 : BitVec 1 := Scalar.cmpi .eq arg1 c0_i32_25
  let v42 : BitVec 32 := Scalar.extui v41
  let c0_i32_26 : BitVec 32 := 0#32
  let v43 : BitVec 1 := Scalar.cmpi .ne v42 c0_i32_26
  v43

def cc1_transform_0 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32_10 : BitVec 32 := 16#32
  let v27 : BitVec 32 := Scalar.addi c16_i32_10 v26
  let c0_i32_11 : BitVec 32 := 0#32
  let c0_i32_12 : BitVec 32 := 0#32
  let c0_i32_13 : BitVec 32 := 0#32
  ![c0_i32_11.toNat, v16.toNat, v27.toNat, c0_i32_12.toNat]

def cc1_transform_1 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.muli v26 c1_i32_10
  let c16_i32_11 : BitVec 32 := 16#32
  let v28 : BitVec 32 := Scalar.addi c16_i32_11 v27
  let v29 : BitVec 32 := Scalar.addi v28 arg1
  let c0_i32_12 : BitVec 32 := 0#32
  let c0_i32_13 : BitVec 32 := 0#32
  let c0_i32_14 : BitVec 32 := 0#32
  ![c0_i32_12.toNat, v16.toNat, v29.toNat, c0_i32_13.toNat]

def cc1_transform_2 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.muli v26 c1_i32_10
  let c16_i32_11 : BitVec 32 := 16#32
  let v28 : BitVec 32 := Scalar.addi c16_i32_11 v27
  let v29 : BitVec 32 := Scalar.addi v28 arg1
  let c0_i32_12 : BitVec 32 := 0#32
  let c0_i32_13 : BitVec 32 := 0#32
  let c0_i32_14 : BitVec 32 := 0#32
  ![c0_i32_12.toNat, v16.toNat, v29.toNat, c0_i32_13.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![64, 2], ![false, false]⟩

def k2_cond2 (i : grid2.Coords) : BitVec 1 :=
  let arg1 : BitVec 32 := BitVec.ofNat 32 (i 1).val
  let c1_i32 : BitVec 32 := 1#32
  let v41 : BitVec 1 := Scalar.cmpi .eq arg1 c1_i32
  let v42 : BitVec 32 := Scalar.extui v41
  let c0_i32_25 : BitVec 32 := 0#32
  let v43 : BitVec 1 := Scalar.cmpi .ne v42 c0_i32_25
  v43

def cc2_transform_0 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32 : BitVec 32 := 16#32
  let v27 : BitVec 32 := Scalar.addi c16_i32 v26
  let c0_i32_10 : BitVec 32 := 0#32
  let c0_i32_11 : BitVec 32 := 0#32
  let c0_i32_12 : BitVec 32 := 0#32
  ![c0_i32_10.toNat, v16.toNat, v27.toNat, c0_i32_11.toNat]

def cc2_transform_1 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.muli v26 c2_i32
  let c32_i32 : BitVec 32 := 32#32
  let v28 : BitVec 32 := Scalar.addi c32_i32 v27
  let v29 : BitVec 32 := Scalar.addi v28 arg1
  let c0_i32_10 : BitVec 32 := 0#32
  let c0_i32_11 : BitVec 32 := 0#32
  let c0_i32_12 : BitVec 32 := 0#32
  ![c0_i32_10.toNat, v16.toNat, v29.toNat, c0_i32_11.toNat]

def cc2_transform_2 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.muli v26 c2_i32
  let c32_i32 : BitVec 32 := 32#32
  let v28 : BitVec 32 := Scalar.addi c32_i32 v27
  let v29 : BitVec 32 := Scalar.addi v28 arg1
  let c0_i32_10 : BitVec 32 := 0#32
  let c0_i32_11 : BitVec 32 := 0#32
  let c0_i32_12 : BitVec 32 := 0#32
  ![c0_i32_10.toNat, v16.toNat, v29.toNat, c0_i32_11.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1x1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  packedbf16_S512x64_S512x64_0_0 : (Rect.unit (s := S512x64) ![0, 0] S512x64.size inb_S512x64_S512x64_0_0).PackedRows (EltTy.packing .bf16)
  transposes_S512x64_p1_0_S64x512 : S512x64.Transposes [1, 0] S64x512
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  shapeCasts_S256x512x64_S8x16384x64 : S256x512x64.ShapeCasts S8x16384x64
  bcast_S8x16384x64_S1x8x16384x64_1_2_3 : S8x16384x64.BroadcastsInDim S1x8x16384x64 (![1, 2, 3] : Fin 3 → Fin S1x8x16384x64.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  packedbf16_S1024x64_S1024x64_0_0 : (Rect.unit (s := S1024x64) ![0, 0] S1024x64.size inb_S1024x64_S1024x64_0_0).PackedRows (EltTy.packing .bf16)
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  shapeCasts_S128x1024x64_S8x16384x64 : S128x1024x64.ShapeCasts S8x16384x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  packedbf16_S2048x64_S2048x64_0_0 : (Rect.unit (s := S2048x64) ![0, 0] S2048x64.size inb_S2048x64_S2048x64_0_0).PackedRows (EltTy.packing .bf16)
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x64 : S2048x1.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  shapeCasts_S64x2048x64_S8x16384x64 : S64x2048x64.ShapeCasts S8x16384x64
  concatenates_S1x8x16384x64_S1x8x16384x64_S1x8x16384x64_S1x8x49152x64_d2 : Shape.Concatenates [S1x8x16384x64, S1x8x16384x64, S1x8x16384x64] S1x8x49152x64 2
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S2048x64_S64x1024_S2048x1024_1_0_0_1_n_n_wf : DotDims.WF S2048x64 S64x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S1x8x49152x64.size a
  hwx0_0 : ∀ i : grid0.Coords, EltTy.bits .f32 = 32 ∨ (Rect.block (s := S1x8x49152x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x64.size a ≤ S1x8x49152x64.size a
  hwx0_1 : ∀ i : grid0.Coords, EltTy.bits .f32 = 32 ∨ (Rect.block (s := S1x8x49152x64) S1x1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x64.size a ≤ S1x8x49152x64.size a
  hwx0_2 : ∀ i : grid0.Coords, EltTy.bits .f32 = 32 ∨ (Rect.block (s := S1x8x49152x64) S1x1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S256x512x64.size a
  hwx0_3 : ∀ i : grid0.Coords, EltTy.bits .f32 = 32 ∨ (Rect.block (s := S256x512x64) S1x512x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S1x8x49152x64.size a
  hwx1_0 : ∀ i : grid1.Coords, EltTy.bits .f32 = 32 ∨ (Rect.block (s := S1x8x49152x64) S1x1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S1x8x49152x64.size a
  hwx1_1 : ∀ i : grid1.Coords, EltTy.bits .f32 = 32 ∨ (Rect.block (s := S1x8x49152x64) S1x1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S1x8x49152x64.size a
  hwx1_2 : ∀ i : grid1.Coords, EltTy.bits .f32 = 32 ∨ (Rect.block (s := S1x8x49152x64) S1x1x1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S128x1024x64.size a
  hwx1_3 : ∀ i : grid1.Coords, EltTy.bits .f32 = 32 ∨ (Rect.block (s := S128x1024x64) S1x1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x2048x64.size a ≤ S1x8x49152x64.size a
  hwx2_0 : ∀ i : grid2.Coords, EltTy.bits .f32 = 32 ∨ (Rect.block (s := S1x8x49152x64) S1x1x2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x1024x64.size a ≤ S1x8x49152x64.size a
  hwx2_1 : ∀ i : grid2.Coords, EltTy.bits .f32 = 32 ∨ (Rect.block (s := S1x8x49152x64) S1x1x1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024x64.size a ≤ S1x8x49152x64.size a
  hwx2_2 : ∀ i : grid2.Coords, EltTy.bits .f32 = 32 ∨ (Rect.block (s := S1x8x49152x64) S1x1x1024x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x64.size a ≤ S64x2048x64.size a
  hwx2_3 : ∀ i : grid2.Coords, EltTy.bits .f32 = 32 ∨ (Rect.block (s := S64x2048x64) S1x2048x64.size (cc2_transform_3 i) (hinb2_3 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S1x1x2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1x1x1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S1x8x49152x64 : Shape := ⟨4, ![1, 8, 49152, 64]⟩
abbrev S1x8x16384x64 : Shape := ⟨4, ![1, 8, 16384, 64]⟩
abbrev S8x16384x64 : Shape := ⟨3, ![8, 16384, 64]⟩
abbrev S8x32x512x64 : Shape := ⟨4, ![8, 32, 512, 64]⟩
abbrev S32x8x512x64 : Shape := ⟨4, ![32, 8, 512, 64]⟩
abbrev S_ : Shape := ⟨0, ![]⟩
abbrev S32x8x512x512 : Shape := ⟨4, ![32, 8, 512, 512]⟩
abbrev S32x8x512 : Shape := ⟨3, ![32, 8, 512]⟩
abbrev S32x8x512x1 : Shape := ⟨4, ![32, 8, 512, 1]⟩
abbrev S8x16x1024x64 : Shape := ⟨4, ![8, 16, 1024, 64]⟩
abbrev S16x8x1024x64 : Shape := ⟨4, ![16, 8, 1024, 64]⟩
abbrev S16x8x1024x1024 : Shape := ⟨4, ![16, 8, 1024, 1024]⟩
abbrev S16x8x1024 : Shape := ⟨3, ![16, 8, 1024]⟩
abbrev S16x8x1024x1 : Shape := ⟨4, ![16, 8, 1024, 1]⟩
abbrev S8x8x2048x64 : Shape := ⟨4, ![8, 8, 2048, 64]⟩
abbrev S8x8x2048x2048 : Shape := ⟨4, ![8, 8, 2048, 2048]⟩
abbrev S8x8x2048 : Shape := ⟨3, ![8, 8, 2048]⟩
abbrev S8x8x2048x1 : Shape := ⟨4, ![8, 8, 2048, 1]⟩

abbrev nBuf : Space → Nat
  | .hbm => 103
  | .vmem => 0
  | .smem => 0
  | _ => 0

abbrev bufTy : (tb : Table) → Fin (tcTables nBuf tb) → BufTy
  | .hbm, ⟨0, _⟩ => ⟨S1x8x49152x64, .f32⟩
  | .hbm, ⟨1, _⟩ => ⟨S1x8x49152x64, .f32⟩
  | .hbm, ⟨2, _⟩ => ⟨S1x8x49152x64, .f32⟩
  | .hbm, ⟨3, _⟩ => ⟨S1x8x16384x64, .f32⟩
  | .hbm, ⟨4, _⟩ => ⟨S8x16384x64, .f32⟩
  | .hbm, ⟨5, _⟩ => ⟨S8x32x512x64, .f32⟩
  | .hbm, ⟨6, _⟩ => ⟨S32x8x512x64, .f32⟩
  | .hbm, ⟨7, _⟩ => ⟨S1x8x16384x64, .f32⟩
  | .hbm, ⟨8, _⟩ => ⟨S8x16384x64, .f32⟩
  | .hbm, ⟨9, _⟩ => ⟨S8x32x512x64, .f32⟩
  | .hbm, ⟨10, _⟩ => ⟨S32x8x512x64, .f32⟩
  | .hbm, ⟨11, _⟩ => ⟨S1x8x16384x64, .f32⟩
  | .hbm, ⟨12, _⟩ => ⟨S8x16384x64, .f32⟩
  | .hbm, ⟨13, _⟩ => ⟨S8x32x512x64, .f32⟩
  | .hbm, ⟨14, _⟩ => ⟨S32x8x512x64, .f32⟩
  | .hbm, ⟨15, _⟩ => ⟨S_, .f32⟩
  | .hbm, ⟨16, _⟩ => ⟨S32x8x512x64, .f32⟩
  | .hbm, ⟨17, _⟩ => ⟨S32x8x512x64, .f32⟩
  | .hbm, ⟨18, _⟩ => ⟨S32x8x512x512, .f32⟩
  | .hbm, ⟨19, _⟩ => ⟨S_, .f32⟩
  | .hbm, ⟨20, _⟩ => ⟨S32x8x512, .f32⟩
  | .hbm, ⟨21, _⟩ => ⟨S_, .f32⟩
  | .hbm, ⟨22, _⟩ => ⟨S32x8x512, .f32⟩
  | .hbm, ⟨23, _⟩ => ⟨S32x8x512, .f32⟩
  | .hbm, ⟨24, _⟩ => ⟨S32x8x512x1, .f32⟩
  | .hbm, ⟨25, _⟩ => ⟨S32x8x512x512, .f32⟩
  | .hbm, ⟨26, _⟩ => ⟨S32x8x512x512, .f32⟩
  | .hbm, ⟨27, _⟩ => ⟨S32x8x512x512, .f32⟩
  | .hbm, ⟨28, _⟩ => ⟨S_, .f32⟩
  | .hbm, ⟨29, _⟩ => ⟨S32x8x512, .f32⟩
  | .hbm, ⟨30, _⟩ => ⟨S32x8x512x1, .f32⟩
  | .hbm, ⟨31, _⟩ => ⟨S32x8x512x512, .f32⟩
  | .hbm, ⟨32, _⟩ => ⟨S32x8x512x512, .f32⟩
  | .hbm, ⟨33, _⟩ => ⟨S32x8x512x64, .f32⟩
  | .hbm, ⟨34, _⟩ => ⟨S8x32x512x64, .f32⟩
  | .hbm, ⟨35, _⟩ => ⟨S1x8x16384x64, .f32⟩
  | .hbm, ⟨36, _⟩ => ⟨S1x8x16384x64, .f32⟩
  | .hbm, ⟨37, _⟩ => ⟨S8x16384x64, .f32⟩
  | .hbm, ⟨38, _⟩ => ⟨S8x16x1024x64, .f32⟩
  | .hbm, ⟨39, _⟩ => ⟨S16x8x1024x64, .f32⟩
  | .hbm, ⟨40, _⟩ => ⟨S1x8x16384x64, .f32⟩
  | .hbm, ⟨41, _⟩ => ⟨S8x16384x64, .f32⟩
  | .hbm, ⟨42, _⟩ => ⟨S8x16x1024x64, .f32⟩
  | .hbm, ⟨43, _⟩ => ⟨S16x8x1024x64, .f32⟩
  | .hbm, ⟨44, _⟩ => ⟨S1x8x16384x64, .f32⟩
  | .hbm, ⟨45, _⟩ => ⟨S8x16384x64, .f32⟩
  | .hbm, ⟨46, _⟩ => ⟨S8x16x1024x64, .f32⟩
  | .hbm, ⟨47, _⟩ => ⟨S16x8x1024x64, .f32⟩
  | .hbm, ⟨48, _⟩ => ⟨S_, .f32⟩
  | .hbm, ⟨49, _⟩ => ⟨S16x8x1024x64, .f32⟩
  | .hbm, ⟨50, _⟩ => ⟨S16x8x1024x64, .f32⟩
  | .hbm, ⟨51, _⟩ => ⟨S16x8x1024x1024, .f32⟩
  | .hbm, ⟨52, _⟩ => ⟨S_, .f32⟩
  | .hbm, ⟨53, _⟩ => ⟨S16x8x1024, .f32⟩
  | .hbm, ⟨54, _⟩ => ⟨S_, .f32⟩
  | .hbm, ⟨55, _⟩ => ⟨S16x8x1024, .f32⟩
  | .hbm, ⟨56, _⟩ => ⟨S16x8x1024, .f32⟩
  | .hbm, ⟨57, _⟩ => ⟨S16x8x1024x1, .f32⟩
  | .hbm, ⟨58, _⟩ => ⟨S16x8x1024x1024, .f32⟩
  | .hbm, ⟨59, _⟩ => ⟨S16x8x1024x1024, .f32⟩
  | .hbm, ⟨60, _⟩ => ⟨S16x8x1024x1024, .f32⟩
  | .hbm, ⟨61, _⟩ => ⟨S_, .f32⟩
  | .hbm, ⟨62, _⟩ => ⟨S16x8x1024, .f32⟩
  | .hbm, ⟨63, _⟩ => ⟨S16x8x1024x1, .f32⟩
  | .hbm, ⟨64, _⟩ => ⟨S16x8x1024x1024, .f32⟩
  | .hbm, ⟨65, _⟩ => ⟨S16x8x1024x1024, .f32⟩
  | .hbm, ⟨66, _⟩ => ⟨S16x8x1024x64, .f32⟩
  | .hbm, ⟨67, _⟩ => ⟨S8x16x1024x64, .f32⟩
  | .hbm, ⟨68, _⟩ => ⟨S1x8x16384x64, .f32⟩
  | .hbm, ⟨69, _⟩ => ⟨S1x8x16384x64, .f32⟩
  | .hbm, ⟨70, _⟩ => ⟨S8x16384x64, .f32⟩
  | .hbm, ⟨71, _⟩ => ⟨S8x8x2048x64, .f32⟩
  | .hbm, ⟨72, _⟩ => ⟨S8x8x2048x64, .f32⟩
  | .hbm, ⟨73, _⟩ => ⟨S1x8x16384x64, .f32⟩
  | .hbm, ⟨74, _⟩ => ⟨S8x16384x64, .f32⟩
  | .hbm, ⟨75, _⟩ => ⟨S8x8x2048x64, .f32⟩
  | .hbm, ⟨76, _⟩ => ⟨S8x8x2048x64, .f32⟩
  | .hbm, ⟨77, _⟩ => ⟨S1x8x16384x64, .f32⟩
  | .hbm, ⟨78, _⟩ => ⟨S8x16384x64, .f32⟩
  | .hbm, ⟨79, _⟩ => ⟨S8x8x2048x64, .f32⟩
  | .hbm, ⟨80, _⟩ => ⟨S8x8x2048x64, .f32⟩
  | .hbm, ⟨81, _⟩ => ⟨S_, .f32⟩
  | .hbm, ⟨82, _⟩ => ⟨S8x8x2048x64, .f32⟩
  | .hbm, ⟨83, _⟩ => ⟨S8x8x2048x64, .f32⟩
  | .hbm, ⟨84, _⟩ => ⟨S8x8x2048x2048, .f32⟩
  | .hbm, ⟨85, _⟩ => ⟨S_, .f32⟩
  | .hbm, ⟨86, _⟩ => ⟨S8x8x2048, .f32⟩
  | .hbm, ⟨87, _⟩ => ⟨S_, .f32⟩
  | .hbm, ⟨88, _⟩ => ⟨S8x8x2048, .f32⟩
  | .hbm, ⟨89, _⟩ => ⟨S8x8x2048, .f32⟩
  | .hbm, ⟨90, _⟩ => ⟨S8x8x2048x1, .f32⟩
  | .hbm, ⟨91, _⟩ => ⟨S8x8x2048x2048, .f32⟩
  | .hbm, ⟨92, _⟩ => ⟨S8x8x2048x2048, .f32⟩
  | .hbm, ⟨93, _⟩ => ⟨S8x8x2048x2048, .f32⟩
  | .hbm, ⟨94, _⟩ => ⟨S_, .f32⟩
  | .hbm, ⟨95, _⟩ => ⟨S8x8x2048, .f32⟩
  | .hbm, ⟨96, _⟩ => ⟨S8x8x2048x1, .f32⟩
  | .hbm, ⟨97, _⟩ => ⟨S8x8x2048x2048, .f32⟩
  | .hbm, ⟨98, _⟩ => ⟨S8x8x2048x2048, .f32⟩
  | .hbm, ⟨99, _⟩ => ⟨S8x8x2048x64, .f32⟩
  | .hbm, ⟨100, _⟩ => ⟨S8x8x2048x64, .f32⟩
  | .hbm, ⟨101, _⟩ => ⟨S1x8x16384x64, .f32⟩
  | .hbm, ⟨102, _⟩ => ⟨S1x8x49152x64, .f32⟩
  | _, _ => ⟨S1x8x49152x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_7 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_8 : Ref sig .tc := ⟨.hbm, 85, rfl⟩
abbrev main_v73 : Ref sig .tc := ⟨.hbm, 86, rfl⟩
abbrev main_cst_9 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_10 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩

abbrev nD : Nat := 1
abbrev τ : Topo := Topo.v7x

variable {F : FTy → Type} [FloatOps F]

class Facts₀ : Prop where
  slices_S1x8x49152x64_S1x8x16384x64_0_0_0_0 : S1x8x49152x64.Slices ![0, 0, 0, 0] S1x8x16384x64
  shapeCasts_S1x8x16384x64_S8x16384x64 : S1x8x16384x64.ShapeCasts S8x16384x64
  shapeCasts_S8x16384x64_S8x32x512x64 : S8x16384x64.ShapeCasts S8x32x512x64
  transposes_S8x32x512x64_S32x8x512x64_1_0_2_3 : S8x32x512x64.Transposes [1, 0, 2, 3] S32x8x512x64
  bcast_S_S32x8x512x64 : S_.BroadcastsInDim S32x8x512x64 (![] : Fin 0 → Fin S32x8x512x64.rank)
  reducesTo_S32x8x512x512_S32x8x512_d3 : S32x8x512x512.ReducesTo [3] S32x8x512
  h_S_ : 0 < S_.numel
  bcast_S_S32x8x512 : S_.BroadcastsInDim S32x8x512 (![] : Fin 0 → Fin S32x8x512.rank)
  bcast_S32x8x512_S32x8x512x1_0_1_2 : S32x8x512.BroadcastsInDim S32x8x512x1 (![0, 1, 2] : Fin 3 → Fin S32x8x512x1.rank)
  bcast_S32x8x512x1_S32x8x512x512_0_1_2_3 : S32x8x512x1.BroadcastsInDim S32x8x512x512 (![0, 1, 2, 3] : Fin 4 → Fin S32x8x512x512.rank)
  transposes_S32x8x512x64_S8x32x512x64_1_0_2_3 : S32x8x512x64.Transposes [1, 0, 2, 3] S8x32x512x64
  shapeCasts_S8x32x512x64_S1x8x16384x64 : S8x32x512x64.ShapeCasts S1x8x16384x64
  slices_S1x8x49152x64_S1x8x16384x64_0_0_16384_0 : S1x8x49152x64.Slices ![0, 0, 16384, 0] S1x8x16384x64
  shapeCasts_S8x16384x64_S8x16x1024x64 : S8x16384x64.ShapeCasts S8x16x1024x64
  transposes_S8x16x1024x64_S16x8x1024x64_1_0_2_3 : S8x16x1024x64.Transposes [1, 0, 2, 3] S16x8x1024x64
  bcast_S_S16x8x1024x64 : S_.BroadcastsInDim S16x8x1024x64 (![] : Fin 0 → Fin S16x8x1024x64.rank)
  reducesTo_S16x8x1024x1024_S16x8x1024_d3 : S16x8x1024x1024.ReducesTo [3] S16x8x1024
  bcast_S_S16x8x1024 : S_.BroadcastsInDim S16x8x1024 (![] : Fin 0 → Fin S16x8x1024.rank)
  bcast_S16x8x1024_S16x8x1024x1_0_1_2 : S16x8x1024.BroadcastsInDim S16x8x1024x1 (![0, 1, 2] : Fin 3 → Fin S16x8x1024x1.rank)
  bcast_S16x8x1024x1_S16x8x1024x1024_0_1_2_3 : S16x8x1024x1.BroadcastsInDim S16x8x1024x1024 (![0, 1, 2, 3] : Fin 4 → Fin S16x8x1024x1024.rank)
  transposes_S16x8x1024x64_S8x16x1024x64_1_0_2_3 : S16x8x1024x64.Transposes [1, 0, 2, 3] S8x16x1024x64
  shapeCasts_S8x16x1024x64_S1x8x16384x64 : S8x16x1024x64.ShapeCasts S1x8x16384x64
  slices_S1x8x49152x64_S1x8x16384x64_0_0_32768_0 : S1x8x49152x64.Slices ![0, 0, 32768, 0] S1x8x16384x64
  shapeCasts_S8x16384x64_S8x8x2048x64 : S8x16384x64.ShapeCasts S8x8x2048x64
  transposes_S8x8x2048x64_S8x8x2048x64_1_0_2_3 : S8x8x2048x64.Transposes [1, 0, 2, 3] S8x8x2048x64
  bcast_S_S8x8x2048x64 : S_.BroadcastsInDim S8x8x2048x64 (![] : Fin 0 → Fin S8x8x2048x64.rank)
  reducesTo_S8x8x2048x2048_S8x8x2048_d3 : S8x8x2048x2048.ReducesTo [3] S8x8x2048
  bcast_S_S8x8x2048 : S_.BroadcastsInDim S8x8x2048 (![] : Fin 0 → Fin S8x8x2048.rank)
  bcast_S8x8x2048_S8x8x2048x1_0_1_2 : S8x8x2048.BroadcastsInDim S8x8x2048x1 (![0, 1, 2] : Fin 3 → Fin S8x8x2048x1.rank)
  bcast_S8x8x2048x1_S8x8x2048x2048_0_1_2_3 : S8x8x2048x1.BroadcastsInDim S8x8x2048x2048 (![0, 1, 2, 3] : Fin 4 → Fin S8x8x2048x2048.rank)
  shapeCasts_S8x8x2048x64_S1x8x16384x64 : S8x8x2048x64.ShapeCasts S1x8x16384x64
  concatenates_S1x8x16384x64_S1x8x16384x64_S1x8x16384x64_S1x8x49152x64_d2 : Shape.Concatenates [S1x8x16384x64, S1x8x16384x64, S1x8x16384x64] S1x8x49152x64 2
  dot_S32x8x512x64_S32x8x512x64_S32x8x512x512_3_3_2_2_01_01_wf : DotDims.WF S32x8x512x64 S32x8x512x64 S32x8x512x512 [3] [3] [2] [2] [0, 1] [0, 1]
  dot_S32x8x512x512_S32x8x512x64_S32x8x512x64_3_2_2_3_01_01_wf : DotDims.WF S32x8x512x512 S32x8x512x64 S32x8x512x64 [3] [2] [2] [3] [0, 1] [0, 1]
  dot_S16x8x1024x64_S16x8x1024x64_S16x8x1024x1024_3_3_2_2_01_01_wf : DotDims.WF S16x8x1024x64 S16x8x1024x64 S16x8x1024x1024 [3] [3] [2] [2] [0, 1] [0, 1]
  dot_S16x8x1024x1024_S16x8x1024x64_S16x8x1024x64_3_2_2_3_01_01_wf : DotDims.WF S16x8x1024x1024 S16x8x1024x64 S16x8x1024x64 [3] [2] [2] [3] [0, 1] [0, 1]
  dot_S8x8x2048x64_S8x8x2048x64_S8x8x2048x2048_3_3_2_2_01_01_wf : DotDims.WF S8x8x2048x64 S8x8x2048x64 S8x8x2048x2048 [3] [3] [2] [2] [0, 1] [0, 1]
  dot_S8x8x2048x2048_S8x8x2048x64_S8x8x2048x64_3_2_2_3_01_01_wf : DotDims.WF S8x8x2048x2048 S8x8x2048x64 S8x8x2048x64 [3] [2] [2] [3] [0, 1] [0, 1]

variable [Facts₀]

def dot_S32x8x512x64_S32x8x512x64_S32x8x512x512_3_3_2_2_01_01 : DotDims S32x8x512x64 S32x8x512x64 S32x8x512x512 where
  lhsContracting := [3]
  rhsContracting := [3]
  lhsNonContracting := [2]
  rhsNonContracting := [2]
  lhsBatch := [0, 1]
  rhsBatch := [0, 1]
  wf := dot_S32x8x512x64_S32x8x512x64_S32x8x512x512_3_3_2_2_01_01_wf
def dot_S32x8x512x512_S32x8x512x64_S32x8x512x64_3_2_2_3_01_01 : DotDims S32x8x512x512 S32x8x512x64 S32x8x512x64 where
  lhsContracting := [3]
  rhsContracting := [2]
  lhsNonContracting := [2]
  rhsNonContracting := [3]
  lhsBatch := [0, 1]
  rhsBatch := [0, 1]
  wf := dot_S32x8x512x512_S32x8x512x64_S32x8x512x64_3_2_2_3_01_01_wf
def dot_S16x8x1024x64_S16x8x1024x64_S16x8x1024x1024_3_3_2_2_01_01 : DotDims S16x8x1024x64 S16x8x1024x64 S16x8x1024x1024 where
  lhsContracting := [3]
  rhsContracting := [3]
  lhsNonContracting := [2]
  rhsNonContracting := [2]
  lhsBatch := [0, 1]
  rhsBatch := [0, 1]
  wf := dot_S16x8x1024x64_S16x8x1024x64_S16x8x1024x1024_3_3_2_2_01_01_wf
def dot_S16x8x1024x1024_S16x8x1024x64_S16x8x1024x64_3_2_2_3_01_01 : DotDims S16x8x1024x1024 S16x8x1024x64 S16x8x1024x64 where
  lhsContracting := [3]
  rhsContracting := [2]
  lhsNonContracting := [2]
  rhsNonContracting := [3]
  lhsBatch := [0, 1]
  rhsBatch := [0, 1]
  wf := dot_S16x8x1024x1024_S16x8x1024x64_S16x8x1024x64_3_2_2_3_01_01_wf
def dot_S8x8x2048x64_S8x8x2048x64_S8x8x2048x2048_3_3_2_2_01_01 : DotDims S8x8x2048x64 S8x8x2048x64 S8x8x2048x2048 where
  lhsContracting := [3]
  rhsContracting := [3]
  lhsNonContracting := [2]
  rhsNonContracting := [2]
  lhsBatch := [0, 1]
  rhsBatch := [0, 1]
  wf := dot_S8x8x2048x64_S8x8x2048x64_S8x8x2048x2048_3_3_2_2_01_01_wf
def dot_S8x8x2048x2048_S8x8x2048x64_S8x8x2048x64_3_2_2_3_01_01 : DotDims S8x8x2048x2048 S8x8x2048x64 S8x8x2048x64 where
  lhsContracting := [3]
  rhsContracting := [2]
  lhsNonContracting := [2]
  rhsNonContracting := [3]
  lhsBatch := [0, 1]
  rhsBatch := [0, 1]
  wf := dot_S8x8x2048x2048_S8x8x2048x64_S8x8x2048x64_3_2_2_3_01_01_wf

class Facts : Prop extends Facts₀ where

variable [Facts]
-- ==== Proof.BBodyVal.lean ====
/-
  What one call of the streaming attention body computes, as pure functions of the blocks it reads, written over
  the kernels' named payloads: the scaled query tile, and from a carried state (running maximum `m`, running
  denominator `l`, running numerator `acc`) and a tile of keys and values the new maximum, denominator and numerator,
  and the quotient stored at a row's last tile. Region 0 works on rows of 512, region 1 on rows of 1024, region 2 on
  rows of 2048 in two tiles of 1024 keys.
-/
import proofs.«143665_j77000173683359_2_alg».proof.Proof.Gen.Kernel.Skeleton

noncomputable section

namespace Cert.Kernel.BodyVal

open Idealize.ShloMosaic Cert.Kernel Cert.Kernel.Gen

variable {F : FTy → Type} [FloatOps F]

/-! ## Rows of 512 -/
def qs0 (xq : Vec F S1x1x512x64 .f32) : Vec F S512x64 .bf16 := k0_pay7 xq
def m0 (qs : Vec F S512x64 .bf16) (m : Vec F S512x1 .f32) (xk : Vec F S1x1x512x64 .f32) : Vec F S512x1 .f32 :=
  k0_pay2 (k0_pay10 qs xk m)
def l0 (qs : Vec F S512x64 .bf16) (m l : Vec F S512x1 .f32) (xk : Vec F S1x1x512x64 .f32) : Vec F S512x1 .f32 :=
  k0_pay13 qs xk m l
def acc0 (qs : Vec F S512x64 .bf16) (m : Vec F S512x1 .f32) (acc : Vec F S512x64 .f32) (xk xv : Vec F S1x1x512x64 .f32) :
    Vec F S512x64 .f32 :=
  k0_pay1 (k0_pay8 xv) (k0_pay14 qs xk m acc) (k0_pay15 qs xk m)
/-- The block region 0 stores for a row of 512: one tile from the empty state. -/
def out0 (xq xk xv : Vec F S1x1x512x64 .f32) : Vec F S1x512x64 .f32 :=
  k0_pay3 (acc0 (qs0 xq) k0_pay4 k0_pay6 xk xv) (l0 (qs0 xq) k0_pay4 k0_pay5 xk)

/-! ## Rows of 1024 -/
def qs1 (xq : Vec F S1x1x1024x64 .f32) : Vec F S1024x64 .bf16 := k1_pay7 xq
def m1 (qs : Vec F S1024x64 .bf16) (m : Vec F S1024x1 .f32) (xk : Vec F S1x1x1024x64 .f32) : Vec F S1024x1 .f32 :=
  k1_pay2 (k1_pay10 qs xk m)
def l1 (qs : Vec F S1024x64 .bf16) (m l : Vec F S1024x1 .f32) (xk : Vec F S1x1x1024x64 .f32) : Vec F S1024x1 .f32 :=
  k1_pay13 qs xk m l
def acc1 (qs : Vec F S1024x64 .bf16) (m : Vec F S1024x1 .f32) (acc : Vec F S1024x64 .f32) (xk xv : Vec F S1x1x1024x64 .f32) :
    Vec F S1024x64 .f32 :=
  k1_pay1 (k1_pay8 xv) (k1_pay14 qs xk m acc) (k1_pay15 qs xk m)
/-- The block region 1 stores for a row of 1024: one tile from the empty state. -/
def out1 (xq xk xv : Vec F S1x1x1024x64 .f32) : Vec F S1x1024x64 .f32 :=
  k1_pay3 (acc1 (qs1 xq) k1_pay4 k1_pay6 xk xv) (l1 (qs1 xq) k1_pay4 k1_pay5 xk)

/-! ## Rows of 2048, two tiles of 1024 keys -/
def qs2 (xq : Vec F S1x1x2048x64 .f32) : Vec F S2048x64 .bf16 := k2_pay7 xq
def m2 (qs : Vec F S2048x64 .bf16) (m : Vec F S2048x1 .f32) (xk : Vec F S1x1x1024x64 .f32) : Vec F S2048x1 .f32 :=
  k2_pay2 (k2_pay10 qs xk m)
def l2 (qs : Vec F S2048x64 .bf16) (m l : Vec F S2048x1 .f32) (xk : Vec F S1x1x1024x64 .f32) : Vec F S2048x1 .f32 :=
  k2_pay13 qs xk m l
def acc2 (qs : Vec F S2048x64 .bf16) (m : Vec F S2048x1 .f32) (acc : Vec F S2048x64 .f32) (xk xv : Vec F S1x1x1024x64 .f32) :
    Vec F S2048x64 .f32 :=
  k2_pay1 (k2_pay8 xv) (k2_pay14 qs xk m acc) (k2_pay15 qs xk m)
/-- The state after the first tile of a row of 2048. -/
def mA (xq : Vec F S1x1x2048x64 .f32) (k₁ : Vec F S1x1x1024x64 .f32) : Vec F S2048x1 .f32 := m2 (qs2 xq) k2_pay4 k₁
def lA (xq : Vec F S1x1x2048x64 .f32) (k₁ : Vec F S1x1x1024x64 .f32) : Vec F S2048x1 .f32 := l2 (qs2 xq) k2_pay4 k2_pay5 k₁
def accA (xq : Vec F S1x1x2048x64 .f32) (k₁ v₁ : Vec F S1x1x1024x64 .f32) : Vec F S2048x64 .f32 :=
  acc2 (qs2 xq) k2_pay4 k2_pay6 k₁ v₁
/-- The block region 2 stores for a row of 2048 after its second tile. -/
def out2 (xq : Vec F S1x1x2048x64 .f32) (k₁ v₁ k₂ v₂ : Vec F S1x1x1024x64 .f32) : Vec F S1x2048x64 .f32 :=
  k2_pay3 (acc2 (qs2 xq) (mA xq k₁) (accA xq k₁ v₁) k₂ v₂) (l2 (qs2 xq) (mA xq k₁) (lA xq k₁) k₂)

end Cert.Kernel.BodyVal

end
-- ==== Proof.BRun0.lean ====
/-
  Region 0 (rows of 512 tokens): one call of the attention body on whole staging buffers. Every grid point of
  this region is both the first and the last key tile of its row, so both branches of the body are taken at every
  point: the body resets its carried state, processes the one tile and stores the normalised block.
-/
import proofs.«143665_j77000173683359_2_alg».proof.Proof.Gen.Kernel.Launch
import proofs.«143665_j77000173683359_2_alg».proof.Proof.Gen.Kernel.Skeleton
import proofs.«143665_j77000173683359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The branch "this is the row's first key tile", as the body computes it from the grid coordinates. -/
abbrev cond0_0 (i : grid0.Coords) : Prop :=
  (Scalar.cmpi .ne (Scalar.extui (Scalar.cmpi .eq (BitVec.ofNat 32 (i 1).val) 0#32)) 0#32) = 1#1
/-- Both branches hold at every point of the grid: the key axis has extent one. -/
theorem hcond0_0 : ∀ t : Fin cfg0.N, cond0_0 (grid0.coords t) :=
  (by decide +kernel : ∀ t : Fin grid0.N, cond0_0 (grid0.coords t))
theorem hcond0_1 : ∀ t : Fin cfg0.N, k0_cond2 (grid0.coords t) = 1#1 :=
  (by decide +kernel : ∀ t : Fin grid0.N, k0_cond2 (grid0.coords t) = 1#1)

/-- The four scratch buffers the body keeps its state in: the scaled query tile, the running maximum, the running
    denominator, the running numerator. -/
abbrev scM0_0 : Memref sig .tc .vmem S512x64 .bf16 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x64 .f32 := Memref.whole cc0_scratch3

set_option maxHeartbeats 4000000 in
/-- The body at a point where both branches are taken, on whole staging buffers holding the query, key and value
    blocks: it runs to the end, leaves the three input buffers as they were, and the output buffer with the pieces
    `L3` written; the scratch buffers end at some contents. -/
noncomputable def kernelRun0 (c : Dev nD) (i : grid0.Coords)
    (arg2 : Memref sig .tc .vmem S1x1x512x64 .f32) (harg2 : arg2.IsWhole) (arg3 : Memref sig .tc .vmem S1x1x512x64 .f32) (harg3 : arg3.IsWhole)
    (arg4 : Memref sig .tc .vmem S1x1x512x64 .f32) (harg4 : arg4.IsWhole) (arg5 : Memref sig .tc .vmem S1x512x64 .f32) (harg5 : arg5.IsWhole)
    (hc0 : cond0_0 i) (hc1 : k0_cond2 i = 1#1)
    (x0 x1 x2 : Vec F S1x1x512x64 .f32) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (∃ d, owns (c : Thread nD τ) scM0_0 fullShare d) ∗ (∃ d, owns (c : Thread nD τ) scM0_1 fullShare d)
            ∗ (∃ d, owns (c : Thread nD τ) scM0_2 fullShare d) ∗ (∃ d, owns (c : Thread nD τ) scM0_3 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) scM0_0 fullShare d) ∗ (∃ d, owns (c : Thread nD τ) scM0_1 fullShare d)
                ∗ (∃ d, owns (c : Thread nD τ) scM0_2 fullShare d) ∗ (∃ d, owns (c : Thread nD τ) scM0_3 fullShare d)) -∗ K ⟨⟩))
          ⊢ wp frame (wpE (defs₀ (F := F)) Variants.none c none) E
              (cc0__flash_kernel i arg2 harg2 arg3 harg3 arg4 harg4 arg5 harg5 scM0_0 (Memref.isWhole_whole _) scM0_1 (Memref.isWhole_whole _) scM0_2 (Memref.isWhole_whole _) scM0_3 (Memref.isWhole_whole _)) K } := by
  refine ⟨?_, fun E K => ?run⟩
  case run =>
    simp only [cc0__flash_kernel_eq_skeleton]; unfold cc0__flash_kernel_skel
    unfold owns
    iintro ⟨⟨%f0, %hf0, H0⟩, ⟨%f1, %hf1, H1⟩, ⟨%f2, %hf2, H2⟩, ⟨%d3, %f3, -, H3⟩, ⟨%d4, %f4, -, S0⟩, ⟨%d5, %f5, -, S1⟩, ⟨%d6, %f6, -, S2⟩, ⟨%d7, %f7, -, S3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [S0]
    · iexists _, _; isplitr
      swap; · iexact S0
      ipureintro; rfl
    isplitl [S1]
    · iexists _, _; isplitr
      swap; · iexact S1
      ipureintro; rfl
    isplitl [S2]
    · iexists _, _; isplitr
      swap; · iexact S2
      ipureintro; rfl
    iexists _, _; isplitr
    swap; · iexact S3
    ipureintro; rfl

end Cert.Kernel.Frm

end
-- ==== Proof.BFrmCommon.lean ====
/-
  Two facts about whole-buffer accesses shared by the three regions: the all-zero offset vectors, and that a load of
  a whole buffer after a list of stores whose LAST one wrote the whole buffer reads that store's value.
-/
import Idealize.ShloMosaic.Lib.Pipeline.FrameBody
import Idealize.ShloMosaic.Lib.Pipeline.Value

noncomputable section

namespace Cert.Kernel.Frm

open Idealize.ShloMosaic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load of a whole buffer after stores the LAST of which wrote the whole buffer reads that store's value. -/
theorem readCov_cons_whole {S : Shape} {e : EltTy} {sg : RefSig} {κ : Kind} {sp : Space} (v : View sg κ sp S e) {off : Fin S.rank → Nat}
    (h : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.Kernel.Frm

end
-- ==== Proof.BFrame0.lean ====
/-
  Region 0 (rows of 512 tokens): the proof data of its pipeline and the body obligation. Each grid point is one
  (head, row) pair; the body reads the row's query, key and value blocks and stores the row's attention block, which
  the pipeline writes back at once. The scratch buffers are reset at every point, so nothing is carried.
-/
import proofs.«143665_j77000173683359_2_alg».proof.Proof.Gen.Kernel.Launch
import proofs.«143665_j77000173683359_2_alg».proof.Proof.Gen.Kernel.Skeleton
import proofs.«143665_j77000173683359_2_alg».proof.Proof.Gen.Kernel.Points
import proofs.«143665_j77000173683359_2_alg».proof.Proof.BBodyVal
import proofs.«143665_j77000173683359_2_alg».proof.Proof.BRun0
import proofs.«143665_j77000173683359_2_alg».proof.Proof.BFrmCommon
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.BodyVal

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it to the body. -/
abbrev ms0_0 (t : Fin cfg0.N) : Memref sig .tc .vmem S1x1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)

/-- The one store into the output buffer covers it. -/
theorem cover0_3 (c : Dev nD) (i : grid0.Coords)
    (arg2 : Memref sig .tc .vmem S1x1x512x64 .f32) (harg2 : arg2.IsWhole) (arg3 : Memref sig .tc .vmem S1x1x512x64 .f32) (harg3 : arg3.IsWhole)
    (arg4 : Memref sig .tc .vmem S1x1x512x64 .f32) (harg4 : arg4.IsWhole) (arg5 : Memref sig .tc .vmem S1x512x64 .f32) (harg5 : arg5.IsWhole)
    (hc0 : cond0_0 i) (hc1 : k0_cond2 i = 1#1) (x0 x1 x2 : Vec F S1x1x512x64 .f32) (y : S1x512x64.Idx) :
    ∃ pc ∈ (kernelRun0 c i arg2 harg2 arg3 harg3 arg4 harg4 arg5 harg5 hc0 hc1 x0 x1 x2).1, y ∈ pc.1.set :=
  View.cover_of_tiledL (kernelRun0 c i arg2 harg2 arg3 harg3 arg4 harg4 arg5 harg5 hc0 hc1 x0 x1 x2).1 S1x512x64.size (by sl_kernel_rfl) y

/-- The output buffer's contents after the body are the stored quotient block: the body's arithmetic as one pure
    function of the three input blocks. -/
theorem out0_val (c : Dev nD) (i : grid0.Coords)
    (arg2 : Memref sig .tc .vmem S1x1x512x64 .f32) (harg2 : arg2.IsWhole) (arg3 : Memref sig .tc .vmem S1x1x512x64 .f32) (harg3 : arg3.IsWhole)
    (arg4 : Memref sig .tc .vmem S1x1x512x64 .f32) (harg4 : arg4.IsWhole) (arg5 : Memref sig .tc .vmem S1x512x64 .f32) (harg5 : arg5.IsWhole)
    (hc0 : cond0_0 i) (hc1 : k0_cond2 i = 1#1) (x0 x1 x2 : Vec F S1x1x512x64 .f32) (f : BufTy.Contents (Elt F) arg5.view.ty) :
    arg5.view.read (Elt F) (arg5.view.writes (Elt F) f (kernelRun0 c i arg2 harg2 arg3 harg3 arg4 harg4 arg5 harg5 hc0 hc1 x0 x1 x2).1)
      = out0 x0 x1 x2 := by
  rw [View.read_writes_eq_canon _ _ _ (cover0_3 c i arg2 harg2 arg3 harg3 arg4 harg4 arg5 harg5 hc0 hc1 x0 x1 x2)]
  unfold kernelRun0
  dsimp only
  rw [View.canon_unit_zero hz3]
  sl_unfold_run_names
  simp only [readCov_cons_whole (S := S512x64) _ hz2, readCov_cons_whole (S := S512x1) _ hz2, View.readAt_eq_ld,
    harg2.read_unread, harg3.read_unread, harg4.read_unread, View.ld_unit_zero (S := S1x1x512x64) hz4]
  rfl

/-! ## The pipeline's proof data -/

/-- The proof data of region 0's pipeline on core `c`: the arrays as the region finds them; after the body at point
    `t` each input's buffer at its block and the output's at the attention block of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- No window is idle at any point of this grid: the output is stored at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false :=
  (by decide +kernel : ∀ t : Fin grid0.N, cfg0.idle 3 (grid0.coords t) = false)

/-- The scratch buffers held whole at some contents, in the form the body's run takes them. -/
theorem scratch0_0 (c : Dev nD) : (iprop(∃ f : Buf (Elt F) ((c : Thread nD τ).loc cc0_scratch0), ((c : Thread nD τ).loc cc0_scratch0) ↦{fullShare} f) : sProp 𝕄)
    = iprop(∃ d, owns (c : Thread nD τ) scM0_0 fullShare d) := by simp only [scM0_0, owns_whole]; try rfl
theorem scratch0_1 (c : Dev nD) : (iprop(∃ f : Buf (Elt F) ((c : Thread nD τ).loc cc0_scratch1), ((c : Thread nD τ).loc cc0_scratch1) ↦{fullShare} f) : sProp 𝕄)
    = iprop(∃ d, owns (c : Thread nD τ) scM0_1 fullShare d) := by simp only [scM0_1, owns_whole]; try rfl
theorem scratch0_2 (c : Dev nD) : (iprop(∃ f : Buf (Elt F) ((c : Thread nD τ).loc cc0_scratch2), ((c : Thread nD τ).loc cc0_scratch2) ↦{fullShare} f) : sProp 𝕄)
    = iprop(∃ d, owns (c : Thread nD τ) scM0_2 fullShare d) := by simp only [scM0_2, owns_whole]; try rfl
theorem scratch0_3 (c : Dev nD) : (iprop(∃ f : Buf (Elt F) ((c : Thread nD τ).loc cc0_scratch3), ((c : Thread nD τ).loc cc0_scratch3) ↦{fullShare} f) : sProp 𝕄)
    = iprop(∃ d, owns (c : Thread nD τ) scM0_3 fullShare d) := by simp only [scM0_3, owns_whole]; try rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point: the inputs' buffers hold their blocks, the scratch buffers come out of the scoped rest
    at some contents and go back at some contents, and the output buffer ends at the attention block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl]
  rw [show (dat0 V c).leavesExact 0 t = owns (c : Thread nD τ) (ms0_0 t) fullShare ((dat0 V c).after 0 t) from by
        unfold Dat.leavesExact; rw [liveAt0_0 t],
    show (dat0 V c).leavesExact 1 t = owns (c : Thread nD τ) (ms0_1 t) fullShare ((dat0 V c).after 1 t) from by
        unfold Dat.leavesExact; rw [liveAt0_1 t],
    show (dat0 V c).leavesExact 2 t = owns (c : Thread nD τ) (ms0_2 t) fullShare ((dat0 V c).after 2 t) from by
        unfold Dat.leavesExact; rw [liveAt0_2 t],
    show (dat0 V c).leavesExact 3 t = owns (c : Thread nD τ) (ms0_3 t) fullShare ((dat0 V c).after 3 t) from by
        unfold Dat.leavesExact; rw [liveAt0_3 t],
    after0_0, after0_1, after0_2, after0_3]
  unfold Pipeline.ΦA; rw [scopedRest0_split, scratch0_0, scratch0_1, scratch0_2, scratch0_3]
  iintro ⟨⟨⟨⟨S0, S1, S2, S3⟩, Hrest⟩, Hg⟩, Ho, ⟨%d0, H0⟩, ⟨%d1, H1⟩, ⟨%d2, H2⟩, ⟨%d3, H3⟩⟩
  iapply ((kernelRun0 c (grid0.coords t) _ _ _ _ _ _ _ _ (hcond0_0 t) (hcond0_1 t) (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, ⟨%e3, H3⟩, S0, S1, S2, S3⟩
  isplitl [S0 S1 S2 S3 Hrest Hg]
  · isplitl [S0 S1 S2 S3 Hrest]
    · isplitl [S0 S1 S2 S3]
      · isplitl [S0]; · iexact S0
        isplitl [S1]; · iexact S1
        isplitl [S2]; · iexact S2
        iexact S3
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact out0_val c _ _ _ _ _ _ _ _ _ _ _ _ _ _ _

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Frm

end
-- ==== Proof.BRun1.lean ====
/-
  Region 1 (rows of 1024 tokens): one call of the attention body on whole staging buffers. Every grid point of
  this region is both the first and the last key tile of its row, so both branches of the body are taken at every
  point: the body resets its carried state, processes the one tile and stores the normalised block.
-/
import proofs.«143665_j77000173683359_2_alg».proof.Proof.Gen.Kernel.Launch
import proofs.«143665_j77000173683359_2_alg».proof.Proof.Gen.Kernel.Skeleton
import proofs.«143665_j77000173683359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The branch "this is the row's first key tile", as the body computes it from the grid coordinates. -/
abbrev cond1_0 (i : grid1.Coords) : Prop :=
  (Scalar.cmpi .ne (Scalar.extui (Scalar.cmpi .eq (BitVec.ofNat 32 (i 1).val) 0#32)) 0#32) = 1#1
/-- Both branches hold at every point of the grid: the key axis has extent one. -/
theorem hcond1_0 : ∀ t : Fin cfg1.N, cond1_0 (grid1.coords t) :=
  (by decide +kernel : ∀ t : Fin grid1.N, cond1_0 (grid1.coords t))
theorem hcond1_1 : ∀ t : Fin cfg1.N, k1_cond2 (grid1.coords t) = 1#1 :=
  (by decide +kernel : ∀ t : Fin grid1.N, k1_cond2 (grid1.coords t) = 1#1)

/-- The four scratch buffers the body keeps its state in: the scaled query tile, the running maximum, the running
    denominator, the running numerator. -/
abbrev scM1_0 : Memref sig .tc .vmem S1024x64 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x64 .f32 := Memref.whole cc1_scratch3

set_option maxHeartbeats 4000000 in
/-- The body at a point where both branches are taken, on whole staging buffers holding the query, key and value
    blocks: it runs to the end, leaves the three input buffers as they were, and the output buffer with the pieces
    `L3` written; the scratch buffers end at some contents. -/
noncomputable def kernelRun1 (c : Dev nD) (i : grid1.Coords)
    (arg2 : Memref sig .tc .vmem S1x1x1024x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x1024x64 .f32) (harg5 : arg5.IsWhole)
    (hc0 : cond1_0 i) (hc1 : k1_cond2 i = 1#1)
    (x0 x1 x2 : Vec F S1x1x1024x64 .f32) :
    { L3 : List (View.Piece (Elt F) S1x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (∃ d, owns (c : Thread nD τ) scM1_0 fullShare d) ∗ (∃ d, owns (c : Thread nD τ) scM1_1 fullShare d)
            ∗ (∃ d, owns (c : Thread nD τ) scM1_2 fullShare d) ∗ (∃ d, owns (c : Thread nD τ) scM1_3 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) scM1_0 fullShare d) ∗ (∃ d, owns (c : Thread nD τ) scM1_1 fullShare d)
                ∗ (∃ d, owns (c : Thread nD τ) scM1_2 fullShare d) ∗ (∃ d, owns (c : Thread nD τ) scM1_3 fullShare d)) -∗ K ⟨⟩))
          ⊢ wp frame (wpE (defs₀ (F := F)) Variants.none c none) E
              (cc1__flash_kernel i arg2 harg2 arg3 harg3 arg4 harg4 arg5 harg5 scM1_0 (Memref.isWhole_whole _) scM1_1 (Memref.isWhole_whole _) scM1_2 (Memref.isWhole_whole _) scM1_3 (Memref.isWhole_whole _)) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d4, %f4, -, S0⟩, ⟨%d5, %f5, -, S1⟩, ⟨%d6, %f6, -, S2⟩, ⟨%d7, %f7, -, S3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [S0]
    · iexists _, _; isplitr
      swap; · iexact S0
      ipureintro; rfl
    isplitl [S1]
    · iexists _, _; isplitr
      swap; · iexact S1
      ipureintro; rfl
    isplitl [S2]
    · iexists _, _; isplitr
      swap; · iexact S2
      ipureintro; rfl
    iexists _, _; isplitr
    swap; · iexact S3
    ipureintro; rfl

end Cert.Kernel.Frm

end
-- ==== Proof.BFrame1.lean ====
/-
  Region 1 (rows of 1024 tokens): the proof data of its pipeline and the body obligation. Each grid point is one
  (head, row) pair; the body reads the row's query, key and value blocks and stores the row's attention block, which
  the pipeline writes back at once. The scratch buffers are reset at every point, so nothing is carried.
-/
import proofs.«143665_j77000173683359_2_alg».proof.Proof.Gen.Kernel.Launch
import proofs.«143665_j77000173683359_2_alg».proof.Proof.Gen.Kernel.Skeleton
import proofs.«143665_j77000173683359_2_alg».proof.Proof.Gen.Kernel.Points
import proofs.«143665_j77000173683359_2_alg».proof.Proof.BBodyVal
import proofs.«143665_j77000173683359_2_alg».proof.Proof.BRun1
import proofs.«143665_j77000173683359_2_alg».proof.Proof.BFrmCommon
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.BodyVal

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin cfg1.N) : Memref sig .tc .vmem S1x1x1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)

/-- The one store into the output buffer covers it. -/
theorem cover1_3 (c : Dev nD) (i : grid1.Coords)
    (arg2 : Memref sig .tc .vmem S1x1x1024x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x1024x64 .f32) (harg5 : arg5.IsWhole)
    (hc0 : cond1_0 i) (hc1 : k1_cond2 i = 1#1) (x0 x1 x2 : Vec F S1x1x1024x64 .f32) (y : S1x1024x64.Idx) :
    ∃ pc ∈ (kernelRun1 c i arg2 harg2 arg3 harg3 arg4 harg4 arg5 harg5 hc0 hc1 x0 x1 x2).1, y ∈ pc.1.set :=
  View.cover_of_tiledL (kernelRun1 c i arg2 harg2 arg3 harg3 arg4 harg4 arg5 harg5 hc0 hc1 x0 x1 x2).1 S1x1024x64.size (by sl_kernel_rfl) y

/-- The output buffer's contents after the body are the stored quotient block: the body's arithmetic as one pure
    function of the three input blocks. -/
theorem out1_val (c : Dev nD) (i : grid1.Coords)
    (arg2 : Memref sig .tc .vmem S1x1x1024x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x1024x64 .f32) (harg5 : arg5.IsWhole)
    (hc0 : cond1_0 i) (hc1 : k1_cond2 i = 1#1) (x0 x1 x2 : Vec F S1x1x1024x64 .f32) (f : BufTy.Contents (Elt F) arg5.view.ty) :
    arg5.view.read (Elt F) (arg5.view.writes (Elt F) f (kernelRun1 c i arg2 harg2 arg3 harg3 arg4 harg4 arg5 harg5 hc0 hc1 x0 x1 x2).1)
      = out1 x0 x1 x2 := by
  rw [View.read_writes_eq_canon _ _ _ (cover1_3 c i arg2 harg2 arg3 harg3 arg4 harg4 arg5 harg5 hc0 hc1 x0 x1 x2)]
  unfold kernelRun1
  dsimp only
  rw [View.canon_unit_zero hz3]
  sl_unfold_run_names
  simp only [readCov_cons_whole (S := S1024x64) _ hz2, readCov_cons_whole (S := S1024x1) _ hz2, View.readAt_eq_ld,
    harg2.read_unread, harg3.read_unread, harg4.read_unread, View.ld_unit_zero (S := S1x1x1024x64) hz4]
  rfl

/-! ## The pipeline's proof data -/

/-- The proof data of region 1's pipeline on core `c`: the arrays as the region finds them; after the body at point
    `t` each input's buffer at its block and the output's at the attention block of the three input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- No window is idle at any point of this grid: the output is stored at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false :=
  (by decide +kernel : ∀ t : Fin grid1.N, cfg1.idle 3 (grid1.coords t) = false)

/-- The scratch buffers held whole at some contents, in the form the body's run takes them. -/
theorem scratch1_0 (c : Dev nD) : (iprop(∃ f : Buf (Elt F) ((c : Thread nD τ).loc cc1_scratch0), ((c : Thread nD τ).loc cc1_scratch0) ↦{fullShare} f) : sProp 𝕄)
    = iprop(∃ d, owns (c : Thread nD τ) scM1_0 fullShare d) := by simp only [scM1_0, owns_whole]; try rfl
theorem scratch1_1 (c : Dev nD) : (iprop(∃ f : Buf (Elt F) ((c : Thread nD τ).loc cc1_scratch1), ((c : Thread nD τ).loc cc1_scratch1) ↦{fullShare} f) : sProp 𝕄)
    = iprop(∃ d, owns (c : Thread nD τ) scM1_1 fullShare d) := by simp only [scM1_1, owns_whole]; try rfl
theorem scratch1_2 (c : Dev nD) : (iprop(∃ f : Buf (Elt F) ((c : Thread nD τ).loc cc1_scratch2), ((c : Thread nD τ).loc cc1_scratch2) ↦{fullShare} f) : sProp 𝕄)
    = iprop(∃ d, owns (c : Thread nD τ) scM1_2 fullShare d) := by simp only [scM1_2, owns_whole]; try rfl
theorem scratch1_3 (c : Dev nD) : (iprop(∃ f : Buf (Elt F) ((c : Thread nD τ).loc cc1_scratch3), ((c : Thread nD τ).loc cc1_scratch3) ↦{fullShare} f) : sProp 𝕄)
    = iprop(∃ d, owns (c : Thread nD τ) scM1_3 fullShare d) := by simp only [scM1_3, owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: the inputs' buffers hold their blocks, the scratch buffers come out of the scoped rest
    at some contents and go back at some contents, and the output buffer ends at the attention block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl]
  rw [show (dat1 V c).leavesExact 0 t = owns (c : Thread nD τ) (ms1_0 t) fullShare ((dat1 V c).after 0 t) from by
        unfold Dat.leavesExact; rw [liveAt1_0 t],
    show (dat1 V c).leavesExact 1 t = owns (c : Thread nD τ) (ms1_1 t) fullShare ((dat1 V c).after 1 t) from by
        unfold Dat.leavesExact; rw [liveAt1_1 t],
    show (dat1 V c).leavesExact 2 t = owns (c : Thread nD τ) (ms1_2 t) fullShare ((dat1 V c).after 2 t) from by
        unfold Dat.leavesExact; rw [liveAt1_2 t],
    show (dat1 V c).leavesExact 3 t = owns (c : Thread nD τ) (ms1_3 t) fullShare ((dat1 V c).after 3 t) from by
        unfold Dat.leavesExact; rw [liveAt1_3 t],
    after1_0, after1_1, after1_2, after1_3]
  unfold Pipeline.ΦA; rw [scopedRest1_split, scratch1_0, scratch1_1, scratch1_2, scratch1_3]
  iintro ⟨⟨⟨⟨S0, S1, S2, S3⟩, Hrest⟩, Hg⟩, Ho, ⟨%d0, H0⟩, ⟨%d1, H1⟩, ⟨%d2, H2⟩, ⟨%d3, H3⟩⟩
  iapply ((kernelRun1 c (grid1.coords t) _ _ _ _ _ _ _ _ (hcond1_0 t) (hcond1_1 t) (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, ⟨%e3, H3⟩, S0, S1, S2, S3⟩
  isplitl [S0 S1 S2 S3 Hrest Hg]
  · isplitl [S0 S1 S2 S3 Hrest]
    · isplitl [S0 S1 S2 S3]
      · isplitl [S0]; · iexact S0
        isplitl [S1]; · iexact S1
        isplitl [S2]; · iexact S2
        iexact S3
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact out1_val c _ _ _ _ _ _ _ _ _ _ _ _ _ _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Frm

end
-- ==== Proof.BRun2.lean ====
/-
  Region 2 (rows of 2048 tokens, two key tiles of 1024): one call of the attention body on whole staging buffers, in
  its two control cases. At a row's FIRST tile the body resets its carried state, processes the tile, stores nothing
  into the output buffer and leaves the state in its scratch buffers; at the row's SECOND (last) tile it continues
  from the carried state and stores the normalised block.
-/
import proofs.«143665_j77000173683359_2_alg».proof.Proof.Gen.Kernel.Launch
import proofs.«143665_j77000173683359_2_alg».proof.Proof.Gen.Kernel.Skeleton
import proofs.«143665_j77000173683359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The branch "this is the row's first key tile", as the body computes it from the grid coordinates. -/
abbrev cond2_0 (i : grid2.Coords) : Prop :=
  (Scalar.cmpi .ne (Scalar.extui (Scalar.cmpi .eq (BitVec.ofNat 32 (i 1).val) 0#32)) 0#32) = 1#1
/-- The grid runs the two tiles of a row one after the other: even points are first tiles, odd points last tiles. -/
theorem hcond2_0 : ∀ t : Fin cfg2.N, cond2_0 (grid2.coords t) ↔ t.val % 2 = 0 :=
  (by decide +kernel : ∀ t : Fin grid2.N, cond2_0 (grid2.coords t) ↔ t.val % 2 = 0)
theorem hcond2_1 : ∀ t : Fin cfg2.N, k2_cond2 (grid2.coords t) = 1#1 ↔ t.val % 2 = 1 :=
  (by decide +kernel : ∀ t : Fin grid2.N, k2_cond2 (grid2.coords t) = 1#1 ↔ t.val % 2 = 1)

/-- The four scratch buffers the body keeps its state in: the scaled query tile, the running maximum, the running
    denominator, the running numerator. -/
abbrev scM2_0 : Memref sig .tc .vmem S2048x64 .bf16 := Memref.whole cc2_scratch0
abbrev scM2_1 : Memref sig .tc .vmem S2048x1 .f32 := Memref.whole cc2_scratch1
abbrev scM2_2 : Memref sig .tc .vmem S2048x1 .f32 := Memref.whole cc2_scratch2
abbrev scM2_3 : Memref sig .tc .vmem S2048x64 .f32 := Memref.whole cc2_scratch3
abbrev hsc2_0 : scM2_0.IsWhole := Memref.isWhole_whole _
abbrev hsc2_1 : scM2_1.IsWhole := Memref.isWhole_whole _
abbrev hsc2_2 : scM2_2.IsWhole := Memref.isWhole_whole _
abbrev hsc2_3 : scM2_3.IsWhole := Memref.isWhole_whole _

set_option maxHeartbeats 4000000 in
/-- FIRST TILE. On whole staging buffers holding the query block and the tile's key and value blocks, the output
    buffer at any contents `xi3` and the scratch buffers at anything, the body runs to the end, leaves the inputs and
    the output buffer as they were, and each scratch buffer with its pieces written. -/
noncomputable def kernelRun2_A (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1)
    (x0 : Vec F S1x1x2048x64 .f32) (x1 x2 : Vec F S1x1x1024x64 .f32) :
    Σ' (LS0 : List (View.Piece (Elt F) S2048x64 .bf16)) (LS1 : List (View.Piece (Elt F) S2048x1 .f32)) (LS2 : List (View.Piece (Elt F) S2048x1 .f32)),
    { LS3 : List (View.Piece (Elt F) S2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) scM2_0 fullShare d) ∗ (∃ d, owns (c : Thread nD τ) scM2_1 fullShare d)
            ∗ (∃ d, owns (c : Thread nD τ) scM2_2 fullShare d) ∗ (∃ d, owns (c : Thread nD τ) scM2_3 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, scM2_0.view.loc (c : Thread nD τ) ↦[scM2_0.view.set]{fullShare} scM2_0.view.writes (Elt F) f LS0)
                ∗ (∃ f, scM2_1.view.loc (c : Thread nD τ) ↦[scM2_1.view.set]{fullShare} scM2_1.view.writes (Elt F) f LS1)
                ∗ (∃ f, scM2_2.view.loc (c : Thread nD τ) ↦[scM2_2.view.set]{fullShare} scM2_2.view.writes (Elt F) f LS2)
                ∗ (∃ f, scM2_3.view.loc (c : Thread nD τ) ↦[scM2_3.view.set]{fullShare} scM2_3.view.writes (Elt F) f LS3)) -∗ K ⟨⟩))
          ⊢ wp frame (wpE (defs₀ (F := F)) Variants.none c none) E
              (cc2__flash_kernel i arg2 harg2 arg3 harg3 arg4 harg4 arg5 harg5 scM2_0 hsc2_0 scM2_1 hsc2_1 scM2_2 hsc2_2 scM2_3 hsc2_3) K } := by
  refine ⟨?_, ?_, ?_, ?_, fun xi3 E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%f3, %hf3, H3⟩, ⟨%d4, %f4, -, S0⟩, ⟨%d5, %f5, -, S1⟩, ⟨%d6, %f6, -, S2⟩, ⟨%d7, %f7, -, S3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [S0]
    · iexists _; iexact S0
    isplitl [S1]
    · iexists _; iexact S1
    isplitl [S2]
    · iexists _; iexact S2
    iexists _; iexact S3

set_option maxHeartbeats 4000000 in
/-- LAST TILE. On whole staging buffers holding the tile's key and value blocks (and the query block, unread), the
    output buffer at anything and the scratch buffers at the carried state `xs·`, the body runs to the end, leaves the
    inputs as they were and the output buffer with the pieces `L3` written; the scratch buffers end at some contents. -/
noncomputable def kernelRun2_B (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : ¬cond2_0 i) (hc1 : k2_cond2 i = 1#1)
    (x0 : Vec F S1x1x2048x64 .f32) (x1 x2 : Vec F S1x1x1024x64 .f32)
    (xs0 : Vec F S2048x64 .bf16) (xs1 xs2 : Vec F S2048x1 .f32) (xs3 : Vec F S2048x64 .f32) :
    { L3 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) scM2_0 fullShare xs0 ∗ owns (c : Thread nD τ) scM2_1 fullShare xs1
            ∗ owns (c : Thread nD τ) scM2_2 fullShare xs2 ∗ owns (c : Thread nD τ) scM2_3 fullShare xs3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) scM2_0 fullShare d) ∗ (∃ d, owns (c : Thread nD τ) scM2_1 fullShare d)
                ∗ (∃ d, owns (c : Thread nD τ) scM2_2 fullShare d) ∗ (∃ d, owns (c : Thread nD τ) scM2_3 fullShare d)) -∗ K ⟨⟩))
          ⊢ wp frame (wpE (defs₀ (F := F)) Variants.none c none) E
              (cc2__flash_kernel i arg2 harg2 arg3 harg3 arg4 harg4 arg5 harg5 scM2_0 hsc2_0 scM2_1 hsc2_1 scM2_2 hsc2_2 scM2_3 hsc2_3) K } := by
  refine ⟨?_, fun E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%d3, %f3, -, H3⟩, ⟨%f4, %hf4, S0⟩, ⟨%f5, %hf5, S1⟩, ⟨%f6, %hf6, S2⟩, ⟨%f7, %hf7, S3⟩, Hk⟩
    obtain rfl := harg2.eq_unread hf0; obtain rfl := harg3.eq_unread hf1; obtain rfl := harg4.eq_unread hf2
    obtain rfl := hsc2_0.eq_unread hf4; obtain rfl := hsc2_1.eq_unread hf5; obtain rfl := hsc2_2.eq_unread hf6; obtain rfl := hsc2_3.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [S0]
    · iexists _, _; isplitr
      swap; · iexact S0
      ipureintro; rfl
    isplitl [S1]
    · iexists _, _; isplitr
      swap; · iexact S1
      ipureintro; rfl
    isplitl [S2]
    · iexists _, _; isplitr
      swap; · iexact S2
      ipureintro; rfl
    iexists _, _; isplitr
    swap; · iexact S3
    ipureintro; rfl

end Cert.Kernel.Frm

end
-- ==== Proof.BFrame2.lean ====
/-
  Region 2 (rows of 2048 tokens, two key tiles of 1024): the proof data of its pipeline and the body obligation.
  Grid points come in pairs: the even point of a pair is a row's first tile, the odd point its last. Between the two
  the scratch buffers carry the scaled query tile and the running maximum, denominator and numerator; the region's
  invariant names those contents before every odd point. The output block is stored, and written back, at odd points.
-/
import proofs.«143665_j77000173683359_2_alg».proof.Proof.Gen.Kernel.Launch
import proofs.«143665_j77000173683359_2_alg».proof.Proof.Gen.Kernel.Skeleton
import proofs.«143665_j77000173683359_2_alg».proof.Proof.Gen.Kernel.Points
import proofs.«143665_j77000173683359_2_alg».proof.Proof.BBodyVal
import proofs.«143665_j77000173683359_2_alg».proof.Proof.BRun2
import proofs.«143665_j77000173683359_2_alg».proof.Proof.BFrmCommon
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.BodyVal

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point (the query block is fetched at a
    row's first tile only and stays in place for the second). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .vmem S1x1x2048x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1024x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x64 .f32 := win2_3.stage (cfg2.slots t 3)
abbrev hs2_3 (t : Fin cfg2.N) : (ms2_3 t).IsWhole := hstage2_3 ((cfg2.slots t 3).cast nbuf2_3)

/-! ## What the first tile leaves in the scratch buffers, what the last tile leaves in the output buffer -/

theorem scover2_A_0 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (y : S2048x64.Idx) :
    ∃ pc ∈ (kernelRun2_A c i arg2 harg2 arg3 harg3 arg4 harg4 arg5 harg5 hc0 hc1 x0 x1 x2).1, y ∈ pc.1.set :=
  View.cover_of_tiledL (kernelRun2_A c i arg2 harg2 arg3 harg3 arg4 harg4 arg5 harg5 hc0 hc1 x0 x1 x2).1 S2048x64.size (by sl_kernel_rfl) y
theorem scover2_A_1 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (y : S2048x1.Idx) :
    ∃ pc ∈ (kernelRun2_A c i arg2 harg2 arg3 harg3 arg4 harg4 arg5 harg5 hc0 hc1 x0 x1 x2).2.1, y ∈ pc.1.set :=
  View.cover_of_tiledL (kernelRun2_A c i arg2 harg2 arg3 harg3 arg4 harg4 arg5 harg5 hc0 hc1 x0 x1 x2).2.1 S2048x1.size (by sl_kernel_rfl) y
theorem scover2_A_2 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (y : S2048x1.Idx) :
    ∃ pc ∈ (kernelRun2_A c i arg2 harg2 arg3 harg3 arg4 harg4 arg5 harg5 hc0 hc1 x0 x1 x2).2.2.1, y ∈ pc.1.set :=
  View.cover_of_tiledL (kernelRun2_A c i arg2 harg2 arg3 harg3 arg4 harg4 arg5 harg5 hc0 hc1 x0 x1 x2).2.2.1 S2048x1.size (by sl_kernel_rfl) y
theorem scover2_A_3 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (y : S2048x64.Idx) :
    ∃ pc ∈ (kernelRun2_A c i arg2 harg2 arg3 harg3 arg4 harg4 arg5 harg5 hc0 hc1 x0 x1 x2).2.2.2.1, y ∈ pc.1.set :=
  View.cover_of_tiledL (kernelRun2_A c i arg2 harg2 arg3 harg3 arg4 harg4 arg5 harg5 hc0 hc1 x0 x1 x2).2.2.2.1 S2048x64.size (by sl_kernel_rfl) y

theorem sval2_A_0 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (f : BufTy.Contents (Elt F) scM2_0.view.ty) :
    scM2_0.view.read (Elt F) (scM2_0.view.writes (Elt F) f (kernelRun2_A c i arg2 harg2 arg3 harg3 arg4 harg4 arg5 harg5 hc0 hc1 x0 x1 x2).1) = qs2 x0 := by
  rw [View.read_writes_eq_canon _ _ _ (scover2_A_0 c i arg2 harg2 arg3 harg3 arg4 harg4 arg5 harg5 hc0 hc1 x0 x1 x2)]
  unfold kernelRun2_A
  dsimp only
  sl_unfold_run_names
  rw [View.canon_cons_unit_zero hz2]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl
theorem sval2_A_1 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (f : BufTy.Contents (Elt F) scM2_1.view.ty) :
    scM2_1.view.read (Elt F) (scM2_1.view.writes (Elt F) f (kernelRun2_A c i arg2 harg2 arg3 harg3 arg4 harg4 arg5 harg5 hc0 hc1 x0 x1 x2).2.1) = mA x0 x1 := by
  rw [View.read_writes_eq_canon _ _ _ (scover2_A_1 c i arg2 harg2 arg3 harg3 arg4 harg4 arg5 harg5 hc0 hc1 x0 x1 x2)]
  unfold kernelRun2_A
  dsimp only
  sl_unfold_run_names
  rw [View.canon_cons_unit_zero hz2]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl
theorem sval2_A_2 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (f : BufTy.Contents (Elt F) scM2_2.view.ty) :
    scM2_2.view.read (Elt F) (scM2_2.view.writes (Elt F) f (kernelRun2_A c i arg2 harg2 arg3 harg3 arg4 harg4 arg5 harg5 hc0 hc1 x0 x1 x2).2.2.1) = lA x0 x1 := by
  rw [View.read_writes_eq_canon _ _ _ (scover2_A_2 c i arg2 harg2 arg3 harg3 arg4 harg4 arg5 harg5 hc0 hc1 x0 x1 x2)]
  unfold kernelRun2_A
  dsimp only
  sl_unfold_run_names
  rw [View.canon_cons_unit_zero hz2]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl
theorem sval2_A_3 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (f : BufTy.Contents (Elt F) scM2_3.view.ty) :
    scM2_3.view.read (Elt F) (scM2_3.view.writes (Elt F) f (kernelRun2_A c i arg2 harg2 arg3 harg3 arg4 harg4 arg5 harg5 hc0 hc1 x0 x1 x2).2.2.2.1) = accA x0 x1 x2 := by
  rw [View.read_writes_eq_canon _ _ _ (scover2_A_3 c i arg2 harg2 arg3 harg3 arg4 harg4 arg5 harg5 hc0 hc1 x0 x1 x2)]
  unfold kernelRun2_A
  dsimp only
  sl_unfold_run_names
  rw [View.canon_cons_unit_zero hz2]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl

theorem cover2_B_3 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : ¬cond2_0 i) (hc1 : k2_cond2 i = 1#1) (x0 : Vec F S1x1x2048x64 .f32) (x1 x2 : Vec F S1x1x1024x64 .f32)
    (xs0 : Vec F S2048x64 .bf16) (xs1 xs2 : Vec F S2048x1 .f32) (xs3 : Vec F S2048x64 .f32) (y : S1x2048x64.Idx) :
    ∃ pc ∈ (kernelRun2_B c i arg2 harg2 arg3 harg3 arg4 harg4 arg5 harg5 hc0 hc1 x0 x1 x2 xs0 xs1 xs2 xs3).1, y ∈ pc.1.set :=
  View.cover_of_tiledL (kernelRun2_B c i arg2 harg2 arg3 harg3 arg4 harg4 arg5 harg5 hc0 hc1 x0 x1 x2 xs0 xs1 xs2 xs3).1 S1x2048x64.size (by sl_kernel_rfl) y

/-- The block stored at a row's last tile: the quotient of the numerator and denominator continued from the carried
    state over the tile's keys and values. -/
theorem out2_val (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : ¬cond2_0 i) (hc1 : k2_cond2 i = 1#1) (x0 : Vec F S1x1x2048x64 .f32) (x1 x2 : Vec F S1x1x1024x64 .f32)
    (xs0 : Vec F S2048x64 .bf16) (xs1 xs2 : Vec F S2048x1 .f32) (xs3 : Vec F S2048x64 .f32) (f : BufTy.Contents (Elt F) arg5.view.ty) :
    arg5.view.read (Elt F) (arg5.view.writes (Elt F) f (kernelRun2_B c i arg2 harg2 arg3 harg3 arg4 harg4 arg5 harg5 hc0 hc1 x0 x1 x2 xs0 xs1 xs2 xs3).1)
      = k2_pay3 (acc2 xs0 xs1 xs3 x1 x2) (l2 xs0 xs1 xs2 x1) := by
  rw [View.read_writes_eq_canon _ _ _ (cover2_B_3 c i arg2 harg2 arg3 harg3 arg4 harg4 arg5 harg5 hc0 hc1 x0 x1 x2 xs0 xs1 xs2 xs3)]
  unfold kernelRun2_B
  dsimp only
  sl_unfold_run_names
  rw [View.canon_cons_unit_zero hz3]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl

/-! ## The carried state and the invariant -/

/-- The point before `t`: for an odd `t`, the first tile of the row whose last tile `t` is. -/
def prev2 (t : Fin cfg2.N) : Fin cfg2.N := ⟨t.val - 1, Nat.lt_of_le_of_lt (Nat.sub_le _ _) t.isLt⟩

/-- What the first tile at point `t` leaves in the four scratch buffers: the scaled query tile, and the maximum,
    denominator and numerator after that one tile. -/
def st2_0 (c : Dev nD) (t : Fin cfg2.N) : Vec F S2048x64 .bf16 := qs2 (iblk2 V c 0 t)
def st2_1 (c : Dev nD) (t : Fin cfg2.N) : Vec F S2048x1 .f32 := mA (iblk2 V c 0 t) (iblk2 V c 1 t)
def st2_2 (c : Dev nD) (t : Fin cfg2.N) : Vec F S2048x1 .f32 := lA (iblk2 V c 0 t) (iblk2 V c 1 t)
def st2_3 (c : Dev nD) (t : Fin cfg2.N) : Vec F S2048x64 .f32 := accA (iblk2 V c 0 t) (iblk2 V c 1 t) (iblk2 V c 2 t)

/-- The scoped buffers other than this region's scratch. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2, cc2_scratch3]

/-- The invariant between a row's two tiles: the scratch buffers at what the first tile (point `t`) left, the other
    scoped buffers and the generator register untouched. -/
def carried2 (c : Dev nD) (t : Fin cfg2.N) : sProp 𝕄 :=
  iprop(iprop(owns (c : Thread nD τ) scM2_0 fullShare (st2_0 V c t) ∗ owns (c : Thread nD τ) scM2_1 fullShare (st2_1 V c t)
      ∗ owns (c : Thread nD τ) scM2_2 fullShare (st2_2 V c t) ∗ owns (c : Thread nD τ) scM2_3 fullShare (st2_3 V c t))
    ∗ restBut2 c ∗ (∃ r, prngReg c r))

/-- The region invariant before position `n`: before an even position (a row's first tile, and the end) nothing is
    named; before an odd position the scratch buffers hold what the tile before left. -/
def PhiS2 (c : Dev nD) : (n : ℕ) → n ≤ cfg2.N → sProp 𝕄
  | 0, _ => Pipeline.ΦA spec2 c
  | n + 1, hn => if n % 2 = 0 then carried2 V c ⟨n, hn⟩ else Pipeline.ΦA spec2 c

theorem PhiS2_even (c : Dev nD) (n : ℕ) (h : n ≤ cfg2.N) (he : n % 2 = 0) : PhiS2 V c n h = Pipeline.ΦA spec2 c := by
  cases n with
  | zero => rfl
  | succ k => exact if_neg (by omega)

theorem PhiS2_odd (c : Dev nD) (t : Fin cfg2.N) (ho : t.val % 2 = 1) :
    PhiS2 V c t.val (Nat.le_of_lt t.isLt) = carried2 V c (prev2 t) := by
  obtain ⟨n, hn⟩ := t
  cases n with
  | zero => exact absurd ho (by show ¬ (0 % 2 = 1); decide)
  | succ k => exact (if_pos (by dsimp only at ho; omega)).trans rfl

/-! ## The pipeline's proof data -/

/-- The proof data of region 2's pipeline on core `c`: the arrays as the region finds them; after the body at point
    `t` each input's buffer at its block, the output's at the attention block of the row whose tiles are the points
    `t - 1` and `t` (named at every point; it is stored, and written back, at the odd ones); the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 (prev2 t)) (iblk2 V c 1 (prev2 t)) (iblk2 V c 2 (prev2 t)) (iblk2 V c 1 t) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 (prev2 t)) (iblk2 V c 1 (prev2 t)) (iblk2 V c 2 (prev2 t)) (iblk2 V c 1 t) (iblk2 V c 2 t) := by
  dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi2_castSucc (c : Dev nD) (t : Fin cfg2.N) :
    (dat2 V c).Φ t.castSucc = PhiS2 V c t.val (Nat.le_of_lt t.isLt) := by
  dsimp only [dat2]; simp only [Fin.coe_castSucc]
theorem Phi2_succ (c : Dev nD) (t : Fin cfg2.N) :
    (dat2 V c).Φ t.succ = (if t.val % 2 = 0 then carried2 V c t else Pipeline.ΦA spec2 c) := rfl

/-- The input windows are live everywhere; the output window is idle, and not written back, at even points and live
    at odd points. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem idleAt2_3 : ∀ t : Fin cfg2.N, t.val % 2 = 0 → cfg2.idle 3 (grid2.coords t) = true :=
  (by decide +kernel : ∀ t : Fin grid2.N, t.val % 2 = 0 → cfg2.idle 3 (grid2.coords t) = true)
theorem noFlush2_3 : ∀ t : Fin cfg2.N, t.val % 2 = 0 → (cfg2.win 3).flush t = false :=
  (by decide +kernel : ∀ t : Fin grid2.N, t.val % 2 = 0 → win2_3.flush t = false)
theorem liveAt2_3 : ∀ t : Fin cfg2.N, t.val % 2 = 1 → cfg2.idle 3 (grid2.coords t) = false :=
  (by decide +kernel : ∀ t : Fin grid2.N, t.val % 2 = 1 → cfg2.idle 3 (grid2.coords t) = false)

theorem scratch2_0 (c : Dev nD) : (iprop(∃ f : Buf (Elt F) ((c : Thread nD τ).loc cc2_scratch0), ((c : Thread nD τ).loc cc2_scratch0) ↦{fullShare} f) : sProp 𝕄)
    = iprop(∃ d, owns (c : Thread nD τ) scM2_0 fullShare d) := by simp only [scM2_0, owns_whole]; try rfl
theorem scratch2_1 (c : Dev nD) : (iprop(∃ f : Buf (Elt F) ((c : Thread nD τ).loc cc2_scratch1), ((c : Thread nD τ).loc cc2_scratch1) ↦{fullShare} f) : sProp 𝕄)
    = iprop(∃ d, owns (c : Thread nD τ) scM2_1 fullShare d) := by simp only [scM2_1, owns_whole]; try rfl
theorem scratch2_2 (c : Dev nD) : (iprop(∃ f : Buf (Elt F) ((c : Thread nD τ).loc cc2_scratch2), ((c : Thread nD τ).loc cc2_scratch2) ↦{fullShare} f) : sProp 𝕄)
    = iprop(∃ d, owns (c : Thread nD τ) scM2_2 fullShare d) := by simp only [scM2_2, owns_whole]; try rfl
theorem scratch2_3 (c : Dev nD) : (iprop(∃ f : Buf (Elt F) ((c : Thread nD τ).loc cc2_scratch3), ((c : Thread nD τ).loc cc2_scratch3) ↦{fullShare} f) : sProp 𝕄)
    = iprop(∃ d, owns (c : Thread nD τ) scM2_3 fullShare d) := by simp only [scM2_3, owns_whole]; try rfl

/-- The class invariant with this region's scratch buffers split off. -/
theorem PhiA2_eq (c : Dev nD) : (Pipeline.ΦA spec2 c : sProp 𝕄)
    = iprop(iprop(iprop((∃ d, owns (c : Thread nD τ) scM2_0 fullShare d) ∗ (∃ d, owns (c : Thread nD τ) scM2_1 fullShare d)
        ∗ (∃ d, owns (c : Thread nD τ) scM2_2 fullShare d) ∗ (∃ d, owns (c : Thread nD τ) scM2_3 fullShare d)) ∗ restBut2 c) ∗ (∃ r, prngReg c r)) := by
  unfold Pipeline.ΦA; rw [scopedRest2_split, scratch2_0, scratch2_1, scratch2_2, scratch2_3]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 8000000 in
/-- The body at any point, by the parity of the point: at a row's first tile the scratch buffers come out of the
    class invariant at anything and go back named; at its last tile they come in named and go back at anything, and the
    output buffer ends at the row's attention block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl, Phi2_succ, Phi2_castSucc]
  rw [show (dat2 V c).leavesExact 0 t = owns (c : Thread nD τ) (ms2_0 t) fullShare ((dat2 V c).after 0 t) from by
        unfold Dat.leavesExact; rw [liveAt2_0 t],
    show (dat2 V c).leavesExact 1 t = owns (c : Thread nD τ) (ms2_1 t) fullShare ((dat2 V c).after 1 t) from by
        unfold Dat.leavesExact; rw [liveAt2_1 t],
    show (dat2 V c).leavesExact 2 t = owns (c : Thread nD τ) (ms2_2 t) fullShare ((dat2 V c).after 2 t) from by
        unfold Dat.leavesExact; rw [liveAt2_2 t],
    after2_0, after2_1, after2_2]
  have hN : t.val < 128 := lt_of_lt_of_eq t.isLt (show cfg2.N = 128 from N_2)
  by_cases h0 : t.val % 2 = 0
  · rw [if_pos h0, PhiS2_even V c _ _ h0, PhiA2_eq,
      Dat.leavesExact_idle (dat2 V c) 3 t (idleAt2_3 t h0) (noFlush2_3 t h0)]
    unfold carried2
    iintro ⟨⟨⟨⟨S0, S1, S2, S3⟩, Hrest⟩, Hg⟩, Ho, ⟨%d0, H0⟩, ⟨%d1, H1⟩, ⟨%d2, H2⟩, ⟨%d3, H3⟩⟩
    iapply ((kernelRun2_A c (grid2.coords t) _ _ _ _ _ _ _ _ ((hcond2_0 t).mpr h0) (fun h => by have := (hcond2_1 t).mp h; omega)
      (iblk2 V c 0 t) (iblk2 V c 1 t) (iblk2 V c 2 t)).2.2.2.2 _ Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iintro ⟨H0, H1, H2, H3, ⟨%e0, S0⟩, ⟨%e1, S1⟩, ⟨%e2, S2⟩, ⟨%e3, S3⟩⟩
    isplitl [S0 S1 S2 S3 Hrest Hg]
    · isplitl [S0 S1 S2 S3]
      · isplitl [S0]
        · unfold owns; iexists _; isplitr
          swap; · iexact S0
          ipureintro; exact sval2_A_0 c _ _ _ _ _ _ _ _ _ _ _ _ _ _ _
        isplitl [S1]
        · unfold owns; iexists _; isplitr
          swap; · iexact S1
          ipureintro; exact sval2_A_1 c _ _ _ _ _ _ _ _ _ _ _ _ _ _ _
        isplitl [S2]
        · unfold owns; iexists _; isplitr
          swap; · iexact S2
          ipureintro; exact sval2_A_2 c _ _ _ _ _ _ _ _ _ _ _ _ _ _ _
        unfold owns; iexists _; isplitr
        swap; · iexact S3
        ipureintro; exact sval2_A_3 c _ _ _ _ _ _ _ _ _ _ _ _ _ _ _
      isplitl [Hrest]; · iexact Hrest
      iexact Hg
    isplitl [Ho]; · iexact Ho
    isplitl [H0]; · iexact H0
    isplitl [H1]; · iexact H1
    isplitl [H2]; · iexact H2
    iexists _; iexact H3
  · have h1 : t.val % 2 = 1 := by omega
    rw [if_neg h0, PhiS2_odd V c t h1, PhiA2_eq,
      show (dat2 V c).leavesExact 3 t = owns (c : Thread nD τ) (ms2_3 t) fullShare ((dat2 V c).after 3 t) from by
        unfold Dat.leavesExact; rw [liveAt2_3 t h1],
      after2_3]
    unfold carried2
    iintro ⟨⟨⟨S0, S1, S2, S3⟩, Hrest, Hg⟩, Ho, ⟨%d0, H0⟩, ⟨%d1, H1⟩, ⟨%d2, H2⟩, ⟨%d3, H3⟩⟩
    iapply ((kernelRun2_B c (grid2.coords t) _ _ _ _ _ _ _ _ (fun h => h0 ((hcond2_0 t).mp h)) ((hcond2_1 t).mpr h1)
      (iblk2 V c 0 t) (iblk2 V c 1 t) (iblk2 V c 2 t)
      (st2_0 V c (prev2 t)) (st2_1 V c (prev2 t)) (st2_2 V c (prev2 t)) (st2_3 V c (prev2 t))).2 Set.univ _)
    isplitl [H0]; · iexact H0
    isplitl [H1]; · iexact H1
    isplitl [H2]; · iexact H2
    isplitl [H3]; · iexists _; iexact H3
    isplitl [S0]; · iexact S0
    isplitl [S1]; · iexact S1
    isplitl [S2]; · iexact S2
    isplitl [S3]; · iexact S3
    iintro ⟨H0, H1, H2, ⟨%e3, H3⟩, S0, S1, S2, S3⟩
    isplitl [S0 S1 S2 S3 Hrest Hg]
    · isplitl [S0 S1 S2 S3 Hrest]
      · isplitl [S0 S1 S2 S3]
        · isplitl [S0]; · iexact S0
          isplitl [S1]; · iexact S1
          isplitl [S2]; · iexact S2
          iexact S3
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact out2_val c _ _ _ _ _ _ _ _ _ _ _ _ _ _ _ _ _ _ _

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, and the invariant after the last point
    (an even position) gives it back. -/
theorem hin2 (c : Dev nD) : (dat2 V c).Φ 0 = Pipeline.ΦA spec2 c := rfl
theorem hout2 (c : Dev nD) : (dat2 V c).Φ (Fin.last cfg2.N) = Pipeline.ΦA spec2 c := by
  rw [show (dat2 V c).Φ (Fin.last cfg2.N) = PhiS2 V c (Fin.last cfg2.N).val (Nat.le_of_lt_succ (Fin.last cfg2.N).isLt) from rfl]
  exact PhiS2_even V c _ _ (by rw [Fin.val_last, show cfg2.N = 128 from N_2])

end Region

end Cert.Kernel.Frm

end
-- ==== Proof.BChain.lean ====
/-
  The run of the whole program: region 0, two host lines, region 1, two host lines, region 2, three host lines (the
  last a concatenation of the three chunk results). The buffer contents at each boundary are a fold from the launch
  memory: a region replaces its arrays by what its pipeline leaves, a host stretch applies its operations. Every
  weakly fair execution terminates with every unscoped buffer at the last contents of that fold.
-/
import proofs.«143665_j77000173683359_2_alg».proof.Proof.Gen.Kernel.Launch
import proofs.«143665_j77000173683359_2_alg».proof.Proof.Gen.Kernel.Skeleton
import proofs.«143665_j77000173683359_2_alg».proof.Proof.Gen.Kernel.Points
import proofs.«143665_j77000173683359_2_alg».proof.Proof.Gen.Kernel.Regions
import proofs.«143665_j77000173683359_2_alg».proof.Proof.BFrame0
import proofs.«143665_j77000173683359_2_alg».proof.Proof.BFrame1
import proofs.«143665_j77000173683359_2_alg».proof.Proof.BFrame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- At region 0's exit: its arrays at what the pipeline leaves (each output's write-backs folded), every other buffer
    as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- An argument array staged by an input window comes out of the region as it went in. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (U0 m ρ) c).arrAt_in w hw _).trans (A_eq0 (U0 m ρ) c w))

/-- After the two host lines that follow region 0: region 1's entry. -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b

/-- At region 1's exit: its arrays at what the pipeline leaves (each output's write-backs folded), every other buffer
    as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- An argument array staged by an input window comes out of the region as it went in. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (U2 m ρ) c).arrAt_in w hw _).trans (A_eq1 (U2 m ρ) c w))

/-- After the two host lines that follow region 1: region 2's entry. -/
abbrev W4 : Dev nD → Valuation τ sig (Elt F) := fun c => StableHlo.after hostOps2 (W3 m ρ c)
abbrev U4 : (c : Dev nD) → (b : Ref sig .tc) → Buf (Elt F) ((c : Thread nD τ).loc b) := fun c b => W4 m ρ c b

/-- At region 2's exit: its arrays at what the pipeline leaves (each output's write-backs folded), every other buffer
    as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)
/-- An argument array staged by an input window comes out of the region as it went in. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (U4 m ρ) c).arrAt_in w hw _).trans (A_eq2 (U4 m ρ) c w))

/-- After the three host lines that follow region 2: the end. -/
abbrev W6 : Dev nD → Valuation τ sig (Elt F) := fun c => StableHlo.after hostOps3 (W5 m ρ c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
  | ⟨2, _⟩ => fun c => dat2 (U4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at `W0`, left at `W1`. Its arrays are split out of the
    unscoped buffers and put back at the exit contents; the generator register goes into the invariant and out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W2`, left at `W3`. Its arrays are split out of the
    unscoped buffers and put back at the exit contents; the generator register goes into the invariant and out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W4`, left at `W5`. Its arrays are split out of the
    unscoped buffers and put back at the exit contents; the generator register goes into the invariant and out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from hin2 (U4 m ρ) c]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from hout2 (U4 m ρ) c]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and the final memory holds every unscoped buffer at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Frm

end
-- ==== Proof.BArgs.lean ====
/-
  What the fold of buffer contents says of the buffers the claims name: no host line and no region writes an argument
  array, so each reaches the end (and every region's entry) as launched; and the result buffer ends at the
  concatenation, along the token axis, of the three chunk results, each the region's output array re-laid by the two
  host lines that follow the region.
-/
import proofs.«143665_j77000173683359_2_alg».proof.Proof.Gen.Kernel.Launch
import proofs.«143665_j77000173683359_2_alg».proof.Proof.Gen.Kernel.Skeleton
import proofs.«143665_j77000173683359_2_alg».proof.Proof.Gen.Kernel.Points
import proofs.«143665_j77000173683359_2_alg».proof.Proof.BChain
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays through the fold -/

theorem W1_arg0 (c : Dev nD) : W1 m ρ c (Proc.devRef .tc main_arg0) = m ((c : Thread nD τ).loc main_arg0) := W1_in m ρ c 0 rfl
theorem W1_arg1 (c : Dev nD) : W1 m ρ c (Proc.devRef .tc main_arg1) = m ((c : Thread nD τ).loc main_arg1) := W1_in m ρ c 1 rfl
theorem W1_arg2 (c : Dev nD) : W1 m ρ c (Proc.devRef .tc main_arg2) = m ((c : Thread nD τ).loc main_arg2) := W1_in m ρ c 2 rfl
theorem W2_arg0 (c : Dev nD) : W2 m ρ c (Proc.devRef .tc main_arg0) = m ((c : Thread nD τ).loc main_arg0) :=
  (StableHlo.after_of_writes_sub hostOps1 _ hostOps1_writes (by decide)).trans (W1_arg0 m ρ c)
theorem W2_arg1 (c : Dev nD) : W2 m ρ c (Proc.devRef .tc main_arg1) = m ((c : Thread nD τ).loc main_arg1) :=
  (StableHlo.after_of_writes_sub hostOps1 _ hostOps1_writes (by decide)).trans (W1_arg1 m ρ c)
theorem W2_arg2 (c : Dev nD) : W2 m ρ c (Proc.devRef .tc main_arg2) = m ((c : Thread nD τ).loc main_arg2) :=
  (StableHlo.after_of_writes_sub hostOps1 _ hostOps1_writes (by decide)).trans (W1_arg2 m ρ c)
theorem W3_arg0 (c : Dev nD) : W3 m ρ c (Proc.devRef .tc main_arg0) = m ((c : Thread nD τ).loc main_arg0) := (W3_in m ρ c 0 rfl).trans (W2_arg0 m ρ c)
theorem W3_arg1 (c : Dev nD) : W3 m ρ c (Proc.devRef .tc main_arg1) = m ((c : Thread nD τ).loc main_arg1) := (W3_in m ρ c 1 rfl).trans (W2_arg1 m ρ c)
theorem W3_arg2 (c : Dev nD) : W3 m ρ c (Proc.devRef .tc main_arg2) = m ((c : Thread nD τ).loc main_arg2) := (W3_in m ρ c 2 rfl).trans (W2_arg2 m ρ c)
theorem W4_arg0 (c : Dev nD) : W4 m ρ c (Proc.devRef .tc main_arg0) = m ((c : Thread nD τ).loc main_arg0) :=
  (StableHlo.after_of_writes_sub hostOps2 _ hostOps2_writes (by decide)).trans (W3_arg0 m ρ c)
theorem W4_arg1 (c : Dev nD) : W4 m ρ c (Proc.devRef .tc main_arg1) = m ((c : Thread nD τ).loc main_arg1) :=
  (StableHlo.after_of_writes_sub hostOps2 _ hostOps2_writes (by decide)).trans (W3_arg1 m ρ c)
theorem W4_arg2 (c : Dev nD) : W4 m ρ c (Proc.devRef .tc main_arg2) = m ((c : Thread nD τ).loc main_arg2) :=
  (StableHlo.after_of_writes_sub hostOps2 _ hostOps2_writes (by decide)).trans (W3_arg2 m ρ c)
theorem W5_arg0 (c : Dev nD) : W5 m ρ c (Proc.devRef .tc main_arg0) = m ((c : Thread nD τ).loc main_arg0) := (W5_in m ρ c 0 rfl).trans (W4_arg0 m ρ c)
theorem W5_arg1 (c : Dev nD) : W5 m ρ c (Proc.devRef .tc main_arg1) = m ((c : Thread nD τ).loc main_arg1) := (W5_in m ρ c 1 rfl).trans (W4_arg1 m ρ c)
theorem W5_arg2 (c : Dev nD) : W5 m ρ c (Proc.devRef .tc main_arg2) = m ((c : Thread nD τ).loc main_arg2) := (W5_in m ρ c 2 rfl).trans (W4_arg2 m ρ c)
theorem W6_arg0 (c : Dev nD) : W6 m ρ c (Proc.devRef .tc main_arg0) = m ((c : Thread nD τ).loc main_arg0) :=
  (StableHlo.after_of_writes_sub hostOps3 _ hostOps3_writes (by decide)).trans (W5_arg0 m ρ c)
theorem W6_arg1 (c : Dev nD) : W6 m ρ c (Proc.devRef .tc main_arg1) = m ((c : Thread nD τ).loc main_arg1) :=
  (StableHlo.after_of_writes_sub hostOps3 _ hostOps3_writes (by decide)).trans (W5_arg1 m ρ c)
theorem W6_arg2 (c : Dev nD) : W6 m ρ c (Proc.devRef .tc main_arg2) = m ((c : Thread nD τ).loc main_arg2) :=
  (StableHlo.after_of_writes_sub hostOps3 _ hostOps3_writes (by decide)).trans (W5_arg2 m ρ c)

/-- THE FRAME: every weakly fair execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_arg0 m ρ c),
     (h c _ (mem_uc main_arg1 (by decide))).trans (W6_arg1 m ρ c),
     (h c _ (mem_uc main_arg2 (by decide))).trans (W6_arg2 m ρ c)⟩) (run_all m ρ)

/-! ## The result buffer through the fold -/

/-- The two host lines after a region: the region's output array re-laid as `[8, 16384, 64]` and given a leading
    unit axis. -/
theorem W2_v2 (c : Dev nD) : W2 m ρ c (Proc.devRef .tc main_v2)
    = broadcastInDim S1x8x16384x64 ![1, 2, 3] bcast_S8x16384x64_S1x8x16384x64_1_2_3
        (shapeCast S8x16384x64 ((dat0 (U0 m ρ) c).arrAt 3 cfg0.N) shapeCasts_S256x512x64_S8x16384x64) := by
  rw [← W1_arr m ρ c 3]
  show StableHlo.after hostOps1 (W1 m ρ c) (Proc.devRef .tc main_v2) = _
  after_results
  rfl
theorem W4_v5 (c : Dev nD) : W4 m ρ c (Proc.devRef .tc main_v5)
    = broadcastInDim S1x8x16384x64 ![1, 2, 3] bcast_S8x16384x64_S1x8x16384x64_1_2_3
        (shapeCast S8x16384x64 ((dat1 (U2 m ρ) c).arrAt 3 cfg1.N) shapeCasts_S128x1024x64_S8x16384x64) := by
  rw [← W3_arr m ρ c 3]
  show StableHlo.after hostOps2 (W3 m ρ c) (Proc.devRef .tc main_v5) = _
  after_results
  rfl
/-- A chunk result written before a later region is untouched by it and by the host lines after it. -/
theorem W5_v2 (c : Dev nD) : W5 m ρ c (Proc.devRef .tc main_v2) = W2 m ρ c (Proc.devRef .tc main_v2) :=
  (W5_of_ne m ρ c main_v2 (by decide)).trans ((StableHlo.after_of_writes_sub hostOps2 _ hostOps2_writes (by decide)).trans
    (W3_of_ne m ρ c main_v2 (by decide)))
theorem W5_v5 (c : Dev nD) : W5 m ρ c (Proc.devRef .tc main_v5) = W4 m ρ c (Proc.devRef .tc main_v5) :=
  W5_of_ne m ρ c main_v5 (by decide)
/-- The result buffer at the end: the three chunk results concatenated along the token axis. -/
theorem W6_v9 (c : Dev nD) : W6 m ρ c (Proc.devRef .tc main_v9)
    = concatenate S1x8x49152x64 2
        [⟨S1x8x16384x64, W5 m ρ c (Proc.devRef .tc main_v2)⟩, ⟨S1x8x16384x64, W5 m ρ c (Proc.devRef .tc main_v5)⟩,
         ⟨S1x8x16384x64, broadcastInDim S1x8x16384x64 ![1, 2, 3] bcast_S8x16384x64_S1x8x16384x64_1_2_3
            (shapeCast S8x16384x64 ((dat2 (U4 m ρ) c).arrAt 3 cfg2.N) shapeCasts_S64x2048x64_S8x16384x64)⟩]
        concatenates_S1x8x16384x64_S1x8x16384x64_S1x8x16384x64_S1x8x49152x64_d2 := by
  rw [← W5_arr m ρ c 3]
  show StableHlo.after hostOps3 (W5 m ρ c) (Proc.devRef .tc main_v9) = _
  after_results
  rfl

end Cert.Kernel.Frm

end
-- ==== Proof.BodyVal.lean ====
/-
  What one call of the streaming attention body computes, as pure functions of the blocks it reads, written over
  the kernels' named payloads: the scaled query tile, and from a carried state (running maximum `m`, running
  denominator `l`, running numerator `acc`) and a tile of keys and values the new maximum, denominator and numerator,
  and the quotient stored at a row's last tile. Region 0 works on rows of 512, region 1 on rows of 1024, region 2 on
  rows of 2048 in two tiles of 1024 keys.
-/
import proofs.«143665_j77000173683359_2_alg».proof.Proof.Gen.KernelIdeal.Skeleton

noncomputable section

namespace Cert.KernelIdeal.BodyVal

open Idealize.ShloMosaic Cert.KernelIdeal Cert.KernelIdeal.Gen

variable {F : FTy → Type} [FloatOps F]

/-! ## Rows of 512 -/
def qs0 (xq : Vec F S1x1x512x64 .f32) : Vec F S512x64 .bf16 := k0_pay7 xq
def m0 (qs : Vec F S512x64 .bf16) (m : Vec F S512x1 .f32) (xk : Vec F S1x1x512x64 .f32) : Vec F S512x1 .f32 :=
  k0_pay2 (k0_pay10 qs xk m)
def l0 (qs : Vec F S512x64 .bf16) (m l : Vec F S512x1 .f32) (xk : Vec F S1x1x512x64 .f32) : Vec F S512x1 .f32 :=
  k0_pay13 qs xk m l
def acc0 (qs : Vec F S512x64 .bf16) (m : Vec F S512x1 .f32) (acc : Vec F S512x64 .f32) (xk xv : Vec F S1x1x512x64 .f32) :
    Vec F S512x64 .f32 :=
  k0_pay1 (k0_pay8 xv) (k0_pay14 qs xk m acc) (k0_pay15 qs xk m)
/-- The block region 0 stores for a row of 512: one tile from the empty state. -/
def out0 (xq xk xv : Vec F S1x1x512x64 .f32) : Vec F S1x512x64 .f32 :=
  k0_pay3 (acc0 (qs0 xq) k0_pay4 k0_pay6 xk xv) (l0 (qs0 xq) k0_pay4 k0_pay5 xk)

/-! ## Rows of 1024 -/
def qs1 (xq : Vec F S1x1x1024x64 .f32) : Vec F S1024x64 .bf16 := k1_pay7 xq
def m1 (qs : Vec F S1024x64 .bf16) (m : Vec F S1024x1 .f32) (xk : Vec F S1x1x1024x64 .f32) : Vec F S1024x1 .f32 :=
  k1_pay2 (k1_pay10 qs xk m)
def l1 (qs : Vec F S1024x64 .bf16) (m l : Vec F S1024x1 .f32) (xk : Vec F S1x1x1024x64 .f32) : Vec F S1024x1 .f32 :=
  k1_pay13 qs xk m l
def acc1 (qs : Vec F S1024x64 .bf16) (m : Vec F S1024x1 .f32) (acc : Vec F S1024x64 .f32) (xk xv : Vec F S1x1x1024x64 .f32) :
    Vec F S1024x64 .f32 :=
  k1_pay1 (k1_pay8 xv) (k1_pay14 qs xk m acc) (k1_pay15 qs xk m)
/-- The block region 1 stores for a row of 1024: one tile from the empty state. -/
def out1 (xq xk xv : Vec F S1x1x1024x64 .f32) : Vec F S1x1024x64 .f32 :=
  k1_pay3 (acc1 (qs1 xq) k1_pay4 k1_pay6 xk xv) (l1 (qs1 xq) k1_pay4 k1_pay5 xk)

/-! ## Rows of 2048, two tiles of 1024 keys -/
def qs2 (xq : Vec F S1x1x2048x64 .f32) : Vec F S2048x64 .bf16 := k2_pay7 xq
def m2 (qs : Vec F S2048x64 .bf16) (m : Vec F S2048x1 .f32) (xk : Vec F S1x1x1024x64 .f32) : Vec F S2048x1 .f32 :=
  k2_pay2 (k2_pay10 qs xk m)
def l2 (qs : Vec F S2048x64 .bf16) (m l : Vec F S2048x1 .f32) (xk : Vec F S1x1x1024x64 .f32) : Vec F S2048x1 .f32 :=
  k2_pay13 qs xk m l
def acc2 (qs : Vec F S2048x64 .bf16) (m : Vec F S2048x1 .f32) (acc : Vec F S2048x64 .f32) (xk xv : Vec F S1x1x1024x64 .f32) :
    Vec F S2048x64 .f32 :=
  k2_pay1 (k2_pay8 xv) (k2_pay14 qs xk m acc) (k2_pay15 qs xk m)
/-- The state after the first tile of a row of 2048. -/
def mA (xq : Vec F S1x1x2048x64 .f32) (k₁ : Vec F S1x1x1024x64 .f32) : Vec F S2048x1 .f32 := m2 (qs2 xq) k2_pay4 k₁
def lA (xq : Vec F S1x1x2048x64 .f32) (k₁ : Vec F S1x1x1024x64 .f32) : Vec F S2048x1 .f32 := l2 (qs2 xq) k2_pay4 k2_pay5 k₁
def accA (xq : Vec F S1x1x2048x64 .f32) (k₁ v₁ : Vec F S1x1x1024x64 .f32) : Vec F S2048x64 .f32 :=
  acc2 (qs2 xq) k2_pay4 k2_pay6 k₁ v₁
/-- The block region 2 stores for a row of 2048 after its second tile. -/
def out2 (xq : Vec F S1x1x2048x64 .f32) (k₁ v₁ k₂ v₂ : Vec F S1x1x1024x64 .f32) : Vec F S1x2048x64 .f32 :=
  k2_pay3 (acc2 (qs2 xq) (mA xq k₁) (accA xq k₁ v₁) k₂ v₂) (l2 (qs2 xq) (mA xq k₁) (lA xq k₁) k₂)

end Cert.KernelIdeal.BodyVal

end
-- ==== Proof.Run0.lean ====
/-
  Region 0 (rows of 512 tokens): one call of the attention body on whole staging buffers. Every grid point of
  this region is both the first and the last key tile of its row, so both branches of the body are taken at every
  point: the body resets its carried state, processes the one tile and stores the normalised block.
-/
import proofs.«143665_j77000173683359_2_alg».proof.Proof.Gen.KernelIdeal.Launch
import proofs.«143665_j77000173683359_2_alg».proof.Proof.Gen.KernelIdeal.Skeleton
import proofs.«143665_j77000173683359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The branch "this is the row's first key tile", as the body computes it from the grid coordinates. -/
abbrev cond0_0 (i : grid0.Coords) : Prop :=
  (Scalar.cmpi .ne (Scalar.extui (Scalar.cmpi .eq (BitVec.ofNat 32 (i 1).val) 0#32)) 0#32) = 1#1
/-- Both branches hold at every point of the grid: the key axis has extent one. -/
theorem hcond0_0 : ∀ t : Fin cfg0.N, cond0_0 (grid0.coords t) :=
  (by decide +kernel : ∀ t : Fin grid0.N, cond0_0 (grid0.coords t))
theorem hcond0_1 : ∀ t : Fin cfg0.N, k0_cond2 (grid0.coords t) = 1#1 :=
  (by decide +kernel : ∀ t : Fin grid0.N, k0_cond2 (grid0.coords t) = 1#1)

/-- The four scratch buffers the body keeps its state in: the scaled query tile, the running maximum, the running
    denominator, the running numerator. -/
abbrev scM0_0 : Memref sig .tc .vmem S512x64 .bf16 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x64 .f32 := Memref.whole cc0_scratch3

set_option maxHeartbeats 4000000 in
/-- The body at a point where both branches are taken, on whole staging buffers holding the query, key and value
    blocks: it runs to the end, leaves the three input buffers as they were, and the output buffer with the pieces
    `L3` written; the scratch buffers end at some contents. -/
noncomputable def kernelRun0 (c : Dev nD) (i : grid0.Coords)
    (arg2 : Memref sig .tc .vmem S1x1x512x64 .f32) (harg2 : arg2.IsWhole) (arg3 : Memref sig .tc .vmem S1x1x512x64 .f32) (harg3 : arg3.IsWhole)
    (arg4 : Memref sig .tc .vmem S1x1x512x64 .f32) (harg4 : arg4.IsWhole) (arg5 : Memref sig .tc .vmem S1x512x64 .f32) (harg5 : arg5.IsWhole)
    (hc0 : cond0_0 i) (hc1 : k0_cond2 i = 1#1)
    (x0 x1 x2 : Vec F S1x1x512x64 .f32) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (∃ d, owns (c : Thread nD τ) scM0_0 fullShare d) ∗ (∃ d, owns (c : Thread nD τ) scM0_1 fullShare d)
            ∗ (∃ d, owns (c : Thread nD τ) scM0_2 fullShare d) ∗ (∃ d, owns (c : Thread nD τ) scM0_3 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) scM0_0 fullShare d) ∗ (∃ d, owns (c : Thread nD τ) scM0_1 fullShare d)
                ∗ (∃ d, owns (c : Thread nD τ) scM0_2 fullShare d) ∗ (∃ d, owns (c : Thread nD τ) scM0_3 fullShare d)) -∗ K ⟨⟩))
          ⊢ wp frame (wpE (defs₀ (F := F)) Variants.none c none) E
              (cc0__flash_kernel i arg2 harg2 arg3 harg3 arg4 harg4 arg5 harg5 scM0_0 (Memref.isWhole_whole _) scM0_1 (Memref.isWhole_whole _) scM0_2 (Memref.isWhole_whole _) scM0_3 (Memref.isWhole_whole _)) K } := by
  refine ⟨?_, fun E K => ?run⟩
  case run =>
    simp only [cc0__flash_kernel_eq_skeleton]; unfold cc0__flash_kernel_skel
    unfold owns
    iintro ⟨⟨%f0, %hf0, H0⟩, ⟨%f1, %hf1, H1⟩, ⟨%f2, %hf2, H2⟩, ⟨%d3, %f3, -, H3⟩, ⟨%d4, %f4, -, S0⟩, ⟨%d5, %f5, -, S1⟩, ⟨%d6, %f6, -, S2⟩, ⟨%d7, %f7, -, S3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [S0]
    · iexists _, _; isplitr
      swap; · iexact S0
      ipureintro; rfl
    isplitl [S1]
    · iexists _, _; isplitr
      swap; · iexact S1
      ipureintro; rfl
    isplitl [S2]
    · iexists _, _; isplitr
      swap; · iexact S2
      ipureintro; rfl
    iexists _, _; isplitr
    swap; · iexact S3
    ipureintro; rfl

end Cert.KernelIdeal.Frm

end
-- ==== Proof.FrmCommon.lean ====
/-
  Two facts about whole-buffer accesses shared by the three regions: the all-zero offset vectors, and that a load of
  a whole buffer after a list of stores whose LAST one wrote the whole buffer reads that store's value.
-/
import Idealize.ShloMosaic.Lib.Pipeline.FrameBody
import Idealize.ShloMosaic.Lib.Pipeline.Value

noncomputable section

namespace Cert.KernelIdeal.Frm

open Idealize.ShloMosaic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load of a whole buffer after stores the LAST of which wrote the whole buffer reads that store's value. -/
theorem readCov_cons_whole {S : Shape} {e : EltTy} {sg : RefSig} {κ : Kind} {sp : Space} (v : View sg κ sp S e) {off : Fin S.rank → Nat}
    (h : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.KernelIdeal.Frm

end
-- ==== Proof.Frame0.lean ====
/-
  Region 0 (rows of 512 tokens): the proof data of its pipeline and the body obligation. Each grid point is one
  (head, row) pair; the body reads the row's query, key and value blocks and stores the row's attention block, which
  the pipeline writes back at once. The scratch buffers are reset at every point, so nothing is carried.
-/
import proofs.«143665_j77000173683359_2_alg».proof.Proof.Gen.KernelIdeal.Launch
import proofs.«143665_j77000173683359_2_alg».proof.Proof.Gen.KernelIdeal.Skeleton
import proofs.«143665_j77000173683359_2_alg».proof.Proof.Gen.KernelIdeal.Points
import proofs.«143665_j77000173683359_2_alg».proof.Proof.BodyVal
import proofs.«143665_j77000173683359_2_alg».proof.Proof.Run0
import proofs.«143665_j77000173683359_2_alg».proof.Proof.FrmCommon
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.BodyVal

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it to the body. -/
abbrev ms0_0 (t : Fin cfg0.N) : Memref sig .tc .vmem S1x1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)

/-- The one store into the output buffer covers it. -/
theorem cover0_3 (c : Dev nD) (i : grid0.Coords)
    (arg2 : Memref sig .tc .vmem S1x1x512x64 .f32) (harg2 : arg2.IsWhole) (arg3 : Memref sig .tc .vmem S1x1x512x64 .f32) (harg3 : arg3.IsWhole)
    (arg4 : Memref sig .tc .vmem S1x1x512x64 .f32) (harg4 : arg4.IsWhole) (arg5 : Memref sig .tc .vmem S1x512x64 .f32) (harg5 : arg5.IsWhole)
    (hc0 : cond0_0 i) (hc1 : k0_cond2 i = 1#1) (x0 x1 x2 : Vec F S1x1x512x64 .f32) (y : S1x512x64.Idx) :
    ∃ pc ∈ (kernelRun0 c i arg2 harg2 arg3 harg3 arg4 harg4 arg5 harg5 hc0 hc1 x0 x1 x2).1, y ∈ pc.1.set :=
  View.cover_of_tiledL (kernelRun0 c i arg2 harg2 arg3 harg3 arg4 harg4 arg5 harg5 hc0 hc1 x0 x1 x2).1 S1x512x64.size (by sl_kernel_rfl) y

/-- The output buffer's contents after the body are the stored quotient block: the body's arithmetic as one pure
    function of the three input blocks. -/
theorem out0_val (c : Dev nD) (i : grid0.Coords)
    (arg2 : Memref sig .tc .vmem S1x1x512x64 .f32) (harg2 : arg2.IsWhole) (arg3 : Memref sig .tc .vmem S1x1x512x64 .f32) (harg3 : arg3.IsWhole)
    (arg4 : Memref sig .tc .vmem S1x1x512x64 .f32) (harg4 : arg4.IsWhole) (arg5 : Memref sig .tc .vmem S1x512x64 .f32) (harg5 : arg5.IsWhole)
    (hc0 : cond0_0 i) (hc1 : k0_cond2 i = 1#1) (x0 x1 x2 : Vec F S1x1x512x64 .f32) (f : BufTy.Contents (Elt F) arg5.view.ty) :
    arg5.view.read (Elt F) (arg5.view.writes (Elt F) f (kernelRun0 c i arg2 harg2 arg3 harg3 arg4 harg4 arg5 harg5 hc0 hc1 x0 x1 x2).1)
      = out0 x0 x1 x2 := by
  rw [View.read_writes_eq_canon _ _ _ (cover0_3 c i arg2 harg2 arg3 harg3 arg4 harg4 arg5 harg5 hc0 hc1 x0 x1 x2)]
  unfold kernelRun0
  dsimp only
  rw [View.canon_unit_zero hz3]
  sl_unfold_run_names
  simp only [readCov_cons_whole (S := S512x64) _ hz2, readCov_cons_whole (S := S512x1) _ hz2, View.readAt_eq_ld,
    harg2.read_unread, harg3.read_unread, harg4.read_unread, View.ld_unit_zero (S := S1x1x512x64) hz4]
  rfl

/-! ## The pipeline's proof data -/

/-- The proof data of region 0's pipeline on core `c`: the arrays as the region finds them; after the body at point
    `t` each input's buffer at its block and the output's at the attention block of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- No window is idle at any point of this grid: the output is stored at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false :=
  (by decide +kernel : ∀ t : Fin grid0.N, cfg0.idle 3 (grid0.coords t) = false)

/-- The scratch buffers held whole at some contents, in the form the body's run takes them. -/
theorem scratch0_0 (c : Dev nD) : (iprop(∃ f : Buf (Elt F) ((c : Thread nD τ).loc cc0_scratch0), ((c : Thread nD τ).loc cc0_scratch0) ↦{fullShare} f) : sProp 𝕄)
    = iprop(∃ d, owns (c : Thread nD τ) scM0_0 fullShare d) := by simp only [scM0_0, owns_whole]; try rfl
theorem scratch0_1 (c : Dev nD) : (iprop(∃ f : Buf (Elt F) ((c : Thread nD τ).loc cc0_scratch1), ((c : Thread nD τ).loc cc0_scratch1) ↦{fullShare} f) : sProp 𝕄)
    = iprop(∃ d, owns (c : Thread nD τ) scM0_1 fullShare d) := by simp only [scM0_1, owns_whole]; try rfl
theorem scratch0_2 (c : Dev nD) : (iprop(∃ f : Buf (Elt F) ((c : Thread nD τ).loc cc0_scratch2), ((c : Thread nD τ).loc cc0_scratch2) ↦{fullShare} f) : sProp 𝕄)
    = iprop(∃ d, owns (c : Thread nD τ) scM0_2 fullShare d) := by simp only [scM0_2, owns_whole]; try rfl
theorem scratch0_3 (c : Dev nD) : (iprop(∃ f : Buf (Elt F) ((c : Thread nD τ).loc cc0_scratch3), ((c : Thread nD τ).loc cc0_scratch3) ↦{fullShare} f) : sProp 𝕄)
    = iprop(∃ d, owns (c : Thread nD τ) scM0_3 fullShare d) := by simp only [scM0_3, owns_whole]; try rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point: the inputs' buffers hold their blocks, the scratch buffers come out of the scoped rest
    at some contents and go back at some contents, and the output buffer ends at the attention block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl]
  rw [show (dat0 V c).leavesExact 0 t = owns (c : Thread nD τ) (ms0_0 t) fullShare ((dat0 V c).after 0 t) from by
        unfold Dat.leavesExact; rw [liveAt0_0 t],
    show (dat0 V c).leavesExact 1 t = owns (c : Thread nD τ) (ms0_1 t) fullShare ((dat0 V c).after 1 t) from by
        unfold Dat.leavesExact; rw [liveAt0_1 t],
    show (dat0 V c).leavesExact 2 t = owns (c : Thread nD τ) (ms0_2 t) fullShare ((dat0 V c).after 2 t) from by
        unfold Dat.leavesExact; rw [liveAt0_2 t],
    show (dat0 V c).leavesExact 3 t = owns (c : Thread nD τ) (ms0_3 t) fullShare ((dat0 V c).after 3 t) from by
        unfold Dat.leavesExact; rw [liveAt0_3 t],
    after0_0, after0_1, after0_2, after0_3]
  unfold Pipeline.ΦA; rw [scopedRest0_split, scratch0_0, scratch0_1, scratch0_2, scratch0_3]
  iintro ⟨⟨⟨⟨S0, S1, S2, S3⟩, Hrest⟩, Hg⟩, Ho, ⟨%d0, H0⟩, ⟨%d1, H1⟩, ⟨%d2, H2⟩, ⟨%d3, H3⟩⟩
  iapply ((kernelRun0 c (grid0.coords t) _ _ _ _ _ _ _ _ (hcond0_0 t) (hcond0_1 t) (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, ⟨%e3, H3⟩, S0, S1, S2, S3⟩
  isplitl [S0 S1 S2 S3 Hrest Hg]
  · isplitl [S0 S1 S2 S3 Hrest]
    · isplitl [S0 S1 S2 S3]
      · isplitl [S0]; · iexact S0
        isplitl [S1]; · iexact S1
        isplitl [S2]; · iexact S2
        iexact S3
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact out0_val c _ _ _ _ _ _ _ _ _ _ _ _ _ _ _

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Frm

end
-- ==== Proof.Run1.lean ====
/-
  Region 1 (rows of 1024 tokens): one call of the attention body on whole staging buffers. Every grid point of
  this region is both the first and the last key tile of its row, so both branches of the body are taken at every
  point: the body resets its carried state, processes the one tile and stores the normalised block.
-/
import proofs.«143665_j77000173683359_2_alg».proof.Proof.Gen.KernelIdeal.Launch
import proofs.«143665_j77000173683359_2_alg».proof.Proof.Gen.KernelIdeal.Skeleton
import proofs.«143665_j77000173683359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The branch "this is the row's first key tile", as the body computes it from the grid coordinates. -/
abbrev cond1_0 (i : grid1.Coords) : Prop :=
  (Scalar.cmpi .ne (Scalar.extui (Scalar.cmpi .eq (BitVec.ofNat 32 (i 1).val) 0#32)) 0#32) = 1#1
/-- Both branches hold at every point of the grid: the key axis has extent one. -/
theorem hcond1_0 : ∀ t : Fin cfg1.N, cond1_0 (grid1.coords t) :=
  (by decide +kernel : ∀ t : Fin grid1.N, cond1_0 (grid1.coords t))
theorem hcond1_1 : ∀ t : Fin cfg1.N, k1_cond2 (grid1.coords t) = 1#1 :=
  (by decide +kernel : ∀ t : Fin grid1.N, k1_cond2 (grid1.coords t) = 1#1)

/-- The four scratch buffers the body keeps its state in: the scaled query tile, the running maximum, the running
    denominator, the running numerator. -/
abbrev scM1_0 : Memref sig .tc .vmem S1024x64 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x64 .f32 := Memref.whole cc1_scratch3

set_option maxHeartbeats 4000000 in
/-- The body at a point where both branches are taken, on whole staging buffers holding the query, key and value
    blocks: it runs to the end, leaves the three input buffers as they were, and the output buffer with the pieces
    `L3` written; the scratch buffers end at some contents. -/
noncomputable def kernelRun1 (c : Dev nD) (i : grid1.Coords)
    (arg2 : Memref sig .tc .vmem S1x1x1024x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x1024x64 .f32) (harg5 : arg5.IsWhole)
    (hc0 : cond1_0 i) (hc1 : k1_cond2 i = 1#1)
    (x0 x1 x2 : Vec F S1x1x1024x64 .f32) :
    { L3 : List (View.Piece (Elt F) S1x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (∃ d, owns (c : Thread nD τ) scM1_0 fullShare d) ∗ (∃ d, owns (c : Thread nD τ) scM1_1 fullShare d)
            ∗ (∃ d, owns (c : Thread nD τ) scM1_2 fullShare d) ∗ (∃ d, owns (c : Thread nD τ) scM1_3 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) scM1_0 fullShare d) ∗ (∃ d, owns (c : Thread nD τ) scM1_1 fullShare d)
                ∗ (∃ d, owns (c : Thread nD τ) scM1_2 fullShare d) ∗ (∃ d, owns (c : Thread nD τ) scM1_3 fullShare d)) -∗ K ⟨⟩))
          ⊢ wp frame (wpE (defs₀ (F := F)) Variants.none c none) E
              (cc1__flash_kernel i arg2 harg2 arg3 harg3 arg4 harg4 arg5 harg5 scM1_0 (Memref.isWhole_whole _) scM1_1 (Memref.isWhole_whole _) scM1_2 (Memref.isWhole_whole _) scM1_3 (Memref.isWhole_whole _)) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%d4, %f4, -, S0⟩, ⟨%d5, %f5, -, S1⟩, ⟨%d6, %f6, -, S2⟩, ⟨%d7, %f7, -, S3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [S0]
    · iexists _, _; isplitr
      swap; · iexact S0
      ipureintro; rfl
    isplitl [S1]
    · iexists _, _; isplitr
      swap; · iexact S1
      ipureintro; rfl
    isplitl [S2]
    · iexists _, _; isplitr
      swap; · iexact S2
      ipureintro; rfl
    iexists _, _; isplitr
    swap; · iexact S3
    ipureintro; rfl

end Cert.KernelIdeal.Frm

end
-- ==== Proof.Frame1.lean ====
/-
  Region 1 (rows of 1024 tokens): the proof data of its pipeline and the body obligation. Each grid point is one
  (head, row) pair; the body reads the row's query, key and value blocks and stores the row's attention block, which
  the pipeline writes back at once. The scratch buffers are reset at every point, so nothing is carried.
-/
import proofs.«143665_j77000173683359_2_alg».proof.Proof.Gen.KernelIdeal.Launch
import proofs.«143665_j77000173683359_2_alg».proof.Proof.Gen.KernelIdeal.Skeleton
import proofs.«143665_j77000173683359_2_alg».proof.Proof.Gen.KernelIdeal.Points
import proofs.«143665_j77000173683359_2_alg».proof.Proof.BodyVal
import proofs.«143665_j77000173683359_2_alg».proof.Proof.Run1
import proofs.«143665_j77000173683359_2_alg».proof.Proof.FrmCommon
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.BodyVal

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin cfg1.N) : Memref sig .tc .vmem S1x1x1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)

/-- The one store into the output buffer covers it. -/
theorem cover1_3 (c : Dev nD) (i : grid1.Coords)
    (arg2 : Memref sig .tc .vmem S1x1x1024x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x1024x64 .f32) (harg5 : arg5.IsWhole)
    (hc0 : cond1_0 i) (hc1 : k1_cond2 i = 1#1) (x0 x1 x2 : Vec F S1x1x1024x64 .f32) (y : S1x1024x64.Idx) :
    ∃ pc ∈ (kernelRun1 c i arg2 harg2 arg3 harg3 arg4 harg4 arg5 harg5 hc0 hc1 x0 x1 x2).1, y ∈ pc.1.set :=
  View.cover_of_tiledL (kernelRun1 c i arg2 harg2 arg3 harg3 arg4 harg4 arg5 harg5 hc0 hc1 x0 x1 x2).1 S1x1024x64.size (by sl_kernel_rfl) y

/-- The output buffer's contents after the body are the stored quotient block: the body's arithmetic as one pure
    function of the three input blocks. -/
theorem out1_val (c : Dev nD) (i : grid1.Coords)
    (arg2 : Memref sig .tc .vmem S1x1x1024x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x1024x64 .f32) (harg5 : arg5.IsWhole)
    (hc0 : cond1_0 i) (hc1 : k1_cond2 i = 1#1) (x0 x1 x2 : Vec F S1x1x1024x64 .f32) (f : BufTy.Contents (Elt F) arg5.view.ty) :
    arg5.view.read (Elt F) (arg5.view.writes (Elt F) f (kernelRun1 c i arg2 harg2 arg3 harg3 arg4 harg4 arg5 harg5 hc0 hc1 x0 x1 x2).1)
      = out1 x0 x1 x2 := by
  rw [View.read_writes_eq_canon _ _ _ (cover1_3 c i arg2 harg2 arg3 harg3 arg4 harg4 arg5 harg5 hc0 hc1 x0 x1 x2)]
  unfold kernelRun1
  dsimp only
  rw [View.canon_unit_zero hz3]
  sl_unfold_run_names
  simp only [readCov_cons_whole (S := S1024x64) _ hz2, readCov_cons_whole (S := S1024x1) _ hz2, View.readAt_eq_ld,
    harg2.read_unread, harg3.read_unread, harg4.read_unread, View.ld_unit_zero (S := S1x1x1024x64) hz4]
  rfl

/-! ## The pipeline's proof data -/

/-- The proof data of region 1's pipeline on core `c`: the arrays as the region finds them; after the body at point
    `t` each input's buffer at its block and the output's at the attention block of the three input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- No window is idle at any point of this grid: the output is stored at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false :=
  (by decide +kernel : ∀ t : Fin grid1.N, cfg1.idle 3 (grid1.coords t) = false)

/-- The scratch buffers held whole at some contents, in the form the body's run takes them. -/
theorem scratch1_0 (c : Dev nD) : (iprop(∃ f : Buf (Elt F) ((c : Thread nD τ).loc cc1_scratch0), ((c : Thread nD τ).loc cc1_scratch0) ↦{fullShare} f) : sProp 𝕄)
    = iprop(∃ d, owns (c : Thread nD τ) scM1_0 fullShare d) := by simp only [scM1_0, owns_whole]; try rfl
theorem scratch1_1 (c : Dev nD) : (iprop(∃ f : Buf (Elt F) ((c : Thread nD τ).loc cc1_scratch1), ((c : Thread nD τ).loc cc1_scratch1) ↦{fullShare} f) : sProp 𝕄)
    = iprop(∃ d, owns (c : Thread nD τ) scM1_1 fullShare d) := by simp only [scM1_1, owns_whole]; try rfl
theorem scratch1_2 (c : Dev nD) : (iprop(∃ f : Buf (Elt F) ((c : Thread nD τ).loc cc1_scratch2), ((c : Thread nD τ).loc cc1_scratch2) ↦{fullShare} f) : sProp 𝕄)
    = iprop(∃ d, owns (c : Thread nD τ) scM1_2 fullShare d) := by simp only [scM1_2, owns_whole]; try rfl
theorem scratch1_3 (c : Dev nD) : (iprop(∃ f : Buf (Elt F) ((c : Thread nD τ).loc cc1_scratch3), ((c : Thread nD τ).loc cc1_scratch3) ↦{fullShare} f) : sProp 𝕄)
    = iprop(∃ d, owns (c : Thread nD τ) scM1_3 fullShare d) := by simp only [scM1_3, owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: the inputs' buffers hold their blocks, the scratch buffers come out of the scoped rest
    at some contents and go back at some contents, and the output buffer ends at the attention block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl]
  rw [show (dat1 V c).leavesExact 0 t = owns (c : Thread nD τ) (ms1_0 t) fullShare ((dat1 V c).after 0 t) from by
        unfold Dat.leavesExact; rw [liveAt1_0 t],
    show (dat1 V c).leavesExact 1 t = owns (c : Thread nD τ) (ms1_1 t) fullShare ((dat1 V c).after 1 t) from by
        unfold Dat.leavesExact; rw [liveAt1_1 t],
    show (dat1 V c).leavesExact 2 t = owns (c : Thread nD τ) (ms1_2 t) fullShare ((dat1 V c).after 2 t) from by
        unfold Dat.leavesExact; rw [liveAt1_2 t],
    show (dat1 V c).leavesExact 3 t = owns (c : Thread nD τ) (ms1_3 t) fullShare ((dat1 V c).after 3 t) from by
        unfold Dat.leavesExact; rw [liveAt1_3 t],
    after1_0, after1_1, after1_2, after1_3]
  unfold Pipeline.ΦA; rw [scopedRest1_split, scratch1_0, scratch1_1, scratch1_2, scratch1_3]
  iintro ⟨⟨⟨⟨S0, S1, S2, S3⟩, Hrest⟩, Hg⟩, Ho, ⟨%d0, H0⟩, ⟨%d1, H1⟩, ⟨%d2, H2⟩, ⟨%d3, H3⟩⟩
  iapply ((kernelRun1 c (grid1.coords t) _ _ _ _ _ _ _ _ (hcond1_0 t) (hcond1_1 t) (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, ⟨%e3, H3⟩, S0, S1, S2, S3⟩
  isplitl [S0 S1 S2 S3 Hrest Hg]
  · isplitl [S0 S1 S2 S3 Hrest]
    · isplitl [S0 S1 S2 S3]
      · isplitl [S0]; · iexact S0
        isplitl [S1]; · iexact S1
        isplitl [S2]; · iexact S2
        iexact S3
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact out1_val c _ _ _ _ _ _ _ _ _ _ _ _ _ _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Frm

end
-- ==== Proof.Run2.lean ====
/-
  Region 2 (rows of 2048 tokens, two key tiles of 1024): one call of the attention body on whole staging buffers, in
  its two control cases. At a row's FIRST tile the body resets its carried state, processes the tile, stores nothing
  into the output buffer and leaves the state in its scratch buffers; at the row's SECOND (last) tile it continues
  from the carried state and stores the normalised block.
-/
import proofs.«143665_j77000173683359_2_alg».proof.Proof.Gen.KernelIdeal.Launch
import proofs.«143665_j77000173683359_2_alg».proof.Proof.Gen.KernelIdeal.Skeleton
import proofs.«143665_j77000173683359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The branch "this is the row's first key tile", as the body computes it from the grid coordinates. -/
abbrev cond2_0 (i : grid2.Coords) : Prop :=
  (Scalar.cmpi .ne (Scalar.extui (Scalar.cmpi .eq (BitVec.ofNat 32 (i 1).val) 0#32)) 0#32) = 1#1
/-- The grid runs the two tiles of a row one after the other: even points are first tiles, odd points last tiles. -/
theorem hcond2_0 : ∀ t : Fin cfg2.N, cond2_0 (grid2.coords t) ↔ t.val % 2 = 0 :=
  (by decide +kernel : ∀ t : Fin grid2.N, cond2_0 (grid2.coords t) ↔ t.val % 2 = 0)
theorem hcond2_1 : ∀ t : Fin cfg2.N, k2_cond2 (grid2.coords t) = 1#1 ↔ t.val % 2 = 1 :=
  (by decide +kernel : ∀ t : Fin grid2.N, k2_cond2 (grid2.coords t) = 1#1 ↔ t.val % 2 = 1)

/-- The four scratch buffers the body keeps its state in: the scaled query tile, the running maximum, the running
    denominator, the running numerator. -/
abbrev scM2_0 : Memref sig .tc .vmem S2048x64 .bf16 := Memref.whole cc2_scratch0
abbrev scM2_1 : Memref sig .tc .vmem S2048x1 .f32 := Memref.whole cc2_scratch1
abbrev scM2_2 : Memref sig .tc .vmem S2048x1 .f32 := Memref.whole cc2_scratch2
abbrev scM2_3 : Memref sig .tc .vmem S2048x64 .f32 := Memref.whole cc2_scratch3
abbrev hsc2_0 : scM2_0.IsWhole := Memref.isWhole_whole _
abbrev hsc2_1 : scM2_1.IsWhole := Memref.isWhole_whole _
abbrev hsc2_2 : scM2_2.IsWhole := Memref.isWhole_whole _
abbrev hsc2_3 : scM2_3.IsWhole := Memref.isWhole_whole _

set_option maxHeartbeats 4000000 in
/-- FIRST TILE. On whole staging buffers holding the query block and the tile's key and value blocks, the output
    buffer at any contents `xi3` and the scratch buffers at anything, the body runs to the end, leaves the inputs and
    the output buffer as they were, and each scratch buffer with its pieces written. -/
noncomputable def kernelRun2_A (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1)
    (x0 : Vec F S1x1x2048x64 .f32) (x1 x2 : Vec F S1x1x1024x64 .f32) :
    Σ' (LS0 : List (View.Piece (Elt F) S2048x64 .bf16)) (LS1 : List (View.Piece (Elt F) S2048x1 .f32)) (LS2 : List (View.Piece (Elt F) S2048x1 .f32)),
    { LS3 : List (View.Piece (Elt F) S2048x64 .f32) //
      ∀ (xi3 : Vec F S1x2048x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) scM2_0 fullShare d) ∗ (∃ d, owns (c : Thread nD τ) scM2_1 fullShare d)
            ∗ (∃ d, owns (c : Thread nD τ) scM2_2 fullShare d) ∗ (∃ d, owns (c : Thread nD τ) scM2_3 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, scM2_0.view.loc (c : Thread nD τ) ↦[scM2_0.view.set]{fullShare} scM2_0.view.writes (Elt F) f LS0)
                ∗ (∃ f, scM2_1.view.loc (c : Thread nD τ) ↦[scM2_1.view.set]{fullShare} scM2_1.view.writes (Elt F) f LS1)
                ∗ (∃ f, scM2_2.view.loc (c : Thread nD τ) ↦[scM2_2.view.set]{fullShare} scM2_2.view.writes (Elt F) f LS2)
                ∗ (∃ f, scM2_3.view.loc (c : Thread nD τ) ↦[scM2_3.view.set]{fullShare} scM2_3.view.writes (Elt F) f LS3)) -∗ K ⟨⟩))
          ⊢ wp frame (wpE (defs₀ (F := F)) Variants.none c none) E
              (cc2__flash_kernel i arg2 harg2 arg3 harg3 arg4 harg4 arg5 harg5 scM2_0 hsc2_0 scM2_1 hsc2_1 scM2_2 hsc2_2 scM2_3 hsc2_3) K } := by
  refine ⟨?_, ?_, ?_, ?_, fun xi3 E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%f3, %hf3, H3⟩, ⟨%d4, %f4, -, S0⟩, ⟨%d5, %f5, -, S1⟩, ⟨%d6, %f6, -, S2⟩, ⟨%d7, %f7, -, S3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [S0]
    · iexists _; iexact S0
    isplitl [S1]
    · iexists _; iexact S1
    isplitl [S2]
    · iexists _; iexact S2
    iexists _; iexact S3

set_option maxHeartbeats 4000000 in
/-- LAST TILE. On whole staging buffers holding the tile's key and value blocks (and the query block, unread), the
    output buffer at anything and the scratch buffers at the carried state `xs·`, the body runs to the end, leaves the
    inputs as they were and the output buffer with the pieces `L3` written; the scratch buffers end at some contents. -/
noncomputable def kernelRun2_B (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : ¬cond2_0 i) (hc1 : k2_cond2 i = 1#1)
    (x0 : Vec F S1x1x2048x64 .f32) (x1 x2 : Vec F S1x1x1024x64 .f32)
    (xs0 : Vec F S2048x64 .bf16) (xs1 xs2 : Vec F S2048x1 .f32) (xs3 : Vec F S2048x64 .f32) :
    { L3 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) scM2_0 fullShare xs0 ∗ owns (c : Thread nD τ) scM2_1 fullShare xs1
            ∗ owns (c : Thread nD τ) scM2_2 fullShare xs2 ∗ owns (c : Thread nD τ) scM2_3 fullShare xs3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) scM2_0 fullShare d) ∗ (∃ d, owns (c : Thread nD τ) scM2_1 fullShare d)
                ∗ (∃ d, owns (c : Thread nD τ) scM2_2 fullShare d) ∗ (∃ d, owns (c : Thread nD τ) scM2_3 fullShare d)) -∗ K ⟨⟩))
          ⊢ wp frame (wpE (defs₀ (F := F)) Variants.none c none) E
              (cc2__flash_kernel i arg2 harg2 arg3 harg3 arg4 harg4 arg5 harg5 scM2_0 hsc2_0 scM2_1 hsc2_1 scM2_2 hsc2_2 scM2_3 hsc2_3) K } := by
  refine ⟨?_, fun E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%d3, %f3, -, H3⟩, ⟨%f4, %hf4, S0⟩, ⟨%f5, %hf5, S1⟩, ⟨%f6, %hf6, S2⟩, ⟨%f7, %hf7, S3⟩, Hk⟩
    obtain rfl := harg2.eq_unread hf0; obtain rfl := harg3.eq_unread hf1; obtain rfl := harg4.eq_unread hf2
    obtain rfl := hsc2_0.eq_unread hf4; obtain rfl := hsc2_1.eq_unread hf5; obtain rfl := hsc2_2.eq_unread hf6; obtain rfl := hsc2_3.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [S0]
    · iexists _, _; isplitr
      swap; · iexact S0
      ipureintro; rfl
    isplitl [S1]
    · iexists _, _; isplitr
      swap; · iexact S1
      ipureintro; rfl
    isplitl [S2]
    · iexists _, _; isplitr
      swap; · iexact S2
      ipureintro; rfl
    iexists _, _; isplitr
    swap; · iexact S3
    ipureintro; rfl

end Cert.KernelIdeal.Frm

end
-- ==== Proof.Frame2.lean ====
/-
  Region 2 (rows of 2048 tokens, two key tiles of 1024): the proof data of its pipeline and the body obligation.
  Grid points come in pairs: the even point of a pair is a row's first tile, the odd point its last. Between the two
  the scratch buffers carry the scaled query tile and the running maximum, denominator and numerator; the region's
  invariant names those contents before every odd point. The output block is stored, and written back, at odd points.
-/
import proofs.«143665_j77000173683359_2_alg».proof.Proof.Gen.KernelIdeal.Launch
import proofs.«143665_j77000173683359_2_alg».proof.Proof.Gen.KernelIdeal.Skeleton
import proofs.«143665_j77000173683359_2_alg».proof.Proof.Gen.KernelIdeal.Points
import proofs.«143665_j77000173683359_2_alg».proof.Proof.BodyVal
import proofs.«143665_j77000173683359_2_alg».proof.Proof.Run2
import proofs.«143665_j77000173683359_2_alg».proof.Proof.FrmCommon
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.BodyVal

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point (the query block is fetched at a
    row's first tile only and stays in place for the second). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .vmem S1x1x2048x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1024x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x64 .f32 := win2_3.stage (cfg2.slots t 3)
abbrev hs2_3 (t : Fin cfg2.N) : (ms2_3 t).IsWhole := hstage2_3 ((cfg2.slots t 3).cast nbuf2_3)

/-! ## What the first tile leaves in the scratch buffers, what the last tile leaves in the output buffer -/

theorem scover2_A_0 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (y : S2048x64.Idx) :
    ∃ pc ∈ (kernelRun2_A c i arg2 harg2 arg3 harg3 arg4 harg4 arg5 harg5 hc0 hc1 x0 x1 x2).1, y ∈ pc.1.set :=
  View.cover_of_tiledL (kernelRun2_A c i arg2 harg2 arg3 harg3 arg4 harg4 arg5 harg5 hc0 hc1 x0 x1 x2).1 S2048x64.size (by sl_kernel_rfl) y
theorem scover2_A_1 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (y : S2048x1.Idx) :
    ∃ pc ∈ (kernelRun2_A c i arg2 harg2 arg3 harg3 arg4 harg4 arg5 harg5 hc0 hc1 x0 x1 x2).2.1, y ∈ pc.1.set :=
  View.cover_of_tiledL (kernelRun2_A c i arg2 harg2 arg3 harg3 arg4 harg4 arg5 harg5 hc0 hc1 x0 x1 x2).2.1 S2048x1.size (by sl_kernel_rfl) y
theorem scover2_A_2 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (y : S2048x1.Idx) :
    ∃ pc ∈ (kernelRun2_A c i arg2 harg2 arg3 harg3 arg4 harg4 arg5 harg5 hc0 hc1 x0 x1 x2).2.2.1, y ∈ pc.1.set :=
  View.cover_of_tiledL (kernelRun2_A c i arg2 harg2 arg3 harg3 arg4 harg4 arg5 harg5 hc0 hc1 x0 x1 x2).2.2.1 S2048x1.size (by sl_kernel_rfl) y
theorem scover2_A_3 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (y : S2048x64.Idx) :
    ∃ pc ∈ (kernelRun2_A c i arg2 harg2 arg3 harg3 arg4 harg4 arg5 harg5 hc0 hc1 x0 x1 x2).2.2.2.1, y ∈ pc.1.set :=
  View.cover_of_tiledL (kernelRun2_A c i arg2 harg2 arg3 harg3 arg4 harg4 arg5 harg5 hc0 hc1 x0 x1 x2).2.2.2.1 S2048x64.size (by sl_kernel_rfl) y

theorem sval2_A_0 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (f : BufTy.Contents (Elt F) scM2_0.view.ty) :
    scM2_0.view.read (Elt F) (scM2_0.view.writes (Elt F) f (kernelRun2_A c i arg2 harg2 arg3 harg3 arg4 harg4 arg5 harg5 hc0 hc1 x0 x1 x2).1) = qs2 x0 := by
  rw [View.read_writes_eq_canon _ _ _ (scover2_A_0 c i arg2 harg2 arg3 harg3 arg4 harg4 arg5 harg5 hc0 hc1 x0 x1 x2)]
  unfold kernelRun2_A
  dsimp only
  sl_unfold_run_names
  rw [View.canon_cons_unit_zero hz2]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl
theorem sval2_A_1 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (f : BufTy.Contents (Elt F) scM2_1.view.ty) :
    scM2_1.view.read (Elt F) (scM2_1.view.writes (Elt F) f (kernelRun2_A c i arg2 harg2 arg3 harg3 arg4 harg4 arg5 harg5 hc0 hc1 x0 x1 x2).2.1) = mA x0 x1 := by
  rw [View.read_writes_eq_canon _ _ _ (scover2_A_1 c i arg2 harg2 arg3 harg3 arg4 harg4 arg5 harg5 hc0 hc1 x0 x1 x2)]
  unfold kernelRun2_A
  dsimp only
  sl_unfold_run_names
  rw [View.canon_cons_unit_zero hz2]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl
theorem sval2_A_2 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (f : BufTy.Contents (Elt F) scM2_2.view.ty) :
    scM2_2.view.read (Elt F) (scM2_2.view.writes (Elt F) f (kernelRun2_A c i arg2 harg2 arg3 harg3 arg4 harg4 arg5 harg5 hc0 hc1 x0 x1 x2).2.2.1) = lA x0 x1 := by
  rw [View.read_writes_eq_canon _ _ _ (scover2_A_2 c i arg2 harg2 arg3 harg3 arg4 harg4 arg5 harg5 hc0 hc1 x0 x1 x2)]
  unfold kernelRun2_A
  dsimp only
  sl_unfold_run_names
  rw [View.canon_cons_unit_zero hz2]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl
theorem sval2_A_3 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : cond2_0 i) (hc1 : ¬k2_cond2 i = 1#1) (x0 : Vec F S1x1x2048x64 .f32) (x1 x2 : Vec F S1x1x1024x64 .f32) (f : BufTy.Contents (Elt F) scM2_3.view.ty) :
    scM2_3.view.read (Elt F) (scM2_3.view.writes (Elt F) f (kernelRun2_A c i arg2 harg2 arg3 harg3 arg4 harg4 arg5 harg5 hc0 hc1 x0 x1 x2).2.2.2.1) = accA x0 x1 x2 := by
  rw [View.read_writes_eq_canon _ _ _ (scover2_A_3 c i arg2 harg2 arg3 harg3 arg4 harg4 arg5 harg5 hc0 hc1 x0 x1 x2)]
  unfold kernelRun2_A
  dsimp only
  sl_unfold_run_names
  rw [View.canon_cons_unit_zero hz2]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl

theorem cover2_B_3 (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : ¬cond2_0 i) (hc1 : k2_cond2 i = 1#1) (x0 : Vec F S1x1x2048x64 .f32) (x1 x2 : Vec F S1x1x1024x64 .f32)
    (xs0 : Vec F S2048x64 .bf16) (xs1 xs2 : Vec F S2048x1 .f32) (xs3 : Vec F S2048x64 .f32) (y : S1x2048x64.Idx) :
    ∃ pc ∈ (kernelRun2_B c i arg2 harg2 arg3 harg3 arg4 harg4 arg5 harg5 hc0 hc1 x0 x1 x2 xs0 xs1 xs2 xs3).1, y ∈ pc.1.set :=
  View.cover_of_tiledL (kernelRun2_B c i arg2 harg2 arg3 harg3 arg4 harg4 arg5 harg5 hc0 hc1 x0 x1 x2 xs0 xs1 xs2 xs3).1 S1x2048x64.size (by sl_kernel_rfl) y

/-- The block stored at a row's last tile: the quotient of the numerator and denominator continued from the carried
    state over the tile's keys and values. -/
theorem out2_val (c : Dev nD) (i : grid2.Coords)
    (arg2 : Memref sig .tc .vmem S1x1x2048x64 .f32) (harg2 : arg2.IsWhole) (arg3 : Memref sig .tc .vmem S1x1x1024x64 .f32) (harg3 : arg3.IsWhole)
    (arg4 : Memref sig .tc .vmem S1x1x1024x64 .f32) (harg4 : arg4.IsWhole) (arg5 : Memref sig .tc .vmem S1x2048x64 .f32) (harg5 : arg5.IsWhole)
    (hc0 : ¬cond2_0 i) (hc1 : k2_cond2 i = 1#1) (x0 : Vec F S1x1x2048x64 .f32) (x1 x2 : Vec F S1x1x1024x64 .f32)
    (xs0 : Vec F S2048x64 .bf16) (xs1 xs2 : Vec F S2048x1 .f32) (xs3 : Vec F S2048x64 .f32) (f : BufTy.Contents (Elt F) arg5.view.ty) :
    arg5.view.read (Elt F) (arg5.view.writes (Elt F) f (kernelRun2_B c i arg2 harg2 arg3 harg3 arg4 harg4 arg5 harg5 hc0 hc1 x0 x1 x2 xs0 xs1 xs2 xs3).1)
      = k2_pay3 (acc2 xs0 xs1 xs3 x1 x2) (l2 xs0 xs1 xs2 x1) := by
  rw [View.read_writes_eq_canon _ _ _ (cover2_B_3 c i arg2 harg2 arg3 harg3 arg4 harg4 arg5 harg5 hc0 hc1 x0 x1 x2 xs0 xs1 xs2 xs3)]
  unfold kernelRun2_B
  dsimp only
  sl_unfold_run_names
  rw [View.canon_cons_unit_zero hz3]
  simp only [readCov_cons_whole (S := S2048x64) _ hz2, readCov_cons_whole (S := S2048x1) _ hz2, View.readAt_eq_ld,
    harg2.read_unread, harg3.read_unread, harg4.read_unread, hsc2_0.read_unread, hsc2_1.read_unread, hsc2_2.read_unread, hsc2_3.read_unread,
    View.ld_unit_zero (S := S1x1x2048x64) hz4, View.ld_unit_zero (S := S1x1x1024x64) hz4,
    View.ld_unit_zero (S := S2048x64) hz2, View.ld_unit_zero (S := S2048x1) hz2]
  rfl

/-! ## The carried state and the invariant -/

/-- The point before `t`: for an odd `t`, the first tile of the row whose last tile `t` is. -/
def prev2 (t : Fin cfg2.N) : Fin cfg2.N := ⟨t.val - 1, Nat.lt_of_le_of_lt (Nat.sub_le _ _) t.isLt⟩

/-- What the first tile at point `t` leaves in the four scratch buffers: the scaled query tile, and the maximum,
    denominator and numerator after that one tile. -/
def st2_0 (c : Dev nD) (t : Fin cfg2.N) : Vec F S2048x64 .bf16 := qs2 (iblk2 V c 0 t)
def st2_1 (c : Dev nD) (t : Fin cfg2.N) : Vec F S2048x1 .f32 := mA (iblk2 V c 0 t) (iblk2 V c 1 t)
def st2_2 (c : Dev nD) (t : Fin cfg2.N) : Vec F S2048x1 .f32 := lA (iblk2 V c 0 t) (iblk2 V c 1 t)
def st2_3 (c : Dev nD) (t : Fin cfg2.N) : Vec F S2048x64 .f32 := accA (iblk2 V c 0 t) (iblk2 V c 1 t) (iblk2 V c 2 t)

/-- The scoped buffers other than this region's scratch. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2, cc2_scratch3]

/-- The invariant between a row's two tiles: the scratch buffers at what the first tile (point `t`) left, the other
    scoped buffers and the generator register untouched. -/
def carried2 (c : Dev nD) (t : Fin cfg2.N) : sProp 𝕄 :=
  iprop(iprop(owns (c : Thread nD τ) scM2_0 fullShare (st2_0 V c t) ∗ owns (c : Thread nD τ) scM2_1 fullShare (st2_1 V c t)
      ∗ owns (c : Thread nD τ) scM2_2 fullShare (st2_2 V c t) ∗ owns (c : Thread nD τ) scM2_3 fullShare (st2_3 V c t))
    ∗ restBut2 c ∗ (∃ r, prngReg c r))

/-- The region invariant before position `n`: before an even position (a row's first tile, and the end) nothing is
    named; before an odd position the scratch buffers hold what the tile before left. -/
def PhiS2 (c : Dev nD) : (n : ℕ) → n ≤ cfg2.N → sProp 𝕄
  | 0, _ => Pipeline.ΦA spec2 c
  | n + 1, hn => if n % 2 = 0 then carried2 V c ⟨n, hn⟩ else Pipeline.ΦA spec2 c

theorem PhiS2_even (c : Dev nD) (n : ℕ) (h : n ≤ cfg2.N) (he : n % 2 = 0) : PhiS2 V c n h = Pipeline.ΦA spec2 c := by
  cases n with
  | zero => rfl
  | succ k => exact if_neg (by omega)

theorem PhiS2_odd (c : Dev nD) (t : Fin cfg2.N) (ho : t.val % 2 = 1) :
    PhiS2 V c t.val (Nat.le_of_lt t.isLt) = carried2 V c (prev2 t) := by
  obtain ⟨n, hn⟩ := t
  cases n with
  | zero => exact absurd ho (by show ¬ (0 % 2 = 1); decide)
  | succ k => exact (if_pos (by dsimp only at ho; omega)).trans rfl

/-! ## The pipeline's proof data -/

/-- The proof data of region 2's pipeline on core `c`: the arrays as the region finds them; after the body at point
    `t` each input's buffer at its block, the output's at the attention block of the row whose tiles are the points
    `t - 1` and `t` (named at every point; it is stored, and written back, at the odd ones); the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 (prev2 t)) (iblk2 V c 1 (prev2 t)) (iblk2 V c 2 (prev2 t)) (iblk2 V c 1 t) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 (prev2 t)) (iblk2 V c 1 (prev2 t)) (iblk2 V c 2 (prev2 t)) (iblk2 V c 1 t) (iblk2 V c 2 t) := by
  dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi2_castSucc (c : Dev nD) (t : Fin cfg2.N) :
    (dat2 V c).Φ t.castSucc = PhiS2 V c t.val (Nat.le_of_lt t.isLt) := by
  dsimp only [dat2]; simp only [Fin.coe_castSucc]
theorem Phi2_succ (c : Dev nD) (t : Fin cfg2.N) :
    (dat2 V c).Φ t.succ = (if t.val % 2 = 0 then carried2 V c t else Pipeline.ΦA spec2 c) := rfl

/-- The input windows are live everywhere; the output window is idle, and not written back, at even points and live
    at odd points. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem idleAt2_3 : ∀ t : Fin cfg2.N, t.val % 2 = 0 → cfg2.idle 3 (grid2.coords t) = true :=
  (by decide +kernel : ∀ t : Fin grid2.N, t.val % 2 = 0 → cfg2.idle 3 (grid2.coords t) = true)
theorem noFlush2_3 : ∀ t : Fin cfg2.N, t.val % 2 = 0 → (cfg2.win 3).flush t = false :=
  (by decide +kernel : ∀ t : Fin grid2.N, t.val % 2 = 0 → win2_3.flush t = false)
theorem liveAt2_3 : ∀ t : Fin cfg2.N, t.val % 2 = 1 → cfg2.idle 3 (grid2.coords t) = false :=
  (by decide +kernel : ∀ t : Fin grid2.N, t.val % 2 = 1 → cfg2.idle 3 (grid2.coords t) = false)

theorem scratch2_0 (c : Dev nD) : (iprop(∃ f : Buf (Elt F) ((c : Thread nD τ).loc cc2_scratch0), ((c : Thread nD τ).loc cc2_scratch0) ↦{fullShare} f) : sProp 𝕄)
    = iprop(∃ d, owns (c : Thread nD τ) scM2_0 fullShare d) := by simp only [scM2_0, owns_whole]; try rfl
theorem scratch2_1 (c : Dev nD) : (iprop(∃ f : Buf (Elt F) ((c : Thread nD τ).loc cc2_scratch1), ((c : Thread nD τ).loc cc2_scratch1) ↦{fullShare} f) : sProp 𝕄)
    = iprop(∃ d, owns (c : Thread nD τ) scM2_1 fullShare d) := by simp only [scM2_1, owns_whole]; try rfl
theorem scratch2_2 (c : Dev nD) : (iprop(∃ f : Buf (Elt F) ((c : Thread nD τ).loc cc2_scratch2), ((c : Thread nD τ).loc cc2_scratch2) ↦{fullShare} f) : sProp 𝕄)
    = iprop(∃ d, owns (c : Thread nD τ) scM2_2 fullShare d) := by simp only [scM2_2, owns_whole]; try rfl
theorem scratch2_3 (c : Dev nD) : (iprop(∃ f : Buf (Elt F) ((c : Thread nD τ).loc cc2_scratch3), ((c : Thread nD τ).loc cc2_scratch3) ↦{fullShare} f) : sProp 𝕄)
    = iprop(∃ d, owns (c : Thread nD τ) scM2_3 fullShare d) := by simp only [scM2_3, owns_whole]; try rfl

/-- The class invariant with this region's scratch buffers split off. -/
theorem PhiA2_eq (c : Dev nD) : (Pipeline.ΦA spec2 c : sProp 𝕄)
    = iprop(iprop(iprop((∃ d, owns (c : Thread nD τ) scM2_0 fullShare d) ∗ (∃ d, owns (c : Thread nD τ) scM2_1 fullShare d)
        ∗ (∃ d, owns (c : Thread nD τ) scM2_2 fullShare d) ∗ (∃ d, owns (c : Thread nD τ) scM2_3 fullShare d)) ∗ restBut2 c) ∗ (∃ r, prngReg c r)) := by
  unfold Pipeline.ΦA; rw [scopedRest2_split, scratch2_0, scratch2_1, scratch2_2, scratch2_3]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 8000000 in
/-- The body at any point, by the parity of the point: at a row's first tile the scratch buffers come out of the
    class invariant at anything and go back named; at its last tile they come in named and go back at anything, and the
    output buffer ends at the row's attention block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl, Phi2_succ, Phi2_castSucc]
  rw [show (dat2 V c).leavesExact 0 t = owns (c : Thread nD τ) (ms2_0 t) fullShare ((dat2 V c).after 0 t) from by
        unfold Dat.leavesExact; rw [liveAt2_0 t],
    show (dat2 V c).leavesExact 1 t = owns (c : Thread nD τ) (ms2_1 t) fullShare ((dat2 V c).after 1 t) from by
        unfold Dat.leavesExact; rw [liveAt2_1 t],
    show (dat2 V c).leavesExact 2 t = owns (c : Thread nD τ) (ms2_2 t) fullShare ((dat2 V c).after 2 t) from by
        unfold Dat.leavesExact; rw [liveAt2_2 t],
    after2_0, after2_1, after2_2]
  have hN : t.val < 128 := lt_of_lt_of_eq t.isLt (show cfg2.N = 128 from N_2)
  by_cases h0 : t.val % 2 = 0
  · rw [if_pos h0, PhiS2_even V c _ _ h0, PhiA2_eq,
      Dat.leavesExact_idle (dat2 V c) 3 t (idleAt2_3 t h0) (noFlush2_3 t h0)]
    unfold carried2
    iintro ⟨⟨⟨⟨S0, S1, S2, S3⟩, Hrest⟩, Hg⟩, Ho, ⟨%d0, H0⟩, ⟨%d1, H1⟩, ⟨%d2, H2⟩, ⟨%d3, H3⟩⟩
    iapply ((kernelRun2_A c (grid2.coords t) _ _ _ _ _ _ _ _ ((hcond2_0 t).mpr h0) (fun h => by have := (hcond2_1 t).mp h; omega)
      (iblk2 V c 0 t) (iblk2 V c 1 t) (iblk2 V c 2 t)).2.2.2.2 _ Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iintro ⟨H0, H1, H2, H3, ⟨%e0, S0⟩, ⟨%e1, S1⟩, ⟨%e2, S2⟩, ⟨%e3, S3⟩⟩
    isplitl [S0 S1 S2 S3 Hrest Hg]
    · isplitl [S0 S1 S2 S3]
      · isplitl [S0]
        · unfold owns; iexists _; isplitr
          swap; · iexact S0
          ipureintro; exact sval2_A_0 c _ _ _ _ _ _ _ _ _ _ _ _ _ _ _
        isplitl [S1]
        · unfold owns; iexists _; isplitr
          swap; · iexact S1
          ipureintro; exact sval2_A_1 c _ _ _ _ _ _ _ _ _ _ _ _ _ _ _
        isplitl [S2]
        · unfold owns; iexists _; isplitr
          swap; · iexact S2
          ipureintro; exact sval2_A_2 c _ _ _ _ _ _ _ _ _ _ _ _ _ _ _
        unfold owns; iexists _; isplitr
        swap; · iexact S3
        ipureintro; exact sval2_A_3 c _ _ _ _ _ _ _ _ _ _ _ _ _ _ _
      isplitl [Hrest]; · iexact Hrest
      iexact Hg
    isplitl [Ho]; · iexact Ho
    isplitl [H0]; · iexact H0
    isplitl [H1]; · iexact H1
    isplitl [H2]; · iexact H2
    iexists _; iexact H3
  · have h1 : t.val % 2 = 1 := by omega
    rw [if_neg h0, PhiS2_odd V c t h1, PhiA2_eq,
      show (dat2 V c).leavesExact 3 t = owns (c : Thread nD τ) (ms2_3 t) fullShare ((dat2 V c).after 3 t) from by
        unfold Dat.leavesExact; rw [liveAt2_3 t h1],
      after2_3]
    unfold carried2
    iintro ⟨⟨⟨S0, S1, S2, S3⟩, Hrest, Hg⟩, Ho, ⟨%d0, H0⟩, ⟨%d1, H1⟩, ⟨%d2, H2⟩, ⟨%d3, H3⟩⟩
    iapply ((kernelRun2_B c (grid2.coords t) _ _ _ _ _ _ _ _ (fun h => h0 ((hcond2_0 t).mp h)) ((hcond2_1 t).mpr h1)
      (iblk2 V c 0 t) (iblk2 V c 1 t) (iblk2 V c 2 t)
      (st2_0 V c (prev2 t)) (st2_1 V c (prev2 t)) (st2_2 V c (prev2 t)) (st2_3 V c (prev2 t))).2 Set.univ _)
    isplitl [H0]; · iexact H0
    isplitl [H1]; · iexact H1
    isplitl [H2]; · iexact H2
    isplitl [H3]; · iexists _; iexact H3
    isplitl [S0]; · iexact S0
    isplitl [S1]; · iexact S1
    isplitl [S2]; · iexact S2
    isplitl [S3]; · iexact S3
    iintro ⟨H0, H1, H2, ⟨%e3, H3⟩, S0, S1, S2, S3⟩
    isplitl [S0 S1 S2 S3 Hrest Hg]
    · isplitl [S0 S1 S2 S3 Hrest]
      · isplitl [S0 S1 S2 S3]
        · isplitl [S0]; · iexact S0
          isplitl [S1]; · iexact S1
          isplitl [S2]; · iexact S2
          iexact S3
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact out2_val c _ _ _ _ _ _ _ _ _ _ _ _ _ _ _ _ _ _ _

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, and the invariant after the last point
    (an even position) gives it back. -/
theorem hin2 (c : Dev nD) : (dat2 V c).Φ 0 = Pipeline.ΦA spec2 c := rfl
theorem hout2 (c : Dev nD) : (dat2 V c).Φ (Fin.last cfg2.N) = Pipeline.ΦA spec2 c := by
  rw [show (dat2 V c).Φ (Fin.last cfg2.N) = PhiS2 V c (Fin.last cfg2.N).val (Nat.le_of_lt_succ (Fin.last cfg2.N).isLt) from rfl]
  exact PhiS2_even V c _ _ (by rw [Fin.val_last, show cfg2.N = 128 from N_2])

end Region

end Cert.KernelIdeal.Frm

end
-- ==== Proof.Chain.lean ====
/-
  The run of the whole program: region 0, two host lines, region 1, two host lines, region 2, three host lines (the
  last a concatenation of the three chunk results). The buffer contents at each boundary are a fold from the launch
  memory: a region replaces its arrays by what its pipeline leaves, a host stretch applies its operations. Every
  weakly fair execution terminates with every unscoped buffer at the last contents of that fold.
-/
import proofs.«143665_j77000173683359_2_alg».proof.Proof.Gen.KernelIdeal.Launch
import proofs.«143665_j77000173683359_2_alg».proof.Proof.Gen.KernelIdeal.Skeleton
import proofs.«143665_j77000173683359_2_alg».proof.Proof.Gen.KernelIdeal.Points
import proofs.«143665_j77000173683359_2_alg».proof.Proof.Gen.KernelIdeal.Regions
import proofs.«143665_j77000173683359_2_alg».proof.Proof.Frame0
import proofs.«143665_j77000173683359_2_alg».proof.Proof.Frame1
import proofs.«143665_j77000173683359_2_alg».proof.Proof.Frame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- At region 0's exit: its arrays at what the pipeline leaves (each output's write-backs folded), every other buffer
    as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- An argument array staged by an input window comes out of the region as it went in. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (U0 m ρ) c).arrAt_in w hw _).trans (A_eq0 (U0 m ρ) c w))

/-- After the two host lines that follow region 0: region 1's entry. -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b

/-- At region 1's exit: its arrays at what the pipeline leaves (each output's write-backs folded), every other buffer
    as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- An argument array staged by an input window comes out of the region as it went in. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (U2 m ρ) c).arrAt_in w hw _).trans (A_eq1 (U2 m ρ) c w))

/-- After the two host lines that follow region 1: region 2's entry. -/
abbrev W4 : Dev nD → Valuation τ sig (Elt F) := fun c => StableHlo.after hostOps2 (W3 m ρ c)
abbrev U4 : (c : Dev nD) → (b : Ref sig .tc) → Buf (Elt F) ((c : Thread nD τ).loc b) := fun c b => W4 m ρ c b

/-- At region 2's exit: its arrays at what the pipeline leaves (each output's write-backs folded), every other buffer
    as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)
/-- An argument array staged by an input window comes out of the region as it went in. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (U4 m ρ) c).arrAt_in w hw _).trans (A_eq2 (U4 m ρ) c w))

/-- After the three host lines that follow region 2: the end. -/
abbrev W6 : Dev nD → Valuation τ sig (Elt F) := fun c => StableHlo.after hostOps3 (W5 m ρ c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
  | ⟨2, _⟩ => fun c => dat2 (U4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at `W0`, left at `W1`. Its arrays are split out of the
    unscoped buffers and put back at the exit contents; the generator register goes into the invariant and out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W2`, left at `W3`. Its arrays are split out of the
    unscoped buffers and put back at the exit contents; the generator register goes into the invariant and out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W4`, left at `W5`. Its arrays are split out of the
    unscoped buffers and put back at the exit contents; the generator register goes into the invariant and out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from hin2 (U4 m ρ) c]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from hout2 (U4 m ρ) c]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and the final memory holds every unscoped buffer at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Frm

end
-- ==== Proof.Args.lean ====
/-
  What the fold of buffer contents says of the buffers the claims name: no host line and no region writes an argument
  array, so each reaches the end (and every region's entry) as launched; and the result buffer ends at the
  concatenation, along the token axis, of the three chunk results, each the region's output array re-laid by the two
  host lines that follow the region.
-/
import proofs.«143665_j77000173683359_2_alg».proof.Proof.Gen.KernelIdeal.Launch
import proofs.«143665_j77000173683359_2_alg».proof.Proof.Gen.KernelIdeal.Skeleton
import proofs.«143665_j77000173683359_2_alg».proof.Proof.Gen.KernelIdeal.Points
import proofs.«143665_j77000173683359_2_alg».proof.Proof.Chain
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays through the fold -/

theorem W1_arg0 (c : Dev nD) : W1 m ρ c (Proc.devRef .tc main_arg0) = m ((c : Thread nD τ).loc main_arg0) := W1_in m ρ c 0 rfl
theorem W1_arg1 (c : Dev nD) : W1 m ρ c (Proc.devRef .tc main_arg1) = m ((c : Thread nD τ).loc main_arg1) := W1_in m ρ c 1 rfl
theorem W1_arg2 (c : Dev nD) : W1 m ρ c (Proc.devRef .tc main_arg2) = m ((c : Thread nD τ).loc main_arg2) := W1_in m ρ c 2 rfl
theorem W2_arg0 (c : Dev nD) : W2 m ρ c (Proc.devRef .tc main_arg0) = m ((c : Thread nD τ).loc main_arg0) :=
  (StableHlo.after_of_writes_sub hostOps1 _ hostOps1_writes (by decide)).trans (W1_arg0 m ρ c)
theorem W2_arg1 (c : Dev nD) : W2 m ρ c (Proc.devRef .tc main_arg1) = m ((c : Thread nD τ).loc main_arg1) :=
  (StableHlo.after_of_writes_sub hostOps1 _ hostOps1_writes (by decide)).trans (W1_arg1 m ρ c)
theorem W2_arg2 (c : Dev nD) : W2 m ρ c (Proc.devRef .tc main_arg2) = m ((c : Thread nD τ).loc main_arg2) :=
  (StableHlo.after_of_writes_sub hostOps1 _ hostOps1_writes (by decide)).trans (W1_arg2 m ρ c)
theorem W3_arg0 (c : Dev nD) : W3 m ρ c (Proc.devRef .tc main_arg0) = m ((c : Thread nD τ).loc main_arg0) := (W3_in m ρ c 0 rfl).trans (W2_arg0 m ρ c)
theorem W3_arg1 (c : Dev nD) : W3 m ρ c (Proc.devRef .tc main_arg1) = m ((c : Thread nD τ).loc main_arg1) := (W3_in m ρ c 1 rfl).trans (W2_arg1 m ρ c)
theorem W3_arg2 (c : Dev nD) : W3 m ρ c (Proc.devRef .tc main_arg2) = m ((c : Thread nD τ).loc main_arg2) := (W3_in m ρ c 2 rfl).trans (W2_arg2 m ρ c)
theorem W4_arg0 (c : Dev nD) : W4 m ρ c (Proc.devRef .tc main_arg0) = m ((c : Thread nD τ).loc main_arg0) :=
  (StableHlo.after_of_writes_sub hostOps2 _ hostOps2_writes (by decide)).trans (W3_arg0 m ρ c)
theorem W4_arg1 (c : Dev nD) : W4 m ρ c (Proc.devRef .tc main_arg1) = m ((c : Thread nD τ).loc main_arg1) :=
  (StableHlo.after_of_writes_sub hostOps2 _ hostOps2_writes (by decide)).trans (W3_arg1 m ρ c)
theorem W4_arg2 (c : Dev nD) : W4 m ρ c (Proc.devRef .tc main_arg2) = m ((c : Thread nD τ).loc main_arg2) :=
  (StableHlo.after_of_writes_sub hostOps2 _ hostOps2_writes (by decide)).trans (W3_arg2 m ρ c)
theorem W5_arg0 (c : Dev nD) : W5 m ρ c (Proc.devRef .tc main_arg0) = m ((c : Thread nD τ).loc main_arg0) := (W5_in m ρ c 0 rfl).trans (W4_arg0 m ρ c)
theorem W5_arg1 (c : Dev nD) : W5 m ρ c (Proc.devRef .tc main_arg1) = m ((c : Thread nD τ).loc main_arg1) := (W5_in m ρ c 1 rfl).trans (W4_arg1 m ρ c)
theorem W5_arg2 (c : Dev nD) : W5 m ρ c (Proc.devRef .tc main_arg2) = m ((c : Thread nD τ).loc main_arg2) := (W5_in m ρ c 2 rfl).trans (W4_arg2 m ρ c)
theorem W6_arg0 (c : Dev nD) : W6 m ρ c (Proc.devRef .tc main_arg0) = m ((c : Thread nD τ).loc main_arg0) :=
  (StableHlo.after_of_writes_sub hostOps3 _ hostOps3_writes (by decide)).trans (W5_arg0 m ρ c)
theorem W6_arg1 (c : Dev nD) : W6 m ρ c (Proc.devRef .tc main_arg1) = m ((c : Thread nD τ).loc main_arg1) :=
  (StableHlo.after_of_writes_sub hostOps3 _ hostOps3_writes (by decide)).trans (W5_arg1 m ρ c)
theorem W6_arg2 (c : Dev nD) : W6 m ρ c (Proc.devRef .tc main_arg2) = m ((c : Thread nD τ).loc main_arg2) :=
  (StableHlo.after_of_writes_sub hostOps3 _ hostOps3_writes (by decide)).trans (W5_arg2 m ρ c)

/-- THE FRAME: every weakly fair execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_arg0 m ρ c),
     (h c _ (mem_uc main_arg1 (by decide))).trans (W6_arg1 m ρ c),
     (h c _ (mem_uc main_arg2 (by decide))).trans (W6_arg2 m ρ c)⟩) (run_all m ρ)

/-! ## The result buffer through the fold -/

/-- The two host lines after a region: the region's output array re-laid as `[8, 16384, 64]` and given a leading
    unit axis. -/
theorem W2_v2 (c : Dev nD) : W2 m ρ c (Proc.devRef .tc main_v2)
    = broadcastInDim S1x8x16384x64 ![1, 2, 3] bcast_S8x16384x64_S1x8x16384x64_1_2_3
        (shapeCast S8x16384x64 ((dat0 (U0 m ρ) c).arrAt 3 cfg0.N) shapeCasts_S256x512x64_S8x16384x64) := by
  rw [← W1_arr m ρ c 3]
  show StableHlo.after hostOps1 (W1 m ρ c) (Proc.devRef .tc main_v2) = _
  after_results
  rfl
theorem W4_v5 (c : Dev nD) : W4 m ρ c (Proc.devRef .tc main_v5)
    = broadcastInDim S1x8x16384x64 ![1, 2, 3] bcast_S8x16384x64_S1x8x16384x64_1_2_3
        (shapeCast S8x16384x64 ((dat1 (U2 m ρ) c).arrAt 3 cfg1.N) shapeCasts_S128x1024x64_S8x16384x64) := by
  rw [← W3_arr m ρ c 3]
  show StableHlo.after hostOps2 (W3 m ρ c) (Proc.devRef .tc main_v5) = _
  after_results
  rfl
/-- A chunk result written before a later region is untouched by it and by the host lines after it. -/
theorem W5_v2 (c : Dev nD) : W5 m ρ c (Proc.devRef .tc main_v2) = W2 m ρ c (Proc.devRef .tc main_v2) :=
  (W5_of_ne m ρ c main_v2 (by decide)).trans ((StableHlo.after_of_writes_sub hostOps2 _ hostOps2_writes (by decide)).trans
    (W3_of_ne m ρ c main_v2 (by decide)))
theorem W5_v5 (c : Dev nD) : W5 m ρ c (Proc.devRef .tc main_v5) = W4 m ρ c (Proc.devRef .tc main_v5) :=
  W5_of_ne m ρ c main_v5 (by decide)
/-- The result buffer at the end: the three chunk results concatenated along the token axis. -/
theorem W6_v9 (c : Dev nD) : W6 m ρ c (Proc.devRef .tc main_v9)
    = concatenate S1x8x49152x64 2
        [⟨S1x8x16384x64, W5 m ρ c (Proc.devRef .tc main_v2)⟩, ⟨S1x8x16384x64, W5 m ρ c (Proc.devRef .tc main_v5)⟩,
         ⟨S1x8x16384x64, broadcastInDim S1x8x16384x64 ![1, 2, 3] bcast_S8x16384x64_S1x8x16384x64_1_2_3
            (shapeCast S8x16384x64 ((dat2 (U4 m ρ) c).arrAt 3 cfg2.N) shapeCasts_S64x2048x64_S8x16384x64)⟩]
        concatenates_S1x8x16384x64_S1x8x16384x64_S1x8x16384x64_S1x8x49152x64_d2 := by
  rw [← W5_arr m ρ c 3]
  show StableHlo.after hostOps3 (W5 m ρ c) (Proc.devRef .tc main_v9) = _
  after_results
  rfl

end Cert.KernelIdeal.Frm

end
-- ==== Proof.Spec.lean ====
/-
  Scaled-dot-product attention of ONE query row against a family of keys and values, on the extended reals,
  in the two arrangements this certificate compares:

  * `refRow`: the softmax weights first — each weight `exp (s j - M) / ∑ j', exp (s j' - M)` with `M` the row's
    largest score — then the weighted sum of the value rows;
  * `step` / `oneTile` / `twoTiles`: the streaming arrangement — a running maximum `m`, a running denominator `l`
    and a running unnormalised numerator `acc`, rescaled by `exp (m_old - m_new)` whenever a tile of keys raises
    the maximum, the quotient `acc / l` taken once at the end.

  `attnOut` lays rows out along the packed token axis: tokens `0 … 16383` in rows of 512, `16384 … 32767` in rows of
  1024, `32768 … 49151` in rows of 2048; a token attends to the tokens of its own row only.
-/
import Idealize.ShloMosaic.PureOps.Ideal
import Idealize.ShloMosaic.Lib.ValueIdx

noncomputable section

namespace Cert.Attn

open Idealize.ShloMosaic

/-- The softmax scale `1/8` (the head dimension is 64), as the f32 word both programs carry. -/
def scaleW : EReal := Ideal.ofBits .f32 0x3E000000#32

variable {s : ℕ}

/-- The score of key `j`: the scaled query row against the key row. -/
def score (q : Fin 64 → EReal) (k : Fin s → Fin 64 → EReal) (j : Fin s) : EReal :=
  ∑ e : Fin 64, (q e * scaleW) * k j e

/-- The largest of a family of scores (`⊥` for the empty family). -/
def rowMax (sc : Fin s → EReal) : EReal := Finset.univ.fold max ⊥ sc

/-- Attention of one query row, weights normalised BEFORE the weighted sum. -/
def refRow (q : Fin 64 → EReal) (k v : Fin s → Fin 64 → EReal) (d : Fin 64) : EReal :=
  ∑ j : Fin s, Ideal.div (Ideal.exp (score q k j - rowMax (score q k)))
      (∑ j' : Fin s, Ideal.exp (score q k j' - rowMax (score q k))) * v j d

/-- One streaming step over a tile of keys: the new maximum, denominator and numerator from the old ones. -/
def step (st : EReal × EReal × (Fin 64 → EReal)) (q : Fin 64 → EReal) (k v : Fin s → Fin 64 → EReal) :
    EReal × EReal × (Fin 64 → EReal) :=
  let m' := max st.1 (rowMax (score q k))
  let a := Ideal.exp (st.1 - m')
  (m', a * st.2.1 + ∑ j : Fin s, Ideal.exp (score q k j - m'),
    fun d => a * st.2.2 d + ∑ j : Fin s, Ideal.exp (score q k j - m') * v j d)

/-- The state before any tile: maximum `-∞`, denominator and numerator zero. -/
def init : EReal × EReal × (Fin 64 → EReal) := (⊥, 0, fun _ => 0)

/-- The streaming arrangement over a single tile holding the whole row. -/
def oneTile (q : Fin 64 → EReal) (k v : Fin s → Fin 64 → EReal) (d : Fin 64) : EReal :=
  Ideal.div ((step init q k v).2.2 d) (step init q k v).2.1

/-- The streaming arrangement over two tiles. -/
def twoTiles {s₁ s₂ : ℕ} (q : Fin 64 → EReal) (k₁ v₁ : Fin s₁ → Fin 64 → EReal) (k₂ v₂ : Fin s₂ → Fin 64 → EReal)
    (d : Fin 64) : EReal :=
  Ideal.div ((step (step init q k₁ v₁) q k₂ v₂).2.2 d) (step (step init q k₁ v₁) q k₂ v₂).2.1

/-- Token `j` of the row of length `s` that token `n` lies in (rows are aligned: a row starts at a multiple of `s`). -/
def tok (s : ℕ) (n : Fin 49152) (j : Fin s) : Fin 49152 :=
  ⟨(n.val / s * s + j.val) % 49152, Nat.mod_lt _ (by norm_num)⟩

/-- A packed array `[8, 49152, 64]` of per-row attention results, by the row arrangement `row` given per row length. -/
def attnOut (row : (s : ℕ) → (Fin 64 → EReal) → (Fin s → Fin 64 → EReal) → (Fin s → Fin 64 → EReal) → Fin 64 → EReal)
    (Q K V : Fin 8 → Fin 49152 → Fin 64 → EReal) (h : Fin 8) (n : Fin 49152) (d : Fin 64) : EReal :=
  if n.val < 16384 then row 512 (Q h n) (fun j => K h (tok 512 n j)) (fun j => V h (tok 512 n j)) d
  else if n.val < 32768 then row 1024 (Q h n) (fun j => K h (tok 1024 n j)) (fun j => V h (tok 1024 n j)) d
  else row 2048 (Q h n) (fun j => K h (tok 2048 n j)) (fun j => V h (tok 2048 n j)) d

/-- The reference's arrangement on every row. -/
def refOut := attnOut (fun s => refRow (s := s))

/-- The first / second half of a family over `Fin 2048`. -/
def lo (f : Fin 2048 → Fin 64 → EReal) (j : Fin 1024) : Fin 64 → EReal := f ⟨j.val, by omega⟩
def hi (f : Fin 2048 → Fin 64 → EReal) (j : Fin 1024) : Fin 64 → EReal := f ⟨1024 + j.val, by omega⟩

/-- The kernel's arrangement: one tile for the rows of 512 and of 1024, two tiles of 1024 for the rows of 2048. -/
def kerRow : (s : ℕ) → (Fin 64 → EReal) → (Fin s → Fin 64 → EReal) → (Fin s → Fin 64 → EReal) → Fin 64 → EReal
  | 2048, q, k, v => twoTiles q (lo k) (lo v) (hi k) (hi v)
  | _, q, k, v => oneTile q k v

def kerOut := attnOut kerRow

/-- The packed argument and result arrays' shape `[1, 8, 49152, 64]`. -/
abbrev SQ : Shape := ⟨4, ![1, 8, 49152, 64]⟩

/-- A packed array read by head, token and feature. -/
def unpack (x : SQ.Idx → EReal) : Fin 8 → Fin 49152 → Fin 64 → EReal :=
  fun h n d => x (ValueIdx.ix4 (0 : Fin 1) h n d)

/-- A function of head, token and feature as a packed array. -/
def pack (G : Fin 8 → Fin 49152 → Fin 64 → EReal) : SQ.Idx → EReal :=
  fun i => G (i 1) (i 2) (i 3)

/-- An extended real that is a real number. -/
def IsR (x : EReal) : Prop := ∃ r : ℝ, x = (r : EReal)

end Cert.Attn

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.LibUnitPair.lean ====
/-
  Two leading unit axes dropped or added by a shape cast, read at an index.

  A pipelined block of a rank-4 array whose two leading axes are squeezed has shape [1, 1, a, b]; a kernel body views
  it as the matrix [a, b] and stores a matrix result back as [1, 1, a, b]. Both casts keep the row-major position, so
  the matrix entry (i, j) is the block entry (0, 0, i, j).
-/
import Idealize.ShloMosaic.Lib.Pipeline.Value
import Idealize.ShloMosaic.Lib.ValueIdx

namespace Cert.LibUnitPair

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

end Cert.LibUnitPair
-- ==== Proof.LibColReduce.lean ====
/-
  Columns of a matrix on the extended reals: a reduction over the ROWS of an `[a, b]` matrix, read at column `q`.

  • The sum over axis 0 is the `Fin a`-indexed sum of the column's entries.
  • The maximum over axis 0 is the fold of `max` over the column's entries from the accumulator's value.
  • A `[1, 1]` value broadcast down a column `[a, 1]`, a column `[a, 1]` broadcast across `[a, b]`, and a `[1, 1]`
    value broadcast along a row `[1, b]`, each read at an entry.
  • The f32 word of `-∞` denotes `⊥`.
-/
import Idealize.ShloMosaic.Lib.Pipeline.Value
import Idealize.ShloMosaic.Lib.ValueIdx
import Idealize.ShloMosaic.PureOps.Ideal.Laws

namespace Cert.ColReduce

open Idealize.ShloMosaic Idealize.ShloMosaic.ValueIdx
open scoped BigOperators

/-- The sum over the rows, at a column. -/
theorem multiReduction_add_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => ?_
  exact congrArg src (funext fun c => Fin.ext (by match c with | ⟨0, _⟩ => rfl | ⟨1, _⟩ => rfl))

/-- The maximum over the rows, at a column: the fold of `max` from the accumulator's value. -/
theorem multiReduction_max_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) (fun k => src (ix2 k q)) := by
  refine (Ideal.multiReduction_maximumf_single src acc h hφ hacc (ix1 q)).trans ?_
  refine congrArg (Finset.fold max _ · _) (funext fun k => ?_)
  exact congrArg src (funext fun c => Fin.ext (by match c with | ⟨0, _⟩ => rfl | ⟨1, _⟩ => rfl))

variable {α : Type}

/-- A `[1, 1]` value broadcast down a column. -/
theorem broadcastTo_11_a1 {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- A `[1, 1]` value broadcast along a row. -/
theorem broadcastTo_11_1b {b : ℕ} (v : (⟨2, ![1, 1]⟩ : Shape).Idx → α) (h : (⟨2, ![1, 1]⟩ : Shape).Broadcasts ⟨2, ![1, b]⟩)
    (u : Fin 1) (q : Fin b) : broadcastTo ⟨2, ![1, b]⟩ v h (ix2 u q) = v (ix2 (0 : Fin 1) (0 : Fin 1)) := by
  refine broadcastTo_apply v h (ix2 u q) (ix2 (0 : Fin 1) (0 : Fin 1)) fun ax => ?_
  match ax with
  | ⟨0, _⟩ => rfl
  | ⟨1, _⟩ => rfl

/-- A column broadcast across the columns of a matrix. -/
theorem broadcastTo_a1_ab {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-entry vector as a `[1, 1]` matrix. -/
theorem shapeCast_1_11 (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    omega)

/-- The f32 word `0xFF800000` denotes `-∞`. -/
theorem ofBits_neg_inf_f32 : Ideal.ofBits .f32 0xFF800000#32 = ⊥ := by
  simp [Ideal.ofBits, Ideal.ieee]

end Cert.ColReduce
-- ==== Proof.BodyAtCore.lean ====
/-
  The streaming attention body's operations, read at an index, for a tile of `t` keys against `s` query rows of 64
  features, on the extended reals.

  • the score matrix: the product, into a zero accumulator, of the scaled query tile with the TRANSPOSED key tile reads,
    at `(r, j)`, the sum over the 64 features of `query (r, e) · key (j, e)`;
  • the new running maximum: the old one against the lane maximum of the score matrix taken from `-∞`;
  • the lane sum of a matrix kept as a column; a column broadcast over the lanes;
  • the weighted values: the product, into a zero accumulator, of a weight matrix with the value tile reads, at
    `(r, d)`, the sum over the keys of `weight (r, j) · value (j, d)`;
  • the stored quotient: numerator over the broadcast denominator, with a leading unit axis added.
-/
import proofs.«143665_j77000173683359_2_alg».proof.Proof.Spec
import proofs.«143665_j77000173683359_2_alg».proof.Proof.LibRowOps
import proofs.«143665_j77000173683359_2_alg».proof.Proof.LibKeepdims
import proofs.«143665_j77000173683359_2_alg».proof.Proof.LibUnitPair
import proofs.«143665_j77000173683359_2_alg».proof.Proof.LibColReduce
import Idealize.ShloMosaic.Lib.ValueIdx
import Idealize.ShloMosaic.Lib.ValueLayout
import Idealize.ShloMosaic.Lib.Pipeline.Value
import Idealize.ShloMosaic.PureOps.Ideal.Laws

namespace Cert.KernelIdeal.BodyAt

open Idealize.ShloMosaic Idealize.ShloMosaic.ValueIdx
open scoped BigOperators

variable {s t : ℕ}

/-- The exponential of a vector, at an index. -/
theorem exp_apply {S : Shape} {φ : FTy} (x : FVec Ideal S φ) (i : S.Idx) : exp x i = Ideal.exp (x i) := rfl

/-- A key or value tile `[1, 1, t, 64]` viewed as the matrix `[t, 64]` and narrowed: at `(j, e)` the tile at `(0, 0, j, e)`. -/
theorem tile_entry (x : Vec Ideal ⟨4, ![1, 1, t, 64]⟩ .f32)
    (hc : (⟨4, ![1, 1, t, 64]⟩ : Shape).ShapeCasts ⟨2, ![t, 64]⟩) (hb : FTy.bits .bf16 < FTy.bits .f32)
    (j : Fin t) (e : Fin 64) :
    (truncf .bf16 (shapeCast ⟨2, ![t, 64]⟩ x hc : FVec Ideal ⟨2, ![t, 64]⟩ .f32) hb : FVec Ideal ⟨2, ![t, 64]⟩ .bf16) (ix2 j e)
      = x (ix4 (0 : Fin 1) (0 : Fin 1) j e) :=
  (truncf_apply _ hb _).trans (Cert.LibUnitPair.shapeCast_11ab_ab_apply x hc j e)

/-- The score matrix at `(r, j)`. -/
theorem score_entry (d : DotDims ⟨2, ![s, 64]⟩ ⟨2, ![64, t]⟩ ⟨2, ![s, t]⟩)
    (hr : d.contr.rank = 1) (hs : d.contr.size ⟨0, by omega⟩ = 64)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (hc : (⟨4, ![1, 1, t, 64]⟩ : Shape).ShapeCasts ⟨2, ![t, 64]⟩) (hb : FTy.bits .bf16 < FTy.bits .f32)
    (ht : (⟨2, ![t, 64]⟩ : Shape).Transposes [1, 0] ⟨2, ![64, t]⟩)
    (qs : FVec Ideal ⟨2, ![s, 64]⟩ .bf16) (xk : Vec Ideal ⟨4, ![1, 1, t, 64]⟩ .f32) (r : Fin s) (j : Fin t) :
    matmul d none qs
        (transpose ⟨2, ![64, t]⟩ [1, 0]
          (truncf .bf16 (shapeCast ⟨2, ![t, 64]⟩ xk hc : FVec Ideal ⟨2, ![t, 64]⟩ .f32) hb : FVec Ideal ⟨2, ![t, 64]⟩ .bf16) ht)
        (constant (F := Ideal) ⟨2, ![s, t]⟩ .f32 0x00000000#32) (ix2 r j)
      = ∑ e : Fin 64, qs (ix2 r e) * xk (ix4 (0 : Fin 1) (0 : Fin 1) j e) := by
  refine (Cert.RowOps.matmul_zero_entry d hr hs hl0 hl1 hr0 hr1 none qs _ r j).trans ?_
  refine Finset.sum_congr rfl fun e _ => ?_
  refine congrArg (qs (ix2 r e) * ·) ?_
  exact (transpose_ix2_apply _ ht e j).trans (tile_entry xk hc hb j e)

/-- The new running maximum at row `r`: the old one against the largest score of the row. -/
theorem newMax_entry (sc : FVec Ideal ⟨2, ![s, t]⟩ .f32) (m : FVec Ideal ⟨2, ![s, 1]⟩ .f32)
    (h : (⟨2, ![s, t]⟩ : Shape).Reduces [1] ⟨1, ![s]⟩) (hφ : FKind.Formats .f32)
    (hacc : (0xFF800000#32 : BitVec FTy.f32.bits) = FKind.maximumf.neutral .f32 hφ)
    (hc : (⟨1, ![s]⟩ : Shape).ShapeCasts ⟨2, ![s, 1]⟩) (r : Fin s) :
    maximumf m (shapeCast ⟨2, ![s, 1]⟩ (multiReduction .maximumf [1] ⟨1, ![s]⟩ sc 0xFF800000#32 h hφ hacc) hc) (ix2 r (0 : Fin 1))
      = max (m (ix2 r (0 : Fin 1))) ((Finset.univ : Finset (Fin t)).fold max ⊥ (fun j => sc (ix2 r j))) := by
  refine (maximumf_apply _ _ _).trans ?_
  refine congrArg (max (m (ix2 r (0 : Fin 1))) ·) ?_
  refine (Cert.Keepdims.shapeCast_a_a1_apply _ hc r 0).trans ?_
  refine (Cert.RowOps.multiReduction_max_rows sc _ h hφ hacc r).trans ?_
  rw [Cert.ColReduce.ofBits_neg_inf_f32]

/-- The lane sum of a matrix, kept as a column, at row `r`. -/
theorem rowSum_entry (p : FVec Ideal ⟨2, ![s, t]⟩ .f32)
    (h : (⟨2, ![s, t]⟩ : Shape).Reduces [1] ⟨1, ![s]⟩) (hφ : FKind.Formats .f32)
    (hacc : (0x00000000#32 : BitVec FTy.f32.bits) = FKind.add.neutral .f32 hφ)
    (hc : (⟨1, ![s]⟩ : Shape).ShapeCasts ⟨2, ![s, 1]⟩) (r : Fin s) :
    shapeCast ⟨2, ![s, 1]⟩ (multiReduction .add [1] ⟨1, ![s]⟩ p 0x00000000#32 h hφ hacc) hc (ix2 r (0 : Fin 1))
      = ∑ j : Fin t, p (ix2 r j) :=
  (Cert.Keepdims.shapeCast_a_a1_apply _ hc r 0).trans (Cert.Keepdims.multiReduction_add_rows p _ h hφ hacc r)

/-- The weighted values at `(r, d)`. -/
theorem weighted_entry (d : DotDims ⟨2, ![s, t]⟩ ⟨2, ![t, 64]⟩ ⟨2, ![s, 64]⟩)
    (hr : d.contr.rank = 1) (hs : d.contr.size ⟨0, by omega⟩ = t)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (hc : (⟨4, ![1, 1, t, 64]⟩ : Shape).ShapeCasts ⟨2, ![t, 64]⟩) (hb : FTy.bits .bf16 < FTy.bits .f32)
    (p : FVec Ideal ⟨2, ![s, t]⟩ .f32) (xv : Vec Ideal ⟨4, ![1, 1, t, 64]⟩ .f32) (r : Fin s) (c : Fin 64) :
    matmul d none (truncf .bf16 p hb : FVec Ideal ⟨2, ![s, t]⟩ .bf16)
        (truncf .bf16 (shapeCast ⟨2, ![t, 64]⟩ xv hc : FVec Ideal ⟨2, ![t, 64]⟩ .f32) hb : FVec Ideal ⟨2, ![t, 64]⟩ .bf16)
        (constant (F := Ideal) ⟨2, ![s, 64]⟩ .f32 0x00000000#32) (ix2 r c)
      = ∑ j : Fin t, p (ix2 r j) * xv (ix4 (0 : Fin 1) (0 : Fin 1) j c) := by
  refine (Cert.RowOps.matmul_zero_entry d hr hs hl0 hl1 hr0 hr1 none _ _ r c).trans ?_
  refine Finset.sum_congr rfl fun j _ => ?_
  exact congrArg₂ (· * ·) (truncf_apply p hb _) (tile_entry xv hc hb j c)

/-- The stored quotient at `(0, r, c)`. -/
theorem quotient_entry (acc : FVec Ideal ⟨2, ![s, 64]⟩ .f32) (l : FVec Ideal ⟨2, ![s, 1]⟩ .f32)
    (hbc : (⟨2, ![s, 1]⟩ : Shape).Broadcasts ⟨2, ![s, 64]⟩) (hc : (⟨2, ![s, 64]⟩ : Shape).ShapeCasts ⟨3, ![1, s, 64]⟩)
    (r : Fin s) (c : Fin 64) :
    shapeCast ⟨3, ![1, s, 64]⟩ (divf acc (broadcastTo ⟨2, ![s, 64]⟩ l hbc)) hc (ix3 (0 : Fin 1) r c)
      = Ideal.div (acc (ix2 r c)) (l (ix2 r (0 : Fin 1))) := by
  refine (shapeCast_ab_1ab_apply _ hc 0 r c).trans ?_
  refine (divf_apply _ _ _).trans ?_
  exact congrArg (Ideal.div (acc (ix2 r c)) ·) (Cert.Keepdims.broadcastTo_a1_ab_apply l hbc r c)

/-! ## The streaming step's three components, spelt out -/

section Step
open Cert.Attn
variable {n : ℕ}

theorem step_max (st : EReal × EReal × (Fin 64 → EReal)) (q : Fin 64 → EReal) (k v : Fin n → Fin 64 → EReal) :
    (step st q k v).1 = max st.1 (rowMax (score q k)) := rfl

theorem step_den (st : EReal × EReal × (Fin 64 → EReal)) (q : Fin 64 → EReal) (k v : Fin n → Fin 64 → EReal) :
    (step st q k v).2.1
      = Ideal.exp (st.1 - max st.1 (rowMax (score q k))) * st.2.1
        + ∑ j : Fin n, Ideal.exp (score q k j - max st.1 (rowMax (score q k))) := rfl

theorem step_num (st : EReal × EReal × (Fin 64 → EReal)) (q : Fin 64 → EReal) (k v : Fin n → Fin 64 → EReal) (c : Fin 64) :
    (step st q k v).2.2 c
      = Ideal.exp (st.1 - max st.1 (rowMax (score q k))) * st.2.2 c
        + ∑ j : Fin n, Ideal.exp (score q k j - max st.1 (rowMax (score q k))) * v j c := rfl

end Step

end Cert.KernelIdeal.BodyAt
-- ==== Proof.BodyAt0.lean ====
/-
  The streaming attention body on rows of 512 tokens (one tile of 512 keys), read at an index, on the extended reals: each named
  value of the body at a row `r` (and a key `j` or a feature `c`), then the carried state after one tile as the
  specification's `step` of the state before it, and the stored block as the one-tile arrangement.
-/
import proofs.«143665_j77000173683359_2_alg».proof.Proof.BodyVal
import proofs.«143665_j77000173683359_2_alg».proof.Proof.BodyAtCore

namespace Cert.KernelIdeal.BodyAt

open Idealize.ShloMosaic Idealize.ShloMosaic.ValueIdx Cert.KernelIdeal Cert.KernelIdeal.Gen Cert.KernelIdeal.BodyVal Cert.Attn
open scoped BigOperators

/-! ## The dimension numbers of the two products: which operand coordinate is the output's, which the contraction's -/

theorem qk0_l0 (i : S512x512.Idx) (q : dot_S512x64_S64x512_S512x512_1_0_0_1_n_n.contr.Idx) : (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
theorem qk0_l1 (i : S512x512.Idx) (q : dot_S512x64_S64x512_S512x512_1_0_0_1_n_n.contr.Idx) : (dot_S512x64_S64x512_S512x512_1_0_0_1_n_n.lhsIdx i q 1).val = (q ⟨0, by decide⟩).val :=
  dot_S512x64_S64x512_S512x512_1_0_0_1_n_n.lhsIdx_val_of_single rfl i q
theorem qk0_r0 (i : S512x512.Idx) (q : dot_S512x64_S64x512_S512x512_1_0_0_1_n_n.contr.Idx) : (dot_S512x64_S64x512_S512x512_1_0_0_1_n_n.rhsIdx i q 0).val = (q ⟨0, by decide⟩).val :=
  dot_S512x64_S64x512_S512x512_1_0_0_1_n_n.rhsIdx_val_of_single rfl i q
theorem qk0_r1 (i : S512x512.Idx) (q : dot_S512x64_S64x512_S512x512_1_0_0_1_n_n.contr.Idx) : (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

theorem pv0_l0 (i : S512x64.Idx) (q : dot_S512x512_S512x64_S512x64_1_0_0_1_n_n.contr.Idx) : (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
theorem pv0_l1 (i : S512x64.Idx) (q : dot_S512x512_S512x64_S512x64_1_0_0_1_n_n.contr.Idx) : (dot_S512x512_S512x64_S512x64_1_0_0_1_n_n.lhsIdx i q 1).val = (q ⟨0, by decide⟩).val :=
  dot_S512x512_S512x64_S512x64_1_0_0_1_n_n.lhsIdx_val_of_single rfl i q
theorem pv0_r0 (i : S512x64.Idx) (q : dot_S512x512_S512x64_S512x64_1_0_0_1_n_n.contr.Idx) : (dot_S512x512_S512x64_S512x64_1_0_0_1_n_n.rhsIdx i q 0).val = (q ⟨0, by decide⟩).val :=
  dot_S512x512_S512x64_S512x64_1_0_0_1_n_n.rhsIdx_val_of_single rfl i q
theorem pv0_r1 (i : S512x64.Idx) (q : dot_S512x512_S512x64_S512x64_1_0_0_1_n_n.contr.Idx) : (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-! ## The body's named values at an index -/

/-- The scaled query tile. -/
theorem qs0_apply (xq : Vec Ideal S1x1x512x64 .f32) (r : Fin 512) (e : Fin 64) :
    qs0 (F := Ideal) xq (ix2 r e) = xq (ix4 (0 : Fin 1) (0 : Fin 1) r e) * scaleW := by
  unfold qs0 k0_pay7
  rw [shapeCast_self]
  show shapeCast S512x64 xq _ (ix2 r e) * scaleW = _
  exact congrArg (· * scaleW) (Cert.LibUnitPair.shapeCast_11ab_ab_apply xq _ r e)

/-- The score matrix. -/
theorem scores0_apply (qs : Vec Ideal S512x64 .bf16) (xk : Vec Ideal S1x1x512x64 .f32) (r : Fin 512) (j : Fin 512) :
    k0_pay9 (F := Ideal) qs xk (ix2 r j) = ∑ e : Fin 64, qs (ix2 r e) * xk (ix4 (0 : Fin 1) (0 : Fin 1) j e) := by
  unfold k0_pay9
  exact score_entry dot_S512x64_S64x512_S512x512_1_0_0_1_n_n rfl rfl qk0_l0 qk0_l1 qk0_r0 qk0_r1 _ _ _ qs xk r j

/-- The new running maximum. -/
theorem newMax0_apply (qs : Vec Ideal S512x64 .bf16) (xk : Vec Ideal S1x1x512x64 .f32) (m : Vec Ideal S512x1 .f32) (r : Fin 512) :
    k0_pay10 (F := Ideal) qs xk m (ix2 r (0 : Fin 1))
      = max (m (ix2 r (0 : Fin 1))) ((Finset.univ : Finset (Fin 512)).fold max ⊥ (fun j => k0_pay9 (F := Ideal) qs xk (ix2 r j))) := by
  unfold k0_pay10
  exact newMax_entry (k0_pay9 (F := Ideal) qs xk) m _ _ _ _ r

/-- The rescaling factor of the old state. -/
theorem alpha0_apply (qs : Vec Ideal S512x64 .bf16) (xk : Vec Ideal S1x1x512x64 .f32) (m : Vec Ideal S512x1 .f32) (r : Fin 512) :
    k0_pay11 (F := Ideal) qs xk m (ix2 r (0 : Fin 1))
      = Ideal.exp (m (ix2 r (0 : Fin 1)) - k0_pay10 (F := Ideal) qs xk m (ix2 r (0 : Fin 1))) := rfl

/-- The unnormalised weights. -/
theorem weights0_apply (qs : Vec Ideal S512x64 .bf16) (xk : Vec Ideal S1x1x512x64 .f32) (m : Vec Ideal S512x1 .f32) (r : Fin 512) (j : Fin 512) :
    k0_pay12 (F := Ideal) qs xk m (ix2 r j)
      = Ideal.exp (k0_pay9 (F := Ideal) qs xk (ix2 r j) - k0_pay10 (F := Ideal) qs xk m (ix2 r (0 : Fin 1))) := by
  unfold k0_pay12
  refine (exp_apply _ _).trans (congrArg Ideal.exp ?_)
  refine (subf_apply _ _ _).trans ?_
  exact congrArg (k0_pay9 (F := Ideal) qs xk (ix2 r j) - ·) (Cert.Keepdims.broadcastTo_a1_ab_apply _ _ r j)

/-- The new running denominator. -/
theorem den0_apply (qs : Vec Ideal S512x64 .bf16) (xk : Vec Ideal S1x1x512x64 .f32) (m l : Vec Ideal S512x1 .f32) (r : Fin 512) :
    k0_pay13 (F := Ideal) qs xk m l (ix2 r (0 : Fin 1))
      = k0_pay11 (F := Ideal) qs xk m (ix2 r (0 : Fin 1)) * l (ix2 r (0 : Fin 1))
        + ∑ j : Fin 512, k0_pay12 (F := Ideal) qs xk m (ix2 r j) := by
  unfold k0_pay13
  rw [shapeCast_self]
  refine (addf_apply _ _ _).trans ?_
  exact congrArg₂ (· + ·) (mulf_apply _ _ _) (rowSum_entry (k0_pay12 (F := Ideal) qs xk m) _ _ _ _ r)

/-- The old numerator rescaled. -/
theorem rescaled0_apply (qs : Vec Ideal S512x64 .bf16) (xk : Vec Ideal S1x1x512x64 .f32) (m : Vec Ideal S512x1 .f32)
    (acc : Vec Ideal S512x64 .f32) (r : Fin 512) (c : Fin 64) :
    k0_pay14 (F := Ideal) qs xk m acc (ix2 r c)
      = k0_pay11 (F := Ideal) qs xk m (ix2 r (0 : Fin 1)) * acc (ix2 r c) := by
  unfold k0_pay14
  refine (mulf_apply _ _ _).trans ?_
  exact congrArg (· * acc (ix2 r c)) (Cert.Keepdims.broadcastTo_a1_ab_apply _ _ r c)

/-- The new running numerator. -/
theorem num0_apply (qs : Vec Ideal S512x64 .bf16) (xk xv : Vec Ideal S1x1x512x64 .f32) (m : Vec Ideal S512x1 .f32)
    (old : FVec Ideal S512x64 .f32) (r : Fin 512) (c : Fin 64) :
    k0_pay1 (F := Ideal) (k0_pay8 xv) old (k0_pay15 qs xk m) (ix2 r c)
      = old (ix2 r c) + ∑ j : Fin 512, k0_pay12 (F := Ideal) qs xk m (ix2 r j) * xv (ix4 (0 : Fin 1) (0 : Fin 1) j c) := by
  unfold k0_pay1 k0_pay8 k0_pay15
  rw [shapeCast_self]
  refine (addf_apply _ _ _).trans ?_
  exact congrArg (old (ix2 r c) + ·)
    (weighted_entry dot_S512x512_S512x64_S512x64_1_0_0_1_n_n rfl rfl pv0_l0 pv0_l1 pv0_r0 pv0_r1 _ _ (k0_pay12 (F := Ideal) qs xk m) xv r c)

/-- The stored quotient. -/
theorem stored0_apply (acc : Vec Ideal S512x64 .f32) (l : Vec Ideal S512x1 .f32) (r : Fin 512) (c : Fin 64) :
    k0_pay3 (F := Ideal) acc l (ix3 (0 : Fin 1) r c) = Ideal.div (acc (ix2 r c)) (l (ix2 r (0 : Fin 1))) := by
  unfold k0_pay3
  exact quotient_entry acc l _ _ r c

/-- The state before the first tile: maximum `-∞`, denominator and numerator zero. -/
theorem initMax0_apply (i : S512x1.Idx) : k0_pay4 (F := Ideal) i = ⊥ := by
  unfold k0_pay4
  rw [shapeCast_self]
  exact Cert.ColReduce.ofBits_neg_inf_f32
theorem initDen0_apply (i : S512x1.Idx) : k0_pay5 (F := Ideal) i = 0 := by
  unfold k0_pay5
  rw [shapeCast_self]
  exact Ideal.ofBits_zero_f32
theorem initNum0_apply (i : S512x64.Idx) : k0_pay6 (F := Ideal) i = 0 := by
  unfold k0_pay6
  rw [shapeCast_self]
  exact Ideal.ofBits_zero_f32

/-! ## One tile from a general carried state, as the specification's step -/

/-- The score matrix's row `r` is the specification's scores of the query row `q` when the scaled tile's row is `q · scale`. -/
theorem scores0_eq (qs : Vec Ideal S512x64 .bf16) (xk : Vec Ideal S1x1x512x64 .f32) (q : Fin 64 → EReal) (r : Fin 512)
    (hq : ∀ e, qs (ix2 r e) = q e * scaleW) (j : Fin 512) :
    k0_pay9 (F := Ideal) qs xk (ix2 r j) = score q (fun (j : Fin 512) e => xk (ix4 (0 : Fin 1) (0 : Fin 1) j e)) j :=
  (scores0_apply qs xk r j).trans (Finset.sum_congr rfl fun e _ => congrArg (· * xk (ix4 (0 : Fin 1) (0 : Fin 1) j e)) (hq e))

theorem m0_apply (qs : Vec Ideal S512x64 .bf16) (m : Vec Ideal S512x1 .f32) (xk : Vec Ideal S1x1x512x64 .f32) (q : Fin 64 → EReal)
    (r : Fin 512) (hq : ∀ e, qs (ix2 r e) = q e * scaleW) :
    m0 (F := Ideal) qs m xk (ix2 r (0 : Fin 1))
      = max (m (ix2 r (0 : Fin 1))) (rowMax (score q (fun (j : Fin 512) e => xk (ix4 (0 : Fin 1) (0 : Fin 1) j e)))) := by
  unfold m0 k0_pay2
  rw [shapeCast_self]
  refine (newMax0_apply qs xk m r).trans ?_
  refine congrArg (max (m (ix2 r (0 : Fin 1))) ·) ?_
  exact congrArg (Finset.fold max ⊥ · Finset.univ) (funext fun j => scores0_eq qs xk q r hq j)

/-- The new maximum at row `r`, whatever the rest of the state. -/
theorem newMax0_eq (qs : Vec Ideal S512x64 .bf16) (xk : Vec Ideal S1x1x512x64 .f32) (m : Vec Ideal S512x1 .f32) (q : Fin 64 → EReal)
    (r : Fin 512) (hq : ∀ e, qs (ix2 r e) = q e * scaleW) :
    k0_pay10 (F := Ideal) qs xk m (ix2 r (0 : Fin 1))
      = max (m (ix2 r (0 : Fin 1))) (rowMax (score q (fun (j : Fin 512) e => xk (ix4 (0 : Fin 1) (0 : Fin 1) j e)))) := by
  refine (newMax0_apply qs xk m r).trans ?_
  refine congrArg (max (m (ix2 r (0 : Fin 1))) ·) ?_
  exact congrArg (Finset.fold max ⊥ · Finset.univ) (funext fun j => scores0_eq qs xk q r hq j)

theorem l0_apply (qs : Vec Ideal S512x64 .bf16) (m l : Vec Ideal S512x1 .f32) (xk : Vec Ideal S1x1x512x64 .f32) (q : Fin 64 → EReal)
    (st : Fin 64 → EReal) (v : Fin 512 → Fin 64 → EReal) (r : Fin 512) (hq : ∀ e, qs (ix2 r e) = q e * scaleW) :
    l0 (F := Ideal) qs m l xk (ix2 r (0 : Fin 1))
      = (step (m (ix2 r (0 : Fin 1)), l (ix2 r (0 : Fin 1)), st) q
          (fun (j : Fin 512) e => xk (ix4 (0 : Fin 1) (0 : Fin 1) j e)) v).2.1 := by
  unfold l0
  rw [step_den, den0_apply, alpha0_apply, newMax0_eq qs xk m q r hq]
  refine congrArg (_ + ·) (Finset.sum_congr rfl fun j _ => ?_)
  rw [weights0_apply, newMax0_eq qs xk m q r hq, scores0_eq qs xk q r hq j]

theorem acc0_apply (qs : Vec Ideal S512x64 .bf16) (m : Vec Ideal S512x1 .f32) (acc : Vec Ideal S512x64 .f32)
    (xk xv : Vec Ideal S1x1x512x64 .f32) (q : Fin 64 → EReal) (l : EReal) (r : Fin 512) (c : Fin 64)
    (hq : ∀ e, qs (ix2 r e) = q e * scaleW) :
    acc0 (F := Ideal) qs m acc xk xv (ix2 r c)
      = (step (m (ix2 r (0 : Fin 1)), l, fun c => acc (ix2 r c)) q
          (fun (j : Fin 512) e => xk (ix4 (0 : Fin 1) (0 : Fin 1) j e))
          (fun (j : Fin 512) e => xv (ix4 (0 : Fin 1) (0 : Fin 1) j e))).2.2 c := by
  unfold acc0
  rw [step_num, num0_apply, rescaled0_apply, alpha0_apply, newMax0_eq qs xk m q r hq]
  refine congrArg (_ + ·) (Finset.sum_congr rfl fun j _ => ?_)
  rw [weights0_apply, newMax0_eq qs xk m q r hq, scores0_eq qs xk q r hq j]

/-! ## The stored block: one tile from the empty state -/

theorem out0_apply (xq xk xv : Vec Ideal Cert.KernelIdeal.S1x1x512x64 .f32) (r : Fin 512) (d : Fin 64) :
    Cert.KernelIdeal.BodyVal.out0 (F := Ideal) xq xk xv (ix3 (0 : Fin 1) r d)
      = Cert.Attn.oneTile (fun e => xq (ix4 (0 : Fin 1) (0 : Fin 1) r e)) (fun (j : Fin 512) e => xk (ix4 (0 : Fin 1) (0 : Fin 1) j e)) (fun (j : Fin 512) e => xv (ix4 (0 : Fin 1) (0 : Fin 1) j e)) d := by
  unfold out0 oneTile
  rw [stored0_apply]
  rw [acc0_apply (qs0 xq) (k0_pay4 (F := Ideal)) (k0_pay6 (F := Ideal)) xk xv (fun e => xq (ix4 (0 : Fin 1) (0 : Fin 1) r e)) 0 r d
    (fun e => qs0_apply xq r e)]
  rw [l0_apply (qs0 xq) (k0_pay4 (F := Ideal)) (k0_pay5 (F := Ideal)) xk (fun e => xq (ix4 (0 : Fin 1) (0 : Fin 1) r e)) (fun _ => 0)
    (fun (j : Fin 512) e => xv (ix4 (0 : Fin 1) (0 : Fin 1) j e)) r (fun e => qs0_apply xq r e)]
  simp only [initMax0_apply, initDen0_apply, initNum0_apply]
  rfl

end Cert.KernelIdeal.BodyAt
-- ==== Proof.KerArr.lean ====
/-
  The three arrays the kernel's regions leave, each as one function of the three packed argument arrays
  `[1, 8, 49152, 64]`. Region 0's array `[256, 512, 64]` has one row per (head, row of 512 tokens): row `bh` is head
  `bh / 32`, tokens `(bh % 32) · 512 + ·`. Region 1's `[128, 1024, 64]`: head `bh / 16`, tokens
  `16384 + (bh % 16) · 1024 + ·`. Region 2's `[64, 2048, 64]`: head `bh / 8`, tokens `32768 + (bh % 8) · 2048 + ·`.
-/
import proofs.«143665_j77000173683359_2_alg».proof.KernelIdeal
import proofs.«143665_j77000173683359_2_alg».proof.Proof.Spec
import Idealize.ShloMosaic.Lib.ValueIdx

noncomputable section

namespace Cert.KernelIdeal.KerVal

open Idealize.ShloMosaic Idealize.ShloMosaic.ValueIdx Cert.KernelIdeal Cert.Attn

/-- The head of row `bh` of region 0's output array. -/
def head0 (bh : Fin 256) : Fin 8 := ⟨bh.val / 32, by omega⟩
/-- Token `r` of that row's 512 tokens, on the packed token axis. -/
def tok0 (bh : Fin 256) (r : Fin 512) : Fin 49152 := ⟨bh.val % 32 * 512 + r.val, by omega⟩

/-- The array region 0's output window ends at: each row the one-tile attention of its query row against the row's own
    512 keys and values. -/
def arr0 (Q K W : SQ.Idx → EReal) : S256x512x64.Idx → EReal := fun i =>
  oneTile (fun e => Q (ix4 (0 : Fin 1) (head0 (i 0)) (tok0 (i 0) (i 1)) e))
    (fun (j : Fin 512) e => K (ix4 (0 : Fin 1) (head0 (i 0)) (tok0 (i 0) j) e))
    (fun (j : Fin 512) e => W (ix4 (0 : Fin 1) (head0 (i 0)) (tok0 (i 0) j) e)) (i 2)

/-- The head of row `bh` of region 1's output array. -/
def head1 (bh : Fin 128) : Fin 8 := ⟨bh.val / 16, by omega⟩
/-- Token `r` of that row's 1024 tokens, on the packed token axis. -/
def tok1 (bh : Fin 128) (r : Fin 1024) : Fin 49152 := ⟨16384 + bh.val % 16 * 1024 + r.val, by omega⟩

/-- The array region 1's output window ends at: each row the one-tile attention of its query row against the row's own
    1024 keys and values. -/
def arr1 (Q K W : SQ.Idx → EReal) : S128x1024x64.Idx → EReal := fun i =>
  oneTile (fun e => Q (ix4 (0 : Fin 1) (head1 (i 0)) (tok1 (i 0) (i 1)) e))
    (fun (j : Fin 1024) e => K (ix4 (0 : Fin 1) (head1 (i 0)) (tok1 (i 0) j) e))
    (fun (j : Fin 1024) e => W (ix4 (0 : Fin 1) (head1 (i 0)) (tok1 (i 0) j) e)) (i 2)

/-- The head of row `bh` of region 2's output array. -/
def head2 (bh : Fin 64) : Fin 8 := ⟨bh.val / 8, by omega⟩
/-- Token `r` of that row's 2048 tokens, on the packed token axis. -/
def tok2 (bh : Fin 64) (r : Fin 2048) : Fin 49152 := ⟨32768 + bh.val % 8 * 2048 + r.val, by omega⟩
/-- Key `j` of the row's first tile of 1024 keys, and of its second. -/
def tok2A (bh : Fin 64) (j : Fin 1024) : Fin 49152 := ⟨32768 + bh.val % 8 * 2048 + j.val, by omega⟩
def tok2B (bh : Fin 64) (j : Fin 1024) : Fin 49152 := ⟨32768 + bh.val % 8 * 2048 + 1024 + j.val, by omega⟩

/-- The array region 2's output window ends at: each row the two-tile attention of its query row against the first and
    the second 1024 of the row's own keys and values. -/
def arr2 (Q K W : SQ.Idx → EReal) : S64x2048x64.Idx → EReal := fun i =>
  twoTiles (fun e => Q (ix4 (0 : Fin 1) (head2 (i 0)) (tok2 (i 0) (i 1)) e))
    (fun (j : Fin 1024) e => K (ix4 (0 : Fin 1) (head2 (i 0)) (tok2A (i 0) j) e))
    (fun (j : Fin 1024) e => W (ix4 (0 : Fin 1) (head2 (i 0)) (tok2A (i 0) j) e))
    (fun (j : Fin 1024) e => K (ix4 (0 : Fin 1) (head2 (i 0)) (tok2B (i 0) j) e))
    (fun (j : Fin 1024) e => W (ix4 (0 : Fin 1) (head2 (i 0)) (tok2B (i 0) j) e)) (i 2)

end Cert.KernelIdeal.KerVal

end
-- ==== Proof.KerVal0.lean ====
/-
  Region 0 (rows of 512 tokens): the array its output window ends at, as one function of the three packed argument
  arrays. Row `bh` of the output is head `bh / 32`, row `bh % 32` of the 512-token rows; each grid point
  writes one row's block, the one-tile attention of the row's query block against the row's own key and value blocks.
-/
import proofs.«143665_j77000173683359_2_alg».proof.Proof.Frame0
import proofs.«143665_j77000173683359_2_alg».proof.Proof.BodyAt0
import proofs.«143665_j77000173683359_2_alg».proof.Proof.KerArr
import Idealize.ShloMosaic.Lib.Pipeline.Value
import Idealize.ShloMosaic.Lib.Tactic

noncomputable section

namespace Cert.KernelIdeal.KerVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.KernelIdeal.BodyVal Cert.Attn

/-- The printed index maps, decided over the grid: at point `t` the three input windows sit at head `t / 32` and token
    block `t.val % 32`, the output window at row `t`. -/
theorem idx_facts0 : ∀ t : Fin cfg0.N,
    (win0_0.index t (0 : Fin 4) = 0 ∧ win0_0.index t (1 : Fin 4) = t.val / 32
    ∧ win0_0.index t (2 : Fin 4) = t.val % 32 ∧ win0_0.index t (3 : Fin 4) = 0)
    ∧ (win0_1.index t (0 : Fin 4) = 0 ∧ win0_1.index t (1 : Fin 4) = t.val / 32
    ∧ win0_1.index t (2 : Fin 4) = t.val % 32 ∧ win0_1.index t (3 : Fin 4) = 0)
    ∧ (win0_2.index t (0 : Fin 4) = 0 ∧ win0_2.index t (1 : Fin 4) = t.val / 32
    ∧ win0_2.index t (2 : Fin 4) = t.val % 32 ∧ win0_2.index t (3 : Fin 4) = 0)
    ∧ win0_3.index t (0 : Fin 3) = t.val ∧ win0_3.index t (1 : Fin 3) = 0 ∧ win0_3.index t (2 : Fin 3) = 0 :=
  (by decide +kernel : ∀ t : Fin grid0.N, _)

section Region
variable (V : (c : Dev nD) → (b : Ref sig .tc) → Buf (Elt Ideal) ((c : Thread nD τ).loc b))

/-- Window 0's block (qblk) at point `t`, read at `(0, 0, r, e)`: the argument at the point's head and the row's token `r`. -/
theorem qblk0_apply (c : Dev nD) (t : Fin cfg0.N) (r : Fin 512) (e : Fin 64) (x : S1x8x49152x64.Idx)
    (h0 : (x 0).val = 0) (h1 : (x 1).val = t.val / 32) (h2 : (x 2).val = t.val % 32 * 512 + r.val) (h3 : (x 3).val = e.val) :
    (iblk0 (F := Ideal) V c 0 t : Vec Ideal S1x1x512x64 .f32) (ix4 (0 : Fin 1) (0 : Fin 1) r e)
      = (V c main_arg0 : S1x8x49152x64.Idx → EReal) x := by
  obtain ⟨e0, e1, e2, e3⟩ := (idx_facts0 t).1
  unfold iblk0
  rw [View.read_apply]
  show (V c main_arg0 : S1x8x49152x64.Idx → EReal) _ = _
  refine congrArg _ (funext fun a => Fin.ext ?_)
  match a with
  | ⟨0, _⟩ => show win0_0.index t (0 : Fin 4) * 1 + 1 * 0 = (x 0).val; omega
  | ⟨1, _⟩ => show win0_0.index t (1 : Fin 4) * 1 + 1 * 0 = (x 1).val; omega
  | ⟨2, _⟩ => show win0_0.index t (2 : Fin 4) * 512 + 1 * r.val = (x 2).val; omega
  | ⟨3, _⟩ => show win0_0.index t (3 : Fin 4) * 64 + 1 * e.val = (x 3).val; omega

/-- Window 1's block (kblk) at point `t`, read at `(0, 0, r, e)`: the argument at the point's head and the row's token `r`. -/
theorem kblk0_apply (c : Dev nD) (t : Fin cfg0.N) (r : Fin 512) (e : Fin 64) (x : S1x8x49152x64.Idx)
    (h0 : (x 0).val = 0) (h1 : (x 1).val = t.val / 32) (h2 : (x 2).val = t.val % 32 * 512 + r.val) (h3 : (x 3).val = e.val) :
    (iblk0 (F := Ideal) V c 1 t : Vec Ideal S1x1x512x64 .f32) (ix4 (0 : Fin 1) (0 : Fin 1) r e)
      = (V c main_arg1 : S1x8x49152x64.Idx → EReal) x := by
  obtain ⟨e0, e1, e2, e3⟩ := (idx_facts0 t).2.1
  unfold iblk0
  rw [View.read_apply]
  show (V c main_arg1 : S1x8x49152x64.Idx → EReal) _ = _
  refine congrArg _ (funext fun a => Fin.ext ?_)
  match a with
  | ⟨0, _⟩ => show win0_1.index t (0 : Fin 4) * 1 + 1 * 0 = (x 0).val; omega
  | ⟨1, _⟩ => show win0_1.index t (1 : Fin 4) * 1 + 1 * 0 = (x 1).val; omega
  | ⟨2, _⟩ => show win0_1.index t (2 : Fin 4) * 512 + 1 * r.val = (x 2).val; omega
  | ⟨3, _⟩ => show win0_1.index t (3 : Fin 4) * 64 + 1 * e.val = (x 3).val; omega

/-- Window 2's block (vblk) at point `t`, read at `(0, 0, r, e)`: the argument at the point's head and the row's token `r`. -/
theorem vblk0_apply (c : Dev nD) (t : Fin cfg0.N) (r : Fin 512) (e : Fin 64) (x : S1x8x49152x64.Idx)
    (h0 : (x 0).val = 0) (h1 : (x 1).val = t.val / 32) (h2 : (x 2).val = t.val % 32 * 512 + r.val) (h3 : (x 3).val = e.val) :
    (iblk0 (F := Ideal) V c 2 t : Vec Ideal S1x1x512x64 .f32) (ix4 (0 : Fin 1) (0 : Fin 1) r e)
      = (V c main_arg2 : S1x8x49152x64.Idx → EReal) x := by
  obtain ⟨e0, e1, e2, e3⟩ := (idx_facts0 t).2.2.1
  unfold iblk0
  rw [View.read_apply]
  show (V c main_arg2 : S1x8x49152x64.Idx → EReal) _ = _
  refine congrArg _ (funext fun a => Fin.ext ?_)
  match a with
  | ⟨0, _⟩ => show win0_2.index t (0 : Fin 4) * 1 + 1 * 0 = (x 0).val; omega
  | ⟨1, _⟩ => show win0_2.index t (1 : Fin 4) * 1 + 1 * 0 = (x 1).val; omega
  | ⟨2, _⟩ => show win0_2.index t (2 : Fin 4) * 512 + 1 * r.val = (x 2).val; omega
  | ⟨3, _⟩ => show win0_2.index t (3 : Fin 4) * 64 + 1 * e.val = (x 3).val; omega

/-- What point `t` writes back is block `t` of `arr0` of the argument arrays as the region finds them. -/
theorem flushed0_eq (c : Dev nD) (t : Fin cfg0.N) :
    (dat0 (F := Ideal) V c).flushed 3 t
      = ((cfg0.win 3).blk t).view.read (Elt Ideal) (arr0 (V c main_arg0) (V c main_arg1) (V c main_arg2)) := by
  show (cfg0.win 3).cut (grid0.coords t) ((dat0 (F := Ideal) V c).after 3 t) = _
  rw [after0_3]
  obtain ⟨-, -, -, o0, o1, o2⟩ := idx_facts0 t
  funext y
  obtain ⟨u, r, d, rfl⟩ : ∃ (u : Fin 1) (r : Fin 512) (d : Fin 64), y = ix3 u r d := ⟨y 0, y 1, y 2, eq_ix3 y⟩
  obtain rfl : u = 0 := Fin.ext (by omega)
  rw [View.read_apply]
  refine (BodyAt.out0_apply _ _ _ r d).trans ?_
  -- the output block's element in the array
  have E0 : ((((cfg0.win 3).blk t).view.emb (ix3 (0 : Fin 1) r d)) 0).val = t.val := by
    show win0_3.index t (0 : Fin 3) * 1 + 1 * 0 = t.val; omega
  have E1 : ((((cfg0.win 3).blk t).view.emb (ix3 (0 : Fin 1) r d)) 1).val = r.val := by
    show win0_3.index t (1 : Fin 3) * 512 + 1 * r.val = r.val; omega
  have E2 : ((((cfg0.win 3).blk t).view.emb (ix3 (0 : Fin 1) r d)) 2).val = d.val := by
    show win0_3.index t (2 : Fin 3) * 64 + 1 * d.val = d.val; omega
  generalize (((cfg0.win 3).blk t).view.emb (ix3 (0 : Fin 1) r d)) = x at E0 E1 E2
  unfold arr0
  have hd : d = x 2 := Fin.ext E2.symm
  have hq : (fun e => (iblk0 (F := Ideal) V c 0 t : Vec Ideal S1x1x512x64 .f32) (ix4 (0 : Fin 1) (0 : Fin 1) r e))
      = fun e => (V c main_arg0 : S1x8x49152x64.Idx → EReal) (ix4 (0 : Fin 1) (head0 (x 0)) (tok0 (x 0) (x 1)) e) :=
    funext fun e => qblk0_apply V c t r e _ rfl (by show (x 0).val / 32 = _; rw [E0])
      (by show (x 0).val % 32 * 512 + (x 1).val = _; rw [E0, E1]) rfl
  have hk : (fun (j : Fin 512) e => (iblk0 (F := Ideal) V c 1 t : Vec Ideal S1x1x512x64 .f32) (ix4 (0 : Fin 1) (0 : Fin 1) j e))
      = fun (j : Fin 512) e => (V c main_arg1 : S1x8x49152x64.Idx → EReal) (ix4 (0 : Fin 1) (head0 (x 0)) (tok0 (x 0) j) e) :=
    funext fun j => funext fun e => kblk0_apply V c t j e _ rfl (by show (x 0).val / 32 = _; rw [E0])
      (by show (x 0).val % 32 * 512 + j.val = _; rw [E0]) rfl
  have hv : (fun (j : Fin 512) e => (iblk0 (F := Ideal) V c 2 t : Vec Ideal S1x1x512x64 .f32) (ix4 (0 : Fin 1) (0 : Fin 1) j e))
      = fun (j : Fin 512) e => (V c main_arg2 : S1x8x49152x64.Idx → EReal) (ix4 (0 : Fin 1) (head0 (x 0)) (tok0 (x 0) j) e) :=
    funext fun j => funext fun e => vblk0_apply V c t j e _ rfl (by show (x 0).val / 32 = _; rw [E0])
      (by show (x 0).val % 32 * 512 + j.val = _; rw [E0]) rfl
  rw [hq, hk, hv, hd]
  exact (cast_eq _ _).symm

/-- An index of the array is in point `t`'s block iff each coordinate is in the block's range on its axis. -/
theorem mem_blk0 (t : Fin cfg0.N) (i : S256x512x64.Idx) :
    i ∈ ((cfg0.win 3).blk t).view.set
      ↔ ∀ a : Fin 3, win0_3.index t a * S1x512x64.size a ≤ (i a).val ∧ (i a).val < win0_3.index t a * S1x512x64.size a + S1x512x64.size a := by
  show i ∈ ((View.whole main_v0).slice (win0_3.rect t)).set ↔ _
  rw [View.set_slice_whole, Rect.mem_set_unit]
  exact Iff.rfl

/-- Every row of the output array is some point's block: row `bh` is point `bh`'s. -/
theorem cover0 (i : S256x512x64.Idx) : ∃ t : Fin cfg0.N, (cfg0.win 3).flush t = true ∧ i ∈ ((cfg0.win 3).blk t).view.set := by
  have hi0 : (i 0).val < 256 := (i 0).isLt
  have hi1 : (i 1).val < 512 := (i 1).isLt
  have hi2 : (i 2).val < 64 := (i 2).isLt
  obtain ⟨t, ht⟩ : ∃ t : Fin cfg0.N, t.val = (i 0).val :=
    ⟨⟨(i 0).val, by rw [show cfg0.N = 256 from N_0]; exact hi0⟩, rfl⟩
  refine ⟨t, flush0_3 t, ?_⟩
  rw [mem_blk0]
  obtain ⟨-, -, -, o0, o1, o2⟩ := idx_facts0 t
  intro a
  match a with
  | ⟨0, _⟩ => show win0_3.index t (0 : Fin 3) * 1 ≤ (i 0).val ∧ (i 0).val < win0_3.index t (0 : Fin 3) * 1 + 1; rw [o0, ht]; omega
  | ⟨1, _⟩ => show win0_3.index t (1 : Fin 3) * 512 ≤ (i 1).val ∧ (i 1).val < win0_3.index t (1 : Fin 3) * 512 + 512; rw [o1]; omega
  | ⟨2, _⟩ => show win0_3.index t (2 : Fin 3) * 64 ≤ (i 2).val ∧ (i 2).val < win0_3.index t (2 : Fin 3) * 64 + 64; rw [o2]; omega

/-- The output array after the region: `arr0` of the argument arrays as the region finds them. -/
theorem final0 (c : Dev nD) :
    (Cert.KernelIdeal.Frm.dat0 (F := Ideal) V c).arrAt 3 cfg0.N = arr0 (V c main_arg0) (V c main_arg1) (V c main_arg2) :=
  (dat0 (F := Ideal) V c).arrAt_eq_of_cover 3 (arr0 (V c main_arg0) (V c main_arg1) (V c main_arg2))
    (fun t _ => flushed0_eq V c t) (cover0)

end Region

end Cert.KernelIdeal.KerVal

end
-- ==== Proof.BodyAt1.lean ====
/-
  The streaming attention body on rows of 1024 tokens (one tile of 1024 keys), read at an index, on the extended reals: each named
  value of the body at a row `r` (and a key `j` or a feature `c`), then the carried state after one tile as the
  specification's `step` of the state before it, and the stored block as the one-tile arrangement.
-/
import proofs.«143665_j77000173683359_2_alg».proof.Proof.BodyVal
import proofs.«143665_j77000173683359_2_alg».proof.Proof.BodyAtCore

namespace Cert.KernelIdeal.BodyAt

open Idealize.ShloMosaic Idealize.ShloMosaic.ValueIdx Cert.KernelIdeal Cert.KernelIdeal.Gen Cert.KernelIdeal.BodyVal Cert.Attn
open scoped BigOperators

/-! ## The dimension numbers of the two products: which operand coordinate is the output's, which the contraction's -/

theorem qk1_l0 (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
theorem qk1_l1 (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem qk1_r0 (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q
theorem qk1_r1 (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

theorem pv1_l0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem pv1_l1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem pv1_r0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem pv1_r1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-! ## The body's named values at an index -/

/-- The scaled query tile. -/
theorem qs1_apply (xq : Vec Ideal S1x1x1024x64 .f32) (r : Fin 1024) (e : Fin 64) :
    qs1 (F := Ideal) xq (ix2 r e) = xq (ix4 (0 : Fin 1) (0 : Fin 1) r e) * scaleW := by
  unfold qs1 k1_pay7
  rw [shapeCast_self]
  show shapeCast S1024x64 xq _ (ix2 r e) * scaleW = _
  exact congrArg (· * scaleW) (Cert.LibUnitPair.shapeCast_11ab_ab_apply xq _ r e)

/-- The score matrix. -/
theorem scores1_apply (qs : Vec Ideal S1024x64 .bf16) (xk : Vec Ideal S1x1x1024x64 .f32) (r : Fin 1024) (j : Fin 1024) :
    k1_pay9 (F := Ideal) qs xk (ix2 r j) = ∑ e : Fin 64, qs (ix2 r e) * xk (ix4 (0 : Fin 1) (0 : Fin 1) j e) := by
  unfold k1_pay9
  exact score_entry dot_S1024x64_S64x1024_S1024x1024_1_0_0_1_n_n rfl rfl qk1_l0 qk1_l1 qk1_r0 qk1_r1 _ _ _ qs xk r j

/-- The new running maximum. -/
theorem newMax1_apply (qs : Vec Ideal S1024x64 .bf16) (xk : Vec Ideal S1x1x1024x64 .f32) (m : Vec Ideal S1024x1 .f32) (r : Fin 1024) :
    k1_pay10 (F := Ideal) qs xk m (ix2 r (0 : Fin 1))
      = max (m (ix2 r (0 : Fin 1))) ((Finset.univ : Finset (Fin 1024)).fold max ⊥ (fun j => k1_pay9 (F := Ideal) qs xk (ix2 r j))) := by
  unfold k1_pay10
  exact newMax_entry (k1_pay9 (F := Ideal) qs xk) m _ _ _ _ r

/-- The rescaling factor of the old state. -/
theorem alpha1_apply (qs : Vec Ideal S1024x64 .bf16) (xk : Vec Ideal S1x1x1024x64 .f32) (m : Vec Ideal S1024x1 .f32) (r : Fin 1024) :
    k1_pay11 (F := Ideal) qs xk m (ix2 r (0 : Fin 1))
      = Ideal.exp (m (ix2 r (0 : Fin 1)) - k1_pay10 (F := Ideal) qs xk m (ix2 r (0 : Fin 1))) := rfl

/-- The unnormalised weights. -/
theorem weights1_apply (qs : Vec Ideal S1024x64 .bf16) (xk : Vec Ideal S1x1x1024x64 .f32) (m : Vec Ideal S1024x1 .f32) (r : Fin 1024) (j : Fin 1024) :
    k1_pay12 (F := Ideal) qs xk m (ix2 r j)
      = Ideal.exp (k1_pay9 (F := Ideal) qs xk (ix2 r j) - k1_pay10 (F := Ideal) qs xk m (ix2 r (0 : Fin 1))) := by
  unfold k1_pay12
  refine (exp_apply _ _).trans (congrArg Ideal.exp ?_)
  refine (subf_apply _ _ _).trans ?_
  exact congrArg (k1_pay9 (F := Ideal) qs xk (ix2 r j) - ·) (Cert.Keepdims.broadcastTo_a1_ab_apply _ _ r j)

/-- The new running denominator. -/
theorem den1_apply (qs : Vec Ideal S1024x64 .bf16) (xk : Vec Ideal S1x1x1024x64 .f32) (m l : Vec Ideal S1024x1 .f32) (r : Fin 1024) :
    k1_pay13 (F := Ideal) qs xk m l (ix2 r (0 : Fin 1))
      = k1_pay11 (F := Ideal) qs xk m (ix2 r (0 : Fin 1)) * l (ix2 r (0 : Fin 1))
        + ∑ j : Fin 1024, k1_pay12 (F := Ideal) qs xk m (ix2 r j) := by
  unfold k1_pay13
  rw [shapeCast_self]
  refine (addf_apply _ _ _).trans ?_
  exact congrArg₂ (· + ·) (mulf_apply _ _ _) (rowSum_entry (k1_pay12 (F := Ideal) qs xk m) _ _ _ _ r)

/-- The old numerator rescaled. -/
theorem rescaled1_apply (qs : Vec Ideal S1024x64 .bf16) (xk : Vec Ideal S1x1x1024x64 .f32) (m : Vec Ideal S1024x1 .f32)
    (acc : Vec Ideal S1024x64 .f32) (r : Fin 1024) (c : Fin 64) :
    k1_pay14 (F := Ideal) qs xk m acc (ix2 r c)
      = k1_pay11 (F := Ideal) qs xk m (ix2 r (0 : Fin 1)) * acc (ix2 r c) := by
  unfold k1_pay14
  refine (mulf_apply _ _ _).trans ?_
  exact congrArg (· * acc (ix2 r c)) (Cert.Keepdims.broadcastTo_a1_ab_apply _ _ r c)

/-- The new running numerator. -/
theorem num1_apply (qs : Vec Ideal S1024x64 .bf16) (xk xv : Vec Ideal S1x1x1024x64 .f32) (m : Vec Ideal S1024x1 .f32)
    (old : FVec Ideal S1024x64 .f32) (r : Fin 1024) (c : Fin 64) :
    k1_pay1 (F := Ideal) (k1_pay8 xv) old (k1_pay15 qs xk m) (ix2 r c)
      = old (ix2 r c) + ∑ j : Fin 1024, k1_pay12 (F := Ideal) qs xk m (ix2 r j) * xv (ix4 (0 : Fin 1) (0 : Fin 1) j c) := by
  unfold k1_pay1 k1_pay8 k1_pay15
  rw [shapeCast_self]
  refine (addf_apply _ _ _).trans ?_
  exact congrArg (old (ix2 r c) + ·)
    (weighted_entry dot_S1024x1024_S1024x64_S1024x64_1_0_0_1_n_n rfl rfl pv1_l0 pv1_l1 pv1_r0 pv1_r1 _ _ (k1_pay12 (F := Ideal) qs xk m) xv r c)

/-- The stored quotient. -/
theorem stored1_apply (acc : Vec Ideal S1024x64 .f32) (l : Vec Ideal S1024x1 .f32) (r : Fin 1024) (c : Fin 64) :
    k1_pay3 (F := Ideal) acc l (ix3 (0 : Fin 1) r c) = Ideal.div (acc (ix2 r c)) (l (ix2 r (0 : Fin 1))) := by
  unfold k1_pay3
  exact quotient_entry acc l _ _ r c

/-- The state before the first tile: maximum `-∞`, denominator and numerator zero. -/
theorem initMax1_apply (i : S1024x1.Idx) : k1_pay4 (F := Ideal) i = ⊥ := by
  unfold k1_pay4
  rw [shapeCast_self]
  exact Cert.ColReduce.ofBits_neg_inf_f32
theorem initDen1_apply (i : S1024x1.Idx) : k1_pay5 (F := Ideal) i = 0 := by
  unfold k1_pay5
  rw [shapeCast_self]
  exact Ideal.ofBits_zero_f32
theorem initNum1_apply (i : S1024x64.Idx) : k1_pay6 (F := Ideal) i = 0 := by
  unfold k1_pay6
  rw [shapeCast_self]
  exact Ideal.ofBits_zero_f32

/-! ## One tile from a general carried state, as the specification's step -/

/-- The score matrix's row `r` is the specification's scores of the query row `q` when the scaled tile's row is `q · scale`. -/
theorem scores1_eq (qs : Vec Ideal S1024x64 .bf16) (xk : Vec Ideal S1x1x1024x64 .f32) (q : Fin 64 → EReal) (r : Fin 1024)
    (hq : ∀ e, qs (ix2 r e) = q e * scaleW) (j : Fin 1024) :
    k1_pay9 (F := Ideal) qs xk (ix2 r j) = score q (fun (j : Fin 1024) e => xk (ix4 (0 : Fin 1) (0 : Fin 1) j e)) j :=
  (scores1_apply qs xk r j).trans (Finset.sum_congr rfl fun e _ => congrArg (· * xk (ix4 (0 : Fin 1) (0 : Fin 1) j e)) (hq e))

theorem m1_apply (qs : Vec Ideal S1024x64 .bf16) (m : Vec Ideal S1024x1 .f32) (xk : Vec Ideal S1x1x1024x64 .f32) (q : Fin 64 → EReal)
    (r : Fin 1024) (hq : ∀ e, qs (ix2 r e) = q e * scaleW) :
    m1 (F := Ideal) qs m xk (ix2 r (0 : Fin 1))
      = max (m (ix2 r (0 : Fin 1))) (rowMax (score q (fun (j : Fin 1024) e => xk (ix4 (0 : Fin 1) (0 : Fin 1) j e)))) := by
  unfold m1 k1_pay2
  rw [shapeCast_self]
  refine (newMax1_apply qs xk m r).trans ?_
  refine congrArg (max (m (ix2 r (0 : Fin 1))) ·) ?_
  exact congrArg (Finset.fold max ⊥ · Finset.univ) (funext fun j => scores1_eq qs xk q r hq j)

/-- The new maximum at row `r`, whatever the rest of the state. -/
theorem newMax1_eq (qs : Vec Ideal S1024x64 .bf16) (xk : Vec Ideal S1x1x1024x64 .f32) (m : Vec Ideal S1024x1 .f32) (q : Fin 64 → EReal)
    (r : Fin 1024) (hq : ∀ e, qs (ix2 r e) = q e * scaleW) :
    k1_pay10 (F := Ideal) qs xk m (ix2 r (0 : Fin 1))
      = max (m (ix2 r (0 : Fin 1))) (rowMax (score q (fun (j : Fin 1024) e => xk (ix4 (0 : Fin 1) (0 : Fin 1) j e)))) := by
  refine (newMax1_apply qs xk m r).trans ?_
  refine congrArg (max (m (ix2 r (0 : Fin 1))) ·) ?_
  exact congrArg (Finset.fold max ⊥ · Finset.univ) (funext fun j => scores1_eq qs xk q r hq j)

theorem l1_apply (qs : Vec Ideal S1024x64 .bf16) (m l : Vec Ideal S1024x1 .f32) (xk : Vec Ideal S1x1x1024x64 .f32) (q : Fin 64 → EReal)
    (st : Fin 64 → EReal) (v : Fin 1024 → Fin 64 → EReal) (r : Fin 1024) (hq : ∀ e, qs (ix2 r e) = q e * scaleW) :
    l1 (F := Ideal) qs m l xk (ix2 r (0 : Fin 1))
      = (step (m (ix2 r (0 : Fin 1)), l (ix2 r (0 : Fin 1)), st) q
          (fun (j : Fin 1024) e => xk (ix4 (0 : Fin 1) (0 : Fin 1) j e)) v).2.1 := by
  unfold l1
  rw [step_den, den1_apply, alpha1_apply, newMax1_eq qs xk m q r hq]
  refine congrArg (_ + ·) (Finset.sum_congr rfl fun j _ => ?_)
  rw [weights1_apply, newMax1_eq qs xk m q r hq, scores1_eq qs xk q r hq j]

theorem acc1_apply (qs : Vec Ideal S1024x64 .bf16) (m : Vec Ideal S1024x1 .f32) (acc : Vec Ideal S1024x64 .f32)
    (xk xv : Vec Ideal S1x1x1024x64 .f32) (q : Fin 64 → EReal) (l : EReal) (r : Fin 1024) (c : Fin 64)
    (hq : ∀ e, qs (ix2 r e) = q e * scaleW) :
    acc1 (F := Ideal) qs m acc xk xv (ix2 r c)
      = (step (m (ix2 r (0 : Fin 1)), l, fun c => acc (ix2 r c)) q
          (fun (j : Fin 1024) e => xk (ix4 (0 : Fin 1) (0 : Fin 1) j e))
          (fun (j : Fin 1024) e => xv (ix4 (0 : Fin 1) (0 : Fin 1) j e))).2.2 c := by
  unfold acc1
  rw [step_num, num1_apply, rescaled1_apply, alpha1_apply, newMax1_eq qs xk m q r hq]
  refine congrArg (_ + ·) (Finset.sum_congr rfl fun j _ => ?_)
  rw [weights1_apply, newMax1_eq qs xk m q r hq, scores1_eq qs xk q r hq j]

/-! ## The stored block: one tile from the empty state -/

theorem out1_apply (xq xk xv : Vec Ideal Cert.KernelIdeal.S1x1x1024x64 .f32) (r : Fin 1024) (d : Fin 64) :
    Cert.KernelIdeal.BodyVal.out1 (F := Ideal) xq xk xv (ix3 (0 : Fin 1) r d)
      = Cert.Attn.oneTile (fun e => xq (ix4 (0 : Fin 1) (0 : Fin 1) r e)) (fun (j : Fin 1024) e => xk (ix4 (0 : Fin 1) (0 : Fin 1) j e)) (fun (j : Fin 1024) e => xv (ix4 (0 : Fin 1) (0 : Fin 1) j e)) d := by
  unfold out1 oneTile
  rw [stored1_apply]
  rw [acc1_apply (qs1 xq) (k1_pay4 (F := Ideal)) (k1_pay6 (F := Ideal)) xk xv (fun e => xq (ix4 (0 : Fin 1) (0 : Fin 1) r e)) 0 r d
    (fun e => qs1_apply xq r e)]
  rw [l1_apply (qs1 xq) (k1_pay4 (F := Ideal)) (k1_pay5 (F := Ideal)) xk (fun e => xq (ix4 (0 : Fin 1) (0 : Fin 1) r e)) (fun _ => 0)
    (fun (j : Fin 1024) e => xv (ix4 (0 : Fin 1) (0 : Fin 1) j e)) r (fun e => qs1_apply xq r e)]
  simp only [initMax1_apply, initDen1_apply, initNum1_apply]
  rfl

end Cert.KernelIdeal.BodyAt
-- ==== Proof.KerVal1.lean ====
/-
  Region 1 (rows of 1024 tokens): the array its output window ends at, as one function of the three packed argument
  arrays. Row `bh` of the output is head `bh / 16`, row `bh % 16` of the 1024-token rows that start at token 16384; each grid point
  writes one row's block, the one-tile attention of the row's query block against the row's own key and value blocks.
-/
import proofs.«143665_j77000173683359_2_alg».proof.Proof.Frame1
import proofs.«143665_j77000173683359_2_alg».proof.Proof.BodyAt1
import proofs.«143665_j77000173683359_2_alg».proof.Proof.KerArr
import Idealize.ShloMosaic.Lib.Pipeline.Value
import Idealize.ShloMosaic.Lib.Tactic

noncomputable section

namespace Cert.KernelIdeal.KerVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.KernelIdeal.BodyVal Cert.Attn

/-- The printed index maps, decided over the grid: at point `t` the three input windows sit at head `t / 16` and token
    block `16 + t.val % 16`, the output window at row `t`. -/
theorem idx_facts1 : ∀ t : Fin cfg1.N,
    (win1_0.index t (0 : Fin 4) = 0 ∧ win1_0.index t (1 : Fin 4) = t.val / 16
    ∧ win1_0.index t (2 : Fin 4) = 16 + t.val % 16 ∧ win1_0.index t (3 : Fin 4) = 0)
    ∧ (win1_1.index t (0 : Fin 4) = 0 ∧ win1_1.index t (1 : Fin 4) = t.val / 16
    ∧ win1_1.index t (2 : Fin 4) = 16 + t.val % 16 ∧ win1_1.index t (3 : Fin 4) = 0)
    ∧ (win1_2.index t (0 : Fin 4) = 0 ∧ win1_2.index t (1 : Fin 4) = t.val / 16
    ∧ win1_2.index t (2 : Fin 4) = 16 + t.val % 16 ∧ win1_2.index t (3 : Fin 4) = 0)
    ∧ win1_3.index t (0 : Fin 3) = t.val ∧ win1_3.index t (1 : Fin 3) = 0 ∧ win1_3.index t (2 : Fin 3) = 0 :=
  (by decide +kernel : ∀ t : Fin grid1.N, _)

section Region
variable (V : (c : Dev nD) → (b : Ref sig .tc) → Buf (Elt Ideal) ((c : Thread nD τ).loc b))

/-- Window 0's block (qblk) at point `t`, read at `(0, 0, r, e)`: the argument at the point's head and the row's token `r`. -/
theorem qblk1_apply (c : Dev nD) (t : Fin cfg1.N) (r : Fin 1024) (e : Fin 64) (x : S1x8x49152x64.Idx)
    (h0 : (x 0).val = 0) (h1 : (x 1).val = t.val / 16) (h2 : (x 2).val = (16 + t.val % 16) * 1024 + r.val) (h3 : (x 3).val = e.val) :
    (iblk1 (F := Ideal) V c 0 t : Vec Ideal S1x1x1024x64 .f32) (ix4 (0 : Fin 1) (0 : Fin 1) r e)
      = (V c main_arg0 : S1x8x49152x64.Idx → EReal) x := by
  obtain ⟨e0, e1, e2, e3⟩ := (idx_facts1 t).1
  unfold iblk1
  rw [View.read_apply]
  show (V c main_arg0 : S1x8x49152x64.Idx → EReal) _ = _
  refine congrArg _ (funext fun a => Fin.ext ?_)
  match a with
  | ⟨0, _⟩ => show win1_0.index t (0 : Fin 4) * 1 + 1 * 0 = (x 0).val; omega
  | ⟨1, _⟩ => show win1_0.index t (1 : Fin 4) * 1 + 1 * 0 = (x 1).val; omega
  | ⟨2, _⟩ => show win1_0.index t (2 : Fin 4) * 1024 + 1 * r.val = (x 2).val; omega
  | ⟨3, _⟩ => show win1_0.index t (3 : Fin 4) * 64 + 1 * e.val = (x 3).val; omega

/-- Window 1's block (kblk) at point `t`, read at `(0, 0, r, e)`: the argument at the point's head and the row's token `r`. -/
theorem kblk1_apply (c : Dev nD) (t : Fin cfg1.N) (r : Fin 1024) (e : Fin 64) (x : S1x8x49152x64.Idx)
    (h0 : (x 0).val = 0) (h1 : (x 1).val = t.val / 16) (h2 : (x 2).val = (16 + t.val % 16) * 1024 + r.val) (h3 : (x 3).val = e.val) :
    (iblk1 (F := Ideal) V c 1 t : Vec Ideal S1x1x1024x64 .f32) (ix4 (0 : Fin 1) (0 : Fin 1) r e)
      = (V c main_arg1 : S1x8x49152x64.Idx → EReal) x := by
  obtain ⟨e0, e1, e2, e3⟩ := (idx_facts1 t).2.1
  unfold iblk1
  rw [View.read_apply]
  show (V c main_arg1 : S1x8x49152x64.Idx → EReal) _ = _
  refine congrArg _ (funext fun a => Fin.ext ?_)
  match a with
  | ⟨0, _⟩ => show win1_1.index t (0 : Fin 4) * 1 + 1 * 0 = (x 0).val; omega
  | ⟨1, _⟩ => show win1_1.index t (1 : Fin 4) * 1 + 1 * 0 = (x 1).val; omega
  | ⟨2, _⟩ => show win1_1.index t (2 : Fin 4) * 1024 + 1 * r.val = (x 2).val; omega
  | ⟨3, _⟩ => show win1_1.index t (3 : Fin 4) * 64 + 1 * e.val = (x 3).val; omega

/-- Window 2's block (vblk) at point `t`, read at `(0, 0, r, e)`: the argument at the point's head and the row's token `r`. -/
theorem vblk1_apply (c : Dev nD) (t : Fin cfg1.N) (r : Fin 1024) (e : Fin 64) (x : S1x8x49152x64.Idx)
    (h0 : (x 0).val = 0) (h1 : (x 1).val = t.val / 16) (h2 : (x 2).val = (16 + t.val % 16) * 1024 + r.val) (h3 : (x 3).val = e.val) :
    (iblk1 (F := Ideal) V c 2 t : Vec Ideal S1x1x1024x64 .f32) (ix4 (0 : Fin 1) (0 : Fin 1) r e)
      = (V c main_arg2 : S1x8x49152x64.Idx → EReal) x := by
  obtain ⟨e0, e1, e2, e3⟩ := (idx_facts1 t).2.2.1
  unfold iblk1
  rw [View.read_apply]
  show (V c main_arg2 : S1x8x49152x64.Idx → EReal) _ = _
  refine congrArg _ (funext fun a => Fin.ext ?_)
  match a with
  | ⟨0, _⟩ => show win1_2.index t (0 : Fin 4) * 1 + 1 * 0 = (x 0).val; omega
  | ⟨1, _⟩ => show win1_2.index t (1 : Fin 4) * 1 + 1 * 0 = (x 1).val; omega
  | ⟨2, _⟩ => show win1_2.index t (2 : Fin 4) * 1024 + 1 * r.val = (x 2).val; omega
  | ⟨3, _⟩ => show win1_2.index t (3 : Fin 4) * 64 + 1 * e.val = (x 3).val; omega

/-- What point `t` writes back is block `t` of `arr1` of the argument arrays as the region finds them. -/
theorem flushed1_eq (c : Dev nD) (t : Fin cfg1.N) :
    (dat1 (F := Ideal) V c).flushed 3 t
      = ((cfg1.win 3).blk t).view.read (Elt Ideal) (arr1 (V c main_arg0) (V c main_arg1) (V c main_arg2)) := by
  show (cfg1.win 3).cut (grid1.coords t) ((dat1 (F := Ideal) V c).after 3 t) = _
  rw [after1_3]
  obtain ⟨-, -, -, o0, o1, o2⟩ := idx_facts1 t
  funext y
  obtain ⟨u, r, d, rfl⟩ : ∃ (u : Fin 1) (r : Fin 1024) (d : Fin 64), y = ix3 u r d := ⟨y 0, y 1, y 2, eq_ix3 y⟩
  obtain rfl : u = 0 := Fin.ext (by omega)
  rw [View.read_apply]
  refine (BodyAt.out1_apply _ _ _ r d).trans ?_
  -- the output block's element in the array
  have E0 : ((((cfg1.win 3).blk t).view.emb (ix3 (0 : Fin 1) r d)) 0).val = t.val := by
    show win1_3.index t (0 : Fin 3) * 1 + 1 * 0 = t.val; omega
  have E1 : ((((cfg1.win 3).blk t).view.emb (ix3 (0 : Fin 1) r d)) 1).val = r.val := by
    show win1_3.index t (1 : Fin 3) * 1024 + 1 * r.val = r.val; omega
  have E2 : ((((cfg1.win 3).blk t).view.emb (ix3 (0 : Fin 1) r d)) 2).val = d.val := by
    show win1_3.index t (2 : Fin 3) * 64 + 1 * d.val = d.val; omega
  generalize (((cfg1.win 3).blk t).view.emb (ix3 (0 : Fin 1) r d)) = x at E0 E1 E2
  unfold arr1
  have hd : d = x 2 := Fin.ext E2.symm
  have hq : (fun e => (iblk1 (F := Ideal) V c 0 t : Vec Ideal S1x1x1024x64 .f32) (ix4 (0 : Fin 1) (0 : Fin 1) r e))
      = fun e => (V c main_arg0 : S1x8x49152x64.Idx → EReal) (ix4 (0 : Fin 1) (head1 (x 0)) (tok1 (x 0) (x 1)) e) :=
    funext fun e => qblk1_apply V c t r e _ rfl (by show (x 0).val / 16 = _; rw [E0])
      (by show 16384 + (x 0).val % 16 * 1024 + (x 1).val = _; rw [E0, E1]; omega) rfl
  have hk : (fun (j : Fin 1024) e => (iblk1 (F := Ideal) V c 1 t : Vec Ideal S1x1x1024x64 .f32) (ix4 (0 : Fin 1) (0 : Fin 1) j e))
      = fun (j : Fin 1024) e => (V c main_arg1 : S1x8x49152x64.Idx → EReal) (ix4 (0 : Fin 1) (head1 (x 0)) (tok1 (x 0) j) e) :=
    funext fun j => funext fun e => kblk1_apply V c t j e _ rfl (by show (x 0).val / 16 = _; rw [E0])
      (by show 16384 + (x 0).val % 16 * 1024 + j.val = _; rw [E0]; omega) rfl
  have hv : (fun (j : Fin 1024) e => (iblk1 (F := Ideal) V c 2 t : Vec Ideal S1x1x1024x64 .f32) (ix4 (0 : Fin 1) (0 : Fin 1) j e))
      = fun (j : Fin 1024) e => (V c main_arg2 : S1x8x49152x64.Idx → EReal) (ix4 (0 : Fin 1) (head1 (x 0)) (tok1 (x 0) j) e) :=
    funext fun j => funext fun e => vblk1_apply V c t j e _ rfl (by show (x 0).val / 16 = _; rw [E0])
      (by show 16384 + (x 0).val % 16 * 1024 + j.val = _; rw [E0]; omega) rfl
  rw [hq, hk, hv, hd]
  exact (cast_eq _ _).symm

/-- An index of the array is in point `t`'s block iff each coordinate is in the block's range on its axis. -/
theorem mem_blk1 (t : Fin cfg1.N) (i : S128x1024x64.Idx) :
    i ∈ ((cfg1.win 3).blk t).view.set
      ↔ ∀ a : Fin 3, win1_3.index t a * S1x1024x64.size a ≤ (i a).val ∧ (i a).val < win1_3.index t a * S1x1024x64.size a + S1x1024x64.size a := by
  show i ∈ ((View.whole main_v3).slice (win1_3.rect t)).set ↔ _
  rw [View.set_slice_whole, Rect.mem_set_unit]
  exact Iff.rfl

/-- Every row of the output array is some point's block: row `bh` is point `bh`'s. -/
theorem cover1 (i : S128x1024x64.Idx) : ∃ t : Fin cfg1.N, (cfg1.win 3).flush t = true ∧ i ∈ ((cfg1.win 3).blk t).view.set := by
  have hi0 : (i 0).val < 128 := (i 0).isLt
  have hi1 : (i 1).val < 1024 := (i 1).isLt
  have hi2 : (i 2).val < 64 := (i 2).isLt
  obtain ⟨t, ht⟩ : ∃ t : Fin cfg1.N, t.val = (i 0).val :=
    ⟨⟨(i 0).val, by rw [show cfg1.N = 128 from N_1]; exact hi0⟩, rfl⟩
  refine ⟨t, flush1_3 t, ?_⟩
  rw [mem_blk1]
  obtain ⟨-, -, -, o0, o1, o2⟩ := idx_facts1 t
  intro a
  match a with
  | ⟨0, _⟩ => show win1_3.index t (0 : Fin 3) * 1 ≤ (i 0).val ∧ (i 0).val < win1_3.index t (0 : Fin 3) * 1 + 1; rw [o0, ht]; omega
  | ⟨1, _⟩ => show win1_3.index t (1 : Fin 3) * 1024 ≤ (i 1).val ∧ (i 1).val < win1_3.index t (1 : Fin 3) * 1024 + 1024; rw [o1]; omega
  | ⟨2, _⟩ => show win1_3.index t (2 : Fin 3) * 64 ≤ (i 2).val ∧ (i 2).val < win1_3.index t (2 : Fin 3) * 64 + 64; rw [o2]; omega

/-- The output array after the region: `arr1` of the argument arrays as the region finds them. -/
theorem final1 (c : Dev nD) :
    (Cert.KernelIdeal.Frm.dat1 (F := Ideal) V c).arrAt 3 cfg1.N = arr1 (V c main_arg0) (V c main_arg1) (V c main_arg2) :=
  (dat1 (F := Ideal) V c).arrAt_eq_of_cover 3 (arr1 (V c main_arg0) (V c main_arg1) (V c main_arg2))
    (fun t _ => flushed1_eq V c t) (cover1)

end Region

end Cert.KernelIdeal.KerVal

end
-- ==== Proof.BodyAt2.lean ====
/-
  The streaming attention body on rows of 2048 tokens, in tiles of 1024 keys, read at an index, on the extended reals: each named
  value of the body at a row `r` (and a key `j` or a feature `c`), then the carried state after one tile as the
  specification's `step` of the state before it, the state after a row's first tile, and the stored block as the two-tile arrangement.
-/
import proofs.«143665_j77000173683359_2_alg».proof.Proof.BodyVal
import proofs.«143665_j77000173683359_2_alg».proof.Proof.BodyAtCore

namespace Cert.KernelIdeal.BodyAt

open Idealize.ShloMosaic Idealize.ShloMosaic.ValueIdx Cert.KernelIdeal Cert.KernelIdeal.Gen Cert.KernelIdeal.BodyVal Cert.Attn
open scoped BigOperators

/-! ## The dimension numbers of the two products: which operand coordinate is the output's, which the contraction's -/

theorem qk2_l0 (i : S2048x1024.Idx) (q : dot_S2048x64_S64x1024_S2048x1024_1_0_0_1_n_n.contr.Idx) : (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide),
    dif_pos (show (0 : Fin S2048x64.rank) ∈ dot_S2048x64_S64x1024_S2048x1024_1_0_0_1_n_n.lhsNonContracting by decide)]
  rfl
theorem qk2_l1 (i : S2048x1024.Idx) (q : dot_S2048x64_S64x1024_S2048x1024_1_0_0_1_n_n.contr.Idx) : (dot_S2048x64_S64x1024_S2048x1024_1_0_0_1_n_n.lhsIdx i q 1).val = (q ⟨0, by decide⟩).val :=
  dot_S2048x64_S64x1024_S2048x1024_1_0_0_1_n_n.lhsIdx_val_of_single rfl i q
theorem qk2_r0 (i : S2048x1024.Idx) (q : dot_S2048x64_S64x1024_S2048x1024_1_0_0_1_n_n.contr.Idx) : (dot_S2048x64_S64x1024_S2048x1024_1_0_0_1_n_n.rhsIdx i q 0).val = (q ⟨0, by decide⟩).val :=
  dot_S2048x64_S64x1024_S2048x1024_1_0_0_1_n_n.rhsIdx_val_of_single rfl i q
theorem qk2_r1 (i : S2048x1024.Idx) (q : dot_S2048x64_S64x1024_S2048x1024_1_0_0_1_n_n.contr.Idx) : (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide),
    dif_pos (show (1 : Fin S64x1024.rank) ∈ dot_S2048x64_S64x1024_S2048x1024_1_0_0_1_n_n.rhsNonContracting by decide)]
  rfl

theorem pv2_l0 (i : S2048x64.Idx) (q : dot_S2048x1024_S1024x64_S2048x64_1_0_0_1_n_n.contr.Idx) : (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide),
    dif_pos (show (0 : Fin S2048x1024.rank) ∈ dot_S2048x1024_S1024x64_S2048x64_1_0_0_1_n_n.lhsNonContracting by decide)]
  rfl
theorem pv2_l1 (i : S2048x64.Idx) (q : dot_S2048x1024_S1024x64_S2048x64_1_0_0_1_n_n.contr.Idx) : (dot_S2048x1024_S1024x64_S2048x64_1_0_0_1_n_n.lhsIdx i q 1).val = (q ⟨0, by decide⟩).val :=
  dot_S2048x1024_S1024x64_S2048x64_1_0_0_1_n_n.lhsIdx_val_of_single rfl i q
theorem pv2_r0 (i : S2048x64.Idx) (q : dot_S2048x1024_S1024x64_S2048x64_1_0_0_1_n_n.contr.Idx) : (dot_S2048x1024_S1024x64_S2048x64_1_0_0_1_n_n.rhsIdx i q 0).val = (q ⟨0, by decide⟩).val :=
  dot_S2048x1024_S1024x64_S2048x64_1_0_0_1_n_n.rhsIdx_val_of_single rfl i q
theorem pv2_r1 (i : S2048x64.Idx) (q : dot_S2048x1024_S1024x64_S2048x64_1_0_0_1_n_n.contr.Idx) : (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide),
    dif_pos (show (1 : Fin S1024x64.rank) ∈ dot_S2048x1024_S1024x64_S2048x64_1_0_0_1_n_n.rhsNonContracting by decide)]
  rfl

/-! ## The body's named values at an index -/

/-- The scaled query tile. -/
theorem qs2_apply (xq : Vec Ideal S1x1x2048x64 .f32) (r : Fin 2048) (e : Fin 64) :
    qs2 (F := Ideal) xq (ix2 r e) = xq (ix4 (0 : Fin 1) (0 : Fin 1) r e) * scaleW := by
  unfold qs2 k2_pay7
  rw [shapeCast_self]
  show shapeCast S2048x64 xq _ (ix2 r e) * scaleW = _
  exact congrArg (· * scaleW) (Cert.LibUnitPair.shapeCast_11ab_ab_apply xq _ r e)

/-- The score matrix. -/
theorem scores2_apply (qs : Vec Ideal S2048x64 .bf16) (xk : Vec Ideal S1x1x1024x64 .f32) (r : Fin 2048) (j : Fin 1024) :
    k2_pay9 (F := Ideal) qs xk (ix2 r j) = ∑ e : Fin 64, qs (ix2 r e) * xk (ix4 (0 : Fin 1) (0 : Fin 1) j e) := by
  unfold k2_pay9
  exact score_entry dot_S2048x64_S64x1024_S2048x1024_1_0_0_1_n_n rfl rfl qk2_l0 qk2_l1 qk2_r0 qk2_r1 _ _ _ qs xk r j

/-- The new running maximum. -/
theorem newMax2_apply (qs : Vec Ideal S2048x64 .bf16) (xk : Vec Ideal S1x1x1024x64 .f32) (m : Vec Ideal S2048x1 .f32) (r : Fin 2048) :
    k2_pay10 (F := Ideal) qs xk m (ix2 r (0 : Fin 1))
      = max (m (ix2 r (0 : Fin 1))) ((Finset.univ : Finset (Fin 1024)).fold max ⊥ (fun j => k2_pay9 (F := Ideal) qs xk (ix2 r j))) := by
  unfold k2_pay10
  exact newMax_entry (k2_pay9 (F := Ideal) qs xk) m _ _ _ _ r

/-- The rescaling factor of the old state. -/
theorem alpha2_apply (qs : Vec Ideal S2048x64 .bf16) (xk : Vec Ideal S1x1x1024x64 .f32) (m : Vec Ideal S2048x1 .f32) (r : Fin 2048) :
    k2_pay11 (F := Ideal) qs xk m (ix2 r (0 : Fin 1))
      = Ideal.exp (m (ix2 r (0 : Fin 1)) - k2_pay10 (F := Ideal) qs xk m (ix2 r (0 : Fin 1))) := rfl

/-- The unnormalised weights. -/
theorem weights2_apply (qs : Vec Ideal S2048x64 .bf16) (xk : Vec Ideal S1x1x1024x64 .f32) (m : Vec Ideal S2048x1 .f32) (r : Fin 2048) (j : Fin 1024) :
    k2_pay12 (F := Ideal) qs xk m (ix2 r j)
      = Ideal.exp (k2_pay9 (F := Ideal) qs xk (ix2 r j) - k2_pay10 (F := Ideal) qs xk m (ix2 r (0 : Fin 1))) := by
  unfold k2_pay12
  refine (exp_apply _ _).trans (congrArg Ideal.exp ?_)
  refine (subf_apply _ _ _).trans ?_
  exact congrArg (k2_pay9 (F := Ideal) qs xk (ix2 r j) - ·) (Cert.Keepdims.broadcastTo_a1_ab_apply _ _ r j)

/-- The new running denominator. -/
theorem den2_apply (qs : Vec Ideal S2048x64 .bf16) (xk : Vec Ideal S1x1x1024x64 .f32) (m l : Vec Ideal S2048x1 .f32) (r : Fin 2048) :
    k2_pay13 (F := Ideal) qs xk m l (ix2 r (0 : Fin 1))
      = k2_pay11 (F := Ideal) qs xk m (ix2 r (0 : Fin 1)) * l (ix2 r (0 : Fin 1))
        + ∑ j : Fin 1024, k2_pay12 (F := Ideal) qs xk m (ix2 r j) := by
  unfold k2_pay13
  rw [shapeCast_self]
  refine (addf_apply _ _ _).trans ?_
  exact congrArg₂ (· + ·) (mulf_apply _ _ _) (rowSum_entry (k2_pay12 (F := Ideal) qs xk m) _ _ _ _ r)

/-- The old numerator rescaled. -/
theorem rescaled2_apply (qs : Vec Ideal S2048x64 .bf16) (xk : Vec Ideal S1x1x1024x64 .f32) (m : Vec Ideal S2048x1 .f32)
    (acc : Vec Ideal S2048x64 .f32) (r : Fin 2048) (c : Fin 64) :
    k2_pay14 (F := Ideal) qs xk m acc (ix2 r c)
      = k2_pay11 (F := Ideal) qs xk m (ix2 r (0 : Fin 1)) * acc (ix2 r c) := by
  unfold k2_pay14
  refine (mulf_apply _ _ _).trans ?_
  exact congrArg (· * acc (ix2 r c)) (Cert.Keepdims.broadcastTo_a1_ab_apply _ _ r c)

/-- The new running numerator. -/
theorem num2_apply (qs : Vec Ideal S2048x64 .bf16) (xk xv : Vec Ideal S1x1x1024x64 .f32) (m : Vec Ideal S2048x1 .f32)
    (old : FVec Ideal S2048x64 .f32) (r : Fin 2048) (c : Fin 64) :
    k2_pay1 (F := Ideal) (k2_pay8 xv) old (k2_pay15 qs xk m) (ix2 r c)
      = old (ix2 r c) + ∑ j : Fin 1024, k2_pay12 (F := Ideal) qs xk m (ix2 r j) * xv (ix4 (0 : Fin 1) (0 : Fin 1) j c) := by
  unfold k2_pay1 k2_pay8 k2_pay15
  rw [shapeCast_self]
  refine (addf_apply _ _ _).trans ?_
  exact congrArg (old (ix2 r c) + ·)
    (weighted_entry dot_S2048x1024_S1024x64_S2048x64_1_0_0_1_n_n rfl rfl pv2_l0 pv2_l1 pv2_r0 pv2_r1 _ _ (k2_pay12 (F := Ideal) qs xk m) xv r c)

/-- The stored quotient. -/
theorem stored2_apply (acc : Vec Ideal S2048x64 .f32) (l : Vec Ideal S2048x1 .f32) (r : Fin 2048) (c : Fin 64) :
    k2_pay3 (F := Ideal) acc l (ix3 (0 : Fin 1) r c) = Ideal.div (acc (ix2 r c)) (l (ix2 r (0 : Fin 1))) := by
  unfold k2_pay3
  exact quotient_entry acc l _ _ r c

/-- The state before the first tile: maximum `-∞`, denominator and numerator zero. -/
theorem initMax2_apply (i : S2048x1.Idx) : k2_pay4 (F := Ideal) i = ⊥ := by
  unfold k2_pay4
  rw [shapeCast_self]
  exact Cert.ColReduce.ofBits_neg_inf_f32
theorem initDen2_apply (i : S2048x1.Idx) : k2_pay5 (F := Ideal) i = 0 := by
  unfold k2_pay5
  rw [shapeCast_self]
  exact Ideal.ofBits_zero_f32
theorem initNum2_apply (i : S2048x64.Idx) : k2_pay6 (F := Ideal) i = 0 := by
  unfold k2_pay6
  rw [shapeCast_self]
  exact Ideal.ofBits_zero_f32

/-! ## One tile from a general carried state, as the specification's step -/

/-- The score matrix's row `r` is the specification's scores of the query row `q` when the scaled tile's row is `q · scale`. -/
theorem scores2_eq (qs : Vec Ideal S2048x64 .bf16) (xk : Vec Ideal S1x1x1024x64 .f32) (q : Fin 64 → EReal) (r : Fin 2048)
    (hq : ∀ e, qs (ix2 r e) = q e * scaleW) (j : Fin 1024) :
    k2_pay9 (F := Ideal) qs xk (ix2 r j) = score q (fun (j : Fin 1024) e => xk (ix4 (0 : Fin 1) (0 : Fin 1) j e)) j :=
  (scores2_apply qs xk r j).trans (Finset.sum_congr rfl fun e _ => congrArg (· * xk (ix4 (0 : Fin 1) (0 : Fin 1) j e)) (hq e))

theorem m2_apply (qs : Vec Ideal S2048x64 .bf16) (m : Vec Ideal S2048x1 .f32) (xk : Vec Ideal S1x1x1024x64 .f32) (q : Fin 64 → EReal)
    (r : Fin 2048) (hq : ∀ e, qs (ix2 r e) = q e * scaleW) :
    m2 (F := Ideal) qs m xk (ix2 r (0 : Fin 1))
      = max (m (ix2 r (0 : Fin 1))) (rowMax (score q (fun (j : Fin 1024) e => xk (ix4 (0 : Fin 1) (0 : Fin 1) j e)))) := by
  unfold m2 k2_pay2
  rw [shapeCast_self]
  refine (newMax2_apply qs xk m r).trans ?_
  refine congrArg (max (m (ix2 r (0 : Fin 1))) ·) ?_
  exact congrArg (Finset.fold max ⊥ · Finset.univ) (funext fun j => scores2_eq qs xk q r hq j)

/-- The new maximum at row `r`, whatever the rest of the state. -/
theorem newMax2_eq (qs : Vec Ideal S2048x64 .bf16) (xk : Vec Ideal S1x1x1024x64 .f32) (m : Vec Ideal S2048x1 .f32) (q : Fin 64 → EReal)
    (r : Fin 2048) (hq : ∀ e, qs (ix2 r e) = q e * scaleW) :
    k2_pay10 (F := Ideal) qs xk m (ix2 r (0 : Fin 1))
      = max (m (ix2 r (0 : Fin 1))) (rowMax (score q (fun (j : Fin 1024) e => xk (ix4 (0 : Fin 1) (0 : Fin 1) j e)))) := by
  refine (newMax2_apply qs xk m r).trans ?_
  refine congrArg (max (m (ix2 r (0 : Fin 1))) ·) ?_
  exact congrArg (Finset.fold max ⊥ · Finset.univ) (funext fun j => scores2_eq qs xk q r hq j)

theorem l2_apply (qs : Vec Ideal S2048x64 .bf16) (m l : Vec Ideal S2048x1 .f32) (xk : Vec Ideal S1x1x1024x64 .f32) (q : Fin 64 → EReal)
    (st : Fin 64 → EReal) (v : Fin 1024 → Fin 64 → EReal) (r : Fin 2048) (hq : ∀ e, qs (ix2 r e) = q e * scaleW) :
    l2 (F := Ideal) qs m l xk (ix2 r (0 : Fin 1))
      = (step (m (ix2 r (0 : Fin 1)), l (ix2 r (0 : Fin 1)), st) q
          (fun (j : Fin 1024) e => xk (ix4 (0 : Fin 1) (0 : Fin 1) j e)) v).2.1 := by
  unfold l2
  rw [step_den, den2_apply, alpha2_apply, newMax2_eq qs xk m q r hq]
  refine congrArg (_ + ·) (Finset.sum_congr rfl fun j _ => ?_)
  rw [weights2_apply, newMax2_eq qs xk m q r hq, scores2_eq qs xk q r hq j]

theorem acc2_apply (qs : Vec Ideal S2048x64 .bf16) (m : Vec Ideal S2048x1 .f32) (acc : Vec Ideal S2048x64 .f32)
    (xk xv : Vec Ideal S1x1x1024x64 .f32) (q : Fin 64 → EReal) (l : EReal) (r : Fin 2048) (c : Fin 64)
    (hq : ∀ e, qs (ix2 r e) = q e * scaleW) :
    acc2 (F := Ideal) qs m acc xk xv (ix2 r c)
      = (step (m (ix2 r (0 : Fin 1)), l, fun c => acc (ix2 r c)) q
          (fun (j : Fin 1024) e => xk (ix4 (0 : Fin 1) (0 : Fin 1) j e))
          (fun (j : Fin 1024) e => xv (ix4 (0 : Fin 1) (0 : Fin 1) j e))).2.2 c := by
  unfold acc2
  rw [step_num, num2_apply, rescaled2_apply, alpha2_apply, newMax2_eq qs xk m q r hq]
  refine congrArg (_ + ·) (Finset.sum_congr rfl fun j _ => ?_)
  rw [weights2_apply, newMax2_eq qs xk m q r hq, scores2_eq qs xk q r hq j]

/-! ## The state after the first tile of a row of 2048, and the stored block after the second -/

theorem mA_apply (xq : Vec Ideal S1x1x2048x64 .f32) (k₁ v₁ : Vec Ideal S1x1x1024x64 .f32) (r : Fin 2048) :
    mA (F := Ideal) xq k₁ (ix2 r (0 : Fin 1))
      = (step init (fun e => xq (ix4 (0 : Fin 1) (0 : Fin 1) r e)) (fun (j : Fin 1024) e => k₁ (ix4 (0 : Fin 1) (0 : Fin 1) j e)) (fun (j : Fin 1024) e => v₁ (ix4 (0 : Fin 1) (0 : Fin 1) j e))).1 := by
  unfold mA
  rw [m2_apply (qs2 xq) (k2_pay4 (F := Ideal)) k₁ (fun e => xq (ix4 (0 : Fin 1) (0 : Fin 1) r e)) r (fun e => qs2_apply xq r e), initMax2_apply]
  rfl

theorem lA_apply (xq : Vec Ideal S1x1x2048x64 .f32) (k₁ v₁ : Vec Ideal S1x1x1024x64 .f32) (r : Fin 2048) :
    lA (F := Ideal) xq k₁ (ix2 r (0 : Fin 1))
      = (step init (fun e => xq (ix4 (0 : Fin 1) (0 : Fin 1) r e)) (fun (j : Fin 1024) e => k₁ (ix4 (0 : Fin 1) (0 : Fin 1) j e)) (fun (j : Fin 1024) e => v₁ (ix4 (0 : Fin 1) (0 : Fin 1) j e))).2.1 := by
  unfold lA
  rw [l2_apply (qs2 xq) (k2_pay4 (F := Ideal)) (k2_pay5 (F := Ideal)) k₁ (fun e => xq (ix4 (0 : Fin 1) (0 : Fin 1) r e)) (fun _ => 0)
    (fun (j : Fin 1024) e => v₁ (ix4 (0 : Fin 1) (0 : Fin 1) j e)) r (fun e => qs2_apply xq r e)]
  simp only [initMax2_apply, initDen2_apply]
  rfl

theorem accA_apply (xq : Vec Ideal S1x1x2048x64 .f32) (k₁ v₁ : Vec Ideal S1x1x1024x64 .f32) (r : Fin 2048) (c : Fin 64) :
    accA (F := Ideal) xq k₁ v₁ (ix2 r c)
      = (step init (fun e => xq (ix4 (0 : Fin 1) (0 : Fin 1) r e)) (fun (j : Fin 1024) e => k₁ (ix4 (0 : Fin 1) (0 : Fin 1) j e)) (fun (j : Fin 1024) e => v₁ (ix4 (0 : Fin 1) (0 : Fin 1) j e))).2.2 c := by
  unfold accA
  rw [acc2_apply (qs2 xq) (k2_pay4 (F := Ideal)) (k2_pay6 (F := Ideal)) k₁ v₁ (fun e => xq (ix4 (0 : Fin 1) (0 : Fin 1) r e)) 0 r c
    (fun e => qs2_apply xq r e)]
  simp only [initMax2_apply, initNum2_apply]
  rfl

theorem out2_apply (xq : Vec Ideal Cert.KernelIdeal.S1x1x2048x64 .f32) (k₁ v₁ k₂ v₂ : Vec Ideal Cert.KernelIdeal.S1x1x1024x64 .f32) (r : Fin 2048) (d : Fin 64) :
    Cert.KernelIdeal.BodyVal.out2 (F := Ideal) xq k₁ v₁ k₂ v₂ (ix3 (0 : Fin 1) r d)
      = Cert.Attn.twoTiles (fun e => xq (ix4 (0 : Fin 1) (0 : Fin 1) r e)) (fun (j : Fin 1024) e => k₁ (ix4 (0 : Fin 1) (0 : Fin 1) j e)) (fun (j : Fin 1024) e => v₁ (ix4 (0 : Fin 1) (0 : Fin 1) j e)) (fun (j : Fin 1024) e => k₂ (ix4 (0 : Fin 1) (0 : Fin 1) j e)) (fun (j : Fin 1024) e => v₂ (ix4 (0 : Fin 1) (0 : Fin 1) j e)) d := by
  unfold out2 twoTiles
  rw [stored2_apply]
  rw [acc2_apply (qs2 xq) (mA xq k₁) (accA xq k₁ v₁) k₂ v₂ (fun e => xq (ix4 (0 : Fin 1) (0 : Fin 1) r e)) (lA (F := Ideal) xq k₁ (ix2 r (0 : Fin 1))) r d
    (fun e => qs2_apply xq r e)]
  rw [l2_apply (qs2 xq) (mA xq k₁) (lA xq k₁) k₂ (fun e => xq (ix4 (0 : Fin 1) (0 : Fin 1) r e)) (fun c => accA (F := Ideal) xq k₁ v₁ (ix2 r c))
    (fun (j : Fin 1024) e => v₂ (ix4 (0 : Fin 1) (0 : Fin 1) j e)) r (fun e => qs2_apply xq r e)]
  simp only [mA_apply xq k₁ v₁ r, lA_apply xq k₁ v₁ r, accA_apply xq k₁ v₁ r]

end Cert.KernelIdeal.BodyAt
-- ==== Proof.KerVal2.lean ====
/-
  Region 2 (rows of 2048 tokens, two tiles of 1024 keys): the array its output window ends at, as one function of the
  three packed argument arrays. Grid points `2·bh` and `2·bh + 1` are the two key tiles of output row `bh` (head
  `bh / 8`, row `bh % 8` of the 2048-token rows that start at token 32768); the row's block is written back at the odd
  point, and is the two-tile attention of the row's query block against the first and the second 1024 keys and values.
-/
import proofs.«143665_j77000173683359_2_alg».proof.Proof.Frame2
import proofs.«143665_j77000173683359_2_alg».proof.Proof.BodyAt2
import proofs.«143665_j77000173683359_2_alg».proof.Proof.KerArr
import Idealize.ShloMosaic.Lib.Pipeline.Value
import Idealize.ShloMosaic.Lib.Tactic

noncomputable section

namespace Cert.KernelIdeal.KerVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.KernelIdeal.BodyVal Cert.Attn

/-- The printed index maps, decided over the grid: at point `t` (row `t / 2`, key tile `t % 2`) the query window sits at
    head `t / 2 / 8` and block `16 + t / 2 % 8` of 2048 tokens, the key and value windows at block
    `32 + (t / 2 % 8) · 2 + t % 2` of 1024 tokens, the output window at row `t / 2`. -/
theorem idx_facts2 : ∀ t : Fin cfg2.N,
    (win2_0.index t (0 : Fin 4) = 0 ∧ win2_0.index t (1 : Fin 4) = t.val / 2 / 8
    ∧ win2_0.index t (2 : Fin 4) = 16 + t.val / 2 % 8 ∧ win2_0.index t (3 : Fin 4) = 0)
    ∧ (win2_1.index t (0 : Fin 4) = 0 ∧ win2_1.index t (1 : Fin 4) = t.val / 2 / 8
    ∧ win2_1.index t (2 : Fin 4) = 32 + t.val / 2 % 8 * 2 + t.val % 2 ∧ win2_1.index t (3 : Fin 4) = 0)
    ∧ (win2_2.index t (0 : Fin 4) = 0 ∧ win2_2.index t (1 : Fin 4) = t.val / 2 / 8
    ∧ win2_2.index t (2 : Fin 4) = 32 + t.val / 2 % 8 * 2 + t.val % 2 ∧ win2_2.index t (3 : Fin 4) = 0)
    ∧ win2_3.index t (0 : Fin 3) = t.val / 2 ∧ win2_3.index t (1 : Fin 3) = 0 ∧ win2_3.index t (2 : Fin 3) = 0 :=
  (by decide +kernel : ∀ t : Fin grid2.N, _)

section Region
variable (V : (c : Dev nD) → (b : Ref sig .tc) → Buf (Elt Ideal) ((c : Thread nD τ).loc b))

/-- Window 0's block (qblk) at point `t`, read at `(0, 0, r, e)`. -/
theorem qblk2_apply (c : Dev nD) (t : Fin cfg2.N) (r : Fin 2048) (e : Fin 64) (x : S1x8x49152x64.Idx)
    (h0 : (x 0).val = 0) (h1 : (x 1).val = t.val / 2 / 8) (h2 : (x 2).val = (16 + t.val / 2 % 8) * 2048 + r.val) (h3 : (x 3).val = e.val) :
    (iblk2 (F := Ideal) V c 0 t : Vec Ideal S1x1x2048x64 .f32) (ix4 (0 : Fin 1) (0 : Fin 1) r e)
      = (V c main_arg0 : S1x8x49152x64.Idx → EReal) x := by
  obtain ⟨e0, e1, e2, e3⟩ := (idx_facts2 t).1
  unfold iblk2
  rw [View.read_apply]
  show (V c main_arg0 : S1x8x49152x64.Idx → EReal) _ = _
  refine congrArg _ (funext fun a => Fin.ext ?_)
  match a with
  | ⟨0, _⟩ => show win2_0.index t (0 : Fin 4) * 1 + 1 * 0 = (x 0).val; omega
  | ⟨1, _⟩ => show win2_0.index t (1 : Fin 4) * 1 + 1 * 0 = (x 1).val; omega
  | ⟨2, _⟩ => show win2_0.index t (2 : Fin 4) * 2048 + 1 * r.val = (x 2).val; omega
  | ⟨3, _⟩ => show win2_0.index t (3 : Fin 4) * 64 + 1 * e.val = (x 3).val; omega

/-- Window 1's block (kblk) at point `t`, read at `(0, 0, r, e)`. -/
theorem kblk2_apply (c : Dev nD) (t : Fin cfg2.N) (r : Fin 1024) (e : Fin 64) (x : S1x8x49152x64.Idx)
    (h0 : (x 0).val = 0) (h1 : (x 1).val = t.val / 2 / 8) (h2 : (x 2).val = (32 + t.val / 2 % 8 * 2 + t.val % 2) * 1024 + r.val) (h3 : (x 3).val = e.val) :
    (iblk2 (F := Ideal) V c 1 t : Vec Ideal S1x1x1024x64 .f32) (ix4 (0 : Fin 1) (0 : Fin 1) r e)
      = (V c main_arg1 : S1x8x49152x64.Idx → EReal) x := by
  obtain ⟨e0, e1, e2, e3⟩ := (idx_facts2 t).2.1
  unfold iblk2
  rw [View.read_apply]
  show (V c main_arg1 : S1x8x49152x64.Idx → EReal) _ = _
  refine congrArg _ (funext fun a => Fin.ext ?_)
  match a with
  | ⟨0, _⟩ => show win2_1.index t (0 : Fin 4) * 1 + 1 * 0 = (x 0).val; omega
  | ⟨1, _⟩ => show win2_1.index t (1 : Fin 4) * 1 + 1 * 0 = (x 1).val; omega
  | ⟨2, _⟩ => show win2_1.index t (2 : Fin 4) * 1024 + 1 * r.val = (x 2).val; omega
  | ⟨3, _⟩ => show win2_1.index t (3 : Fin 4) * 64 + 1 * e.val = (x 3).val; omega

/-- Window 2's block (vblk) at point `t`, read at `(0, 0, r, e)`. -/
theorem vblk2_apply (c : Dev nD) (t : Fin cfg2.N) (r : Fin 1024) (e : Fin 64) (x : S1x8x49152x64.Idx)
    (h0 : (x 0).val = 0) (h1 : (x 1).val = t.val / 2 / 8) (h2 : (x 2).val = (32 + t.val / 2 % 8 * 2 + t.val % 2) * 1024 + r.val) (h3 : (x 3).val = e.val) :
    (iblk2 (F := Ideal) V c 2 t : Vec Ideal S1x1x1024x64 .f32) (ix4 (0 : Fin 1) (0 : Fin 1) r e)
      = (V c main_arg2 : S1x8x49152x64.Idx → EReal) x := by
  obtain ⟨e0, e1, e2, e3⟩ := (idx_facts2 t).2.2.1
  unfold iblk2
  rw [View.read_apply]
  show (V c main_arg2 : S1x8x49152x64.Idx → EReal) _ = _
  refine congrArg _ (funext fun a => Fin.ext ?_)
  match a with
  | ⟨0, _⟩ => show win2_2.index t (0 : Fin 4) * 1 + 1 * 0 = (x 0).val; omega
  | ⟨1, _⟩ => show win2_2.index t (1 : Fin 4) * 1 + 1 * 0 = (x 1).val; omega
  | ⟨2, _⟩ => show win2_2.index t (2 : Fin 4) * 1024 + 1 * r.val = (x 2).val; omega
  | ⟨3, _⟩ => show win2_2.index t (3 : Fin 4) * 64 + 1 * e.val = (x 3).val; omega

/-- What an odd point `t` writes back is block `t` of `arr2` of the argument arrays as the region finds them. -/
theorem flushed2_eq (c : Dev nD) (t : Fin cfg2.N) (hf : (cfg2.win 3).flush t = true) :
    (dat2 (F := Ideal) V c).flushed 3 t
      = ((cfg2.win 3).blk t).view.read (Elt Ideal) (arr2 (V c main_arg0) (V c main_arg1) (V c main_arg2)) := by
  have ho : t.val % 2 = 1 := (flush2_3 t).mp hf
  have hp : (prev2 t).val = t.val - 1 := rfl
  show (cfg2.win 3).cut (grid2.coords t) ((dat2 (F := Ideal) V c).after 3 t) = _
  rw [after2_3]
  obtain ⟨-, -, -, o0, o1, o2⟩ := idx_facts2 t
  funext y
  obtain ⟨u, r, d, rfl⟩ : ∃ (u : Fin 1) (r : Fin 2048) (d : Fin 64), y = ix3 u r d := ⟨y 0, y 1, y 2, eq_ix3 y⟩
  obtain rfl : u = 0 := Fin.ext (by omega)
  rw [View.read_apply]
  refine (BodyAt.out2_apply _ _ _ _ _ r d).trans ?_
  -- the output block's element in the array
  have E0 : ((((cfg2.win 3).blk t).view.emb (ix3 (0 : Fin 1) r d)) 0).val = t.val / 2 := by
    show win2_3.index t (0 : Fin 3) * 1 + 1 * 0 = t.val / 2; omega
  have E1 : ((((cfg2.win 3).blk t).view.emb (ix3 (0 : Fin 1) r d)) 1).val = r.val := by
    show win2_3.index t (1 : Fin 3) * 2048 + 1 * r.val = r.val; omega
  have E2 : ((((cfg2.win 3).blk t).view.emb (ix3 (0 : Fin 1) r d)) 2).val = d.val := by
    show win2_3.index t (2 : Fin 3) * 64 + 1 * d.val = d.val; omega
  generalize (((cfg2.win 3).blk t).view.emb (ix3 (0 : Fin 1) r d)) = x at E0 E1 E2
  unfold arr2
  have hd : d = x 2 := Fin.ext E2.symm
  have hq : (fun e => (iblk2 (F := Ideal) V c 0 (prev2 t) : Vec Ideal S1x1x2048x64 .f32) (ix4 (0 : Fin 1) (0 : Fin 1) r e))
      = fun e => (V c main_arg0 : S1x8x49152x64.Idx → EReal) (ix4 (0 : Fin 1) (head2 (x 0)) (tok2 (x 0) (x 1)) e) :=
    funext fun e => qblk2_apply V c (prev2 t) r e _ rfl (by show (x 0).val / 8 = (prev2 t).val / 2 / 8; rw [E0, hp]; omega)
      (by show 32768 + (x 0).val % 8 * 2048 + (x 1).val = (16 + (prev2 t).val / 2 % 8) * 2048 + r.val; rw [E0, E1, hp]; omega) rfl
  have hk1 : (fun (j : Fin 1024) e => (iblk2 (F := Ideal) V c 1 (prev2 t) : Vec Ideal S1x1x1024x64 .f32) (ix4 (0 : Fin 1) (0 : Fin 1) j e))
      = fun (j : Fin 1024) e => (V c main_arg1 : S1x8x49152x64.Idx → EReal) (ix4 (0 : Fin 1) (head2 (x 0)) (tok2A (x 0) j) e) :=
    funext fun j => funext fun e => kblk2_apply V c (prev2 t) j e _ rfl (by show (x 0).val / 8 = (prev2 t).val / 2 / 8; rw [E0, hp]; omega)
      (by show 32768 + (x 0).val % 8 * 2048 + j.val = (32 + (prev2 t).val / 2 % 8 * 2 + (prev2 t).val % 2) * 1024 + j.val; rw [E0, hp]; omega) rfl
  have hv1 : (fun (j : Fin 1024) e => (iblk2 (F := Ideal) V c 2 (prev2 t) : Vec Ideal S1x1x1024x64 .f32) (ix4 (0 : Fin 1) (0 : Fin 1) j e))
      = fun (j : Fin 1024) e => (V c main_arg2 : S1x8x49152x64.Idx → EReal) (ix4 (0 : Fin 1) (head2 (x 0)) (tok2A (x 0) j) e) :=
    funext fun j => funext fun e => vblk2_apply V c (prev2 t) j e _ rfl (by show (x 0).val / 8 = (prev2 t).val / 2 / 8; rw [E0, hp]; omega)
      (by show 32768 + (x 0).val % 8 * 2048 + j.val = (32 + (prev2 t).val / 2 % 8 * 2 + (prev2 t).val % 2) * 1024 + j.val; rw [E0, hp]; omega) rfl
  have hk2 : (fun (j : Fin 1024) e => (iblk2 (F := Ideal) V c 1 t : Vec Ideal S1x1x1024x64 .f32) (ix4 (0 : Fin 1) (0 : Fin 1) j e))
      = fun (j : Fin 1024) e => (V c main_arg1 : S1x8x49152x64.Idx → EReal) (ix4 (0 : Fin 1) (head2 (x 0)) (tok2B (x 0) j) e) :=
    funext fun j => funext fun e => kblk2_apply V c t j e _ rfl (by show (x 0).val / 8 = t.val / 2 / 8; rw [E0])
      (by show 32768 + (x 0).val % 8 * 2048 + 1024 + j.val = (32 + t.val / 2 % 8 * 2 + t.val % 2) * 1024 + j.val; rw [E0]; omega) rfl
  have hv2 : (fun (j : Fin 1024) e => (iblk2 (F := Ideal) V c 2 t : Vec Ideal S1x1x1024x64 .f32) (ix4 (0 : Fin 1) (0 : Fin 1) j e))
      = fun (j : Fin 1024) e => (V c main_arg2 : S1x8x49152x64.Idx → EReal) (ix4 (0 : Fin 1) (head2 (x 0)) (tok2B (x 0) j) e) :=
    funext fun j => funext fun e => vblk2_apply V c t j e _ rfl (by show (x 0).val / 8 = t.val / 2 / 8; rw [E0])
      (by show 32768 + (x 0).val % 8 * 2048 + 1024 + j.val = (32 + t.val / 2 % 8 * 2 + t.val % 2) * 1024 + j.val; rw [E0]; omega) rfl
  rw [hq, hk1, hv1, hk2, hv2, hd]
  exact (cast_eq _ _).symm

/-- An index of the array is in point `t`'s block iff each coordinate is in the block's range on its axis. -/
theorem mem_blk2 (t : Fin cfg2.N) (i : S64x2048x64.Idx) :
    i ∈ ((cfg2.win 3).blk t).view.set
      ↔ ∀ a : Fin 3, win2_3.index t a * S1x2048x64.size a ≤ (i a).val ∧ (i a).val < win2_3.index t a * S1x2048x64.size a + S1x2048x64.size a := by
  show i ∈ ((View.whole main_v6).slice (win2_3.rect t)).set ↔ _
  rw [View.set_slice_whole, Rect.mem_set_unit]
  exact Iff.rfl

/-- Every row of the output array is some writing point's block: row `bh` is the odd point `2·bh + 1`'s. -/
theorem cover2 (i : S64x2048x64.Idx) : ∃ t : Fin cfg2.N, (cfg2.win 3).flush t = true ∧ i ∈ ((cfg2.win 3).blk t).view.set := by
  have hi0 : (i 0).val < 64 := (i 0).isLt
  have hi1 : (i 1).val < 2048 := (i 1).isLt
  have hi2 : (i 2).val < 64 := (i 2).isLt
  obtain ⟨t, ht⟩ : ∃ t : Fin cfg2.N, t.val = 2 * (i 0).val + 1 :=
    ⟨⟨2 * (i 0).val + 1, by rw [show cfg2.N = 128 from N_2]; omega⟩, rfl⟩
  refine ⟨t, (flush2_3 t).mpr (by omega), ?_⟩
  rw [mem_blk2]
  obtain ⟨-, -, -, o0, o1, o2⟩ := idx_facts2 t
  intro a
  match a with
  | ⟨0, _⟩ => show win2_3.index t (0 : Fin 3) * 1 ≤ (i 0).val ∧ (i 0).val < win2_3.index t (0 : Fin 3) * 1 + 1; rw [o0, ht]; omega
  | ⟨1, _⟩ => show win2_3.index t (1 : Fin 3) * 2048 ≤ (i 1).val ∧ (i 1).val < win2_3.index t (1 : Fin 3) * 2048 + 2048; rw [o1]; omega
  | ⟨2, _⟩ => show win2_3.index t (2 : Fin 3) * 64 ≤ (i 2).val ∧ (i 2).val < win2_3.index t (2 : Fin 3) * 64 + 64; rw [o2]; omega

/-- The output array after the region: `arr2` of the argument arrays as the region finds them. -/
theorem final2 (c : Dev nD) :
    (Cert.KernelIdeal.Frm.dat2 (F := Ideal) V c).arrAt 3 cfg2.N = arr2 (V c main_arg0) (V c main_arg1) (V c main_arg2) :=
  (dat2 (F := Ideal) V c).arrAt_eq_of_cover 3 (arr2 (V c main_arg0) (V c main_arg1) (V c main_arg2))
    (fun t hf => flushed2_eq V c t hf) (cover2)

end Region

end Cert.KernelIdeal.KerVal

end
-- ==== Proof.KerTail.lean ====
/-
  The host lines after the three regions, read at an index: each region's array is regrouped by head
  (`[256, 512, 64]`, `[128, 1024, 64]`, `[64, 2048, 64] → [8, 16384, 64]`, row-major, so head `h`'s rows follow one
  another along the token axis), given a leading unit axis, and the three are joined along the token axis into the
  packed result `[1, 8, 49152, 64]`. A token of the first third lies in a row of 512, of the second in a row of 1024,
  of the last in a row of 2048; in each case the joined array holds the kernel's arrangement of that token's row.
-/
import proofs.«143665_j77000173683359_2_alg».proof.Proof.Gen.KernelIdeal
import proofs.«143665_j77000173683359_2_alg».proof.Proof.KerArr
import Idealize.ShloMosaic.Lib.ValueIdx
import Idealize.ShloMosaic.Lib.Pipeline.Value

noncomputable section

namespace Cert.KernelIdeal.KerVal

open Idealize.ShloMosaic Idealize.ShloMosaic.ValueIdx Cert.KernelIdeal Cert.KernelIdeal.Gen Cert.Attn

/-! ## The join along the token axis, third by third -/

theorem piece0 (x0 x1 x2 : S1x8x16384x64.Idx → EReal) (u : Fin 1) (h : Fin 8) (n : Fin 49152) (m : Fin 16384) (d : Fin 64)
    (hm : n.val = 0 + m.val) :
    concatenate S1x8x49152x64 2 [⟨S1x8x16384x64, x0⟩, ⟨S1x8x16384x64, x1⟩, ⟨S1x8x16384x64, x2⟩]
        concatenates_S1x8x16384x64_S1x8x16384x64_S1x8x16384x64_S1x8x49152x64_d2 (ix4 u h n d)
      = x0 (ix4 u h m d) := by
  refine concatenate_apply_piece (2 : Fin S1x8x49152x64.rank) _ _ (ix4 u h n d) 0 (by show (0 : ℕ) < 3; omega) S1x8x16384x64 x0 rfl rfl 0 rfl
    (ix4 u h m d) (fun b hb => ?_) ?_
  · match b with
    | ⟨0, _⟩ => rfl
    | ⟨1, _⟩ => rfl
    | ⟨2, _⟩ => exact absurd rfl hb
    | ⟨3, _⟩ => rfl
  · show 0 + m.val = n.val
    omega

theorem piece1 (x0 x1 x2 : S1x8x16384x64.Idx → EReal) (u : Fin 1) (h : Fin 8) (n : Fin 49152) (m : Fin 16384) (d : Fin 64)
    (hm : n.val = 16384 + m.val) :
    concatenate S1x8x49152x64 2 [⟨S1x8x16384x64, x0⟩, ⟨S1x8x16384x64, x1⟩, ⟨S1x8x16384x64, x2⟩]
        concatenates_S1x8x16384x64_S1x8x16384x64_S1x8x16384x64_S1x8x49152x64_d2 (ix4 u h n d)
      = x1 (ix4 u h m d) := by
  refine concatenate_apply_piece (2 : Fin S1x8x49152x64.rank) _ _ (ix4 u h n d) 1 (by show (1 : ℕ) < 3; omega) S1x8x16384x64 x1 rfl rfl 16384 rfl
    (ix4 u h m d) (fun b hb => ?_) ?_
  · match b with
    | ⟨0, _⟩ => rfl
    | ⟨1, _⟩ => rfl
    | ⟨2, _⟩ => exact absurd rfl hb
    | ⟨3, _⟩ => rfl
  · show 16384 + m.val = n.val
    omega

theorem piece2 (x0 x1 x2 : S1x8x16384x64.Idx → EReal) (u : Fin 1) (h : Fin 8) (n : Fin 49152) (m : Fin 16384) (d : Fin 64)
    (hm : n.val = 32768 + m.val) :
    concatenate S1x8x49152x64 2 [⟨S1x8x16384x64, x0⟩, ⟨S1x8x16384x64, x1⟩, ⟨S1x8x16384x64, x2⟩]
        concatenates_S1x8x16384x64_S1x8x16384x64_S1x8x16384x64_S1x8x49152x64_d2 (ix4 u h n d)
      = x2 (ix4 u h m d) := by
  refine concatenate_apply_piece (2 : Fin S1x8x49152x64.rank) _ _ (ix4 u h n d) 2 (by show (2 : ℕ) < 3; omega) S1x8x16384x64 x2 rfl rfl 32768 rfl
    (ix4 u h m d) (fun b hb => ?_) ?_
  · match b with
    | ⟨0, _⟩ => rfl
    | ⟨1, _⟩ => rfl
    | ⟨2, _⟩ => exact absurd rfl hb
    | ⟨3, _⟩ => rfl
  · show 32768 + m.val = n.val
    omega

/-! ## Each region's array regrouped by head, and the kernel's arrangement on its third -/

/-- Region 0's array regrouped by head: `[256, 512, 64] → [8, 16384, 64]`, then a leading unit axis; at `(u, h, m, d)` it
    is the array at row `h · 32 + m / 512`, token `m % 512`. -/
theorem regroup0 (a : S256x512x64.Idx → EReal) (u : Fin 1) (h : Fin 8) (m : Fin 16384) (d : Fin 64)
    (hb : h.val * 32 + m.val / 512 < 256) (hr : m.val % 512 < 512) :
    broadcastInDim S1x8x16384x64 ![1, 2, 3] bcast_S8x16384x64_S1x8x16384x64_1_2_3
        (shapeCast S8x16384x64 a shapeCasts_S256x512x64_S8x16384x64) (ix4 u h m d)
      = a (ix3 (⟨h.val * 32 + m.val / 512, hb⟩ : Fin 256) (⟨m.val % 512, hr⟩ : Fin 512) d) := by
  refine (broadcastInDim_apply _ bcast_S8x16384x64_S1x8x16384x64_1_2_3 _ (ix4 u h m d) (ix3 h m d) fun ax => ?_).trans ?_
  · match ax with
    | ⟨0, _⟩ => rfl
    | ⟨1, _⟩ => rfl
    | ⟨2, _⟩ => rfl
  · refine shapeCast_apply a shapeCasts_S256x512x64_S8x16384x64 _ _ ?_
    rw [Shape.rowMajor_val_three, Shape.rowMajor_val_three]
    show ((h.val * 32 + m.val / 512) * 512 + m.val % 512) * 64 + d.val = (h.val * 16384 + m.val) * 64 + d.val
    omega

/-- At a token of the first third of the packed axis the kernel's arrangement is region 0's array at the token's row. -/
theorem third0 (Q K W : SQ.Idx → EReal) (h : Fin 8) (n : Fin 49152) (m : Fin 16384) (d : Fin 64)
    (hm : n.val = 0 + m.val) (hb : h.val * 32 + m.val / 512 < 256) (hr : m.val % 512 < 512) :
    arr0 Q K W (ix3 (⟨h.val * 32 + m.val / 512, hb⟩ : Fin 256) (⟨m.val % 512, hr⟩ : Fin 512) d)
      = kerOut (unpack Q) (unpack K) (unpack W) h n d := by
  have hm' := m.isLt
  unfold kerOut attnOut
  rw [if_pos (show n.val < 16384 by omega)]
  unfold arr0
  show oneTile (fun e => Q (ix4 (0 : Fin 1) (head0 ⟨h.val * 32 + m.val / 512, hb⟩) (tok0 ⟨h.val * 32 + m.val / 512, hb⟩ ⟨m.val % 512, hr⟩) e))
      (fun (j : Fin 512) e => K (ix4 (0 : Fin 1) (head0 ⟨h.val * 32 + m.val / 512, hb⟩) (tok0 ⟨h.val * 32 + m.val / 512, hb⟩ j) e))
      (fun (j : Fin 512) e => W (ix4 (0 : Fin 1) (head0 ⟨h.val * 32 + m.val / 512, hb⟩) (tok0 ⟨h.val * 32 + m.val / 512, hb⟩ j) e)) d
        = oneTile (unpack Q h n) (fun j => unpack K h (tok 512 n j)) (fun j => unpack W h (tok 512 n j)) d
  have e1 : head0 ⟨h.val * 32 + m.val / 512, hb⟩ = h := Fin.ext (by show (h.val * 32 + m.val / 512) / 32 = h.val; omega)
  have e2 : tok0 ⟨h.val * 32 + m.val / 512, hb⟩ ⟨m.val % 512, hr⟩ = n :=
    Fin.ext (by show (h.val * 32 + m.val / 512) % 32 * 512 + m.val % 512 = n.val; omega)
  have e3 : ∀ j : Fin 512, tok0 ⟨h.val * 32 + m.val / 512, hb⟩ j = tok 512 n j := fun j =>
    Fin.ext (by show (h.val * 32 + m.val / 512) % 32 * 512 + j.val = (n.val / 512 * 512 + j.val) % 49152; have := j.isLt; omega)
  simp only [e1, e2, e3]
  rfl

/-- Region 1's array regrouped by head: `[128, 1024, 64] → [8, 16384, 64]`, then a leading unit axis; at `(u, h, m, d)` it
    is the array at row `h · 16 + m / 1024`, token `m % 1024`. -/
theorem regroup1 (a : S128x1024x64.Idx → EReal) (u : Fin 1) (h : Fin 8) (m : Fin 16384) (d : Fin 64)
    (hb : h.val * 16 + m.val / 1024 < 128) (hr : m.val % 1024 < 1024) :
    broadcastInDim S1x8x16384x64 ![1, 2, 3] bcast_S8x16384x64_S1x8x16384x64_1_2_3
        (shapeCast S8x16384x64 a shapeCasts_S128x1024x64_S8x16384x64) (ix4 u h m d)
      = a (ix3 (⟨h.val * 16 + m.val / 1024, hb⟩ : Fin 128) (⟨m.val % 1024, hr⟩ : Fin 1024) d) := by
  refine (broadcastInDim_apply _ bcast_S8x16384x64_S1x8x16384x64_1_2_3 _ (ix4 u h m d) (ix3 h m d) fun ax => ?_).trans ?_
  · match ax with
    | ⟨0, _⟩ => rfl
    | ⟨1, _⟩ => rfl
    | ⟨2, _⟩ => rfl
  · refine shapeCast_apply a shapeCasts_S128x1024x64_S8x16384x64 _ _ ?_
    rw [Shape.rowMajor_val_three, Shape.rowMajor_val_three]
    show ((h.val * 16 + m.val / 1024) * 1024 + m.val % 1024) * 64 + d.val = (h.val * 16384 + m.val) * 64 + d.val
    omega

/-- At a token of the second third of the packed axis the kernel's arrangement is region 1's array at the token's row. -/
theorem third1 (Q K W : SQ.Idx → EReal) (h : Fin 8) (n : Fin 49152) (m : Fin 16384) (d : Fin 64)
    (hm : n.val = 16384 + m.val) (hb : h.val * 16 + m.val / 1024 < 128) (hr : m.val % 1024 < 1024) :
    arr1 Q K W (ix3 (⟨h.val * 16 + m.val / 1024, hb⟩ : Fin 128) (⟨m.val % 1024, hr⟩ : Fin 1024) d)
      = kerOut (unpack Q) (unpack K) (unpack W) h n d := by
  have hm' := m.isLt
  unfold kerOut attnOut
  rw [if_neg (show ¬n.val < 16384 by omega), if_pos (show n.val < 32768 by omega)]
  unfold arr1
  show oneTile (fun e => Q (ix4 (0 : Fin 1) (head1 ⟨h.val * 16 + m.val / 1024, hb⟩) (tok1 ⟨h.val * 16 + m.val / 1024, hb⟩ ⟨m.val % 1024, hr⟩) e))
      (fun (j : Fin 1024) e => K (ix4 (0 : Fin 1) (head1 ⟨h.val * 16 + m.val / 1024, hb⟩) (tok1 ⟨h.val * 16 + m.val / 1024, hb⟩ j) e))
      (fun (j : Fin 1024) e => W (ix4 (0 : Fin 1) (head1 ⟨h.val * 16 + m.val / 1024, hb⟩) (tok1 ⟨h.val * 16 + m.val / 1024, hb⟩ j) e)) d
        = oneTile (unpack Q h n) (fun j => unpack K h (tok 1024 n j)) (fun j => unpack W h (tok 1024 n j)) d
  have e1 : head1 ⟨h.val * 16 + m.val / 1024, hb⟩ = h := Fin.ext (by show (h.val * 16 + m.val / 1024) / 16 = h.val; omega)
  have e2 : tok1 ⟨h.val * 16 + m.val / 1024, hb⟩ ⟨m.val % 1024, hr⟩ = n :=
    Fin.ext (by show 16384 + (h.val * 16 + m.val / 1024) % 16 * 1024 + m.val % 1024 = n.val; omega)
  have e3 : ∀ j : Fin 1024, tok1 ⟨h.val * 16 + m.val / 1024, hb⟩ j = tok 1024 n j := fun j =>
    Fin.ext (by show 16384 + (h.val * 16 + m.val / 1024) % 16 * 1024 + j.val = (n.val / 1024 * 1024 + j.val) % 49152; have := j.isLt; omega)
  simp only [e1, e2, e3]
  rfl

/-- Region 2's array regrouped by head: `[64, 2048, 64] → [8, 16384, 64]`, then a leading unit axis; at `(u, h, m, d)` it
    is the array at row `h · 8 + m / 2048`, token `m % 2048`. -/
theorem regroup2 (a : S64x2048x64.Idx → EReal) (u : Fin 1) (h : Fin 8) (m : Fin 16384) (d : Fin 64)
    (hb : h.val * 8 + m.val / 2048 < 64) (hr : m.val % 2048 < 2048) :
    broadcastInDim S1x8x16384x64 ![1, 2, 3] bcast_S8x16384x64_S1x8x16384x64_1_2_3
        (shapeCast S8x16384x64 a shapeCasts_S64x2048x64_S8x16384x64) (ix4 u h m d)
      = a (ix3 (⟨h.val * 8 + m.val / 2048, hb⟩ : Fin 64) (⟨m.val % 2048, hr⟩ : Fin 2048) d) := by
  refine (broadcastInDim_apply _ bcast_S8x16384x64_S1x8x16384x64_1_2_3 _ (ix4 u h m d) (ix3 h m d) fun ax => ?_).trans ?_
  · match ax with
    | ⟨0, _⟩ => rfl
    | ⟨1, _⟩ => rfl
    | ⟨2, _⟩ => rfl
  · refine shapeCast_apply a shapeCasts_S64x2048x64_S8x16384x64 _ _ ?_
    rw [Shape.rowMajor_val_three, Shape.rowMajor_val_three]
    show ((h.val * 8 + m.val / 2048) * 2048 + m.val % 2048) * 64 + d.val = (h.val * 16384 + m.val) * 64 + d.val
    omega

/-- At a token of the third third of the packed axis the kernel's arrangement is region 2's array at the token's row. -/
theorem third2 (Q K W : SQ.Idx → EReal) (h : Fin 8) (n : Fin 49152) (m : Fin 16384) (d : Fin 64)
    (hm : n.val = 32768 + m.val) (hb : h.val * 8 + m.val / 2048 < 64) (hr : m.val % 2048 < 2048) :
    arr2 Q K W (ix3 (⟨h.val * 8 + m.val / 2048, hb⟩ : Fin 64) (⟨m.val % 2048, hr⟩ : Fin 2048) d)
      = kerOut (unpack Q) (unpack K) (unpack W) h n d := by
  have hm' := m.isLt
  unfold kerOut attnOut
  rw [if_neg (show ¬n.val < 16384 by omega), if_neg (show ¬n.val < 32768 by omega)]
  unfold arr2
  show twoTiles (fun e => Q (ix4 (0 : Fin 1) (head2 ⟨h.val * 8 + m.val / 2048, hb⟩) (tok2 ⟨h.val * 8 + m.val / 2048, hb⟩ ⟨m.val % 2048, hr⟩) e))
      (fun (j : Fin 1024) e => K (ix4 (0 : Fin 1) (head2 ⟨h.val * 8 + m.val / 2048, hb⟩) (tok2A ⟨h.val * 8 + m.val / 2048, hb⟩ j) e))
      (fun (j : Fin 1024) e => W (ix4 (0 : Fin 1) (head2 ⟨h.val * 8 + m.val / 2048, hb⟩) (tok2A ⟨h.val * 8 + m.val / 2048, hb⟩ j) e))
      (fun (j : Fin 1024) e => K (ix4 (0 : Fin 1) (head2 ⟨h.val * 8 + m.val / 2048, hb⟩) (tok2B ⟨h.val * 8 + m.val / 2048, hb⟩ j) e))
      (fun (j : Fin 1024) e => W (ix4 (0 : Fin 1) (head2 ⟨h.val * 8 + m.val / 2048, hb⟩) (tok2B ⟨h.val * 8 + m.val / 2048, hb⟩ j) e)) d
        = twoTiles (unpack Q h n) (lo fun j => unpack K h (tok 2048 n j)) (lo fun j => unpack W h (tok 2048 n j))
            (hi fun j => unpack K h (tok 2048 n j)) (hi fun j => unpack W h (tok 2048 n j)) d
  have e1 : head2 ⟨h.val * 8 + m.val / 2048, hb⟩ = h := Fin.ext (by show (h.val * 8 + m.val / 2048) / 8 = h.val; omega)
  have e2 : tok2 ⟨h.val * 8 + m.val / 2048, hb⟩ ⟨m.val % 2048, hr⟩ = n :=
    Fin.ext (by show 32768 + (h.val * 8 + m.val / 2048) % 8 * 2048 + m.val % 2048 = n.val; omega)
  have e3 : ∀ j : Fin 1024, tok2A ⟨h.val * 8 + m.val / 2048, hb⟩ j = tok 2048 n ⟨j.val, by omega⟩ := fun j =>
    Fin.ext (by show 32768 + (h.val * 8 + m.val / 2048) % 8 * 2048 + j.val = (n.val / 2048 * 2048 + j.val) % 49152; have := j.isLt; omega)
  have e4 : ∀ j : Fin 1024, tok2B ⟨h.val * 8 + m.val / 2048, hb⟩ j = tok 2048 n ⟨1024 + j.val, by omega⟩ := fun j =>
    Fin.ext (by show 32768 + (h.val * 8 + m.val / 2048) % 8 * 2048 + 1024 + j.val = (n.val / 2048 * 2048 + (1024 + j.val)) % 49152; have := j.isLt; omega)
  simp only [e1, e2, e3, e4]
  rfl

/-! ## The packed result -/

theorem tail_eq (Q K V : Cert.Attn.SQ.Idx → EReal) :
    concatenate S1x8x49152x64 2 [⟨S1x8x16384x64, broadcastInDim S1x8x16384x64 ![1, 2, 3] bcast_S8x16384x64_S1x8x16384x64_1_2_3 (shapeCast S8x16384x64 (arr0 Q K V) shapeCasts_S256x512x64_S8x16384x64)⟩, ⟨S1x8x16384x64, broadcastInDim S1x8x16384x64 ![1, 2, 3] bcast_S8x16384x64_S1x8x16384x64_1_2_3 (shapeCast S8x16384x64 (arr1 Q K V) shapeCasts_S128x1024x64_S8x16384x64)⟩, ⟨S1x8x16384x64, broadcastInDim S1x8x16384x64 ![1, 2, 3] bcast_S8x16384x64_S1x8x16384x64_1_2_3 (shapeCast S8x16384x64 (arr2 Q K V) shapeCasts_S64x2048x64_S8x16384x64)⟩] concatenates_S1x8x16384x64_S1x8x16384x64_S1x8x16384x64_S1x8x49152x64_d2
      = Cert.Attn.pack (Cert.Attn.kerOut (Cert.Attn.unpack Q) (Cert.Attn.unpack K) (Cert.Attn.unpack V)) := by
  funext i
  obtain ⟨u, h, n, d, rfl⟩ : ∃ (u : Fin 1) (h : Fin 8) (n : Fin 49152) (d : Fin 64), i = ix4 u h n d := ⟨i 0, i 1, i 2, i 3, eq_ix4 i⟩
  show _ = kerOut (unpack Q) (unpack K) (unpack V) h n d
  have hh := h.isLt
  have hn := n.isLt
  by_cases c0 : n.val < 16384
  · have hm : n.val = 0 + (⟨n.val, c0⟩ : Fin 16384).val := (Nat.zero_add _).symm
    rw [piece0 _ _ _ u h n ⟨n.val, c0⟩ d hm,
      regroup0 _ u h ⟨n.val, c0⟩ d (by show h.val * 32 + n.val / 512 < 256; omega) (by show n.val % 512 < 512; omega)]
    exact third0 Q K V h n ⟨n.val, c0⟩ d hm _ _
  · by_cases c1 : n.val < 32768
    · have hm : n.val = 16384 + (⟨n.val - 16384, by omega⟩ : Fin 16384).val := by show n.val = 16384 + (n.val - 16384); omega
      rw [piece1 _ _ _ u h n ⟨n.val - 16384, by omega⟩ d hm,
        regroup1 _ u h ⟨n.val - 16384, by omega⟩ d (by show h.val * 16 + (n.val - 16384) / 1024 < 128; omega)
          (by show (n.val - 16384) % 1024 < 1024; omega)]
      exact third1 Q K V h n ⟨n.val - 16384, by omega⟩ d hm _ _
    · have hm : n.val = 32768 + (⟨n.val - 32768, by omega⟩ : Fin 16384).val := by show n.val = 32768 + (n.val - 32768); omega
      rw [piece2 _ _ _ u h n ⟨n.val - 32768, by omega⟩ d hm,
        regroup2 _ u h ⟨n.val - 32768, by omega⟩ d (by show h.val * 8 + (n.val - 32768) / 2048 < 64; omega)
          (by show (n.val - 32768) % 2048 < 2048; omega)]
      exact third2 Q K V h n ⟨n.val - 32768, by omega⟩ d hm _ _

end Cert.KernelIdeal.KerVal

end
-- ==== Proof.KerFinal.lean ====
/-
  The idealized kernel's result: every weakly fair execution terminates with the result buffer at the streaming
  attention of the packed argument arrays (`Cert.Attn.kerOut`) and the arguments unchanged. Each region's output
  array is the streaming arrangement on its chunk's rows; the host lines re-lay the three chunks along the token axis.
-/
import proofs.«143665_j77000173683359_2_alg».proof.Proof.Gen.KernelIdeal.Launch
import proofs.«143665_j77000173683359_2_alg».proof.Proof.Gen.KernelIdeal.Skeleton
import proofs.«143665_j77000173683359_2_alg».proof.Proof.Gen.KernelIdeal.Points
import proofs.«143665_j77000173683359_2_alg».proof.Proof.Args
import proofs.«143665_j77000173683359_2_alg».proof.Proof.KerVal0
import proofs.«143665_j77000173683359_2_alg».proof.Proof.KerVal1
import proofs.«143665_j77000173683359_2_alg».proof.Proof.KerVal2
import proofs.«143665_j77000173683359_2_alg».proof.Proof.KerTail
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Attn Cert.KernelIdeal.KerVal

variable (m : (ℓ : Loc nD τ sig) → Buf (Elt Ideal) ℓ) (ρ : Dev nD → PrngReg)

/-- The result buffer's final contents are the streaming attention of the launch contents of the three arguments. -/
theorem W6_v9_eq (c : Dev nD) : W6 m ρ c (Proc.devRef .tc main_v9)
    = pack (kerOut (unpack (m ((c : Thread nD τ).loc main_arg0))) (unpack (m ((c : Thread nD τ).loc main_arg1))) (unpack (m ((c : Thread nD τ).loc main_arg2)))) := by
  rw [W6_v9, W5_v2, W2_v2, W5_v5, W4_v5, final0 (U0 m ρ) c, final1 (U2 m ρ) c, final2 (U4 m ρ) c]
  rw [show U2 m ρ c main_arg0 = m ((c : Thread nD τ).loc main_arg0) from W2_arg0 m ρ c,
    show U2 m ρ c main_arg1 = m ((c : Thread nD τ).loc main_arg1) from W2_arg1 m ρ c,
    show U2 m ρ c main_arg2 = m ((c : Thread nD τ).loc main_arg2) from W2_arg2 m ρ c,
    show U4 m ρ c main_arg0 = m ((c : Thread nD τ).loc main_arg0) from W4_arg0 m ρ c,
    show U4 m ρ c main_arg1 = m ((c : Thread nD τ).loc main_arg1) from W4_arg1 m ρ c,
    show U4 m ρ c main_arg2 = m ((c : Thread nD τ).loc main_arg2) from W4_arg2 m ρ c]
  exact tail_eq _ _ _

/-- THE KERNEL'S RUN at the ideal instance. -/
theorem kernel_run : θ_run defs (onTc (τ := τ) (main (F := Ideal))) ⟨m, fun _ => 0, ρ⟩ (fun r => ∀ c : Dev nD,
      r.2.mem ((c.tc : Thread nD τ).loc main_v9)
        = pack (kerOut (unpack (m ((c.tc : Thread nD τ).loc main_arg0))) (unpack (m ((c.tc : Thread nD τ).loc main_arg1))) (unpack (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v9 (by decide))).trans (W6_v9_eq m ρ c),
     (h c _ (mem_uc main_arg0 (by decide))).trans (W6_arg0 m ρ c),
     (h c _ (mem_uc main_arg1 (by decide))).trans (W6_arg1 m ρ c),
     (h c _ (mem_uc main_arg2 (by decide))).trans (W6_arg2 m ρ c)⟩) (run_all m ρ)

end Cert.KernelIdeal.Frm

end
-- ==== Proof.RefConcat.lean ====
/-
  A join of three equal pieces along the token axis, read entry by entry.

  The reference computes the packed result in three pieces of 16384 tokens and joins them along the token axis. An index
  of the joined array has its token coordinate in exactly one piece's span; the joined array reads that piece there, at
  the coordinate less the span's start. So when each piece, read at head h, token n and feature d, is one function G at
  head h, token (start of the piece's span) + n and feature d, the joined array is G packed.
-/
import proofs.«143665_j77000173683359_2_alg».proof.Proof.Gen.ReferenceIdeal
import proofs.«143665_j77000173683359_2_alg».proof.Proof.Spec
import Idealize.ShloMosaic.Lib.Pipeline.Value
import Idealize.ShloMosaic.Lib.ValueIdx

noncomputable section

namespace Cert.RefSide

open Cert.ReferenceIdeal Cert.ReferenceIdeal.Gen Idealize.ShloMosaic Idealize.ShloMosaic.ValueIdx Cert.Attn

/-- Three pieces of 16384 tokens each, joined along the token axis: when piece c, read at head h, token n and feature d,
    is G at head h, token 16384 · c + n and feature d, the joined array is G packed. An index's token coordinate lies in
    exactly one piece's span, and the joined array reads that piece there at the coordinate less the span's start. -/
theorem concat3_eq_pack (p0 p1 p2 : S1x8x16384x64.Idx → EReal) (G : Fin 8 → Fin 49152 → Fin 64 → EReal)
    (h0 : ∀ (h : Fin 8) (n : Fin 16384) (d : Fin 64) (n' : Fin 49152), n'.val = 0 + n.val →
      p0 (ix4 (0 : Fin 1) h n d) = G h n' d)
    (h1 : ∀ (h : Fin 8) (n : Fin 16384) (d : Fin 64) (n' : Fin 49152), n'.val = 16384 + n.val →
      p1 (ix4 (0 : Fin 1) h n d) = G h n' d)
    (h2 : ∀ (h : Fin 8) (n : Fin 16384) (d : Fin 64) (n' : Fin 49152), n'.val = 32768 + n.val →
      p2 (ix4 (0 : Fin 1) h n d) = G h n' d) :
    concatenate S1x8x49152x64 2 [⟨S1x8x16384x64, p0⟩, ⟨S1x8x16384x64, p1⟩, ⟨S1x8x16384x64, p2⟩]
      concatenates_S1x8x16384x64_S1x8x16384x64_S1x8x16384x64_S1x8x49152x64_d2 = pack G := by
  funext i
  obtain ⟨i0, h, n, d, rfl⟩ : ∃ (i0 : Fin 1) (h : Fin 8) (n : Fin 49152) (d : Fin 64), i = ix4 i0 h n d :=
    ⟨i 0, i 1, i 2, i 3, eq_ix4 i⟩
  obtain rfl : i0 = 0 := Subsingleton.elim _ _
  have hn := n.isLt
  show _ = G h n d
  by_cases hn0 : n.val < 16384
  · refine (concatenate_apply_piece (2 : Fin 4) _ _ (ix4 (0 : Fin 1) h n d) 0 (by show 0 < 3; decide) S1x8x16384x64 p0 rfl rfl
      0 rfl (ix4 (0 : Fin 1) h (⟨n.val - 0, by omega⟩ : Fin 16384) d) ?_ ?_).trans (h0 h _ d n ?_)
    · intro b hb
      match b with
      | ⟨0, _⟩ => rfl
      | ⟨1, _⟩ => rfl
      | ⟨2, _⟩ => exact absurd rfl hb
      | ⟨3, _⟩ => rfl
    · show 0 + (n.val - 0) = n.val; omega
    · show n.val = 0 + (n.val - 0); omega
  · by_cases hn1 : n.val < 32768
    · refine (concatenate_apply_piece (2 : Fin 4) _ _ (ix4 (0 : Fin 1) h n d) 1 (by show 1 < 3; decide) S1x8x16384x64 p1 rfl rfl
        16384 rfl (ix4 (0 : Fin 1) h (⟨n.val - 16384, by omega⟩ : Fin 16384) d) ?_ ?_).trans (h1 h _ d n ?_)
      · intro b hb
        match b with
        | ⟨0, _⟩ => rfl
        | ⟨1, _⟩ => rfl
        | ⟨2, _⟩ => exact absurd rfl hb
        | ⟨3, _⟩ => rfl
      · show 16384 + (n.val - 16384) = n.val; omega
      · show n.val = 16384 + (n.val - 16384); omega
    · refine (concatenate_apply_piece (2 : Fin 4) _ _ (ix4 (0 : Fin 1) h n d) 2 (by show 2 < 3; decide) S1x8x16384x64 p2 rfl rfl
        32768 rfl (ix4 (0 : Fin 1) h (⟨n.val - 32768, by omega⟩ : Fin 16384) d) ?_ ?_).trans (h2 h _ d n ?_)
      · intro b hb
        match b with
        | ⟨0, _⟩ => rfl
        | ⟨1, _⟩ => rfl
        | ⟨2, _⟩ => exact absurd rfl hb
        | ⟨3, _⟩ => rfl
      · show 32768 + (n.val - 32768) = n.val; omega
      · show n.val = 32768 + (n.val - 32768); omega

end Cert.RefSide

end
-- ==== Proof.RefCommon.lean ====
/-
  Words and reductions of the reference program as extended reals: the f32 word 0xFF800000 is -∞, the bottom element,
  so the host's max-reduce from it over one axis is, at a result index, the fold of maxima from ⊥ over that axis's
  coordinates, and a maximum with the -∞ broadcast is the other operand.
-/
import proofs.«143665_j77000173683359_2_alg».proof.Proof.Spec
import Idealize.ShloMosaic.Lib.ValueIdx
import Idealize.ShloMosaic.Lib.Pipeline.Value
import Idealize.ShloMosaic.PureOps.Ideal.Laws

noncomputable section

namespace Cert.RefSide

open Idealize.ShloMosaic

/-- The f32 word of -∞ is the bottom extended real. -/
theorem ofBits_negInf : Ideal.ofBits .f32 0xFF800000#32 = (⊥ : EReal) := by
  simp [Ideal.ofBits, Ideal.ieee]

/-- The host's reduce with a maximum body from the -∞ word over ONE axis, at a result index: the fold of maxima from ⊥
    over that axis's coordinates. -/
theorem reduce_max_negInf {s t : Shape} {a : Fin s.rank} (x : FVec Ideal s .f32) (h' : s.ReducesTo [a] t)
    (h : s.Reduces [a] t) (hu : 0 < (⟨0, ![]⟩ : Shape).numel) (j : t.Idx) :
    Host.reduce FloatOps.maximumf x (constant (F := Ideal) ⟨0, ![]⟩ .f32 0xFF800000#32) h' hu j
      = Finset.univ.fold max (⊥ : EReal) (fun k : Fin (s.size a) => x (h.lift j k)) := by
  rw [Host.reduce_eq_fold_single FloatOps.maximumf x _ h' h hu]
  show Finset.fold max (Ideal.ofBits .f32 0xFF800000#32) (fun k : Fin (s.size a) => x (h.lift j k)) Finset.univ = _
  rw [ofBits_negInf]

/-- A maximum with the -∞ word is the other operand. -/
theorem max_negInf (y : EReal) : FloatOps.maximumf (F := Ideal) (φ := .f32) (FloatOps.ofBits .f32 0xFF800000#32) y = y := by
  show max (Ideal.ofBits .f32 0xFF800000#32) y = y
  rw [ofBits_negInf]
  exact max_eq_right bot_le

end Cert.RefSide

end
-- ==== Proof.RefC0.lean ====
/-
  The reference program's chunk 0: the tokens 0 … 16383 of the packed token axis, cut into 32 rows of 512.
  The slice, the two reshapes and the transpose only re-index: entry (b, h, s, e) of the chunk's query, key and value
  arrays is the packed array at head h, token 0 + 512 b + s, feature e. On those arrays the chunk computes, entry
  by entry, exactly the softmax-then-weighted-sum arrangement of `Cert.Attn.refRow`; the transpose and reshape back put
  row b's token s at token 512 b + s of the chunk's result.
-/
import proofs.«143665_j77000173683359_2_alg».proof.Proof.RefReadP
import proofs.«143665_j77000173683359_2_alg».proof.Proof.RefCommon

noncomputable section

namespace Cert.RefSide

open Cert.ReferenceIdeal Cert.ReferenceIdeal.Gen Cert.ReferenceIdeal.ReadP Idealize.ShloMosaic Idealize.ShloMosaic.ValueIdx Cert.Attn

/-- Token `s` of row `b` of this chunk, on the packed token axis. -/
def tk0 (b : Fin 32) (s : Fin 512) : Fin 49152 :=
  ⟨0 + b.val * 512 + s.val, by have := b.isLt; have := s.isLt; omega⟩

/-- The chunk's query array, entry by entry. -/
theorem q0 (x0 : (⟨S1x8x49152x64, .f32⟩ : BufTy).Contents (Elt Ideal)) (b : Fin 32) (h : Fin 8) (s : Fin 512) (e : Fin 64) :
    val_main_v3 (F := Ideal) x0 (ix4 b h s e) = x0 (ix4 (0 : Fin 1) h (tk0 b s) e) := by
  have hb := b.isLt; have hh := h.isLt; have hs := s.isLt; have he := e.isLt
  have e3 : idx_main_v3 (ix4 b h s e) = ix4 h b s e := funext fun a => by
    match a with | ⟨0, _⟩ => rfl | ⟨1, _⟩ => rfl | ⟨2, _⟩ => rfl | ⟨3, _⟩ => rfl
  have e2 : idx_main_v2 (ix4 h b s e) = ix3 h (⟨b.val * 512 + s.val, by omega⟩ : Fin 16384) e := funext fun a => Fin.ext (by
    match a with
    | ⟨0, _⟩ => show (((h.val * 32 + b.val) * 512 + s.val) * 64 + e.val) / 1048576 = h.val; omega
    | ⟨1, _⟩ => show (((h.val * 32 + b.val) * 512 + s.val) * 64 + e.val) / 64 % 16384 = b.val * 512 + s.val; omega
    | ⟨2, _⟩ => show (((h.val * 32 + b.val) * 512 + s.val) * 64 + e.val) % 64 = e.val; omega)
  have e1 : idx_main_v1 (ix3 h (⟨b.val * 512 + s.val, by omega⟩ : Fin 16384) e) = ix4 (0 : Fin 1) h (⟨b.val * 512 + s.val, by omega⟩ : Fin 16384) e := funext fun a => Fin.ext (by
    match a with
    | ⟨0, _⟩ => rfl
    | ⟨1, _⟩ => show ((h.val * 16384 + (b.val * 512 + s.val)) * 64 + e.val) / 1048576 % 8 = h.val; omega
    | ⟨2, _⟩ => show ((h.val * 16384 + (b.val * 512 + s.val)) * 64 + e.val) / 64 % 16384 = b.val * 512 + s.val; omega
    | ⟨3, _⟩ => show ((h.val * 16384 + (b.val * 512 + s.val)) * 64 + e.val) % 64 = e.val; omega)
  have e0 : idx_main_v0 (ix4 (0 : Fin 1) h (⟨b.val * 512 + s.val, by omega⟩ : Fin 16384) e) = ix4 (0 : Fin 1) h (tk0 b s) e := funext fun a => Fin.ext (by
    match a with
    | ⟨0, _⟩ => rfl
    | ⟨1, _⟩ => rfl
    | ⟨2, _⟩ => show (b.val * 512 + s.val : ℕ) = 0 + b.val * 512 + s.val; omega
    | ⟨3, _⟩ => rfl)
  rw [val_main_v3_apply, e3, val_main_v2_apply, e2, val_main_v1_apply, e1, val_main_v0_apply, e0]

/-- The chunk's key array, entry by entry. -/
theorem k0 (x1 : (⟨S1x8x49152x64, .f32⟩ : BufTy).Contents (Elt Ideal)) (b : Fin 32) (h : Fin 8) (s : Fin 512) (e : Fin 64) :
    val_main_v7 (F := Ideal) x1 (ix4 b h s e) = x1 (ix4 (0 : Fin 1) h (tk0 b s) e) := by
  have hb := b.isLt; have hh := h.isLt; have hs := s.isLt; have he := e.isLt
  have e3 : idx_main_v7 (ix4 b h s e) = ix4 h b s e := funext fun a => by
    match a with | ⟨0, _⟩ => rfl | ⟨1, _⟩ => rfl | ⟨2, _⟩ => rfl | ⟨3, _⟩ => rfl
  have e2 : idx_main_v6 (ix4 h b s e) = ix3 h (⟨b.val * 512 + s.val, by omega⟩ : Fin 16384) e := funext fun a => Fin.ext (by
    match a with
    | ⟨0, _⟩ => show (((h.val * 32 + b.val) * 512 + s.val) * 64 + e.val) / 1048576 = h.val; omega
    | ⟨1, _⟩ => show (((h.val * 32 + b.val) * 512 + s.val) * 64 + e.val) / 64 % 16384 = b.val * 512 + s.val; omega
    | ⟨2, _⟩ => show (((h.val * 32 + b.val) * 512 + s.val) * 64 + e.val) % 64 = e.val; omega)
  have e1 : idx_main_v5 (ix3 h (⟨b.val * 512 + s.val, by omega⟩ : Fin 16384) e) = ix4 (0 : Fin 1) h (⟨b.val * 512 + s.val, by omega⟩ : Fin 16384) e := funext fun a => Fin.ext (by
    match a with
    | ⟨0, _⟩ => rfl
    | ⟨1, _⟩ => show ((h.val * 16384 + (b.val * 512 + s.val)) * 64 + e.val) / 1048576 % 8 = h.val; omega
    | ⟨2, _⟩ => show ((h.val * 16384 + (b.val * 512 + s.val)) * 64 + e.val) / 64 % 16384 = b.val * 512 + s.val; omega
    | ⟨3, _⟩ => show ((h.val * 16384 + (b.val * 512 + s.val)) * 64 + e.val) % 64 = e.val; omega)
  have e0 : idx_main_v4 (ix4 (0 : Fin 1) h (⟨b.val * 512 + s.val, by omega⟩ : Fin 16384) e) = ix4 (0 : Fin 1) h (tk0 b s) e := funext fun a => Fin.ext (by
    match a with
    | ⟨0, _⟩ => rfl
    | ⟨1, _⟩ => rfl
    | ⟨2, _⟩ => show (b.val * 512 + s.val : ℕ) = 0 + b.val * 512 + s.val; omega
    | ⟨3, _⟩ => rfl)
  rw [val_main_v7_apply, e3, val_main_v6_apply, e2, val_main_v5_apply, e1, val_main_v4_apply, e0]

/-- The chunk's value array, entry by entry. -/
theorem v0 (x2 : (⟨S1x8x49152x64, .f32⟩ : BufTy).Contents (Elt Ideal)) (b : Fin 32) (h : Fin 8) (s : Fin 512) (e : Fin 64) :
    val_main_v11 (F := Ideal) x2 (ix4 b h s e) = x2 (ix4 (0 : Fin 1) h (tk0 b s) e) := by
  have hb := b.isLt; have hh := h.isLt; have hs := s.isLt; have he := e.isLt
  have e3 : idx_main_v11 (ix4 b h s e) = ix4 h b s e := funext fun a => by
    match a with | ⟨0, _⟩ => rfl | ⟨1, _⟩ => rfl | ⟨2, _⟩ => rfl | ⟨3, _⟩ => rfl
  have e2 : idx_main_v10 (ix4 h b s e) = ix3 h (⟨b.val * 512 + s.val, by omega⟩ : Fin 16384) e := funext fun a => Fin.ext (by
    match a with
    | ⟨0, _⟩ => show (((h.val * 32 + b.val) * 512 + s.val) * 64 + e.val) / 1048576 = h.val; omega
    | ⟨1, _⟩ => show (((h.val * 32 + b.val) * 512 + s.val) * 64 + e.val) / 64 % 16384 = b.val * 512 + s.val; omega
    | ⟨2, _⟩ => show (((h.val * 32 + b.val) * 512 + s.val) * 64 + e.val) % 64 = e.val; omega)
  have e1 : idx_main_v9 (ix3 h (⟨b.val * 512 + s.val, by omega⟩ : Fin 16384) e) = ix4 (0 : Fin 1) h (⟨b.val * 512 + s.val, by omega⟩ : Fin 16384) e := funext fun a => Fin.ext (by
    match a with
    | ⟨0, _⟩ => rfl
    | ⟨1, _⟩ => show ((h.val * 16384 + (b.val * 512 + s.val)) * 64 + e.val) / 1048576 % 8 = h.val; omega
    | ⟨2, _⟩ => show ((h.val * 16384 + (b.val * 512 + s.val)) * 64 + e.val) / 64 % 16384 = b.val * 512 + s.val; omega
    | ⟨3, _⟩ => show ((h.val * 16384 + (b.val * 512 + s.val)) * 64 + e.val) % 64 = e.val; omega)
  have e0 : idx_main_v8 (ix4 (0 : Fin 1) h (⟨b.val * 512 + s.val, by omega⟩ : Fin 16384) e) = ix4 (0 : Fin 1) h (tk0 b s) e := funext fun a => Fin.ext (by
    match a with
    | ⟨0, _⟩ => rfl
    | ⟨1, _⟩ => rfl
    | ⟨2, _⟩ => show (b.val * 512 + s.val : ℕ) = 0 + b.val * 512 + s.val; omega
    | ⟨3, _⟩ => rfl)
  rw [val_main_v11_apply, e3, val_main_v10_apply, e2, val_main_v9_apply, e1, val_main_v8_apply, e0]

/-- The scaled query: the host multiplies by the broadcast scale word. -/
theorem qs0 (x0 : (⟨S1x8x49152x64, .f32⟩ : BufTy).Contents (Elt Ideal)) (b : Fin 32) (h : Fin 8) (s : Fin 512) (e : Fin 64) :
    val_main_v13 (F := Ideal) x0 (ix4 b h s e) = x0 (ix4 (0 : Fin 1) h (tk0 b s) e) * scaleW := by
  rw [val_main_v13_apply, q0, val_main_v12_apply, val_main_cst_apply]
  rfl

/-- The scores: the scaled query row against the key rows. -/
theorem sc0 (x0 x1 : (⟨S1x8x49152x64, .f32⟩ : BufTy).Contents (Elt Ideal)) (b : Fin 32) (h : Fin 8) (s j : Fin 512) :
    val_main_v14 (F := Ideal) x0 x1 (ix4 b h s j) = score (fun e => x0 (ix4 (0 : Fin 1) h (tk0 b s) e)) (fun j e => x1 (ix4 (0 : Fin 1) h (tk0 b j) e)) j := by
  rw [val_main_v14_apply]
  unfold score
  refine Finset.sum_congr rfl fun k _ => ?_
  have el : lidx_main_v14 (ix4 b h s j) k = ix4 b h s k := funext fun a => by
    match a with | ⟨0, _⟩ => rfl | ⟨1, _⟩ => rfl | ⟨2, _⟩ => rfl | ⟨3, _⟩ => rfl
  have er : ridx_main_v14 (ix4 b h s j) k = ix4 b h j k := funext fun a => by
    match a with | ⟨0, _⟩ => rfl | ⟨1, _⟩ => rfl | ⟨2, _⟩ => rfl | ⟨3, _⟩ => rfl
  rw [el, er, qs0, k0]

/-- The reduced axis's coordinate put back into a rank-3 index. -/
theorem lift0 (hR : S32x8x512x512.Reduces [3] S32x8x512) (b : Fin 32) (h : Fin 8) (s j : Fin 512) :
    hR.lift (ix3 b h s) j = ix4 b h s j := funext fun a => Fin.ext (by
  match a with | ⟨0, _⟩ => rfl | ⟨1, _⟩ => rfl | ⟨2, _⟩ => rfl | ⟨3, _⟩ => rfl)

/-- The row maximum: the host's max-reduce from -∞, then the maximum with the -∞ broadcast. -/
theorem mx0 (x0 x1 : (⟨S1x8x49152x64, .f32⟩ : BufTy).Contents (Elt Ideal)) (b : Fin 32) (h : Fin 8) (s : Fin 512) :
    val_main_v17 (F := Ideal) x0 x1 (ix3 b h s) = rowMax (score (fun e => x0 (ix4 (0 : Fin 1) h (tk0 b s) e)) (fun j e => x1 (ix4 (0 : Fin 1) h (tk0 b j) e))) := by
  have hR : S32x8x512x512.Reduces [3] S32x8x512 := by decide
  have h15 : val_main_v15 (F := Ideal) x0 x1 (ix3 b h s) = rowMax (score (fun e => x0 (ix4 (0 : Fin 1) h (tk0 b s) e)) (fun j e => x1 (ix4 (0 : Fin 1) h (tk0 b j) e))) := by
    show Host.reduce FloatOps.maximumf (val_main_v14 (F := Ideal) x0 x1) (constant (F := Ideal) ⟨0, ![]⟩ .f32 0xFF800000#32)
      reducesTo_S32x8x512x512_S32x8x512_d3 h_S_ (ix3 b h s) = _
    rw [reduce_max_negInf _ reducesTo_S32x8x512x512_S32x8x512_d3 hR h_S_]
    unfold rowMax
    refine Finset.fold_congr (fun j _ => ?_)
    exact (congrArg (val_main_v14 (F := Ideal) x0 x1) (lift0 hR b h s j)).trans (sc0 x0 x1 b h s j)
  rw [val_main_v17_apply, h15, val_main_v16_apply, val_main_cst_1_apply]
  exact max_negInf _

/-- The exponentials of the scores less the row maximum. -/
theorem ex0 (x0 x1 : (⟨S1x8x49152x64, .f32⟩ : BufTy).Contents (Elt Ideal)) (b : Fin 32) (h : Fin 8) (s j : Fin 512) :
    val_main_v21 (F := Ideal) x0 x1 (ix4 b h s j)
      = Ideal.exp (score (fun e => x0 (ix4 (0 : Fin 1) h (tk0 b s) e)) (fun j e => x1 (ix4 (0 : Fin 1) h (tk0 b j) e)) j - rowMax (score (fun e => x0 (ix4 (0 : Fin 1) h (tk0 b s) e)) (fun j e => x1 (ix4 (0 : Fin 1) h (tk0 b j) e)))) := by
  have e19 : idx_main_v19 (ix4 b h s j) = ix4 b h s (0 : Fin 1) := funext fun a => by
    match a with | ⟨0, _⟩ => rfl | ⟨1, _⟩ => rfl | ⟨2, _⟩ => rfl | ⟨3, _⟩ => rfl
  have e18 : idx_main_v18 (ix4 b h s (0 : Fin 1)) = ix3 b h s := funext fun a => by
    match a with | ⟨0, _⟩ => rfl | ⟨1, _⟩ => rfl | ⟨2, _⟩ => rfl
  rw [val_main_v21_apply, val_main_v20_apply, sc0, val_main_v19_apply, e19, val_main_v18_apply, e18, mx0]
  rfl

/-- The denominator: the host's add-reduce from the zero word. -/
theorem dn0 (x0 x1 : (⟨S1x8x49152x64, .f32⟩ : BufTy).Contents (Elt Ideal)) (b : Fin 32) (h : Fin 8) (s : Fin 512) :
    val_main_v22 (F := Ideal) x0 x1 (ix3 b h s)
      = ∑ j : Fin 512, Ideal.exp (score (fun e => x0 (ix4 (0 : Fin 1) h (tk0 b s) e)) (fun j e => x1 (ix4 (0 : Fin 1) h (tk0 b j) e)) j - rowMax (score (fun e => x0 (ix4 (0 : Fin 1) h (tk0 b s) e)) (fun j e => x1 (ix4 (0 : Fin 1) h (tk0 b j) e)))) := by
  rw [val_main_v22_apply, val_main_cst_2_apply]
  show Ideal.ofBits .f32 0x00000000#32 + _ = _
  rw [Ideal.ofBits_zero_f32, zero_add]
  refine Finset.sum_congr rfl fun j _ => ?_
  have e22 : idx_main_v22 (ix3 b h s) j = ix4 b h s j := funext fun a => by
    match a with | ⟨0, _⟩ => rfl | ⟨1, _⟩ => rfl | ⟨2, _⟩ => rfl | ⟨3, _⟩ => rfl
  rw [e22, ex0]

/-- The softmax weights. -/
theorem wt0 (x0 x1 : (⟨S1x8x49152x64, .f32⟩ : BufTy).Contents (Elt Ideal)) (b : Fin 32) (h : Fin 8) (s j : Fin 512) :
    val_main_v25 (F := Ideal) x0 x1 (ix4 b h s j)
      = Ideal.div (Ideal.exp (score (fun e => x0 (ix4 (0 : Fin 1) h (tk0 b s) e)) (fun j e => x1 (ix4 (0 : Fin 1) h (tk0 b j) e)) j - rowMax (score (fun e => x0 (ix4 (0 : Fin 1) h (tk0 b s) e)) (fun j e => x1 (ix4 (0 : Fin 1) h (tk0 b j) e)))))
          (∑ j' : Fin 512, Ideal.exp (score (fun e => x0 (ix4 (0 : Fin 1) h (tk0 b s) e)) (fun j e => x1 (ix4 (0 : Fin 1) h (tk0 b j) e)) j' - rowMax (score (fun e => x0 (ix4 (0 : Fin 1) h (tk0 b s) e)) (fun j e => x1 (ix4 (0 : Fin 1) h (tk0 b j) e))))) := by
  have e24 : idx_main_v24 (ix4 b h s j) = ix4 b h s (0 : Fin 1) := funext fun a => by
    match a with | ⟨0, _⟩ => rfl | ⟨1, _⟩ => rfl | ⟨2, _⟩ => rfl | ⟨3, _⟩ => rfl
  have e23 : idx_main_v23 (ix4 b h s (0 : Fin 1)) = ix3 b h s := funext fun a => by
    match a with | ⟨0, _⟩ => rfl | ⟨1, _⟩ => rfl | ⟨2, _⟩ => rfl
  rw [val_main_v25_apply, ex0, val_main_v24_apply, e24, val_main_v23_apply, e23, dn0]
  rfl

/-- The weighted sum of the value rows: the reference's arrangement of one query row. -/
theorem at0 (x0 x1 x2 : (⟨S1x8x49152x64, .f32⟩ : BufTy).Contents (Elt Ideal)) (b : Fin 32) (h : Fin 8) (s : Fin 512) (d : Fin 64) :
    val_main_v26 (F := Ideal) x0 x1 x2 (ix4 b h s d) = refRow (fun e => x0 (ix4 (0 : Fin 1) h (tk0 b s) e)) (fun j e => x1 (ix4 (0 : Fin 1) h (tk0 b j) e)) (fun j e => x2 (ix4 (0 : Fin 1) h (tk0 b j) e)) d := by
  rw [val_main_v26_apply]
  unfold refRow
  refine Finset.sum_congr rfl fun j _ => ?_
  have el : lidx_main_v26 (ix4 b h s d) j = ix4 b h s j := funext fun a => by
    match a with | ⟨0, _⟩ => rfl | ⟨1, _⟩ => rfl | ⟨2, _⟩ => rfl | ⟨3, _⟩ => rfl
  have er : ridx_main_v26 (ix4 b h s d) j = ix4 b h j d := funext fun a => by
    match a with | ⟨0, _⟩ => rfl | ⟨1, _⟩ => rfl | ⟨2, _⟩ => rfl | ⟨3, _⟩ => rfl
  rw [el, er, wt0, v0]

/-- The chunk's result, entry by entry: the reference arrangement of the packed arguments at token 0 + n. -/
theorem chunk0 (x0 x1 x2 : (⟨S1x8x49152x64, .f32⟩ : BufTy).Contents (Elt Ideal)) (h : Fin 8) (n : Fin 16384) (d : Fin 64) :
    val_main_v28 (F := Ideal) x0 x1 x2 (ix4 (0 : Fin 1) h n d)
      = refOut (unpack x0) (unpack x1) (unpack x2) h (⟨0 + n.val, by have := n.isLt; omega⟩ : Fin 49152) d := by
  have hn := n.isLt; have hh := h.isLt; have hd := d.isLt
  have e28 : idx_main_v28 (ix4 (0 : Fin 1) h n d) = ix4 h (⟨n.val / 512, by omega⟩ : Fin 32) (⟨n.val % 512, by omega⟩ : Fin 512) d := funext fun a => Fin.ext (by
    match a with
    | ⟨0, _⟩ => show (((0 * 8 + h.val) * 16384 + n.val) * 64 + d.val) / 1048576 = h.val; omega
    | ⟨1, _⟩ => show (((0 * 8 + h.val) * 16384 + n.val) * 64 + d.val) / 32768 % 32 = n.val / 512; omega
    | ⟨2, _⟩ => show (((0 * 8 + h.val) * 16384 + n.val) * 64 + d.val) / 64 % 512 = n.val % 512; omega
    | ⟨3, _⟩ => show (((0 * 8 + h.val) * 16384 + n.val) * 64 + d.val) % 64 = d.val; omega)
  have e27 : idx_main_v27 (ix4 h (⟨n.val / 512, by omega⟩ : Fin 32) (⟨n.val % 512, by omega⟩ : Fin 512) d) = ix4 (⟨n.val / 512, by omega⟩ : Fin 32) h (⟨n.val % 512, by omega⟩ : Fin 512) d := funext fun a => by
    match a with | ⟨0, _⟩ => rfl | ⟨1, _⟩ => rfl | ⟨2, _⟩ => rfl | ⟨3, _⟩ => rfl
  rw [val_main_v28_apply, e28, val_main_v27_apply, e27, at0]
  have t1 : tk0 (⟨n.val / 512, by omega⟩ : Fin 32) (⟨n.val % 512, by omega⟩ : Fin 512) = (⟨0 + n.val, by have := n.isLt; omega⟩ : Fin 49152) := Fin.ext (by
    show 0 + n.val / 512 * 512 + n.val % 512 = 0 + n.val; omega)
  have t2 : ∀ j : Fin 512, tk0 (⟨n.val / 512, by omega⟩ : Fin 32) j = tok 512 (⟨0 + n.val, by have := n.isLt; omega⟩ : Fin 49152) j := fun j => Fin.ext (by
    have hj := j.isLt
    show 0 + n.val / 512 * 512 + j.val = ((0 + n.val) / 512 * 512 + j.val) % 49152; omega)
  unfold refOut attnOut
  rw [if_pos (show ((⟨0 + n.val, by have := n.isLt; omega⟩ : Fin 49152)).val < 16384 by show 0 + n.val < 16384; omega)]
  simp only [t1, t2]
  rfl

end Cert.RefSide

end
-- ==== Proof.RefC1.lean ====
/-
  The reference program's chunk 1: the tokens 16384 … 32767 of the packed token axis, cut into 16 rows of 1024.
  The slice, the two reshapes and the transpose only re-index: entry (b, h, s, e) of the chunk's query, key and value
  arrays is the packed array at head h, token 16384 + 1024 b + s, feature e. On those arrays the chunk computes, entry
  by entry, exactly the softmax-then-weighted-sum arrangement of `Cert.Attn.refRow`; the transpose and reshape back put
  row b's token s at token 1024 b + s of the chunk's result.
-/
import proofs.«143665_j77000173683359_2_alg».proof.Proof.RefReadP
import proofs.«143665_j77000173683359_2_alg».proof.Proof.RefCommon

noncomputable section

namespace Cert.RefSide

open Cert.ReferenceIdeal Cert.ReferenceIdeal.Gen Cert.ReferenceIdeal.ReadP Idealize.ShloMosaic Idealize.ShloMosaic.ValueIdx Cert.Attn

/-- Token `s` of row `b` of this chunk, on the packed token axis. -/
def tk1 (b : Fin 16) (s : Fin 1024) : Fin 49152 :=
  ⟨16384 + b.val * 1024 + s.val, by have := b.isLt; have := s.isLt; omega⟩

/-- The chunk's query array, entry by entry. -/
theorem q1 (x0 : (⟨S1x8x49152x64, .f32⟩ : BufTy).Contents (Elt Ideal)) (b : Fin 16) (h : Fin 8) (s : Fin 1024) (e : Fin 64) :
    val_main_v32 (F := Ideal) x0 (ix4 b h s e) = x0 (ix4 (0 : Fin 1) h (tk1 b s) e) := by
  have hb := b.isLt; have hh := h.isLt; have hs := s.isLt; have he := e.isLt
  have e3 : idx_main_v32 (ix4 b h s e) = ix4 h b s e := funext fun a => by
    match a with | ⟨0, _⟩ => rfl | ⟨1, _⟩ => rfl | ⟨2, _⟩ => rfl | ⟨3, _⟩ => rfl
  have e2 : idx_main_v31 (ix4 h b s e) = ix3 h (⟨b.val * 1024 + s.val, by omega⟩ : Fin 16384) e := funext fun a => Fin.ext (by
    match a with
    | ⟨0, _⟩ => show (((h.val * 16 + b.val) * 1024 + s.val) * 64 + e.val) / 1048576 = h.val; omega
    | ⟨1, _⟩ => show (((h.val * 16 + b.val) * 1024 + s.val) * 64 + e.val) / 64 % 16384 = b.val * 1024 + s.val; omega
    | ⟨2, _⟩ => show (((h.val * 16 + b.val) * 1024 + s.val) * 64 + e.val) % 64 = e.val; omega)
  have e1 : idx_main_v30 (ix3 h (⟨b.val * 1024 + s.val, by omega⟩ : Fin 16384) e) = ix4 (0 : Fin 1) h (⟨b.val * 1024 + s.val, by omega⟩ : Fin 16384) e := funext fun a => Fin.ext (by
    match a with
    | ⟨0, _⟩ => rfl
    | ⟨1, _⟩ => show ((h.val * 16384 + (b.val * 1024 + s.val)) * 64 + e.val) / 1048576 % 8 = h.val; omega
    | ⟨2, _⟩ => show ((h.val * 16384 + (b.val * 1024 + s.val)) * 64 + e.val) / 64 % 16384 = b.val * 1024 + s.val; omega
    | ⟨3, _⟩ => show ((h.val * 16384 + (b.val * 1024 + s.val)) * 64 + e.val) % 64 = e.val; omega)
  have e0 : idx_main_v29 (ix4 (0 : Fin 1) h (⟨b.val * 1024 + s.val, by omega⟩ : Fin 16384) e) = ix4 (0 : Fin 1) h (tk1 b s) e := funext fun a => Fin.ext (by
    match a with
    | ⟨0, _⟩ => rfl
    | ⟨1, _⟩ => rfl
    | ⟨2, _⟩ => show 16384 + (b.val * 1024 + s.val) = 16384 + b.val * 1024 + s.val; omega
    | ⟨3, _⟩ => rfl)
  rw [val_main_v32_apply, e3, val_main_v31_apply, e2, val_main_v30_apply, e1, val_main_v29_apply, e0]

/-- The chunk's key array, entry by entry. -/
theorem k1 (x1 : (⟨S1x8x49152x64, .f32⟩ : BufTy).Contents (Elt Ideal)) (b : Fin 16) (h : Fin 8) (s : Fin 1024) (e : Fin 64) :
    val_main_v36 (F := Ideal) x1 (ix4 b h s e) = x1 (ix4 (0 : Fin 1) h (tk1 b s) e) := by
  have hb := b.isLt; have hh := h.isLt; have hs := s.isLt; have he := e.isLt
  have e3 : idx_main_v36 (ix4 b h s e) = ix4 h b s e := funext fun a => by
    match a with | ⟨0, _⟩ => rfl | ⟨1, _⟩ => rfl | ⟨2, _⟩ => rfl | ⟨3, _⟩ => rfl
  have e2 : idx_main_v35 (ix4 h b s e) = ix3 h (⟨b.val * 1024 + s.val, by omega⟩ : Fin 16384) e := funext fun a => Fin.ext (by
    match a with
    | ⟨0, _⟩ => show (((h.val * 16 + b.val) * 1024 + s.val) * 64 + e.val) / 1048576 = h.val; omega
    | ⟨1, _⟩ => show (((h.val * 16 + b.val) * 1024 + s.val) * 64 + e.val) / 64 % 16384 = b.val * 1024 + s.val; omega
    | ⟨2, _⟩ => show (((h.val * 16 + b.val) * 1024 + s.val) * 64 + e.val) % 64 = e.val; omega)
  have e1 : idx_main_v34 (ix3 h (⟨b.val * 1024 + s.val, by omega⟩ : Fin 16384) e) = ix4 (0 : Fin 1) h (⟨b.val * 1024 + s.val, by omega⟩ : Fin 16384) e := funext fun a => Fin.ext (by
    match a with
    | ⟨0, _⟩ => rfl
    | ⟨1, _⟩ => show ((h.val * 16384 + (b.val * 1024 + s.val)) * 64 + e.val) / 1048576 % 8 = h.val; omega
    | ⟨2, _⟩ => show ((h.val * 16384 + (b.val * 1024 + s.val)) * 64 + e.val) / 64 % 16384 = b.val * 1024 + s.val; omega
    | ⟨3, _⟩ => show ((h.val * 16384 + (b.val * 1024 + s.val)) * 64 + e.val) % 64 = e.val; omega)
  have e0 : idx_main_v33 (ix4 (0 : Fin 1) h (⟨b.val * 1024 + s.val, by omega⟩ : Fin 16384) e) = ix4 (0 : Fin 1) h (tk1 b s) e := funext fun a => Fin.ext (by
    match a with
    | ⟨0, _⟩ => rfl
    | ⟨1, _⟩ => rfl
    | ⟨2, _⟩ => show 16384 + (b.val * 1024 + s.val) = 16384 + b.val * 1024 + s.val; omega
    | ⟨3, _⟩ => rfl)
  rw [val_main_v36_apply, e3, val_main_v35_apply, e2, val_main_v34_apply, e1, val_main_v33_apply, e0]

/-- The chunk's value array, entry by entry. -/
theorem v1 (x2 : (⟨S1x8x49152x64, .f32⟩ : BufTy).Contents (Elt Ideal)) (b : Fin 16) (h : Fin 8) (s : Fin 1024) (e : Fin 64) :
    val_main_v40 (F := Ideal) x2 (ix4 b h s e) = x2 (ix4 (0 : Fin 1) h (tk1 b s) e) := by
  have hb := b.isLt; have hh := h.isLt; have hs := s.isLt; have he := e.isLt
  have e3 : idx_main_v40 (ix4 b h s e) = ix4 h b s e := funext fun a => by
    match a with | ⟨0, _⟩ => rfl | ⟨1, _⟩ => rfl | ⟨2, _⟩ => rfl | ⟨3, _⟩ => rfl
  have e2 : idx_main_v39 (ix4 h b s e) = ix3 h (⟨b.val * 1024 + s.val, by omega⟩ : Fin 16384) e := funext fun a => Fin.ext (by
    match a with
    | ⟨0, _⟩ => show (((h.val * 16 + b.val) * 1024 + s.val) * 64 + e.val) / 1048576 = h.val; omega
    | ⟨1, _⟩ => show (((h.val * 16 + b.val) * 1024 + s.val) * 64 + e.val) / 64 % 16384 = b.val * 1024 + s.val; omega
    | ⟨2, _⟩ => show (((h.val * 16 + b.val) * 1024 + s.val) * 64 + e.val) % 64 = e.val; omega)
  have e1 : idx_main_v38 (ix3 h (⟨b.val * 1024 + s.val, by omega⟩ : Fin 16384) e) = ix4 (0 : Fin 1) h (⟨b.val * 1024 + s.val, by omega⟩ : Fin 16384) e := funext fun a => Fin.ext (by
    match a with
    | ⟨0, _⟩ => rfl
    | ⟨1, _⟩ => show ((h.val * 16384 + (b.val * 1024 + s.val)) * 64 + e.val) / 1048576 % 8 = h.val; omega
    | ⟨2, _⟩ => show ((h.val * 16384 + (b.val * 1024 + s.val)) * 64 + e.val) / 64 % 16384 = b.val * 1024 + s.val; omega
    | ⟨3, _⟩ => show ((h.val * 16384 + (b.val * 1024 + s.val)) * 64 + e.val) % 64 = e.val; omega)
  have e0 : idx_main_v37 (ix4 (0 : Fin 1) h (⟨b.val * 1024 + s.val, by omega⟩ : Fin 16384) e) = ix4 (0 : Fin 1) h (tk1 b s) e := funext fun a => Fin.ext (by
    match a with
    | ⟨0, _⟩ => rfl
    | ⟨1, _⟩ => rfl
    | ⟨2, _⟩ => show 16384 + (b.val * 1024 + s.val) = 16384 + b.val * 1024 + s.val; omega
    | ⟨3, _⟩ => rfl)
  rw [val_main_v40_apply, e3, val_main_v39_apply, e2, val_main_v38_apply, e1, val_main_v37_apply, e0]

/-- The scaled query: the host multiplies by the broadcast scale word. -/
theorem qs1 (x0 : (⟨S1x8x49152x64, .f32⟩ : BufTy).Contents (Elt Ideal)) (b : Fin 16) (h : Fin 8) (s : Fin 1024) (e : Fin 64) :
    val_main_v42 (F := Ideal) x0 (ix4 b h s e) = x0 (ix4 (0 : Fin 1) h (tk1 b s) e) * scaleW := by
  rw [val_main_v42_apply, q1, val_main_v41_apply, val_main_cst_3_apply]
  rfl

/-- The scores: the scaled query row against the key rows. -/
theorem sc1 (x0 x1 : (⟨S1x8x49152x64, .f32⟩ : BufTy).Contents (Elt Ideal)) (b : Fin 16) (h : Fin 8) (s j : Fin 1024) :
    val_main_v43 (F := Ideal) x0 x1 (ix4 b h s j) = score (fun e => x0 (ix4 (0 : Fin 1) h (tk1 b s) e)) (fun j e => x1 (ix4 (0 : Fin 1) h (tk1 b j) e)) j := by
  rw [val_main_v43_apply]
  unfold score
  refine Finset.sum_congr rfl fun k _ => ?_
  have el : lidx_main_v43 (ix4 b h s j) k = ix4 b h s k := funext fun a => by
    match a with | ⟨0, _⟩ => rfl | ⟨1, _⟩ => rfl | ⟨2, _⟩ => rfl | ⟨3, _⟩ => rfl
  have er : ridx_main_v43 (ix4 b h s j) k = ix4 b h j k := funext fun a => by
    match a with | ⟨0, _⟩ => rfl | ⟨1, _⟩ => rfl | ⟨2, _⟩ => rfl | ⟨3, _⟩ => rfl
  rw [el, er, qs1, k1]

/-- The reduced axis's coordinate put back into a rank-3 index. -/
theorem lift1 (hR : S16x8x1024x1024.Reduces [3] S16x8x1024) (b : Fin 16) (h : Fin 8) (s j : Fin 1024) :
    hR.lift (ix3 b h s) j = ix4 b h s j := funext fun a => Fin.ext (by
  match a with | ⟨0, _⟩ => rfl | ⟨1, _⟩ => rfl | ⟨2, _⟩ => rfl | ⟨3, _⟩ => rfl)

/-- The row maximum: the host's max-reduce from -∞, then the maximum with the -∞ broadcast. -/
theorem mx1 (x0 x1 : (⟨S1x8x49152x64, .f32⟩ : BufTy).Contents (Elt Ideal)) (b : Fin 16) (h : Fin 8) (s : Fin 1024) :
    val_main_v46 (F := Ideal) x0 x1 (ix3 b h s) = rowMax (score (fun e => x0 (ix4 (0 : Fin 1) h (tk1 b s) e)) (fun j e => x1 (ix4 (0 : Fin 1) h (tk1 b j) e))) := by
  have hR : S16x8x1024x1024.Reduces [3] S16x8x1024 := by decide
  have h15 : val_main_v44 (F := Ideal) x0 x1 (ix3 b h s) = rowMax (score (fun e => x0 (ix4 (0 : Fin 1) h (tk1 b s) e)) (fun j e => x1 (ix4 (0 : Fin 1) h (tk1 b j) e))) := by
    show Host.reduce FloatOps.maximumf (val_main_v43 (F := Ideal) x0 x1) (constant (F := Ideal) ⟨0, ![]⟩ .f32 0xFF800000#32)
      reducesTo_S16x8x1024x1024_S16x8x1024_d3 h_S_ (ix3 b h s) = _
    rw [reduce_max_negInf _ reducesTo_S16x8x1024x1024_S16x8x1024_d3 hR h_S_]
    unfold rowMax
    refine Finset.fold_congr (fun j _ => ?_)
    exact (congrArg (val_main_v43 (F := Ideal) x0 x1) (lift1 hR b h s j)).trans (sc1 x0 x1 b h s j)
  rw [val_main_v46_apply, h15, val_main_v45_apply, val_main_cst_5_apply]
  exact max_negInf _

/-- The exponentials of the scores less the row maximum. -/
theorem ex1 (x0 x1 : (⟨S1x8x49152x64, .f32⟩ : BufTy).Contents (Elt Ideal)) (b : Fin 16) (h : Fin 8) (s j : Fin 1024) :
    val_main_v50 (F := Ideal) x0 x1 (ix4 b h s j)
      = Ideal.exp (score (fun e => x0 (ix4 (0 : Fin 1) h (tk1 b s) e)) (fun j e => x1 (ix4 (0 : Fin 1) h (tk1 b j) e)) j - rowMax (score (fun e => x0 (ix4 (0 : Fin 1) h (tk1 b s) e)) (fun j e => x1 (ix4 (0 : Fin 1) h (tk1 b j) e)))) := by
  have e19 : idx_main_v48 (ix4 b h s j) = ix4 b h s (0 : Fin 1) := funext fun a => by
    match a with | ⟨0, _⟩ => rfl | ⟨1, _⟩ => rfl | ⟨2, _⟩ => rfl | ⟨3, _⟩ => rfl
  have e18 : idx_main_v47 (ix4 b h s (0 : Fin 1)) = ix3 b h s := funext fun a => by
    match a with | ⟨0, _⟩ => rfl | ⟨1, _⟩ => rfl | ⟨2, _⟩ => rfl
  rw [val_main_v50_apply, val_main_v49_apply, sc1, val_main_v48_apply, e19, val_main_v47_apply, e18, mx1]
  rfl

/-- The denominator: the host's add-reduce from the zero word. -/
theorem dn1 (x0 x1 : (⟨S1x8x49152x64, .f32⟩ : BufTy).Contents (Elt Ideal)) (b : Fin 16) (h : Fin 8) (s : Fin 1024) :
    val_main_v51 (F := Ideal) x0 x1 (ix3 b h s)
      = ∑ j : Fin 1024, Ideal.exp (score (fun e => x0 (ix4 (0 : Fin 1) h (tk1 b s) e)) (fun j e => x1 (ix4 (0 : Fin 1) h (tk1 b j) e)) j - rowMax (score (fun e => x0 (ix4 (0 : Fin 1) h (tk1 b s) e)) (fun j e => x1 (ix4 (0 : Fin 1) h (tk1 b j) e)))) := by
  rw [val_main_v51_apply, val_main_cst_6_apply]
  show Ideal.ofBits .f32 0x00000000#32 + _ = _
  rw [Ideal.ofBits_zero_f32, zero_add]
  refine Finset.sum_congr rfl fun j _ => ?_
  have e22 : idx_main_v51 (ix3 b h s) j = ix4 b h s j := funext fun a => by
    match a with | ⟨0, _⟩ => rfl | ⟨1, _⟩ => rfl | ⟨2, _⟩ => rfl | ⟨3, _⟩ => rfl
  rw [e22, ex1]

/-- The softmax weights. -/
theorem wt1 (x0 x1 : (⟨S1x8x49152x64, .f32⟩ : BufTy).Contents (Elt Ideal)) (b : Fin 16) (h : Fin 8) (s j : Fin 1024) :
    val_main_v54 (F := Ideal) x0 x1 (ix4 b h s j)
      = Ideal.div (Ideal.exp (score (fun e => x0 (ix4 (0 : Fin 1) h (tk1 b s) e)) (fun j e => x1 (ix4 (0 : Fin 1) h (tk1 b j) e)) j - rowMax (score (fun e => x0 (ix4 (0 : Fin 1) h (tk1 b s) e)) (fun j e => x1 (ix4 (0 : Fin 1) h (tk1 b j) e)))))
          (∑ j' : Fin 1024, Ideal.exp (score (fun e => x0 (ix4 (0 : Fin 1) h (tk1 b s) e)) (fun j e => x1 (ix4 (0 : Fin 1) h (tk1 b j) e)) j' - rowMax (score (fun e => x0 (ix4 (0 : Fin 1) h (tk1 b s) e)) (fun j e => x1 (ix4 (0 : Fin 1) h (tk1 b j) e))))) := by
  have e24 : idx_main_v53 (ix4 b h s j) = ix4 b h s (0 : Fin 1) := funext fun a => by
    match a with | ⟨0, _⟩ => rfl | ⟨1, _⟩ => rfl | ⟨2, _⟩ => rfl | ⟨3, _⟩ => rfl
  have e23 : idx_main_v52 (ix4 b h s (0 : Fin 1)) = ix3 b h s := funext fun a => by
    match a with | ⟨0, _⟩ => rfl | ⟨1, _⟩ => rfl | ⟨2, _⟩ => rfl
  rw [val_main_v54_apply, ex1, val_main_v53_apply, e24, val_main_v52_apply, e23, dn1]
  rfl

/-- The weighted sum of the value rows: the reference's arrangement of one query row. -/
theorem at1 (x0 x1 x2 : (⟨S1x8x49152x64, .f32⟩ : BufTy).Contents (Elt Ideal)) (b : Fin 16) (h : Fin 8) (s : Fin 1024) (d : Fin 64) :
    val_main_v55 (F := Ideal) x0 x1 x2 (ix4 b h s d) = refRow (fun e => x0 (ix4 (0 : Fin 1) h (tk1 b s) e)) (fun j e => x1 (ix4 (0 : Fin 1) h (tk1 b j) e)) (fun j e => x2 (ix4 (0 : Fin 1) h (tk1 b j) e)) d := by
  rw [val_main_v55_apply]
  unfold refRow
  refine Finset.sum_congr rfl fun j _ => ?_
  have el : lidx_main_v55 (ix4 b h s d) j = ix4 b h s j := funext fun a => by
    match a with | ⟨0, _⟩ => rfl | ⟨1, _⟩ => rfl | ⟨2, _⟩ => rfl | ⟨3, _⟩ => rfl
  have er : ridx_main_v55 (ix4 b h s d) j = ix4 b h j d := funext fun a => by
    match a with | ⟨0, _⟩ => rfl | ⟨1, _⟩ => rfl | ⟨2, _⟩ => rfl | ⟨3, _⟩ => rfl
  rw [el, er, wt1, v1]

/-- The chunk's result, entry by entry: the reference arrangement of the packed arguments at token 16384 + n. -/
theorem chunk1 (x0 x1 x2 : (⟨S1x8x49152x64, .f32⟩ : BufTy).Contents (Elt Ideal)) (h : Fin 8) (n : Fin 16384) (d : Fin 64) :
    val_main_v57 (F := Ideal) x0 x1 x2 (ix4 (0 : Fin 1) h n d)
      = refOut (unpack x0) (unpack x1) (unpack x2) h (⟨16384 + n.val, by have := n.isLt; omega⟩ : Fin 49152) d := by
  have hn := n.isLt; have hh := h.isLt; have hd := d.isLt
  have e28 : idx_main_v57 (ix4 (0 : Fin 1) h n d) = ix4 h (⟨n.val / 1024, by omega⟩ : Fin 16) (⟨n.val % 1024, by omega⟩ : Fin 1024) d := funext fun a => Fin.ext (by
    match a with
    | ⟨0, _⟩ => show (((0 * 8 + h.val) * 16384 + n.val) * 64 + d.val) / 1048576 = h.val; omega
    | ⟨1, _⟩ => show (((0 * 8 + h.val) * 16384 + n.val) * 64 + d.val) / 65536 % 16 = n.val / 1024; omega
    | ⟨2, _⟩ => show (((0 * 8 + h.val) * 16384 + n.val) * 64 + d.val) / 64 % 1024 = n.val % 1024; omega
    | ⟨3, _⟩ => show (((0 * 8 + h.val) * 16384 + n.val) * 64 + d.val) % 64 = d.val; omega)
  have e27 : idx_main_v56 (ix4 h (⟨n.val / 1024, by omega⟩ : Fin 16) (⟨n.val % 1024, by omega⟩ : Fin 1024) d) = ix4 (⟨n.val / 1024, by omega⟩ : Fin 16) h (⟨n.val % 1024, by omega⟩ : Fin 1024) d := funext fun a => by
    match a with | ⟨0, _⟩ => rfl | ⟨1, _⟩ => rfl | ⟨2, _⟩ => rfl | ⟨3, _⟩ => rfl
  rw [val_main_v57_apply, e28, val_main_v56_apply, e27, at1]
  have t1 : tk1 (⟨n.val / 1024, by omega⟩ : Fin 16) (⟨n.val % 1024, by omega⟩ : Fin 1024) = (⟨16384 + n.val, by have := n.isLt; omega⟩ : Fin 49152) := Fin.ext (by
    show 16384 + n.val / 1024 * 1024 + n.val % 1024 = 16384 + n.val; omega)
  have t2 : ∀ j : Fin 1024, tk1 (⟨n.val / 1024, by omega⟩ : Fin 16) j = tok 1024 (⟨16384 + n.val, by have := n.isLt; omega⟩ : Fin 49152) j := fun j => Fin.ext (by
    have hj := j.isLt
    show 16384 + n.val / 1024 * 1024 + j.val = ((16384 + n.val) / 1024 * 1024 + j.val) % 49152; omega)
  unfold refOut attnOut
  rw [if_neg (show ¬ ((⟨16384 + n.val, by have := n.isLt; omega⟩ : Fin 49152)).val < 16384 by show ¬ 16384 + n.val < 16384; omega), if_pos (show ((⟨16384 + n.val, by have := n.isLt; omega⟩ : Fin 49152)).val < 32768 by show 16384 + n.val < 32768; omega)]
  simp only [t1, t2]
  rfl

end Cert.RefSide

end
-- ==== Proof.RefC2.lean ====
/-
  The reference program's chunk 2: the tokens 32768 … 49151 of the packed token axis, cut into 8 rows of 2048.
  The slice, the two reshapes and the transpose only re-index: entry (b, h, s, e) of the chunk's query, key and value
  arrays is the packed array at head h, token 32768 + 2048 b + s, feature e. On those arrays the chunk computes, entry
  by entry, exactly the softmax-then-weighted-sum arrangement of `Cert.Attn.refRow`; the transpose and reshape back put
  row b's token s at token 2048 b + s of the chunk's result.
-/
import proofs.«143665_j77000173683359_2_alg».proof.Proof.RefReadP
import proofs.«143665_j77000173683359_2_alg».proof.Proof.RefCommon

noncomputable section

namespace Cert.RefSide

open Cert.ReferenceIdeal Cert.ReferenceIdeal.Gen Cert.ReferenceIdeal.ReadP Idealize.ShloMosaic Idealize.ShloMosaic.ValueIdx Cert.Attn

/-- Token `s` of row `b` of this chunk, on the packed token axis. -/
def tk2 (b : Fin 8) (s : Fin 2048) : Fin 49152 :=
  ⟨32768 + b.val * 2048 + s.val, by have := b.isLt; have := s.isLt; omega⟩

/-- The chunk's query array, entry by entry. -/
theorem q2 (x0 : (⟨S1x8x49152x64, .f32⟩ : BufTy).Contents (Elt Ideal)) (b : Fin 8) (h : Fin 8) (s : Fin 2048) (e : Fin 64) :
    val_main_v61 (F := Ideal) x0 (ix4 b h s e) = x0 (ix4 (0 : Fin 1) h (tk2 b s) e) := by
  have hb := b.isLt; have hh := h.isLt; have hs := s.isLt; have he := e.isLt
  have e3 : idx_main_v61 (ix4 b h s e) = ix4 h b s e := funext fun a => by
    match a with | ⟨0, _⟩ => rfl | ⟨1, _⟩ => rfl | ⟨2, _⟩ => rfl | ⟨3, _⟩ => rfl
  have e2 : idx_main_v60 (ix4 h b s e) = ix3 h (⟨b.val * 2048 + s.val, by omega⟩ : Fin 16384) e := funext fun a => Fin.ext (by
    match a with
    | ⟨0, _⟩ => show (((h.val * 8 + b.val) * 2048 + s.val) * 64 + e.val) / 1048576 = h.val; omega
    | ⟨1, _⟩ => show (((h.val * 8 + b.val) * 2048 + s.val) * 64 + e.val) / 64 % 16384 = b.val * 2048 + s.val; omega
    | ⟨2, _⟩ => show (((h.val * 8 + b.val) * 2048 + s.val) * 64 + e.val) % 64 = e.val; omega)
  have e1 : idx_main_v59 (ix3 h (⟨b.val * 2048 + s.val, by omega⟩ : Fin 16384) e) = ix4 (0 : Fin 1) h (⟨b.val * 2048 + s.val, by omega⟩ : Fin 16384) e := funext fun a => Fin.ext (by
    match a with
    | ⟨0, _⟩ => rfl
    | ⟨1, _⟩ => show ((h.val * 16384 + (b.val * 2048 + s.val)) * 64 + e.val) / 1048576 % 8 = h.val; omega
    | ⟨2, _⟩ => show ((h.val * 16384 + (b.val * 2048 + s.val)) * 64 + e.val) / 64 % 16384 = b.val * 2048 + s.val; omega
    | ⟨3, _⟩ => show ((h.val * 16384 + (b.val * 2048 + s.val)) * 64 + e.val) % 64 = e.val; omega)
  have e0 : idx_main_v58 (ix4 (0 : Fin 1) h (⟨b.val * 2048 + s.val, by omega⟩ : Fin 16384) e) = ix4 (0 : Fin 1) h (tk2 b s) e := funext fun a => Fin.ext (by
    match a with
    | ⟨0, _⟩ => rfl
    | ⟨1, _⟩ => rfl
    | ⟨2, _⟩ => show 32768 + (b.val * 2048 + s.val) = 32768 + b.val * 2048 + s.val; omega
    | ⟨3, _⟩ => rfl)
  rw [val_main_v61_apply, e3, val_main_v60_apply, e2, val_main_v59_apply, e1, val_main_v58_apply, e0]

/-- The chunk's key array, entry by entry. -/
theorem k2 (x1 : (⟨S1x8x49152x64, .f32⟩ : BufTy).Contents (Elt Ideal)) (b : Fin 8) (h : Fin 8) (s : Fin 2048) (e : Fin 64) :
    val_main_v65 (F := Ideal) x1 (ix4 b h s e) = x1 (ix4 (0 : Fin 1) h (tk2 b s) e) := by
  have hb := b.isLt; have hh := h.isLt; have hs := s.isLt; have he := e.isLt
  have e3 : idx_main_v65 (ix4 b h s e) = ix4 h b s e := funext fun a => by
    match a with | ⟨0, _⟩ => rfl | ⟨1, _⟩ => rfl | ⟨2, _⟩ => rfl | ⟨3, _⟩ => rfl
  have e2 : idx_main_v64 (ix4 h b s e) = ix3 h (⟨b.val * 2048 + s.val, by omega⟩ : Fin 16384) e := funext fun a => Fin.ext (by
    match a with
    | ⟨0, _⟩ => show (((h.val * 8 + b.val) * 2048 + s.val) * 64 + e.val) / 1048576 = h.val; omega
    | ⟨1, _⟩ => show (((h.val * 8 + b.val) * 2048 + s.val) * 64 + e.val) / 64 % 16384 = b.val * 2048 + s.val; omega
    | ⟨2, _⟩ => show (((h.val * 8 + b.val) * 2048 + s.val) * 64 + e.val) % 64 = e.val; omega)
  have e1 : idx_main_v63 (ix3 h (⟨b.val * 2048 + s.val, by omega⟩ : Fin 16384) e) = ix4 (0 : Fin 1) h (⟨b.val * 2048 + s.val, by omega⟩ : Fin 16384) e := funext fun a => Fin.ext (by
    match a with
    | ⟨0, _⟩ => rfl
    | ⟨1, _⟩ => show ((h.val * 16384 + (b.val * 2048 + s.val)) * 64 + e.val) / 1048576 % 8 = h.val; omega
    | ⟨2, _⟩ => show ((h.val * 16384 + (b.val * 2048 + s.val)) * 64 + e.val) / 64 % 16384 = b.val * 2048 + s.val; omega
    | ⟨3, _⟩ => show ((h.val * 16384 + (b.val * 2048 + s.val)) * 64 + e.val) % 64 = e.val; omega)
  have e0 : idx_main_v62 (ix4 (0 : Fin 1) h (⟨b.val * 2048 + s.val, by omega⟩ : Fin 16384) e) = ix4 (0 : Fin 1) h (tk2 b s) e := funext fun a => Fin.ext (by
    match a with
    | ⟨0, _⟩ => rfl
    | ⟨1, _⟩ => rfl
    | ⟨2, _⟩ => show 32768 + (b.val * 2048 + s.val) = 32768 + b.val * 2048 + s.val; omega
    | ⟨3, _⟩ => rfl)
  rw [val_main_v65_apply, e3, val_main_v64_apply, e2, val_main_v63_apply, e1, val_main_v62_apply, e0]

/-- The chunk's value array, entry by entry. -/
theorem v2 (x2 : (⟨S1x8x49152x64, .f32⟩ : BufTy).Contents (Elt Ideal)) (b : Fin 8) (h : Fin 8) (s : Fin 2048) (e : Fin 64) :
    val_main_v69 (F := Ideal) x2 (ix4 b h s e) = x2 (ix4 (0 : Fin 1) h (tk2 b s) e) := by
  have hb := b.isLt; have hh := h.isLt; have hs := s.isLt; have he := e.isLt
  have e3 : idx_main_v69 (ix4 b h s e) = ix4 h b s e := funext fun a => by
    match a with | ⟨0, _⟩ => rfl | ⟨1, _⟩ => rfl | ⟨2, _⟩ => rfl | ⟨3, _⟩ => rfl
  have e2 : idx_main_v68 (ix4 h b s e) = ix3 h (⟨b.val * 2048 + s.val, by omega⟩ : Fin 16384) e := funext fun a => Fin.ext (by
    match a with
    | ⟨0, _⟩ => show (((h.val * 8 + b.val) * 2048 + s.val) * 64 + e.val) / 1048576 = h.val; omega
    | ⟨1, _⟩ => show (((h.val * 8 + b.val) * 2048 + s.val) * 64 + e.val) / 64 % 16384 = b.val * 2048 + s.val; omega
    | ⟨2, _⟩ => show (((h.val * 8 + b.val) * 2048 + s.val) * 64 + e.val) % 64 = e.val; omega)
  have e1 : idx_main_v67 (ix3 h (⟨b.val * 2048 + s.val, by omega⟩ : Fin 16384) e) = ix4 (0 : Fin 1) h (⟨b.val * 2048 + s.val, by omega⟩ : Fin 16384) e := funext fun a => Fin.ext (by
    match a with
    | ⟨0, _⟩ => rfl
    | ⟨1, _⟩ => show ((h.val * 16384 + (b.val * 2048 + s.val)) * 64 + e.val) / 1048576 % 8 = h.val; omega
    | ⟨2, _⟩ => show ((h.val * 16384 + (b.val * 2048 + s.val)) * 64 + e.val) / 64 % 16384 = b.val * 2048 + s.val; omega
    | ⟨3, _⟩ => show ((h.val * 16384 + (b.val * 2048 + s.val)) * 64 + e.val) % 64 = e.val; omega)
  have e0 : idx_main_v66 (ix4 (0 : Fin 1) h (⟨b.val * 2048 + s.val, by omega⟩ : Fin 16384) e) = ix4 (0 : Fin 1) h (tk2 b s) e := funext fun a => Fin.ext (by
    match a with
    | ⟨0, _⟩ => rfl
    | ⟨1, _⟩ => rfl
    | ⟨2, _⟩ => show 32768 + (b.val * 2048 + s.val) = 32768 + b.val * 2048 + s.val; omega
    | ⟨3, _⟩ => rfl)
  rw [val_main_v69_apply, e3, val_main_v68_apply, e2, val_main_v67_apply, e1, val_main_v66_apply, e0]

/-- The scaled query: the host multiplies by the broadcast scale word. -/
theorem qs2 (x0 : (⟨S1x8x49152x64, .f32⟩ : BufTy).Contents (Elt Ideal)) (b : Fin 8) (h : Fin 8) (s : Fin 2048) (e : Fin 64) :
    val_main_v71 (F := Ideal) x0 (ix4 b h s e) = x0 (ix4 (0 : Fin 1) h (tk2 b s) e) * scaleW := by
  rw [val_main_v71_apply, q2, val_main_v70_apply, val_main_cst_7_apply]
  rfl

/-- The scores: the scaled query row against the key rows. -/
theorem sc2 (x0 x1 : (⟨S1x8x49152x64, .f32⟩ : BufTy).Contents (Elt Ideal)) (b : Fin 8) (h : Fin 8) (s j : Fin 2048) :
    val_main_v72 (F := Ideal) x0 x1 (ix4 b h s j) = score (fun e => x0 (ix4 (0 : Fin 1) h (tk2 b s) e)) (fun j e => x1 (ix4 (0 : Fin 1) h (tk2 b j) e)) j := by
  rw [val_main_v72_apply]
  unfold score
  refine Finset.sum_congr rfl fun k _ => ?_
  have el : lidx_main_v72 (ix4 b h s j) k = ix4 b h s k := funext fun a => by
    match a with | ⟨0, _⟩ => rfl | ⟨1, _⟩ => rfl | ⟨2, _⟩ => rfl | ⟨3, _⟩ => rfl
  have er : ridx_main_v72 (ix4 b h s j) k = ix4 b h j k := funext fun a => by
    match a with | ⟨0, _⟩ => rfl | ⟨1, _⟩ => rfl | ⟨2, _⟩ => rfl | ⟨3, _⟩ => rfl
  rw [el, er, qs2, k2]

/-- The reduced axis's coordinate put back into a rank-3 index. -/
theorem lift2 (hR : S8x8x2048x2048.Reduces [3] S8x8x2048) (b : Fin 8) (h : Fin 8) (s j : Fin 2048) :
    hR.lift (ix3 b h s) j = ix4 b h s j := funext fun a => Fin.ext (by
  match a with | ⟨0, _⟩ => rfl | ⟨1, _⟩ => rfl | ⟨2, _⟩ => rfl | ⟨3, _⟩ => rfl)

/-- The row maximum: the host's max-reduce from -∞, then the maximum with the -∞ broadcast. -/
theorem mx2 (x0 x1 : (⟨S1x8x49152x64, .f32⟩ : BufTy).Contents (Elt Ideal)) (b : Fin 8) (h : Fin 8) (s : Fin 2048) :
    val_main_v75 (F := Ideal) x0 x1 (ix3 b h s) = rowMax (score (fun e => x0 (ix4 (0 : Fin 1) h (tk2 b s) e)) (fun j e => x1 (ix4 (0 : Fin 1) h (tk2 b j) e))) := by
  have hR : S8x8x2048x2048.Reduces [3] S8x8x2048 := by decide
  have h15 : val_main_v73 (F := Ideal) x0 x1 (ix3 b h s) = rowMax (score (fun e => x0 (ix4 (0 : Fin 1) h (tk2 b s) e)) (fun j e => x1 (ix4 (0 : Fin 1) h (tk2 b j) e))) := by
    show Host.reduce FloatOps.maximumf (val_main_v72 (F := Ideal) x0 x1) (constant (F := Ideal) ⟨0, ![]⟩ .f32 0xFF800000#32)
      reducesTo_S8x8x2048x2048_S8x8x2048_d3 h_S_ (ix3 b h s) = _
    rw [reduce_max_negInf _ reducesTo_S8x8x2048x2048_S8x8x2048_d3 hR h_S_]
    unfold rowMax
    refine Finset.fold_congr (fun j _ => ?_)
    exact (congrArg (val_main_v72 (F := Ideal) x0 x1) (lift2 hR b h s j)).trans (sc2 x0 x1 b h s j)
  rw [val_main_v75_apply, h15, val_main_v74_apply, val_main_cst_9_apply]
  exact max_negInf _

/-- The exponentials of the scores less the row maximum. -/
theorem ex2 (x0 x1 : (⟨S1x8x49152x64, .f32⟩ : BufTy).Contents (Elt Ideal)) (b : Fin 8) (h : Fin 8) (s j : Fin 2048) :
    val_main_v79 (F := Ideal) x0 x1 (ix4 b h s j)
      = Ideal.exp (score (fun e => x0 (ix4 (0 : Fin 1) h (tk2 b s) e)) (fun j e => x1 (ix4 (0 : Fin 1) h (tk2 b j) e)) j - rowMax (score (fun e => x0 (ix4 (0 : Fin 1) h (tk2 b s) e)) (fun j e => x1 (ix4 (0 : Fin 1) h (tk2 b j) e)))) := by
  have e19 : idx_main_v77 (ix4 b h s j) = ix4 b h s (0 : Fin 1) := funext fun a => by
    match a with | ⟨0, _⟩ => rfl | ⟨1, _⟩ => rfl | ⟨2, _⟩ => rfl | ⟨3, _⟩ => rfl
  have e18 : idx_main_v76 (ix4 b h s (0 : Fin 1)) = ix3 b h s := funext fun a => by
    match a with | ⟨0, _⟩ => rfl | ⟨1, _⟩ => rfl | ⟨2, _⟩ => rfl
  rw [val_main_v79_apply, val_main_v78_apply, sc2, val_main_v77_apply, e19, val_main_v76_apply, e18, mx2]
  rfl

/-- The denominator: the host's add-reduce from the zero word. -/
theorem dn2 (x0 x1 : (⟨S1x8x49152x64, .f32⟩ : BufTy).Contents (Elt Ideal)) (b : Fin 8) (h : Fin 8) (s : Fin 2048) :
    val_main_v80 (F := Ideal) x0 x1 (ix3 b h s)
      = ∑ j : Fin 2048, Ideal.exp (score (fun e => x0 (ix4 (0 : Fin 1) h (tk2 b s) e)) (fun j e => x1 (ix4 (0 : Fin 1) h (tk2 b j) e)) j - rowMax (score (fun e => x0 (ix4 (0 : Fin 1) h (tk2 b s) e)) (fun j e => x1 (ix4 (0 : Fin 1) h (tk2 b j) e)))) := by
  rw [val_main_v80_apply, val_main_cst_10_apply]
  show Ideal.ofBits .f32 0x00000000#32 + _ = _
  rw [Ideal.ofBits_zero_f32, zero_add]
  refine Finset.sum_congr rfl fun j _ => ?_
  have e22 : idx_main_v80 (ix3 b h s) j = ix4 b h s j := funext fun a => by
    match a with | ⟨0, _⟩ => rfl | ⟨1, _⟩ => rfl | ⟨2, _⟩ => rfl | ⟨3, _⟩ => rfl
  rw [e22, ex2]

/-- The softmax weights. -/
theorem wt2 (x0 x1 : (⟨S1x8x49152x64, .f32⟩ : BufTy).Contents (Elt Ideal)) (b : Fin 8) (h : Fin 8) (s j : Fin 2048) :
    val_main_v83 (F := Ideal) x0 x1 (ix4 b h s j)
      = Ideal.div (Ideal.exp (score (fun e => x0 (ix4 (0 : Fin 1) h (tk2 b s) e)) (fun j e => x1 (ix4 (0 : Fin 1) h (tk2 b j) e)) j - rowMax (score (fun e => x0 (ix4 (0 : Fin 1) h (tk2 b s) e)) (fun j e => x1 (ix4 (0 : Fin 1) h (tk2 b j) e)))))
          (∑ j' : Fin 2048, Ideal.exp (score (fun e => x0 (ix4 (0 : Fin 1) h (tk2 b s) e)) (fun j e => x1 (ix4 (0 : Fin 1) h (tk2 b j) e)) j' - rowMax (score (fun e => x0 (ix4 (0 : Fin 1) h (tk2 b s) e)) (fun j e => x1 (ix4 (0 : Fin 1) h (tk2 b j) e))))) := by
  have e24 : idx_main_v82 (ix4 b h s j) = ix4 b h s (0 : Fin 1) := funext fun a => by
    match a with | ⟨0, _⟩ => rfl | ⟨1, _⟩ => rfl | ⟨2, _⟩ => rfl | ⟨3, _⟩ => rfl
  have e23 : idx_main_v81 (ix4 b h s (0 : Fin 1)) = ix3 b h s := funext fun a => by
    match a with | ⟨0, _⟩ => rfl | ⟨1, _⟩ => rfl | ⟨2, _⟩ => rfl
  rw [val_main_v83_apply, ex2, val_main_v82_apply, e24, val_main_v81_apply, e23, dn2]
  rfl

/-- The weighted sum of the value rows: the reference's arrangement of one query row. -/
theorem at2 (x0 x1 x2 : (⟨S1x8x49152x64, .f32⟩ : BufTy).Contents (Elt Ideal)) (b : Fin 8) (h : Fin 8) (s : Fin 2048) (d : Fin 64) :
    val_main_v84 (F := Ideal) x0 x1 x2 (ix4 b h s d) = refRow (fun e => x0 (ix4 (0 : Fin 1) h (tk2 b s) e)) (fun j e => x1 (ix4 (0 : Fin 1) h (tk2 b j) e)) (fun j e => x2 (ix4 (0 : Fin 1) h (tk2 b j) e)) d := by
  rw [val_main_v84_apply]
  unfold refRow
  refine Finset.sum_congr rfl fun j _ => ?_
  have el : lidx_main_v84 (ix4 b h s d) j = ix4 b h s j := funext fun a => by
    match a with | ⟨0, _⟩ => rfl | ⟨1, _⟩ => rfl | ⟨2, _⟩ => rfl | ⟨3, _⟩ => rfl
  have er : ridx_main_v84 (ix4 b h s d) j = ix4 b h j d := funext fun a => by
    match a with | ⟨0, _⟩ => rfl | ⟨1, _⟩ => rfl | ⟨2, _⟩ => rfl | ⟨3, _⟩ => rfl
  rw [el, er, wt2, v2]

/-- The chunk's result, entry by entry: the reference arrangement of the packed arguments at token 32768 + n. -/
theorem chunk2 (x0 x1 x2 : (⟨S1x8x49152x64, .f32⟩ : BufTy).Contents (Elt Ideal)) (h : Fin 8) (n : Fin 16384) (d : Fin 64) :
    val_main_v86 (F := Ideal) x0 x1 x2 (ix4 (0 : Fin 1) h n d)
      = refOut (unpack x0) (unpack x1) (unpack x2) h (⟨32768 + n.val, by have := n.isLt; omega⟩ : Fin 49152) d := by
  have hn := n.isLt; have hh := h.isLt; have hd := d.isLt
  have e28 : idx_main_v86 (ix4 (0 : Fin 1) h n d) = ix4 h (⟨n.val / 2048, by omega⟩ : Fin 8) (⟨n.val % 2048, by omega⟩ : Fin 2048) d := funext fun a => Fin.ext (by
    match a with
    | ⟨0, _⟩ => show (((0 * 8 + h.val) * 16384 + n.val) * 64 + d.val) / 1048576 = h.val; omega
    | ⟨1, _⟩ => show (((0 * 8 + h.val) * 16384 + n.val) * 64 + d.val) / 131072 % 8 = n.val / 2048; omega
    | ⟨2, _⟩ => show (((0 * 8 + h.val) * 16384 + n.val) * 64 + d.val) / 64 % 2048 = n.val % 2048; omega
    | ⟨3, _⟩ => show (((0 * 8 + h.val) * 16384 + n.val) * 64 + d.val) % 64 = d.val; omega)
  have e27 : idx_main_v85 (ix4 h (⟨n.val / 2048, by omega⟩ : Fin 8) (⟨n.val % 2048, by omega⟩ : Fin 2048) d) = ix4 (⟨n.val / 2048, by omega⟩ : Fin 8) h (⟨n.val % 2048, by omega⟩ : Fin 2048) d := funext fun a => by
    match a with | ⟨0, _⟩ => rfl | ⟨1, _⟩ => rfl | ⟨2, _⟩ => rfl | ⟨3, _⟩ => rfl
  rw [val_main_v86_apply, e28, val_main_v85_apply, e27, at2]
  have t1 : tk2 (⟨n.val / 2048, by omega⟩ : Fin 8) (⟨n.val % 2048, by omega⟩ : Fin 2048) = (⟨32768 + n.val, by have := n.isLt; omega⟩ : Fin 49152) := Fin.ext (by
    show 32768 + n.val / 2048 * 2048 + n.val % 2048 = 32768 + n.val; omega)
  have t2 : ∀ j : Fin 2048, tk2 (⟨n.val / 2048, by omega⟩ : Fin 8) j = tok 2048 (⟨32768 + n.val, by have := n.isLt; omega⟩ : Fin 49152) j := fun j => Fin.ext (by
    have hj := j.isLt
    show 32768 + n.val / 2048 * 2048 + j.val = ((32768 + n.val) / 2048 * 2048 + j.val) % 49152; omega)
  unfold refOut attnOut
  rw [if_neg (show ¬ ((⟨32768 + n.val, by have := n.isLt; omega⟩ : Fin 49152)).val < 16384 by show ¬ 32768 + n.val < 16384; omega), if_neg (show ¬ ((⟨32768 + n.val, by have := n.isLt; omega⟩ : Fin 49152)).val < 32768 by show ¬ 32768 + n.val < 32768; omega)]
  simp only [t1, t2]
  rfl

end Cert.RefSide

end
-- ==== Proof.RefSide.lean ====
/-
  The reference side, assembled: on every device the reference program's run ends with its result array at the
  normalise-first attention of the three argument arrays, packed, and with the argument arrays unchanged.

  The program's last operation joins three pieces of 16384 tokens along the token axis; each piece, read entry by entry,
  is the normalise-first attention at the piece's span of tokens, so the joined array is that attention packed.
-/
import proofs.«143665_j77000173683359_2_alg».proof.Proof.RefConcat
import proofs.«143665_j77000173683359_2_alg».proof.Proof.RefC0
import proofs.«143665_j77000173683359_2_alg».proof.Proof.RefC1
import proofs.«143665_j77000173683359_2_alg».proof.Proof.RefC2

noncomputable section

namespace Cert.RefSide

open Cert.ReferenceIdeal Cert.ReferenceIdeal.Gen Cert.ReferenceIdeal.ReadP Idealize.ShloMosaic Idealize.ShloMosaic.ValueIdx
  Cert.Attn Idealize.SL.Sem

/-- The reference's result, as a function of its three argument arrays, is the normalise-first attention packed. -/
theorem out_eq (x0 x1 x2 : (⟨S1x8x49152x64, .f32⟩ : BufTy).Contents (Elt Ideal)) :
    ReadP.val_main_v87 (F := Ideal) x0 x1 x2 = pack (refOut (unpack x0) (unpack x1) (unpack x2)) := by
  unfold ReadP.val_main_v87
  exact concat3_eq_pack _ _ _ _
    (fun h n d n' hn' => (chunk0 x0 x1 x2 h n d).trans
      (congrArg (fun t => refOut (unpack x0) (unpack x1) (unpack x2) h t d) (Fin.ext (by dsimp only; omega))))
    (fun h n d n' hn' => (chunk1 x0 x1 x2 h n d).trans
      (congrArg (fun t => refOut (unpack x0) (unpack x1) (unpack x2) h t d) (Fin.ext (by dsimp only; omega))))
    (fun h n d n' hn' => (chunk2 x0 x1 x2 h n d).trans
      (congrArg (fun t => refOut (unpack x0) (unpack x1) (unpack x2) h t d) (Fin.ext (by dsimp only; omega))))

/-- Every weakly fair execution of the reference program terminates with the result array at the normalise-first
    attention of the argument arrays, packed, and the argument arrays unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v87)
          = Cert.Attn.pack (Cert.Attn.refOut (Cert.Attn.unpack (m ((c.tc : Thread _ _).loc Cert.ReferenceIdeal.main_arg0))) (Cert.Attn.unpack (m ((c.tc : Thread _ _).loc Cert.ReferenceIdeal.main_arg1))) (Cert.Attn.unpack (m ((c.tc : Thread _ _).loc Cert.ReferenceIdeal.main_arg2))))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run Cert.ReferenceIdeal.defs _ _).mono
    (fun _ hh c => ⟨(hh c).1.trans ((ReadP.val_main_v87_eq m c).trans (out_eq _ _ _)), (hh c).2⟩)
    (Cert.ReferenceIdeal.ValueP.run (F := Ideal) m ρ)

end Cert.RefSide

end
-- ==== Proof.LibReal.lean ====
/-
  Real numbers inside the extended reals, for programs read at the ideal instance whose every intermediate is finite:
  a finite sum of coerced reals is the coerced sum, a fold of `max` from `⊥` (of `min` from `⊤`) over a nonempty family
  of coerced reals is the coerced supremum (infimum), and the ideal quotient, logarithm, square root and absolute value
  of coerced reals are the coerced real ones where those are defined.
-/
import Idealize.ShloMosaic.PureOps.Ideal

noncomputable section

namespace Idealize.ShloMosaic.IdealReal

open Finset

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe_coe (a b : ℝ) (hb : b ≠ 0) : Ideal.div (a : EReal) (b : EReal) = ((a / b : ℝ) : EReal) := by
  rw [Ideal.div_coe hb, ← EReal.coe_mul, mul_one_div]

theorem log_coe_pos (a : ℝ) (ha : 0 < a) : Ideal.log (a : EReal) = ((Real.log a : ℝ) : EReal) := by
  rw [Ideal.log_coe, if_neg (not_le.mpr ha)]

theorem sqrt_coe_nonneg (a : ℝ) (ha : 0 ≤ a) : Ideal.sqrt (a : EReal) = ((Real.sqrt a : ℝ) : EReal) := by
  rw [Ideal.sqrt_coe, if_neg (not_lt.mpr ha)]

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem abs_coe (a : ℝ) : max (a : EReal) (-(a : EReal)) = ((|a| : ℝ) : EReal) := by
  rw [← EReal.coe_neg, ← coe_max, abs_eq_max_neg]

theorem fold_max_coe {ι : Type} (s : Finset ι) (hs : s.Nonempty) (f : ι → ℝ) :
    s.fold max (⊥ : EReal) (fun k => (f k : EReal)) = ((s.sup' hs f : ℝ) : EReal) := by
  induction hs using Finset.Nonempty.cons_induction with
  | singleton a => simp
  | cons a s ha hs ih => rw [Finset.fold_cons, ih, Finset.sup'_cons hs, coe_max]

theorem fold_min_coe {ι : Type} (s : Finset ι) (hs : s.Nonempty) (f : ι → ℝ) :
    s.fold min (⊤ : EReal) (fun k => (f k : EReal)) = ((s.inf' hs f : ℝ) : EReal) := by
  induction hs using Finset.Nonempty.cons_induction with
  | singleton a => simp
  | cons a s ha hs ih => rw [Finset.fold_cons, ih, Finset.inf'_cons hs, coe_min]

end Idealize.ShloMosaic.IdealReal

end
-- ==== Proof.Algebra.lean ====
/-
  On real inputs the streaming arrangement of attention equals the normalise-first arrangement.

  Every input entry is a real number, so every score is a real (a finite sum of products of reals, the scale word
  denoting the real 1/8), the largest score of a nonempty row is a real, every exponential is a positive real and the
  denominator, a nonempty sum of positive reals, is a positive real. Both arrangements are therefore coercions of real
  expressions, and in the reals

  * one tile:   (Σ_j e_j v_j) / L = Σ_j (e_j / L) v_j            with e_j = exp (s_j - M), L = Σ_j e_j;
  * two tiles:  exp (M₁ - M) · exp (s_j - M₁) = exp (s_j - M)     with M = max M₁ M₂, the rescaling of the first tile's
                numerator and denominator when the second tile raises the maximum, and a sum (a maximum) over 2048
                indices is the sum (the maximum) of those over its two halves.

  The first step starts from maximum -∞: its rescaling factor is exp (-∞ - M) = 0 and 0 · 0 + x = x.
-/
import proofs.«143665_j77000173683359_2_alg».proof.Proof.Spec
import proofs.«143665_j77000173683359_2_alg».proof.Proof.LibReal

noncomputable section

namespace Cert.Attn

open Idealize.ShloMosaic Idealize.ShloMosaic.IdealReal

/-! ### The scale and the scores -/

/-- The scale word denotes the real 1/8: sign 0, exponent 124 = 127 - 3, significand 0. -/
theorem scaleW_eq : scaleW = (((1 : ℝ) / 8 : ℝ) : EReal) := by
  unfold scaleW
  simp [Ideal.ofBits, Ideal.ieee, -EReal.coe_mul]; norm_num

/-- The score of key j over the reals. -/
def scoreR {s : ℕ} (q : Fin 64 → ℝ) (k : Fin s → Fin 64 → ℝ) (j : Fin s) : ℝ :=
  ∑ e : Fin 64, (q e * (1 / 8)) * k j e

/-- The scores of real rows are the coerced real scores. -/
theorem score_coe {s : ℕ} (q : Fin 64 → ℝ) (k : Fin s → Fin 64 → ℝ) :
    score (fun e => (q e : EReal)) (fun j e => (k j e : EReal)) = fun j => ((scoreR q k j : ℝ) : EReal) := by
  funext j
  simp only [score, scoreR, scaleW_eq, ← EReal.coe_mul, ← coe_sum]

/-- The largest of a nonempty family of reals is a real. -/
theorem rowMax_coe {s : ℕ} (hs : 0 < s) (f : Fin s → ℝ) : ∃ M : ℝ, rowMax (fun j => (f j : EReal)) = (M : EReal) :=
  ⟨_, fold_max_coe Finset.univ ⟨⟨0, hs⟩, Finset.mem_univ _⟩ f⟩

/-! ### The streaming steps on real data -/

/-- The first step, from the empty state: the rescaling factor is exp (-∞ - M) = 0, and 0 · 0 + x = x. -/
theorem step_init {s : ℕ} (q : Fin 64 → EReal) (k v : Fin s → Fin 64 → EReal) (M : ℝ)
    (hM : rowMax (score q k) = (M : EReal)) :
    step init q k v = ((M : EReal), ∑ j : Fin s, Ideal.exp (score q k j - (M : EReal)),
      fun d => ∑ j : Fin s, Ideal.exp (score q k j - (M : EReal)) * v j d) := by
  simp only [step, init, hM, max_bot_left, EReal.bot_sub, Ideal.exp_bot, zero_mul, zero_add]

/-- A later step, from a state of reals: the new maximum is the real maximum, the rescaling factor a real exponential. -/
theorem step_coe {s : ℕ} (q : Fin 64 → EReal) (k v : Fin s → Fin 64 → EReal) (m l M₂ : ℝ) (acc : Fin 64 → ℝ)
    (hM : rowMax (score q k) = (M₂ : EReal)) :
    step ((m : EReal), (l : EReal), fun d => (acc d : EReal)) q k v =
      (((max m M₂ : ℝ) : EReal),
        ((Real.exp (m - max m M₂) * l : ℝ) : EReal) + ∑ j : Fin s, Ideal.exp (score q k j - ((max m M₂ : ℝ) : EReal)),
        fun d => ((Real.exp (m - max m M₂) * acc d : ℝ) : EReal)
          + ∑ j : Fin s, Ideal.exp (score q k j - ((max m M₂ : ℝ) : EReal)) * v j d) := by
  simp only [step, hM, ← coe_max, ← EReal.coe_sub, Ideal.exp_coe, ← EReal.coe_mul]

/-! ### One tile -/

theorem oneTile_eq_refRow {s : ℕ} (hs : 0 < s) (q : Fin 64 → EReal) (k v : Fin s → Fin 64 → EReal)
    (hq : ∀ e, IsR (q e)) (hk : ∀ j e, IsR (k j e)) (hv : ∀ j d, IsR (v j d)) (d : Fin 64) :
    oneTile q k v d = refRow q k v d := by
  choose q' hq' using hq
  choose k' hk' using hk
  choose v' hv' using hv
  obtain rfl : q = fun e => (q' e : EReal) := funext hq'
  obtain rfl : k = fun j e => (k' j e : EReal) := funext fun j => funext (hk' j)
  obtain rfl : v = fun j e => (v' j e : EReal) := funext fun j => funext (hv' j)
  obtain ⟨M, hM⟩ := rowMax_coe hs (scoreR q' k')
  have hM' : rowMax (score (fun e => (q' e : EReal)) fun j e => (k' j e : EReal)) = (M : EReal) := by
    rw [score_coe]; exact hM
  have hL : (∑ j : Fin s, Real.exp (scoreR q' k' j - M)) ≠ 0 :=
    (Finset.sum_pos (fun j _ => Real.exp_pos _) ⟨⟨0, hs⟩, Finset.mem_univ _⟩).ne'
  unfold oneTile refRow
  rw [step_init _ _ _ M hM', hM']
  simp only [score_coe, ← EReal.coe_sub, Ideal.exp_coe, ← EReal.coe_mul, ← coe_sum, div_coe_coe _ _ hL]
  congr 1
  rw [Finset.sum_div]
  exact Finset.sum_congr rfl fun j _ => by ring

/-! ### Two tiles -/

/-- The position in a family over 2048 indices of entry j of its first / second half. -/
def loI (j : Fin 1024) : Fin 2048 := ⟨j.val, by omega⟩
def hiI (j : Fin 1024) : Fin 2048 := ⟨1024 + j.val, by omega⟩

/-- A sum over 2048 indices is the sum over the first half plus the sum over the second half. -/
theorem sum_halves (f : Fin 2048 → ℝ) : ∑ j, f j = ∑ j : Fin 1024, f (loI j) + ∑ j : Fin 1024, f (hiI j) :=
  Fin.sum_univ_add (a := 1024) (b := 1024) f

/-- The largest of a family over 2048 indices is the larger of the largest entries of its two halves. -/
theorem rowMax_halves (f : Fin 2048 → EReal) :
    rowMax f = max (rowMax fun j : Fin 1024 => f (loI j)) (rowMax fun j : Fin 1024 => f (hiI j)) := by
  show Finset.univ.sup f
    = max (Finset.univ.sup fun j : Fin 1024 => f (loI j)) (Finset.univ.sup fun j : Fin 1024 => f (hiI j))
  refine le_antisymm (Finset.sup_le fun j _ => ?_)
    (max_le (Finset.sup_le fun j _ => Finset.le_sup (Finset.mem_univ _))
      (Finset.sup_le fun j _ => Finset.le_sup (Finset.mem_univ _)))
  have hj := j.isLt
  by_cases h : j.val < 1024
  · exact le_max_of_le_left
      (Finset.le_sup (f := fun j : Fin 1024 => f (loI j)) (Finset.mem_univ (⟨j.val, h⟩ : Fin 1024)))
  · have h2 : j.val - 1024 < 1024 := by omega
    have hji : hiI ⟨j.val - 1024, h2⟩ = j := Fin.ext (by show 1024 + (j.val - 1024) = j.val; omega)
    have hle : f (hiI ⟨j.val - 1024, h2⟩) ≤ Finset.univ.sup fun j : Fin 1024 => f (hiI j) :=
      Finset.le_sup (f := fun j : Fin 1024 => f (hiI j)) (Finset.mem_univ (⟨j.val - 1024, h2⟩ : Fin 1024))
    rw [hji] at hle
    exact le_max_of_le_right hle

/-- Rescaling by exp (M₁ - M) moves an exponential from the old maximum to the new one. -/
theorem exp_rescale (M₁ M x : ℝ) : Real.exp (M₁ - M) * Real.exp (x - M₁) = Real.exp (x - M) := by
  rw [← Real.exp_add]; congr 1; ring

/-- The two-tile denominator is the whole row's denominator. -/
theorem two_den (sc : Fin 2048 → ℝ) (M₁ M : ℝ) :
    Real.exp (M₁ - M) * (∑ j : Fin 1024, Real.exp (sc (loI j) - M₁)) + ∑ j : Fin 1024, Real.exp (sc (hiI j) - M)
      = ∑ j : Fin 2048, Real.exp (sc j - M) := by
  rw [Finset.mul_sum, sum_halves fun j => Real.exp (sc j - M)]
  simp only [exp_rescale]

/-- The two-tile numerator is the whole row's numerator. -/
theorem two_num (sc w : Fin 2048 → ℝ) (M₁ M : ℝ) :
    Real.exp (M₁ - M) * (∑ j : Fin 1024, Real.exp (sc (loI j) - M₁) * w (loI j))
        + ∑ j : Fin 1024, Real.exp (sc (hiI j) - M) * w (hiI j)
      = ∑ j : Fin 2048, Real.exp (sc j - M) * w j := by
  rw [Finset.mul_sum, sum_halves fun j => Real.exp (sc j - M) * w j]
  simp only [← mul_assoc, exp_rescale]

theorem twoTiles_eq_refRow (q : Fin 64 → EReal) (k v : Fin 2048 → Fin 64 → EReal)
    (hq : ∀ e, IsR (q e)) (hk : ∀ j e, IsR (k j e)) (hv : ∀ j d, IsR (v j d)) (d : Fin 64) :
    twoTiles q (lo k) (lo v) (hi k) (hi v) d = refRow q k v d := by
  choose q' hq' using hq
  choose k' hk' using hk
  choose v' hv' using hv
  obtain rfl : q = fun e => (q' e : EReal) := funext hq'
  obtain rfl : k = fun j e => (k' j e : EReal) := funext fun j => funext (hk' j)
  obtain rfl : v = fun j e => (v' j e : EReal) := funext fun j => funext (hv' j)
  -- the scores of a half are the row's scores at the half's positions
  have hlo : score (fun e => (q' e : EReal)) (lo fun j e => (k' j e : EReal))
      = fun j => ((scoreR q' k' (loI j) : ℝ) : EReal) :=
    funext fun j => congrFun (score_coe q' k') (loI j)
  have hhi : score (fun e => (q' e : EReal)) (hi fun j e => (k' j e : EReal))
      = fun j => ((scoreR q' k' (hiI j) : ℝ) : EReal) :=
    funext fun j => congrFun (score_coe q' k') (hiI j)
  have hvlo : (lo fun j e => (v' j e : EReal)) = fun j e => ((v' (loI j) e : ℝ) : EReal) := rfl
  have hvhi : (hi fun j e => (v' j e : EReal)) = fun j e => ((v' (hiI j) e : ℝ) : EReal) := rfl
  obtain ⟨M₁, hM₁⟩ := rowMax_coe (s := 1024) (by norm_num) (fun j => scoreR q' k' (loI j))
  obtain ⟨M₂, hM₂⟩ := rowMax_coe (s := 1024) (by norm_num) (fun j => scoreR q' k' (hiI j))
  have hM : rowMax (score (fun e => (q' e : EReal)) fun j e => (k' j e : EReal)) = ((max M₁ M₂ : ℝ) : EReal) := by
    rw [score_coe, rowMax_halves, hM₁, hM₂, coe_max]
  have hM₁' : rowMax (score (fun e => (q' e : EReal)) (lo fun j e => (k' j e : EReal))) = (M₁ : EReal) := by
    rw [hlo]; exact hM₁
  have hM₂' : rowMax (score (fun e => (q' e : EReal)) (hi fun j e => (k' j e : EReal))) = (M₂ : EReal) := by
    rw [hhi]; exact hM₂
  have hL : (∑ j : Fin 2048, Real.exp (scoreR q' k' j - max M₁ M₂)) ≠ 0 :=
    (Finset.sum_pos (fun j _ => Real.exp_pos _) ⟨⟨0, by norm_num⟩, Finset.mem_univ _⟩).ne'
  have hL2 : Real.exp (M₁ - max M₁ M₂) * (∑ j : Fin 1024, Real.exp (scoreR q' k' (loI j) - M₁))
      + ∑ j : Fin 1024, Real.exp (scoreR q' k' (hiI j) - max M₁ M₂) ≠ 0 := by
    rw [two_den]; exact hL
  unfold twoTiles refRow
  rw [step_init _ _ _ M₁ hM₁']
  simp only [hlo, hvlo, ← EReal.coe_sub, Ideal.exp_coe, ← EReal.coe_mul, ← coe_sum]
  rw [step_coe _ _ _ M₁ _ M₂ _ hM₂', hM]
  simp only [hhi, hvhi, score_coe, ← EReal.coe_sub, Ideal.exp_coe, ← EReal.coe_mul, ← coe_sum, ← EReal.coe_add,
    div_coe_coe _ _ hL, div_coe_coe _ _ hL2]
  refine congrArg (fun x : ℝ => (x : EReal)) ?_
  rw [two_den (scoreR q' k') M₁ (max M₁ M₂), two_num (scoreR q' k') (fun j => v' j d) M₁ (max M₁ M₂), Finset.sum_div]
  exact Finset.sum_congr rfl fun j _ => by ring

/-! ### The packed arrays -/

theorem kerOut_eq_refOut (Q K V : Fin 8 → Fin 49152 → Fin 64 → EReal)
    (hQ : ∀ h n d, IsR (Q h n d)) (hK : ∀ h n d, IsR (K h n d)) (hV : ∀ h n d, IsR (V h n d)) :
    kerOut Q K V = refOut Q K V := by
  funext h n d
  unfold kerOut refOut attnOut
  split_ifs
  · exact oneTile_eq_refRow (by norm_num) _ _ _ (hQ h n) (fun j e => hK h _ e) (fun j e => hV h _ e) d
  · exact oneTile_eq_refRow (by norm_num) _ _ _ (hQ h n) (fun j e => hK h _ e) (fun j e => hV h _ e) d
  · exact twoTiles_eq_refRow _ _ _ (hQ h n) (fun j e => hK h _ e) (fun j e => hV h _ e) d

end Cert.Attn

end
-- ==== Proof.Finite.lean ====
/-
  From the precondition to "every argument entry is a real number".

  The precondition's printed predicate is, for each of the three argument arrays, the conjunction over all entries x of
  |x| < +∞, the three conjunctions and-ed. A conjunction that is 1 has every conjunct 1; the word 0x7F800000 denotes +∞;
  and an extended real x with max x (-x) < +∞ is neither -∞ (whose negation is +∞) nor +∞: it is a real.
-/
import proofs.«143665_j77000173683359_2_alg».proof.Defs
import proofs.«143665_j77000173683359_2_alg».proof.Proof.Gen.Pre_finite_inputs
import proofs.«143665_j77000173683359_2_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- The shape of a scalar has one index. -/
instance : Subsingleton Cert.Pre_finite_inputs.S_.Idx := ⟨fun a b => funext fun d => d.elim0⟩

/-- The word 0x7F800000 denotes +∞: sign 0, exponent all ones, significand 0. -/
theorem ofBits_inf : Ideal.ofBits .f32 0x7F800000#32 = ⊤ := by
  simp [Ideal.ofBits, Ideal.ieee]

/-- An extended real whose absolute value compares below +∞ is a real. -/
theorem isR_of_abs_lt (x : EReal)
    (h : Ideal.cmp .olt (max x (-x)) (Ideal.ofBits .f32 0x7F800000#32) = 1#1) : Cert.Attn.IsR x := by
  rw [ofBits_inf] at h
  induction x using EReal.rec with
  | bot => simp [Ideal.cmp] at h
  | coe r => exact ⟨r, rfl⟩
  | top => simp [Ideal.cmp] at h

/-- The printed predicate, all ones, makes every entry of its three arguments a real. -/
theorem real_of_fn [Cert.Pre_finite_inputs.Facts]
    (x0 x1 x2 : FVec Ideal Cert.Pre_finite_inputs.S1x8x49152x64 .f32)
    (h : Cert.Pre_finite_inputs.fn (F := Ideal) x0 x1 x2 = fun _ => 1#1) :
    (∀ i, Cert.Attn.IsR (x0 i)) ∧ (∀ i, Cert.Attn.IsR (x1 i)) ∧ (∀ i, Cert.Attn.IsR (x2 i)) := by
  have h0 := congrFun h ValueIdx.ix0
  dsimp only [Cert.Pre_finite_inputs.fn] at h0
  obtain ⟨h01, hc⟩ := IntOp.andi_eq_one.1 h0
  obtain ⟨ha, hb⟩ := IntOp.andi_eq_one.1 h01
  exact ⟨fun i => isR_of_abs_lt _ (Host.reduce_andi_all _ _ _ _ _ ha i),
    fun i => isR_of_abs_lt _ (Host.reduce_andi_all _ _ _ _ _ hb i),
    fun i => isR_of_abs_lt _ (Host.reduce_andi_all _ _ _ _ _ hc i)⟩

theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Attn.IsR (m ((c.tc : Thread Cert.KernelIdeal.nD Cert.KernelIdeal.τ).loc Cert.KernelIdeal.main_arg0) i))
      ∧ (∀ i, Cert.Attn.IsR (m ((c.tc : Thread _ _).loc Cert.KernelIdeal.main_arg1) i))
      ∧ (∀ i, Cert.Attn.IsR (m ((c.tc : Thread _ _).loc Cert.KernelIdeal.main_arg2) i)) :=
  real_of_fn _ _ _ (h c)

end Cert.Finite

end
-- ==== Proof.lean ====
/-
  Packed block-diagonal attention: the kernel against its jnp reference, on the extended reals.

  The packed token axis of 49152 tokens is three chunks of 16384; a chunk's tokens form rows of 512, 1024 or 2048,
  and a token attends only to the tokens of its own row, per head. The reference computes, per row, the scores
  `s j = ∑ e, (q e / 8) · k j e`, the weights `exp (s j − M) / ∑ j', exp (s j' − M)` with `M` the largest score, and
  the weighted sum of the value rows. The kernel streams over tiles of keys with a running maximum, a running
  denominator and a running unnormalised numerator, rescaling both by `exp (M_old − M_new)` when a tile raises the
  maximum, and divides once at the end; rows of 512 and 1024 are one tile, rows of 2048 two tiles of 1024.

  * Frames: the kernel program is three launches separated by host lines (a reshape and a leading unit axis after
    each launch, one concatenation at the end). Each launch's body is run symbolically on whole staging buffers; for
    the two-tile rows the invariant between a row's two grid points names the contents of the four scratch buffers.
    The same text proves the frame of the word-level program and of its idealization.
  * Values at the ideal instance: each launch's output array is the streaming arrangement on its chunk's rows (the
    body's arithmetic read at an index; the blocks written back cover the array), the host lines re-lay the three
    chunks along the token axis; the reference's operations are read one at a time at an index.
  * The law joining the two sides, where the inputs are finite: `(∑ e_j v_j) / L = ∑ (e_j / L) v_j`, and for two tiles
    `exp (M₁ − M) · exp (s − M₁) = exp (s − M)`. Finiteness is what the precondition gives.
-/
import proofs.«143665_j77000173683359_2_alg».proof.Defs
import proofs.«143665_j77000173683359_2_alg».proof.Proof.Gen.Kernel
import proofs.«143665_j77000173683359_2_alg».proof.Proof.Gen.KernelIdeal
import proofs.«143665_j77000173683359_2_alg».proof.Proof.Gen.ReferenceIdeal
import proofs.«143665_j77000173683359_2_alg».proof.Proof.Gen.Pre_finite_inputs
import proofs.«143665_j77000173683359_2_alg».proof.Proof.BArgs
import proofs.«143665_j77000173683359_2_alg».proof.Proof.KerFinal
import proofs.«143665_j77000173683359_2_alg».proof.Proof.RefSide
import proofs.«143665_j77000173683359_2_alg».proof.Proof.Algebra
import proofs.«143665_j77000173683359_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frm.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run m ρ)

/-- Both programs run; the kernel's result is the streaming arrangement of the packed arguments, the reference's the
    normalise-first arrangement of the same arguments, and on finite arguments the two arrangements agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Frm.kernel_run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2]
  obtain ⟨h0, h1, h2⟩ := Cert.Finite.real_of_pre (hPre_finite_inputs := Cert.Pre_finite_inputs.Gen.facts) m hpre c
  exact congrArg Cert.Attn.pack (Cert.Attn.kerOut_eq_refOut _ _ _ (fun _ _ _ => h0 _) (fun _ _ _ => h1 _) (fun _ _ _ => h2 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
